-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v639) = v0 c
          ∧ r.2.mem ((c.tc : Thread Cert.ReferenceIdeal.nD Cert.ReferenceIdeal.τ).loc Cert.ReferenceIdeal.main_v627) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S2048x64x1023 : Shape := ⟨3, ![2048, 64, 1023]⟩
abbrev S64x32 : Shape := ⟨2, ![64, 32]⟩
abbrev S64 : Shape := ⟨1, ![64]⟩
abbrev S10x64x64 : Shape := ⟨3, ![10, 64, 64]⟩
abbrev S10x64 : Shape := ⟨2, ![10, 64]⟩
abbrev S10x96x64 : Shape := ⟨3, ![10, 96, 64]⟩
abbrev S10x96 : Shape := ⟨2, ![10, 96]⟩
abbrev S96x96 : Shape := ⟨2, ![96, 96]⟩
abbrev S96 : Shape := ⟨1, ![96]⟩
abbrev S2x96 : Shape := ⟨2, ![2, 96]⟩
abbrev S2 : Shape := ⟨1, ![2]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S2048x64x1023 : S_.BroadcastsInDim S2048x64x1023 (![] : Fin 0 → Fin S2048x64x1023.rank)
  reducesTo_S2048x64x1023_S_d0_1_2 : S2048x64x1023.ReducesTo [0, 1, 2] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S10x64x64 : S_.BroadcastsInDim S10x64x64 (![] : Fin 0 → Fin S10x64x64.rank)
  reducesTo_S10x64x64_S_d0_1_2 : S10x64x64.ReducesTo [0, 1, 2] S_
  bcast_S_S10x64 : S_.BroadcastsInDim S10x64 (![] : Fin 0 → Fin S10x64.rank)
  reducesTo_S10x64_S_d0_1 : S10x64.ReducesTo [0, 1] S_
  bcast_S_S10x96x64 : S_.BroadcastsInDim S10x96x64 (![] : Fin 0 → Fin S10x96x64.rank)
  reducesTo_S10x96x64_S_d0_1_2 : S10x96x64.ReducesTo [0, 1, 2] S_
  bcast_S_S10x96 : S_.BroadcastsInDim S10x96 (![] : Fin 0 → Fin S10x96.rank)
  reducesTo_S10x96_S_d0_1 : S10x96.ReducesTo [0, 1] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S2x96 : S_.BroadcastsInDim S2x96 (![] : Fin 0 → Fin S2x96.rank)
  reducesTo_S2x96_S_d0_1 : S2x96.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S96x96 .f32) (main_arg15 : FVec F S96 .f32) (main_arg16 : FVec F S2x96 .f32) (main_arg17 : FVec F S2 .f32) (main_v63 : IVec S_ 1) (main_v67 : IVec S_ 1) : IVec S_ 1 :=
  let main_v68 : IVec S_ 1 := andi main_v63 main_v67
  let main_v69 : FVec F S96x96 .f32 := Host.absf main_arg14
  let main_cst_26 : FVec F S_ .f32 := constant S_ .f32 0x7F800000#32
  let main_v70 : FVec F S96x96 .f32 := broadcastInDim S96x96 ![] bcast_S_S96x96 main_cst_26
  let main_v71 : IVec S96x96 1 := cmpf .olt main_v69 main_v70
  let main_c_27 : IVec S_ 1 := constantI S_ 1 1#1
  let main_v72 : IVec S_ 1 := (fun x v => Host.reduce IntOp.andi x v reducesTo_S96x96_S_d0_1 h_S_) main_v71 main_c_27
  let main_v73 : IVec S_ 1 := andi main_v68 main_v72
  let main_v74 : FVec F S96 .f32 := Host.absf main_arg15
  let main_cst_28 : FVec F S_ .f32 := constant S_ .f32 0x7F800000#32
  let main_v75 : FVec F S96 .f32 := broadcastInDim S96 ![] bcast_S_S96 main_cst_28
  let main_v76 : IVec S96 1 := cmpf .olt main_v74 main_v75
  let main_c_29 : IVec S_ 1 := constantI S_ 1 1#1
  let main_v77 : IVec S_ 1 := (fun x v => Host.reduce IntOp.andi x v reducesTo_S96_S_d0 h_S_) main_v76 main_c_29
  let main_v78 : IVec S_ 1 := andi main_v73 main_v77
  let main_v79 : FVec F S2x96 .f32 := Host.absf main_arg16
  let main_cst_30 : FVec F S_ .f32 := constant S_ .f32 0x7F800000#32
  let main_v80 : FVec F S2x96 .f32 := broadcastInDim S2x96 ![] bcast_S_S2x96 main_cst_30
  let main_v81 : IVec S2x96 1 := cmpf .olt main_v79 main_v80
  let main_c_31 : IVec S_ 1 := constantI S_ 1 1#1
  let main_v82 : IVec S_ 1 := (fun x v => Host.reduce IntOp.andi x v reducesTo_S2x96_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S10x64 .f32) (main_arg12 : FVec F S10x96x64 .f32) (main_arg13 : FVec F S10x96 .f32) (main_arg14 : FVec F S96x96 .f32) (main_arg15 : FVec F S96 .f32) (main_arg16 : FVec F S2x96 .f32) (main_arg17 : FVec F S2 .f32) (main_v48 : IVec S_ 1) (main_v49 : FVec F S10x64x64 .f32) (main_v50 : FVec F S10x64x64 .f32) : IVec S_ 1 :=
  let main_v51 : IVec S10x64x64 1 := cmpf .olt main_v49 main_v50
  let main_c_19 : IVec S_ 1 := constantI S_ 1 1#1
  let main_v52 : IVec S_ 1 := (fun x v => Host.reduce IntOp.andi x v reducesTo_S10x64x64_S_d0_1_2 h_S_) main_v51 main_c_19
  let main_v53 : IVec S_ 1 := andi main_v48 main_v52
  let main_v54 : FVec F S10x64 .f32 := Host.absf main_arg11
  let main_cst_20 : FVec F S_ .f32 := constant S_ .f32 0x7F800000#32
  let main_v55 : FVec F S10x64 .f32 := broadcastInDim S10x64 ![] bcast_S_S10x64 main_cst_20
  let main_v56 : IVec S10x64 1 := cmpf .olt main_v54 main_v55
  let main_c_21 : IVec S_ 1 := constantI S_ 1 1#1
  let main_v57 : IVec S_ 1 := (fun x v => Host.reduce IntOp.andi x v reducesTo_S10x64_S_d0_1 h_S_) main_v56 main_c_21
  let main_v58 : IVec S_ 1 := andi main_v53 main_v57
  let main_v59 : FVec F S10x96x64 .f32 := Host.absf main_arg12
  let main_cst_22 : FVec F S_ .f32 := constant S_ .f32 0x7F800000#32
  let main_v60 : FVec F S10x96x64 .f32 := broadcastInDim S10x96x64 ![] bcast_S_S10x96x64 main_cst_22
  let main_v61 : IVec S10x96x64 1 := cmpf .olt main_v59 main_v60
  let main_c_23 : IVec S_ 1 := constantI S_ 1 1#1
  let main_v62 : IVec S_ 1 := (fun x v => Host.reduce IntOp.andi x v reducesTo_S10x96x64_S_d0_1_2 h_S_) main_v61 main_c_23
  let main_v63 : IVec S_ 1 := andi main_v58 main_v62
  let main_v64 : FVec F S10x96 .f32 := Host.absf main_arg13
  let main_cst_24 : FVec F S_ .f32 := constant S_ .f32 0x7F800000#32
  let main_v65 : FVec F S10x96 .f32 := broadcastInDim S10x96 ![] bcast_S_S10x96 main_cst_24
  let main_v66 : IVec S10x96 1 := cmpf .olt main_v64 main_v65
  let main_c_25 : IVec S_ 1 := constantI S_ 1 1#1
  let main_v67 : IVec S_ 1 := (fun x v => Host.reduce IntOp.andi x v reducesTo_S10x96_S_d0_1 h_S_) main_v66 main_c_25
  fn_part4 (F := F) main_arg14 main_arg15 main_arg16 main_arg17 main_v63 main_v67

def fn_part2 {F : FTy → Type} [FloatOps F] (main_arg7 : FVec F S10x64x64 .f32) (main_arg8 : FVec F S10x64x64 .f32) (main_arg9 : FVec F S10x64 .f32) (main_arg10 : FVec F S10x64x64 .f32) (main_arg11 : FVec F S10x64 .f32) (main_arg12 : FVec F S10x96x64 .f32) (main_arg13 : FVec F S10x96 .f32) (main_arg14 : FVec F S96x96 .f32) (main_arg15 : FVec F S96 .f32) (main_arg16 : FVec F S2x96 .f32) (main_arg17 : FVec F S2 .f32) (main_v33 : IVec S_ 1) : IVec S_ 1 :=
  let main_v34 : FVec F S10x64x64 .f32 := Host.absf main_arg7
  let main_cst_12 : FVec F S_ .f32 := constant S_ .f32 0x7F800000#32
  let main_v35 : FVec F S10x64x64 .f32 := broadcastInDim S10x64x64 ![] bcast_S_S10x64x64 main_cst_12
  let main_v36 : IVec S10x64x64 1 := cmpf .olt main_v34 main_v35
  let main_c_13 : IVec S_ 1 := constantI S_ 1 1#1
  let main_v37 : IVec S_ 1 := (fun x v => Host.reduce IntOp.andi x v reducesTo_S10x64x64_S_d0_1_2 h_S_) main_v36 main_c_13
  let main_v38 : IVec S_ 1 := andi main_v33 main_v37
  let main_v39 : FVec F S10x64x64 .f32 := Host.absf main_arg8
  let main_cst_14 : FVec F S_ .f32 := constant S_ .f32 0x7F800000#32
  let main_v40 : FVec F S10x64x64 .f32 := broadcastInDim S10x64x64 ![] bcast_S_S10x64x64 main_cst_14
  let main_v41 : IVec S10x64x64 1 := cmpf .olt main_v39 main_v40
  let main_c_15 : IVec S_ 1 := constantI S_ 1 1#1
  let main_v42 : IVec S_ 1 := (fun x v => Host.reduce IntOp.andi x v reducesTo_S10x64x64_S_d0_1_2 h_S_) main_v41 main_c_15
  let main_v43 : IVec S_ 1 := andi main_v38 main_v42
  let main_v44 : FVec F S10x64 .f32 := Host.absf main_arg9
  let main_cst_16 : FVec F S_ .f32 := constant S_ .f32 0x7F800000#32
  let main_v45 : FVec F S10x64 .f32 := broadcastInDim S10x64 ![] bcast_S_S10x64 main_cst_16
  let main_v46 : IVec S10x64 1 := cmpf .olt main_v44 main_v45
  let main_c_17 : IVec S_ 1 := constantI S_ 1 1#1
  let main_v47 : IVec S_ 1 := (fun x v => Host.reduce IntOp.andi x v reducesTo_S10x64_S_d0_1 h_S_) main_v46 main_c_17
  let main_v48 : IVec S_ 1 := andi main_v43 main_v47
  let main_v49 : FVec F S10x64x64 .f32 := Host.absf main_arg10
  let main_cst_18 : FVec F S_ .f32 := constant S_ .f32 0x7F800000#32
  let main_v50 : FVec F S10x64x64 .f32 := broadcastInDim S10x64x64 ![] bcast_S_S10x64x64 main_cst_18
  fn_part3 (F := F) main_arg11 main_arg12 main_arg13 main_arg14 main_arg15 main_arg16 main_arg17 main_v48 main_v49 main_v50

def fn_part1 {F : FTy → Type} [FloatOps F] (main_arg4 : FVec F S10x64x64 .f32) (main_arg5 : FVec F S10x64x64 .f32) (main_arg6 : FVec F S10x64 .f32) (main_arg7 : FVec F S10x64x64 .f32) (main_arg8 : FVec F S10x64x64 .f32) (main_arg9 : FVec F S10x64 .f32) (main_arg10 : FVec F S10x64x64 .f32) (main_arg11 : FVec F S10x64 .f32) (main_arg12 : FVec F S10x96x64 .f32) (main_arg13 : FVec F S10x96 .f32) (main_arg14 : FVec F S96x96 .f32) (main_arg15 : FVec F S96 .f32) (main_arg16 : FVec F S2x96 .f32) (main_arg17 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S10x64x64 .f32 := Host.absf main_arg4
  let main_cst_6 : FVec F S_ .f32 := constant S_ .f32 0x7F800000#32
  let main_v20 : FVec F S10x64x64 .f32 := broadcastInDim S10x64x64 ![] bcast_S_S10x64x64 main_cst_6
  let main_v21 : IVec S10x64x64 1 := cmpf .olt main_v19 main_v20
  let main_c_7 : IVec S_ 1 := constantI S_ 1 1#1
  let main_v22 : IVec S_ 1 := (fun x v => Host.reduce IntOp.andi x v reducesTo_S10x64x64_S_d0_1_2 h_S_) main_v21 main_c_7
  let main_v23 : IVec S_ 1 := andi main_v18 main_v22
  let main_v24 : FVec F S10x64x64 .f32 := Host.absf main_arg5
  let main_cst_8 : FVec F S_ .f32 := constant S_ .f32 0x7F800000#32
  let main_v25 : FVec F S10x64x64 .f32 := broadcastInDim S10x64x64 ![] bcast_S_S10x64x64 main_cst_8
  let main_v26 : IVec S10x64x64 1 := cmpf .olt main_v24 main_v25
  let main_c_9 : IVec S_ 1 := constantI S_ 1 1#1
  let main_v27 : IVec S_ 1 := (fun x v => Host.reduce IntOp.andi x v reducesTo_S10x64x64_S_d0_1_2 h_S_) main_v26 main_c_9
  let main_v28 : IVec S_ 1 := andi main_v23 main_v27
  let main_v29 : FVec F S10x64 .f32 := Host.absf main_arg6
  let main_cst_10 : FVec F S_ .f32 := constant S_ .f32 0x7F800000#32
  let main_v30 : FVec F S10x64 .f32 := broadcastInDim S10x64 ![] bcast_S_S10x64 main_cst_10
  let main_v31 : IVec S10x64 1 := cmpf .olt main_v29 main_v30
  let main_c_11 : IVec S_ 1 := constantI S_ 1 1#1
  let main_v32 : IVec S_ 1 := (fun x v => Host.reduce IntOp.andi x v reducesTo_S10x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2048x32 .f32) (main_arg1 : FVec F S2048x64x1023 .f32) (main_arg2 : FVec F S64x32 .f32) (main_arg3 : FVec F S64 .f32) (main_arg4 : FVec F S10x64x64 .f32) (main_arg5 : FVec F S10x64x64 .f32) (main_arg6 : FVec F S10x64 .f32) (main_arg7 : FVec F S10x64x64 .f32) (main_arg8 : FVec F S10x64x64 .f32) (main_arg9 : FVec F S10x64 .f32) (main_arg10 : FVec F S10x64x64 .f32) (main_arg11 : FVec F S10x64 .f32) (main_arg12 : FVec F S10x96x64 .f32) (main_arg13 : FVec F S10x96 .f32) (main_arg14 : FVec F S96x96 .f32) (main_arg15 : FVec F S96 .f32) (main_arg16 : FVec F S2x96 .f32) (main_arg17 : FVec F S2 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S2048x64x1023 .f32 := Host.absf main_arg1
  let main_cst_0 : FVec F S_ .f32 := constant S_ .f32 0x7F800000#32
  let main_v5 : FVec F S2048x64x1023 .f32 := broadcastInDim S2048x64x1023 ![] bcast_S_S2048x64x1023 main_cst_0
  let main_v6 : IVec S2048x64x1023 1 := cmpf .olt main_v4 main_v5
  let main_c_1 : IVec S_ 1 := constantI S_ 1 1#1
  let main_v7 : IVec S_ 1 := (fun x v => Host.reduce IntOp.andi x v reducesTo_S2048x64x1023_S_d0_1_2 h_S_) main_v6 main_c_1
  let main_v8 : IVec S_ 1 := andi main_v3 main_v7
  let main_v9 : FVec F S64x32 .f32 := Host.absf main_arg2
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2048x32 : Shape := ⟨2, ![2048, 32]⟩
abbrev S2048x64x1023 : Shape := ⟨3, ![2048, 64, 1023]⟩
abbrev S64x32 : Shape := ⟨2, ![64, 32]⟩
abbrev S64 : Shape := ⟨1, ![64]⟩
abbrev S10x64x64 : Shape := ⟨3, ![10, 64, 64]⟩
abbrev S10x64 : Shape := ⟨2, ![10, 64]⟩
abbrev S10x96x64 : Shape := ⟨3, ![10, 96, 64]⟩
abbrev S10x96 : Shape := ⟨2, ![10, 96]⟩
abbrev S96x96 : Shape := ⟨2, ![96, 96]⟩
abbrev S96 : Shape := ⟨1, ![96]⟩
abbrev S2x96 : Shape := ⟨2, ![2, 96]⟩
abbrev S2 : Shape := ⟨1, ![2]⟩
abbrev S2048x2 : Shape := ⟨2, ![2048, 2]⟩
abbrev S32x32 : Shape := ⟨2, ![32, 32]⟩
abbrev S32x64x1023 : Shape := ⟨3, ![32, 64, 1023]⟩
abbrev S32x2 : Shape := ⟨2, ![32, 2]⟩
abbrev S32x64 : Shape := ⟨2, ![32, 64]⟩
abbrev S1x64 : Shape := ⟨2, ![1, 64]⟩
abbrev S32x64x1022 : Shape := ⟨3, ![32, 64, 1022]⟩
abbrev S32x96 : Shape := ⟨2, ![32, 96]⟩
abbrev S32x64x1 : Shape := ⟨3, ![32, 64, 1]⟩
abbrev S1x64x64 : Shape := ⟨3, ![1, 64, 64]⟩
abbrev S64x64 : Shape := ⟨2, ![64, 64]⟩
abbrev S1x96x64 : Shape := ⟨3, ![1, 96, 64]⟩
abbrev S96x64 : Shape := ⟨2, ![96, 64]⟩
abbrev S1x96 : Shape := ⟨2, ![1, 96]⟩
abbrev S64x96 : Shape := ⟨2, ![64, 96]⟩
abbrev S96x2 : Shape := ⟨2, ![96, 2]⟩
abbrev S1x2 : Shape := ⟨2, ![1, 2]⟩

abbrev nBuf : Space → Nat
  | .hbm => 20
  | .vmem => 24
  | .smem => 0
  | _ => 0

abbrev bufTy : (tb : Table) → Fin (tcTables nBuf tb) → BufTy
  | .hbm, ⟨0, _⟩ => ⟨S2048x32, .f32⟩
  | .hbm, ⟨1, _⟩ => ⟨S2048x64x1023, .f32⟩
  | .hbm, ⟨2, _⟩ => ⟨S64x32, .f32⟩
  | .hbm, ⟨3, _⟩ => ⟨S64, .f32⟩
  | .hbm, ⟨4, _⟩ => ⟨S10x64x64, .f32⟩
  | .hbm, ⟨5, _⟩ => ⟨S10x64x64, .f32⟩
  | .hbm, ⟨6, _⟩ => ⟨S10x64, .f32⟩
  | .hbm, ⟨7, _⟩ => ⟨S10x64x64, .f32⟩
  | .hbm, ⟨8, _⟩ => ⟨S10x64x64, .f32⟩
  | .hbm, ⟨9, _⟩ => ⟨S10x64, .f32⟩
  | .hbm, ⟨10, _⟩ => ⟨S10x64x64, .f32⟩
  | .hbm, ⟨11, _⟩ => ⟨S10x64, .f32⟩
  | .hbm, ⟨12, _⟩ => ⟨S10x96x64, .f32⟩
  | .hbm, ⟨13, _⟩ => ⟨S10x96, .f32⟩
  | .hbm, ⟨14, _⟩ => ⟨S96x96, .f32⟩
  | .hbm, ⟨15, _⟩ => ⟨S96, .f32⟩
  | .hbm, ⟨16, _⟩ => ⟨S2x96, .f32⟩
  | .hbm, ⟨17, _⟩ => ⟨S2, .f32⟩
  | .hbm, ⟨18, _⟩ => ⟨S2048x2, .f32⟩
  | .hbm, ⟨19, _⟩ => ⟨S2048x64x1023, .f32⟩
  | .local _ .vmem, ⟨0, _⟩ => ⟨S32x32, .f32⟩
  | .local _ .vmem, ⟨1, _⟩ => ⟨S32x32, .f32⟩
  | .local _ .vmem, ⟨2, _⟩ => ⟨S32x64x1023, .f32⟩
  | .local _ .vmem, ⟨3, _⟩ => ⟨S32x64x1023, .f32⟩
  | .local _ .vmem, ⟨4, _⟩ => ⟨S64x32, .f32⟩
  | .local _ .vmem, ⟨5, _⟩ => ⟨S64, .f32⟩
  | .local _ .vmem, ⟨6, _⟩ => ⟨S10x64x64, .f32⟩
  | .local _ .vmem, ⟨7, _⟩ => ⟨S10x64x64, .f32⟩
  | .local _ .vmem, ⟨8, _⟩ => ⟨S10x64, .f32⟩
  | .local _ .vmem, ⟨9, _⟩ => ⟨S10x64x64, .f32⟩
  | .local _ .vmem, ⟨10, _⟩ => ⟨S10x64x64, .f32⟩
  | .local _ .vmem, ⟨11, _⟩ => ⟨S10x64, .f32⟩
  | .local _ .vmem, ⟨12, _⟩ => ⟨S10x64x64, .f32⟩
  | .local _ .vmem, ⟨13, _⟩ => ⟨S10x64, .f32⟩
  | .local _ .vmem, ⟨14, _⟩ => ⟨S10x96x64, .f32⟩
  | .local _ .vmem, ⟨15, _⟩ => ⟨S10x96, .f32⟩
  | .local _ .vmem, ⟨16, _⟩ => ⟨S96x96, .f32⟩
  | .local _ .vmem, ⟨17, _⟩ => ⟨S96, .f32⟩
  | .local _ .vmem, ⟨18, _⟩ => ⟨S2x96, .f32⟩
  | .local _ .vmem, ⟨19, _⟩ => ⟨S2, .f32⟩
  | .local _ .vmem, ⟨20, _⟩ => ⟨S32x2, .f32⟩
  | .local _ .vmem, ⟨21, _⟩ => ⟨S32x2, .f32⟩
  | .local _ .vmem, ⟨22, _⟩ => ⟨S32x64x1023, .f32⟩
  | .local _ .vmem, ⟨23, _⟩ => ⟨S32x64x1023, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x1023 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10x96x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S96x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S32x2 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x64x1023 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  inb_S32x32_S32x32_0_0 : ∀ a, (![0, 0] : Fin 2 → Nat) a + S32x32.size a ≤ S32x32.size a
  h_S32x32 : 0 < S32x32.numel
  inb_S64x32_S64x32_0_0 : ∀ a, (![0, 0] : Fin 2 → Nat) a + S64x32.size a ≤ S64x32.size a
  h_S64x32 : 0 < S64x32.numel
  transposes_S64x32_p1_0_S32x64 : S64x32.Transposes [1, 0] S32x64
  inb_S64_S64_0 : ∀ a, (![0] : Fin 1 → Nat) a + S64.size a ≤ S64.size a
  h_S64 : 0 < S64.numel
  shapeCasts_S64_S1x64 : S64.ShapeCasts S1x64
  broadcasts_S1x64_S32x64 : S1x64.Broadcasts S32x64
  inb_S32x64x1023_S32x64x1022_0_0_1 : ∀ a, (![0, 0, 1] : Fin 3 → Nat) a + S32x64x1022.size a ≤ S32x64x1023.size a
  h_S32x64x1022 : 0 < S32x64x1022.numel
  inb_S32x64x1023_S32x64x1022_0_0_0 : ∀ a, (![0, 0, 0] : Fin 3 → Nat) a + S32x64x1022.size a ≤ S32x64x1023.size a
  inb_S32x64x1023_S32x64x1_0_0_0 : ∀ a, (![0, 0, 0] : Fin 3 → Nat) a + S32x64x1.size a ≤ S32x64x1023.size a
  h_S32x64x1 : 0 < S32x64x1.numel
  shapeCasts_S32x64x1_S32x64 : S32x64x1.ShapeCasts S32x64
  inb_S10x64x64_S1x64x64_0_0_0 : ∀ a, (![0, 0, 0] : Fin 3 → Nat) a + S1x64x64.size a ≤ S10x64x64.size a
  h_S1x64x64 : 0 < S1x64x64.numel
  shapeCasts_S1x64x64_S64x64 : S1x64x64.ShapeCasts S64x64
  inb_S10x64_S1x64_0_0 : ∀ a, (![0, 0] : Fin 2 → Nat) a + S1x64.size a ≤ S10x64.size a
  h_S1x64 : 0 < S1x64.numel
  shapeCasts_S1x64_S64 : S1x64.ShapeCasts S64
  inb_S10x96x64_S1x96x64_0_0_0 : ∀ a, (![0, 0, 0] : Fin 3 → Nat) a + S1x96x64.size a ≤ S10x96x64.size a
  h_S1x96x64 : 0 < S1x96x64.numel
  shapeCasts_S1x96x64_S96x64 : S1x96x64.ShapeCasts S96x64
  inb_S10x96_S1x96_0_0 : ∀ a, (![0, 0] : Fin 2 → Nat) a + S1x96.size a ≤ S10x96.size a
  h_S1x96 : 0 < S1x96.numel
  shapeCasts_S1x96_S96 : S1x96.ShapeCasts S96
  transposes_S64x64_p1_0_S64x64 : S64x64.Transposes [1, 0] S64x64
  transposes_S96x64_p1_0_S64x96 : S96x64.Transposes [1, 0] S64x96
  shapeCasts_S96_S1x96 : S96.ShapeCasts S1x96
  broadcasts_S1x96_S32x96 : S1x96.Broadcasts S32x96
  shapeCasts_S32x64_S32x64x1 : S32x64.ShapeCasts S32x64x1
  inb_S32x64x1023_S32x64x1_0_0_1 : ∀ a, (![0, 0, 1] : Fin 3 → Nat) a + S32x64x1.size a ≤ S32x64x1023.size a
  inb_S10x64x64_S1x64x64_1_0_0 : ∀ a, (![1, 0, 0] : Fin 3 → Nat) a + S1x64x64.size a ≤ S10x64x64.size a
  inb_S10x64_S1x64_1_0 : ∀ a, (![1, 0] : Fin 2 → Nat) a + S1x64.size a ≤ S10x64.size a
  inb_S10x96x64_S1x96x64_1_0_0 : ∀ a, (![1, 0, 0] : Fin 3 → Nat) a + S1x96x64.size a ≤ S10x96x64.size a
  inb_S10x96_S1x96_1_0 : ∀ a, (![1, 0] : Fin 2 → Nat) a + S1x96.size a ≤ S10x96.size a
  inb_S32x64x1023_S32x64x1_0_0_2 : ∀ a, (![0, 0, 2] : Fin 3 → Nat) a + S32x64x1.size a ≤ S32x64x1023.size a
  inb_S32x64x1023_S32x64x1_0_0_3 : ∀ a, (![0, 0, 3] : Fin 3 → Nat) a + S32x64x1.size a ≤ S32x64x1023.size a
  inb_S10x64x64_S1x64x64_2_0_0 : ∀ a, (![2, 0, 0] : Fin 3 → Nat) a + S1x64x64.size a ≤ S10x64x64.size a
  inb_S10x64_S1x64_2_0 : ∀ a, (![2, 0] : Fin 2 → Nat) a + S1x64.size a ≤ S10x64.size a
  inb_S10x96x64_S1x96x64_2_0_0 : ∀ a, (![2, 0, 0] : Fin 3 → Nat) a + S1x96x64.size a ≤ S10x96x64.size a
  inb_S10x96_S1x96_2_0 : ∀ a, (![2, 0] : Fin 2 → Nat) a + S1x96.size a ≤ S10x96.size a
  inb_S32x64x1023_S32x64x1_0_0_6 : ∀ a, (![0, 0, 6] : Fin 3 → Nat) a + S32x64x1.size a ≤ S32x64x1023.size a
  inb_S32x64x1023_S32x64x1_0_0_7 : ∀ a, (![0, 0, 7] : Fin 3 → Nat) a + S32x64x1.size a ≤ S32x64x1023.size a
  inb_S10x64x64_S1x64x64_3_0_0 : ∀ a, (![3, 0, 0] : Fin 3 → Nat) a + S1x64x64.size a ≤ S10x64x64.size a
  inb_S10x64_S1x64_3_0 : ∀ a, (![3, 0] : Fin 2 → Nat) a + S1x64.size a ≤ S10x64.size a
  inb_S10x96x64_S1x96x64_3_0_0 : ∀ a, (![3, 0, 0] : Fin 3 → Nat) a + S1x96x64.size a ≤ S10x96x64.size a
  inb_S10x96_S1x96_3_0 : ∀ a, (![3, 0] : Fin 2 → Nat) a + S1x96.size a ≤ S10x96.size a
  inb_S32x64x1023_S32x64x1_0_0_14 : ∀ a, (![0, 0, 14] : Fin 3 → Nat) a + S32x64x1.size a ≤ S32x64x1023.size a
  inb_S32x64x1023_S32x64x1_0_0_15 : ∀ a, (![0, 0, 15] : Fin 3 → Nat) a + S32x64x1.size a ≤ S32x64x1023.size a
  inb_S10x64x64_S1x64x64_4_0_0 : ∀ a, (![4, 0, 0] : Fin 3 → Nat) a + S1x64x64.size a ≤ S10x64x64.size a
  inb_S10x64_S1x64_4_0 : ∀ a, (![4, 0] : Fin 2 → Nat) a + S1x64.size a ≤ S10x64.size a
  inb_S10x96x64_S1x96x64_4_0_0 : ∀ a, (![4, 0, 0] : Fin 3 → Nat) a + S1x96x64.size a ≤ S10x96x64.size a
  inb_S10x96_S1x96_4_0 : ∀ a, (![4, 0] : Fin 2 → Nat) a + S1x96.size a ≤ S10x96.size a
  inb_S32x64x1023_S32x64x1_0_0_30 : ∀ a, (![0, 0, 30] : Fin 3 → Nat) a + S32x64x1.size a ≤ S32x64x1023.size a
  inb_S32x64x1023_S32x64x1_0_0_31 : ∀ a, (![0, 0, 31] : Fin 3 → Nat) a + S32x64x1.size a ≤ S32x64x1023.size a
  inb_S10x64x64_S1x64x64_5_0_0 : ∀ a, (![5, 0, 0] : Fin 3 → Nat) a + S1x64x64.size a ≤ S10x64x64.size a
  inb_S10x64_S1x64_5_0 : ∀ a, (![5, 0] : Fin 2 → Nat) a + S1x64.size a ≤ S10x64.size a
  inb_S10x96x64_S1x96x64_5_0_0 : ∀ a, (![5, 0, 0] : Fin 3 → Nat) a + S1x96x64.size a ≤ S10x96x64.size a
  inb_S10x96_S1x96_5_0 : ∀ a, (![5, 0] : Fin 2 → Nat) a + S1x96.size a ≤ S10x96.size a
  inb_S32x64x1023_S32x64x1_0_0_62 : ∀ a, (![0, 0, 62] : Fin 3 → Nat) a + S32x64x1.size a ≤ S32x64x1023.size a
  inb_S32x64x1023_S32x64x1_0_0_63 : ∀ a, (![0, 0, 63] : Fin 3 → Nat) a + S32x64x1.size a ≤ S32x64x1023.size a
  inb_S10x64x64_S1x64x64_6_0_0 : ∀ a, (![6, 0, 0] : Fin 3 → Nat) a + S1x64x64.size a ≤ S10x64x64.size a
  inb_S10x64_S1x64_6_0 : ∀ a, (![6, 0] : Fin 2 → Nat) a + S1x64.size a ≤ S10x64.size a
  inb_S10x96x64_S1x96x64_6_0_0 : ∀ a, (![6, 0, 0] : Fin 3 → Nat) a + S1x96x64.size a ≤ S10x96x64.size a
  inb_S10x96_S1x96_6_0 : ∀ a, (![6, 0] : Fin 2 → Nat) a + S1x96.size a ≤ S10x96.size a
  inb_S32x64x1023_S32x64x1_0_0_126 : ∀ a, (![0, 0, 126] : Fin 3 → Nat) a + S32x64x1.size a ≤ S32x64x1023.size a
  inb_S32x64x1023_S32x64x1_0_0_127 : ∀ a, (![0, 0, 127] : Fin 3 → Nat) a + S32x64x1.size a ≤ S32x64x1023.size a
  inb_S10x64x64_S1x64x64_7_0_0 : ∀ a, (![7, 0, 0] : Fin 3 → Nat) a + S1x64x64.size a ≤ S10x64x64.size a
  inb_S10x64_S1x64_7_0 : ∀ a, (![7, 0] : Fin 2 → Nat) a + S1x64.size a ≤ S10x64.size a
  inb_S10x96x64_S1x96x64_7_0_0 : ∀ a, (![7, 0, 0] : Fin 3 → Nat) a + S1x96x64.size a ≤ S10x96x64.size a
  inb_S10x96_S1x96_7_0 : ∀ a, (![7, 0] : Fin 2 → Nat) a + S1x96.size a ≤ S10x96.size a
  inb_S32x64x1023_S32x64x1_0_0_254 : ∀ a, (![0, 0, 254] : Fin 3 → Nat) a + S32x64x1.size a ≤ S32x64x1023.size a
  inb_S32x64x1023_S32x64x1_0_0_255 : ∀ a, (![0, 0, 255] : Fin 3 → Nat) a + S32x64x1.size a ≤ S32x64x1023.size a
  inb_S10x64x64_S1x64x64_8_0_0 : ∀ a, (![8, 0, 0] : Fin 3 → Nat) a + S1x64x64.size a ≤ S10x64x64.size a
  inb_S10x64_S1x64_8_0 : ∀ a, (![8, 0] : Fin 2 → Nat) a + S1x64.size a ≤ S10x64.size a
  inb_S10x96x64_S1x96x64_8_0_0 : ∀ a, (![8, 0, 0] : Fin 3 → Nat) a + S1x96x64.size a ≤ S10x96x64.size a
  inb_S10x96_S1x96_8_0 : ∀ a, (![8, 0] : Fin 2 → Nat) a + S1x96.size a ≤ S10x96.size a
  inb_S32x64x1023_S32x64x1_0_0_510 : ∀ a, (![0, 0, 510] : Fin 3 → Nat) a + S32x64x1.size a ≤ S32x64x1023.size a
  inb_S32x64x1023_S32x64x1_0_0_511 : ∀ a, (![0, 0, 511] : Fin 3 → Nat) a + S32x64x1.size a ≤ S32x64x1023.size a
  inb_S10x64x64_S1x64x64_9_0_0 : ∀ a, (![9, 0, 0] : Fin 3 → Nat) a + S1x64x64.size a ≤ S10x64x64.size a
  inb_S10x64_S1x64_9_0 : ∀ a, (![9, 0] : Fin 2 → Nat) a + S1x64.size a ≤ S10x64.size a
  inb_S10x96x64_S1x96x64_9_0_0 : ∀ a, (![9, 0, 0] : Fin 3 → Nat) a + S1x96x64.size a ≤ S10x96x64.size a
  inb_S10x96_S1x96_9_0 : ∀ a, (![9, 0] : Fin 2 → Nat) a + S1x96.size a ≤ S10x96.size a
  inb_S32x64x1023_S32x64x1_0_0_1022 : ∀ a, (![0, 0, 1022] : Fin 3 → Nat) a + S32x64x1.size a ≤ S32x64x1023.size a
  inb_S96x96_S96x96_0_0 : ∀ a, (![0, 0] : Fin 2 → Nat) a + S96x96.size a ≤ S96x96.size a
  h_S96x96 : 0 < S96x96.numel
  transposes_S96x96_p1_0_S96x96 : S96x96.Transposes [1, 0] S96x96
  inb_S96_S96_0 : ∀ a, (![0] : Fin 1 → Nat) a + S96.size a ≤ S96.size a
  h_S96 : 0 < S96.numel
  inb_S2x96_S2x96_0_0 : ∀ a, (![0, 0] : Fin 2 → Nat) a + S2x96.size a ≤ S2x96.size a
  h_S2x96 : 0 < S2x96.numel
  transposes_S2x96_p1_0_S96x2 : S2x96.Transposes [1, 0] S96x2
  inb_S2_S2_0 : ∀ a, (![0] : Fin 1 → Nat) a + S2.size a ≤ S2.size a
  h_S2 : 0 < S2.numel
  shapeCasts_S2_S1x2 : S2.ShapeCasts S1x2
  broadcasts_S1x2_S32x2 : S1x2.Broadcasts S32x2
  inb_S32x2_S32x2_0_0 : ∀ a, (![0, 0] : Fin 2 → Nat) a + S32x2.size a ≤ S32x2.size a
  h_S32x2 : 0 < S32x2.numel
  dot_S32x32_S32x64_S32x64_1_0_0_1_n_n_wf : DotDims.WF S32x32 S32x64 S32x64 [1] [0] [0] [1] [] []
  dot_S32x64_S64x64_S32x64_1_0_0_1_n_n_wf : DotDims.WF S32x64 S64x64 S32x64 [1] [0] [0] [1] [] []
  dot_S32x64_S64x96_S32x96_1_0_0_1_n_n_wf : DotDims.WF S32x64 S64x96 S32x96 [1] [0] [0] [1] [] []
  dot_S32x96_S96x96_S32x96_1_0_0_1_n_n_wf : DotDims.WF S32x96 S96x96 S32x96 [1] [0] [0] [1] [] []
  dot_S32x96_S96x2_S32x2_1_0_0_1_n_n_wf : DotDims.WF S32x96 S96x2 S32x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S2048x32.size a
  hwx0_0 : ∀ i : grid0.Coords, EltTy.bits .f32 = 32 ∨ (Rect.block (s := S2048x32) S32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x64x1023.size a ≤ S2048x64x1023.size a
  hwx0_1 : ∀ i : grid0.Coords, EltTy.bits .f32 = 32 ∨ (Rect.block (s := S2048x64x1023) S32x64x1023.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x64x64.size a ≤ S10x64x64.size a
  hwx0_4 : ∀ i : grid0.Coords, EltTy.bits .f32 = 32 ∨ (Rect.block (s := S10x64x64) S10x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x64x64.size a ≤ S10x64x64.size a
  hwx0_5 : ∀ i : grid0.Coords, EltTy.bits .f32 = 32 ∨ (Rect.block (s := S10x64x64) S10x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x64.size a ≤ S10x64.size a
  hwx0_6 : ∀ i : grid0.Coords, EltTy.bits .f32 = 32 ∨ (Rect.block (s := S10x64) S10x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x64x64.size a ≤ S10x64x64.size a
  hwx0_7 : ∀ i : grid0.Coords, EltTy.bits .f32 = 32 ∨ (Rect.block (s := S10x64x64) S10x64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10x64x64.size a ≤ S10x64x64.size a
  hwx0_8 : ∀ i : grid0.Coords, EltTy.bits .f32 = 32 ∨ (Rect.block (s := S10x64x64) S10x64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S10x64.size a ≤ S10x64.size a
  hwx0_9 : ∀ i : grid0.Coords, EltTy.bits .f32 = 32 ∨ (Rect.block (s := S10x64) S10x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10x64x64.size a ≤ S10x64x64.size a
  hwx0_10 : ∀ i : grid0.Coords, EltTy.bits .f32 = 32 ∨ (Rect.block (s := S10x64x64) S10x64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10x64.size a ≤ S10x64.size a
  hwx0_11 : ∀ i : grid0.Coords, EltTy.bits .f32 = 32 ∨ (Rect.block (s := S10x64) S10x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S10x96x64.size a ≤ S10x96x64.size a
  hwx0_12 : ∀ i : grid0.Coords, EltTy.bits .f32 = 32 ∨ (Rect.block (s := S10x96x64) S10x96x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x96.size a ≤ S10x96.size a
  hwx0_13 : ∀ i : grid0.Coords, EltTy.bits .f32 = 32 ∨ (Rect.block (s := S10x96) S10x96.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S96x96.size a ≤ S96x96.size a
  hwx0_14 : ∀ i : grid0.Coords, EltTy.bits .f32 = 32 ∨ (Rect.block (s := S96x96) S96x96.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S96.size a ≤ S96.size a
  hwx0_15 : ∀ i : grid0.Coords, EltTy.bits .f32 = 32 ∨ (Rect.block (s := S96) S96.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2x96.size a ≤ S2x96.size a
  hwx0_16 : ∀ i : grid0.Coords, EltTy.bits .f32 = 32 ∨ (Rect.block (s := S2x96) S2x96.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S2.size a ≤ S2.size a
  hwx0_17 : ∀ i : grid0.Coords, EltTy.bits .f32 = 32 ∨ (Rect.block (s := S2) S2.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S32x2.size a ≤ S2048x2.size a
  hwx0_18 : ∀ i : grid0.Coords, EltTy.bits .f32 = 32 ∨ (Rect.block (s := S2048x2) S32x2.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S32x64x1023.size a ≤ S2048x64x1023.size a
  hwx0_19 : ∀ i : grid0.Coords, EltTy.bits .f32 = 32 ∨ (Rect.block (s := S2048x64x1023) S32x64x1023.size (cc0_transform_19 i) (hinb0_19 i)).WholeWords (EltTy.packing .f32)

variable [Facts₀]

def dot_S32x32_S32x64_S32x64_1_0_0_1_n_n : DotDims S32x32 S32x64 S32x64 where
  lhsContracting := [1]
  rhsContracting := [0]
  lhsNonContracting := [0]
  rhsNonContracting := [1]
  lhsBatch := []
  rhsBatch := []
  wf := dot_S32x32_S32x64_S32x64_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x96_S32x96_1_0_0_1_n_n : DotDims S32x64 S64x96 S32x96 where
  lhsContracting := [1]
  rhsContracting := [0]
  lhsNonContracting := [0]
  rhsNonContracting := [1]
  lhsBatch := []
  rhsBatch := []
  wf := dot_S32x64_S64x96_S32x96_1_0_0_1_n_n_wf
def dot_S32x96_S96x96_S32x96_1_0_0_1_n_n : DotDims S32x96 S96x96 S32x96 where
  lhsContracting := [1]
  rhsContracting := [0]
  lhsNonContracting := [0]
  rhsNonContracting := [1]
  lhsBatch := []
  rhsBatch := []
  wf := dot_S32x96_S96x96_S32x96_1_0_0_1_n_n_wf
def dot_S32x96_S96x2_S32x2_1_0_0_1_n_n : DotDims S32x96 S96x2 S32x2 where
  lhsContracting := [1]
  rhsContracting := [0]
  lhsNonContracting := [0]
  rhsNonContracting := [1]
  lhsBatch := []
  rhsBatch := []
  wf := dot_S32x96_S96x2_S32x2_1_0_0_1_n_n_wf

abbrev win0_0 : Pipeline.Window sig grid0 :=
  Pipeline.Window.ofSpec (Memref.whole main_arg0) S32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64x1023.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S10x64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S10x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S10x64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S10x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S10x96x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S10x96.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S96x96.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S96.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2x96.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v0_0) S32x2.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0_1) S32x64x1023.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where
  halias0_19 : Pipeline.Aliased win0 1 19

variable [Facts]
-- ==== ReferenceIdeal.lean ====
abbrev S2048x32 : Shape := ⟨2, ![2048, 32]⟩
abbrev S2048x64x1023 : Shape := ⟨3, ![2048, 64, 1023]⟩
abbrev S64x32 : Shape := ⟨2, ![64, 32]⟩
abbrev S64 : Shape := ⟨1, ![64]⟩
abbrev S10x64x64 : Shape := ⟨3, ![10, 64, 64]⟩
abbrev S10x64 : Shape := ⟨2, ![10, 64]⟩
abbrev S10x96x64 : Shape := ⟨3, ![10, 96, 64]⟩
abbrev S10x96 : Shape := ⟨2, ![10, 96]⟩
abbrev S96x96 : Shape := ⟨2, ![96, 96]⟩
abbrev S96 : Shape := ⟨1, ![96]⟩
abbrev S2x96 : Shape := ⟨2, ![2, 96]⟩
abbrev S2 : Shape := ⟨1, ![2]⟩
abbrev S32x64 : Shape := ⟨2, ![32, 64]⟩
abbrev S2048x64 : Shape := ⟨2, ![2048, 64]⟩
abbrev S1x64 : Shape := ⟨2, ![1, 64]⟩
abbrev S_ : Shape := ⟨0, ![]⟩
abbrev S2048x96 : Shape := ⟨2, ![2048, 96]⟩
abbrev S2048x64x1 : Shape := ⟨3, ![2048, 64, 1]⟩
abbrev S1x64x64 : Shape := ⟨3, ![1, 64, 64]⟩
abbrev S64x64 : Shape := ⟨2, ![64, 64]⟩
abbrev S1x96x64 : Shape := ⟨3, ![1, 96, 64]⟩
abbrev S96x64 : Shape := ⟨2, ![96, 64]⟩
abbrev S64x96 : Shape := ⟨2, ![64, 96]⟩
abbrev S1x96 : Shape := ⟨2, ![1, 96]⟩
abbrev S2048x64x3 : Shape := ⟨3, ![2048, 64, 3]⟩
abbrev S2048x64x7 : Shape := ⟨3, ![2048, 64, 7]⟩
abbrev S2048x64x15 : Shape := ⟨3, ![2048, 64, 15]⟩
abbrev S2048x64x31 : Shape := ⟨3, ![2048, 64, 31]⟩
abbrev S2048x64x63 : Shape := ⟨3, ![2048, 64, 63]⟩
abbrev S2048x64x127 : Shape := ⟨3, ![2048, 64, 127]⟩
abbrev S2048x64x255 : Shape := ⟨3, ![2048, 64, 255]⟩
abbrev S2048x64x511 : Shape := ⟨3, ![2048, 64, 511]⟩
abbrev S2048x64x510 : Shape := ⟨3, ![2048, 64, 510]⟩
abbrev S2048x64x513 : Shape := ⟨3, ![2048, 64, 513]⟩
abbrev S96x2 : Shape := ⟨2, ![96, 2]⟩
abbrev S2048x2 : Shape := ⟨2, ![2048, 2]⟩
abbrev S1x2 : Shape := ⟨2, ![1, 2]⟩

abbrev nBuf : Space → Nat
  | .hbm => 693
  | .vmem => 0
  | .smem => 0
  | _ => 0

abbrev hbmTy0_0 (i : Nat) : BufTy := match i % 128 with
  | 0 => ⟨S2048x32, .f32⟩
  | 1 => ⟨S2048x64x1023, .f32⟩
  | 2 => ⟨S64x32, .f32⟩
  | 3 => ⟨S64, .f32⟩
  | 4 => ⟨S10x64x64, .f32⟩
  | 5 => ⟨S10x64x64, .f32⟩
  | 6 => ⟨S10x64, .f32⟩
  | 7 => ⟨S10x64x64, .f32⟩
  | 8 => ⟨S10x64x64, .f32⟩
  | 9 => ⟨S10x64, .f32⟩
  | 10 => ⟨S10x64x64, .f32⟩
  | 11 => ⟨S10x64, .f32⟩
  | 12 => ⟨S10x96x64, .f32⟩
  | 13 => ⟨S10x96, .f32⟩
  | 14 => ⟨S96x96, .f32⟩
  | 15 => ⟨S96, .f32⟩
  | 16 => ⟨S2x96, .f32⟩
  | 17 => ⟨S2, .f32⟩
  | 18 => ⟨S32x64, .f32⟩
  | 19 => ⟨S2048x64, .f32⟩
  | 20 => ⟨S1x64, .f32⟩
  | 21 => ⟨S2048x64, .f32⟩
  | 22 => ⟨S2048x64, .f32⟩
  | 23 => ⟨S_, .f32⟩
  | 24 => ⟨S2048x96, .f32⟩
  | 25 => ⟨S2048x64x1, .f32⟩
  | 26 => ⟨S2048x64, .f32⟩
  | 27 => ⟨S1x64x64, .f32⟩
  | 28 => ⟨S64x64, .f32⟩
  | 29 => ⟨S64x64, .f32⟩
  | 30 => ⟨S2048x64, .f32⟩
  | 31 => ⟨S1x64x64, .f32⟩
  | 32 => ⟨S64x64, .f32⟩
  | 33 => ⟨S64x64, .f32⟩
  | 34 => ⟨S2048x64, .f32⟩
  | 35 => ⟨S2048x64, .f32⟩
  | 36 => ⟨S1x64, .f32⟩
  | 37 => ⟨S64, .f32⟩
  | 38 => ⟨S1x64, .f32⟩
  | 39 => ⟨S2048x64, .f32⟩
  | 40 => ⟨S2048x64, .f32⟩
  | 41 => ⟨S1x64x64, .f32⟩
  | 42 => ⟨S64x64, .f32⟩
  | 43 => ⟨S64x64, .f32⟩
  | 44 => ⟨S2048x64, .f32⟩
  | 45 => ⟨S1x64x64, .f32⟩
  | 46 => ⟨S64x64, .f32⟩
  | 47 => ⟨S64x64, .f32⟩
  | 48 => ⟨S2048x64, .f32⟩
  | 49 => ⟨S2048x64, .f32⟩
  | 50 => ⟨S1x64, .f32⟩
  | 51 => ⟨S64, .f32⟩
  | 52 => ⟨S1x64, .f32⟩
  | 53 => ⟨S2048x64, .f32⟩
  | 54 => ⟨S2048x64, .f32⟩
  | 55 => ⟨S2048x64, .f32⟩
  | 56 => ⟨S2048x64, .f32⟩
  | 57 => ⟨S2048x64, .f32⟩
  | 58 => ⟨S_, .f32⟩
  | 59 => ⟨S2048x64, .f32⟩
  | 60 => ⟨S2048x64, .f32⟩
  | 61 => ⟨S_, .f32⟩
  | 62 => ⟨S2048x64, .f32⟩
  | 63 => ⟨S2048x64, .f32⟩
  | 64 => ⟨S2048x64, .f32⟩
  | 65 => ⟨S1x96x64, .f32⟩
  | 66 => ⟨S96x64, .f32⟩
  | 67 => ⟨S64x96, .f32⟩
  | 68 => ⟨S2048x96, .f32⟩
  | 69 => ⟨S2048x96, .f32⟩
  | 70 => ⟨S1x96, .f32⟩
  | 71 => ⟨S96, .f32⟩
  | 72 => ⟨S1x96, .f32⟩
  | 73 => ⟨S2048x96, .f32⟩
  | 74 => ⟨S2048x96, .f32⟩
  | 75 => ⟨S1x64x64, .f32⟩
  | 76 => ⟨S64x64, .f32⟩
  | 77 => ⟨S64x64, .f32⟩
  | 78 => ⟨S2048x64, .f32⟩
  | 79 => ⟨S1x64, .f32⟩
  | 80 => ⟨S64, .f32⟩
  | 81 => ⟨S1x64, .f32⟩
  | 82 => ⟨S2048x64, .f32⟩
  | 83 => ⟨S2048x64, .f32⟩
  | 84 => ⟨S2048x64x1, .f32⟩
  | 85 => ⟨S_, .f32⟩
  | 86 => ⟨S2048x64, .f32⟩
  | 87 => ⟨S2048x64, .f32⟩
  | 88 => ⟨S2048x64, .f32⟩
  | 89 => ⟨S2048x64x1, .f32⟩
  | 90 => ⟨S2048x64, .f32⟩
  | 91 => ⟨S1x64x64, .f32⟩
  | 92 => ⟨S64x64, .f32⟩
  | 93 => ⟨S64x64, .f32⟩
  | 94 => ⟨S2048x64, .f32⟩
  | 95 => ⟨S1x64x64, .f32⟩
  | 96 => ⟨S64x64, .f32⟩
  | 97 => ⟨S64x64, .f32⟩
  | 98 => ⟨S2048x64, .f32⟩
  | 99 => ⟨S2048x64, .f32⟩
  | 100 => ⟨S1x64, .f32⟩
  | 101 => ⟨S64, .f32⟩
  | 102 => ⟨S1x64, .f32⟩
  | 103 => ⟨S2048x64, .f32⟩
  | 104 => ⟨S2048x64, .f32⟩
  | 105 => ⟨S1x64x64, .f32⟩
  | 106 => ⟨S64x64, .f32⟩
  | 107 => ⟨S64x64, .f32⟩
  | 108 => ⟨S2048x64, .f32⟩
  | 109 => ⟨S1x64x64, .f32⟩
  | 110 => ⟨S64x64, .f32⟩
  | 111 => ⟨S64x64, .f32⟩
  | 112 => ⟨S2048x64, .f32⟩
  | 113 => ⟨S2048x64, .f32⟩
  | 114 => ⟨S1x64, .f32⟩
  | 115 => ⟨S64, .f32⟩
  | 116 => ⟨S1x64, .f32⟩
  | 117 => ⟨S2048x64, .f32⟩
  | 118 => ⟨S2048x64, .f32⟩
  | 119 => ⟨S2048x64, .f32⟩
  | 120 => ⟨S2048x64, .f32⟩
  | 121 => ⟨S2048x64, .f32⟩
  | 122 => ⟨S_, .f32⟩
  | 123 => ⟨S2048x64, .f32⟩
  | 124 => ⟨S2048x64, .f32⟩
  | 125 => ⟨S_, .f32⟩
  | 126 => ⟨S2048x64, .f32⟩
  | 127 => ⟨S2048x64, .f32⟩
  | _ => ⟨S2048x32, .f32⟩

abbrev hbmTy0_1 (i : Nat) : BufTy := match i % 128 with
  | 0 => ⟨S2048x64, .f32⟩
  | 1 => ⟨S1x96x64, .f32⟩
  | 2 => ⟨S96x64, .f32⟩
  | 3 => ⟨S64x96, .f32⟩
  | 4 => ⟨S2048x96, .f32⟩
  | 5 => ⟨S2048x96, .f32⟩
  | 6 => ⟨S1x96, .f32⟩
  | 7 => ⟨S96, .f32⟩
  | 8 => ⟨S1x96, .f32⟩
  | 9 => ⟨S2048x96, .f32⟩
  | 10 => ⟨S2048x96, .f32⟩
  | 11 => ⟨S1x64x64, .f32⟩
  | 12 => ⟨S64x64, .f32⟩
  | 13 => ⟨S64x64, .f32⟩
  | 14 => ⟨S2048x64, .f32⟩
  | 15 => ⟨S1x64, .f32⟩
  | 16 => ⟨S64, .f32⟩
  | 17 => ⟨S1x64, .f32⟩
  | 18 => ⟨S2048x64, .f32⟩
  | 19 => ⟨S2048x64, .f32⟩
  | 20 => ⟨S2048x64x1, .f32⟩
  | 21 => ⟨S2048x64x1, .f32⟩
  | 22 => ⟨S_, .f32⟩
  | 23 => ⟨S2048x64, .f32⟩
  | 24 => ⟨S2048x64, .f32⟩
  | 25 => ⟨S2048x64, .f32⟩
  | 26 => ⟨S2048x64x1, .f32⟩
  | 27 => ⟨S2048x64, .f32⟩
  | 28 => ⟨S1x64x64, .f32⟩
  | 29 => ⟨S64x64, .f32⟩
  | 30 => ⟨S64x64, .f32⟩
  | 31 => ⟨S2048x64, .f32⟩
  | 32 => ⟨S1x64x64, .f32⟩
  | 33 => ⟨S64x64, .f32⟩
  | 34 => ⟨S64x64, .f32⟩
  | 35 => ⟨S2048x64, .f32⟩
  | 36 => ⟨S2048x64, .f32⟩
  | 37 => ⟨S1x64, .f32⟩
  | 38 => ⟨S64, .f32⟩
  | 39 => ⟨S1x64, .f32⟩
  | 40 => ⟨S2048x64, .f32⟩
  | 41 => ⟨S2048x64, .f32⟩
  | 42 => ⟨S1x64x64, .f32⟩
  | 43 => ⟨S64x64, .f32⟩
  | 44 => ⟨S64x64, .f32⟩
  | 45 => ⟨S2048x64, .f32⟩
  | 46 => ⟨S1x64x64, .f32⟩
  | 47 => ⟨S64x64, .f32⟩
  | 48 => ⟨S64x64, .f32⟩
  | 49 => ⟨S2048x64, .f32⟩
  | 50 => ⟨S2048x64, .f32⟩
  | 51 => ⟨S1x64, .f32⟩
  | 52 => ⟨S64, .f32⟩
  | 53 => ⟨S1x64, .f32⟩
  | 54 => ⟨S2048x64, .f32⟩
  | 55 => ⟨S2048x64, .f32⟩
  | 56 => ⟨S2048x64, .f32⟩
  | 57 => ⟨S2048x64, .f32⟩
  | 58 => ⟨S2048x64, .f32⟩
  | 59 => ⟨S_, .f32⟩
  | 60 => ⟨S2048x64, .f32⟩
  | 61 => ⟨S2048x64, .f32⟩
  | 62 => ⟨S_, .f32⟩
  | 63 => ⟨S2048x64, .f32⟩
  | 64 => ⟨S2048x64, .f32⟩
  | 65 => ⟨S2048x64, .f32⟩
  | 66 => ⟨S1x96x64, .f32⟩
  | 67 => ⟨S96x64, .f32⟩
  | 68 => ⟨S64x96, .f32⟩
  | 69 => ⟨S2048x96, .f32⟩
  | 70 => ⟨S2048x96, .f32⟩
  | 71 => ⟨S1x96, .f32⟩
  | 72 => ⟨S96, .f32⟩
  | 73 => ⟨S1x96, .f32⟩
  | 74 => ⟨S2048x96, .f32⟩
  | 75 => ⟨S2048x96, .f32⟩
  | 76 => ⟨S1x64x64, .f32⟩
  | 77 => ⟨S64x64, .f32⟩
  | 78 => ⟨S64x64, .f32⟩
  | 79 => ⟨S2048x64, .f32⟩
  | 80 => ⟨S1x64, .f32⟩
  | 81 => ⟨S64, .f32⟩
  | 82 => ⟨S1x64, .f32⟩
  | 83 => ⟨S2048x64, .f32⟩
  | 84 => ⟨S2048x64, .f32⟩
  | 85 => ⟨S2048x64x3, .f32⟩
  | 86 => ⟨S2048x64x1, .f32⟩
  | 87 => ⟨S_, .f32⟩
  | 88 => ⟨S2048x64, .f32⟩
  | 89 => ⟨S2048x64, .f32⟩
  | 90 => ⟨S2048x64, .f32⟩
  | 91 => ⟨S2048x64x1, .f32⟩
  | 92 => ⟨S2048x64, .f32⟩
  | 93 => ⟨S1x64x64, .f32⟩
  | 94 => ⟨S64x64, .f32⟩
  | 95 => ⟨S64x64, .f32⟩
  | 96 => ⟨S2048x64, .f32⟩
  | 97 => ⟨S1x64x64, .f32⟩
  | 98 => ⟨S64x64, .f32⟩
  | 99 => ⟨S64x64, .f32⟩
  | 100 => ⟨S2048x64, .f32⟩
  | 101 => ⟨S2048x64, .f32⟩
  | 102 => ⟨S1x64, .f32⟩
  | 103 => ⟨S64, .f32⟩
  | 104 => ⟨S1x64, .f32⟩
  | 105 => ⟨S2048x64, .f32⟩
  | 106 => ⟨S2048x64, .f32⟩
  | 107 => ⟨S1x64x64, .f32⟩
  | 108 => ⟨S64x64, .f32⟩
  | 109 => ⟨S64x64, .f32⟩
  | 110 => ⟨S2048x64, .f32⟩
  | 111 => ⟨S1x64x64, .f32⟩
  | 112 => ⟨S64x64, .f32⟩
  | 113 => ⟨S64x64, .f32⟩
  | 114 => ⟨S2048x64, .f32⟩
  | 115 => ⟨S2048x64, .f32⟩
  | 116 => ⟨S1x64, .f32⟩
  | 117 => ⟨S64, .f32⟩
  | 118 => ⟨S1x64, .f32⟩
  | 119 => ⟨S2048x64, .f32⟩
  | 120 => ⟨S2048x64, .f32⟩
  | 121 => ⟨S2048x64, .f32⟩
  | 122 => ⟨S2048x64, .f32⟩
  | 123 => ⟨S2048x64, .f32⟩
  | 124 => ⟨S_, .f32⟩
  | 125 => ⟨S2048x64, .f32⟩
  | 126 => ⟨S2048x64, .f32⟩
  | 127 => ⟨S_, .f32⟩
  | _ => ⟨S2048x32, .f32⟩

abbrev hbmTy0_2 (i : Nat) : BufTy := match i % 128 with
  | 0 => ⟨S2048x64, .f32⟩
  | 1 => ⟨S2048x64, .f32⟩
  | 2 => ⟨S2048x64, .f32⟩
  | 3 => ⟨S1x96x64, .f32⟩
  | 4 => ⟨S96x64, .f32⟩
  | 5 => ⟨S64x96, .f32⟩
  | 6 => ⟨S2048x96, .f32⟩
  | 7 => ⟨S2048x96, .f32⟩
  | 8 => ⟨S1x96, .f32⟩
  | 9 => ⟨S96, .f32⟩
  | 10 => ⟨S1x96, .f32⟩
  | 11 => ⟨S2048x96, .f32⟩
  | 12 => ⟨S2048x96, .f32⟩
  | 13 => ⟨S1x64x64, .f32⟩
  | 14 => ⟨S64x64, .f32⟩
  | 15 => ⟨S64x64, .f32⟩
  | 16 => ⟨S2048x64, .f32⟩
  | 17 => ⟨S1x64, .f32⟩
  | 18 => ⟨S64, .f32⟩
  | 19 => ⟨S1x64, .f32⟩
  | 20 => ⟨S2048x64, .f32⟩
  | 21 => ⟨S2048x64, .f32⟩
  | 22 => ⟨S2048x64x7, .f32⟩
  | 23 => ⟨S2048x64x1, .f32⟩
  | 24 => ⟨S_, .f32⟩
  | 25 => ⟨S2048x64, .f32⟩
  | 26 => ⟨S2048x64, .f32⟩
  | 27 => ⟨S2048x64, .f32⟩
  | 28 => ⟨S2048x64x1, .f32⟩
  | 29 => ⟨S2048x64, .f32⟩
  | 30 => ⟨S1x64x64, .f32⟩
  | 31 => ⟨S64x64, .f32⟩
  | 32 => ⟨S64x64, .f32⟩
  | 33 => ⟨S2048x64, .f32⟩
  | 34 => ⟨S1x64x64, .f32⟩
  | 35 => ⟨S64x64, .f32⟩
  | 36 => ⟨S64x64, .f32⟩
  | 37 => ⟨S2048x64, .f32⟩
  | 38 => ⟨S2048x64, .f32⟩
  | 39 => ⟨S1x64, .f32⟩
  | 40 => ⟨S64, .f32⟩
  | 41 => ⟨S1x64, .f32⟩
  | 42 => ⟨S2048x64, .f32⟩
  | 43 => ⟨S2048x64, .f32⟩
  | 44 => ⟨S1x64x64, .f32⟩
  | 45 => ⟨S64x64, .f32⟩
  | 46 => ⟨S64x64, .f32⟩
  | 47 => ⟨S2048x64, .f32⟩
  | 48 => ⟨S1x64x64, .f32⟩
  | 49 => ⟨S64x64, .f32⟩
  | 50 => ⟨S64x64, .f32⟩
  | 51 => ⟨S2048x64, .f32⟩
  | 52 => ⟨S2048x64, .f32⟩
  | 53 => ⟨S1x64, .f32⟩
  | 54 => ⟨S64, .f32⟩
  | 55 => ⟨S1x64, .f32⟩
  | 56 => ⟨S2048x64, .f32⟩
  | 57 => ⟨S2048x64, .f32⟩
  | 58 => ⟨S2048x64, .f32⟩
  | 59 => ⟨S2048x64, .f32⟩
  | 60 => ⟨S2048x64, .f32⟩
  | 61 => ⟨S_, .f32⟩
  | 62 => ⟨S2048x64, .f32⟩
  | 63 => ⟨S2048x64, .f32⟩
  | 64 => ⟨S_, .f32⟩
  | 65 => ⟨S2048x64, .f32⟩
  | 66 => ⟨S2048x64, .f32⟩
  | 67 => ⟨S2048x64, .f32⟩
  | 68 => ⟨S1x96x64, .f32⟩
  | 69 => ⟨S96x64, .f32⟩
  | 70 => ⟨S64x96, .f32⟩
  | 71 => ⟨S2048x96, .f32⟩
  | 72 => ⟨S2048x96, .f32⟩
  | 73 => ⟨S1x96, .f32⟩
  | 74 => ⟨S96, .f32⟩
  | 75 => ⟨S1x96, .f32⟩
  | 76 => ⟨S2048x96, .f32⟩
  | 77 => ⟨S2048x96, .f32⟩
  | 78 => ⟨S1x64x64, .f32⟩
  | 79 => ⟨S64x64, .f32⟩
  | 80 => ⟨S64x64, .f32⟩
  | 81 => ⟨S2048x64, .f32⟩
  | 82 => ⟨S1x64, .f32⟩
  | 83 => ⟨S64, .f32⟩
  | 84 => ⟨S1x64, .f32⟩
  | 85 => ⟨S2048x64, .f32⟩
  | 86 => ⟨S2048x64, .f32⟩
  | 87 => ⟨S2048x64x15, .f32⟩
  | 88 => ⟨S2048x64x1, .f32⟩
  | 89 => ⟨S_, .f32⟩
  | 90 => ⟨S2048x64, .f32⟩
  | 91 => ⟨S2048x64, .f32⟩
  | 92 => ⟨S2048x64, .f32⟩
  | 93 => ⟨S2048x64x1, .f32⟩
  | 94 => ⟨S2048x64, .f32⟩
  | 95 => ⟨S1x64x64, .f32⟩
  | 96 => ⟨S64x64, .f32⟩
  | 97 => ⟨S64x64, .f32⟩
  | 98 => ⟨S2048x64, .f32⟩
  | 99 => ⟨S1x64x64, .f32⟩
  | 100 => ⟨S64x64, .f32⟩
  | 101 => ⟨S64x64, .f32⟩
  | 102 => ⟨S2048x64, .f32⟩
  | 103 => ⟨S2048x64, .f32⟩
  | 104 => ⟨S1x64, .f32⟩
  | 105 => ⟨S64, .f32⟩
  | 106 => ⟨S1x64, .f32⟩
  | 107 => ⟨S2048x64, .f32⟩
  | 108 => ⟨S2048x64, .f32⟩
  | 109 => ⟨S1x64x64, .f32⟩
  | 110 => ⟨S64x64, .f32⟩
  | 111 => ⟨S64x64, .f32⟩
  | 112 => ⟨S2048x64, .f32⟩
  | 113 => ⟨S1x64x64, .f32⟩
  | 114 => ⟨S64x64, .f32⟩
  | 115 => ⟨S64x64, .f32⟩
  | 116 => ⟨S2048x64, .f32⟩
  | 117 => ⟨S2048x64, .f32⟩
  | 118 => ⟨S1x64, .f32⟩
  | 119 => ⟨S64, .f32⟩
  | 120 => ⟨S1x64, .f32⟩
  | 121 => ⟨S2048x64, .f32⟩
  | 122 => ⟨S2048x64, .f32⟩
  | 123 => ⟨S2048x64, .f32⟩
  | 124 => ⟨S2048x64, .f32⟩
  | 125 => ⟨S2048x64, .f32⟩
  | 126 => ⟨S_, .f32⟩
  | 127 => ⟨S2048x64, .f32⟩
  | _ => ⟨S2048x32, .f32⟩

abbrev hbmTy0_3 (i : Nat) : BufTy := match i % 128 with
  | 0 => ⟨S2048x64, .f32⟩
  | 1 => ⟨S_, .f32⟩
  | 2 => ⟨S2048x64, .f32⟩
  | 3 => ⟨S2048x64, .f32⟩
  | 4 => ⟨S2048x64, .f32⟩
  | 5 => ⟨S1x96x64, .f32⟩
  | 6 => ⟨S96x64, .f32⟩
  | 7 => ⟨S64x96, .f32⟩
  | 8 => ⟨S2048x96, .f32⟩
  | 9 => ⟨S2048x96, .f32⟩
  | 10 => ⟨S1x96, .f32⟩
  | 11 => ⟨S96, .f32⟩
  | 12 => ⟨S1x96, .f32⟩
  | 13 => ⟨S2048x96, .f32⟩
  | 14 => ⟨S2048x96, .f32⟩
  | 15 => ⟨S1x64x64, .f32⟩
  | 16 => ⟨S64x64, .f32⟩
  | 17 => ⟨S64x64, .f32⟩
  | 18 => ⟨S2048x64, .f32⟩
  | 19 => ⟨S1x64, .f32⟩
  | 20 => ⟨S64, .f32⟩
  | 21 => ⟨S1x64, .f32⟩
  | 22 => ⟨S2048x64, .f32⟩
  | 23 => ⟨S2048x64, .f32⟩
  | 24 => ⟨S2048x64x31, .f32⟩
  | 25 => ⟨S2048x64x1, .f32⟩
  | 26 => ⟨S_, .f32⟩
  | 27 => ⟨S2048x64, .f32⟩
  | 28 => ⟨S2048x64, .f32⟩
  | 29 => ⟨S2048x64, .f32⟩
  | 30 => ⟨S2048x64x1, .f32⟩
  | 31 => ⟨S2048x64, .f32⟩
  | 32 => ⟨S1x64x64, .f32⟩
  | 33 => ⟨S64x64, .f32⟩
  | 34 => ⟨S64x64, .f32⟩
  | 35 => ⟨S2048x64, .f32⟩
  | 36 => ⟨S1x64x64, .f32⟩
  | 37 => ⟨S64x64, .f32⟩
  | 38 => ⟨S64x64, .f32⟩
  | 39 => ⟨S2048x64, .f32⟩
  | 40 => ⟨S2048x64, .f32⟩
  | 41 => ⟨S1x64, .f32⟩
  | 42 => ⟨S64, .f32⟩
  | 43 => ⟨S1x64, .f32⟩
  | 44 => ⟨S2048x64, .f32⟩
  | 45 => ⟨S2048x64, .f32⟩
  | 46 => ⟨S1x64x64, .f32⟩
  | 47 => ⟨S64x64, .f32⟩
  | 48 => ⟨S64x64, .f32⟩
  | 49 => ⟨S2048x64, .f32⟩
  | 50 => ⟨S1x64x64, .f32⟩
  | 51 => ⟨S64x64, .f32⟩
  | 52 => ⟨S64x64, .f32⟩
  | 53 => ⟨S2048x64, .f32⟩
  | 54 => ⟨S2048x64, .f32⟩
  | 55 => ⟨S1x64, .f32⟩
  | 56 => ⟨S64, .f32⟩
  | 57 => ⟨S1x64, .f32⟩
  | 58 => ⟨S2048x64, .f32⟩
  | 59 => ⟨S2048x64, .f32⟩
  | 60 => ⟨S2048x64, .f32⟩
  | 61 => ⟨S2048x64, .f32⟩
  | 62 => ⟨S2048x64, .f32⟩
  | 63 => ⟨S_, .f32⟩
  | 64 => ⟨S2048x64, .f32⟩
  | 65 => ⟨S2048x64, .f32⟩
  | 66 => ⟨S_, .f32⟩
  | 67 => ⟨S2048x64, .f32⟩
  | 68 => ⟨S2048x64, .f32⟩
  | 69 => ⟨S2048x64, .f32⟩
  | 70 => ⟨S1x96x64, .f32⟩
  | 71 => ⟨S96x64, .f32⟩
  | 72 => ⟨S64x96, .f32⟩
  | 73 => ⟨S2048x96, .f32⟩
  | 74 => ⟨S2048x96, .f32⟩
  | 75 => ⟨S1x96, .f32⟩
  | 76 => ⟨S96, .f32⟩
  | 77 => ⟨S1x96, .f32⟩
  | 78 => ⟨S2048x96, .f32⟩
  | 79 => ⟨S2048x96, .f32⟩
  | 80 => ⟨S1x64x64, .f32⟩
  | 81 => ⟨S64x64, .f32⟩
  | 82 => ⟨S64x64, .f32⟩
  | 83 => ⟨S2048x64, .f32⟩
  | 84 => ⟨S1x64, .f32⟩
  | 85 => ⟨S64, .f32⟩
  | 86 => ⟨S1x64, .f32⟩
  | 87 => ⟨S2048x64, .f32⟩
  | 88 => ⟨S2048x64, .f32⟩
  | 89 => ⟨S2048x64x63, .f32⟩
  | 90 => ⟨S2048x64x1, .f32⟩
  | 91 => ⟨S_, .f32⟩
  | 92 => ⟨S2048x64, .f32⟩
  | 93 => ⟨S2048x64, .f32⟩
  | 94 => ⟨S2048x64, .f32⟩
  | 95 => ⟨S2048x64x1, .f32⟩
  | 96 => ⟨S2048x64, .f32⟩
  | 97 => ⟨S1x64x64, .f32⟩
  | 98 => ⟨S64x64, .f32⟩
  | 99 => ⟨S64x64, .f32⟩
  | 100 => ⟨S2048x64, .f32⟩
  | 101 => ⟨S1x64x64, .f32⟩
  | 102 => ⟨S64x64, .f32⟩
  | 103 => ⟨S64x64, .f32⟩
  | 104 => ⟨S2048x64, .f32⟩
  | 105 => ⟨S2048x64, .f32⟩
  | 106 => ⟨S1x64, .f32⟩
  | 107 => ⟨S64, .f32⟩
  | 108 => ⟨S1x64, .f32⟩
  | 109 => ⟨S2048x64, .f32⟩
  | 110 => ⟨S2048x64, .f32⟩
  | 111 => ⟨S1x64x64, .f32⟩
  | 112 => ⟨S64x64, .f32⟩
  | 113 => ⟨S64x64, .f32⟩
  | 114 => ⟨S2048x64, .f32⟩
  | 115 => ⟨S1x64x64, .f32⟩
  | 116 => ⟨S64x64, .f32⟩
  | 117 => ⟨S64x64, .f32⟩
  | 118 => ⟨S2048x64, .f32⟩
  | 119 => ⟨S2048x64, .f32⟩
  | 120 => ⟨S1x64, .f32⟩
  | 121 => ⟨S64, .f32⟩
  | 122 => ⟨S1x64, .f32⟩
  | 123 => ⟨S2048x64, .f32⟩
  | 124 => ⟨S2048x64, .f32⟩
  | 125 => ⟨S2048x64, .f32⟩
  | 126 => ⟨S2048x64, .f32⟩
  | 127 => ⟨S2048x64, .f32⟩
  | _ => ⟨S2048x32, .f32⟩

abbrev hbmTy0_4 (i : Nat) : BufTy := match i % 128 with
  | 0 => ⟨S_, .f32⟩
  | 1 => ⟨S2048x64, .f32⟩
  | 2 => ⟨S2048x64, .f32⟩
  | 3 => ⟨S_, .f32⟩
  | 4 => ⟨S2048x64, .f32⟩
  | 5 => ⟨S2048x64, .f32⟩
  | 6 => ⟨S2048x64, .f32⟩
  | 7 => ⟨S1x96x64, .f32⟩
  | 8 => ⟨S96x64, .f32⟩
  | 9 => ⟨S64x96, .f32⟩
  | 10 => ⟨S2048x96, .f32⟩
  | 11 => ⟨S2048x96, .f32⟩
  | 12 => ⟨S1x96, .f32⟩
  | 13 => ⟨S96, .f32⟩
  | 14 => ⟨S1x96, .f32⟩
  | 15 => ⟨S2048x96, .f32⟩
  | 16 => ⟨S2048x96, .f32⟩
  | 17 => ⟨S1x64x64, .f32⟩
  | 18 => ⟨S64x64, .f32⟩
  | 19 => ⟨S64x64, .f32⟩
  | 20 => ⟨S2048x64, .f32⟩
  | 21 => ⟨S1x64, .f32⟩
  | 22 => ⟨S64, .f32⟩
  | 23 => ⟨S1x64, .f32⟩
  | 24 => ⟨S2048x64, .f32⟩
  | 25 => ⟨S2048x64, .f32⟩
  | 26 => ⟨S2048x64x127, .f32⟩
  | 27 => ⟨S2048x64x1, .f32⟩
  | 28 => ⟨S_, .f32⟩
  | 29 => ⟨S2048x64, .f32⟩
  | 30 => ⟨S2048x64, .f32⟩
  | 31 => ⟨S2048x64, .f32⟩
  | 32 => ⟨S2048x64x1, .f32⟩
  | 33 => ⟨S2048x64, .f32⟩
  | 34 => ⟨S1x64x64, .f32⟩
  | 35 => ⟨S64x64, .f32⟩
  | 36 => ⟨S64x64, .f32⟩
  | 37 => ⟨S2048x64, .f32⟩
  | 38 => ⟨S1x64x64, .f32⟩
  | 39 => ⟨S64x64, .f32⟩
  | 40 => ⟨S64x64, .f32⟩
  | 41 => ⟨S2048x64, .f32⟩
  | 42 => ⟨S2048x64, .f32⟩
  | 43 => ⟨S1x64, .f32⟩
  | 44 => ⟨S64, .f32⟩
  | 45 => ⟨S1x64, .f32⟩
  | 46 => ⟨S2048x64, .f32⟩
  | 47 => ⟨S2048x64, .f32⟩
  | 48 => ⟨S1x64x64, .f32⟩
  | 49 => ⟨S64x64, .f32⟩
  | 50 => ⟨S64x64, .f32⟩
  | 51 => ⟨S2048x64, .f32⟩
  | 52 => ⟨S1x64x64, .f32⟩
  | 53 => ⟨S64x64, .f32⟩
  | 54 => ⟨S64x64, .f32⟩
  | 55 => ⟨S2048x64, .f32⟩
  | 56 => ⟨S2048x64, .f32⟩
  | 57 => ⟨S1x64, .f32⟩
  | 58 => ⟨S64, .f32⟩
  | 59 => ⟨S1x64, .f32⟩
  | 60 => ⟨S2048x64, .f32⟩
  | 61 => ⟨S2048x64, .f32⟩
  | 62 => ⟨S2048x64, .f32⟩
  | 63 => ⟨S2048x64, .f32⟩
  | 64 => ⟨S2048x64, .f32⟩
  | 65 => ⟨S_, .f32⟩
  | 66 => ⟨S2048x64, .f32⟩
  | 67 => ⟨S2048x64, .f32⟩
  | 68 => ⟨S_, .f32⟩
  | 69 => ⟨S2048x64, .f32⟩
  | 70 => ⟨S2048x64, .f32⟩
  | 71 => ⟨S2048x64, .f32⟩
  | 72 => ⟨S1x96x64, .f32⟩
  | 73 => ⟨S96x64, .f32⟩
  | 74 => ⟨S64x96, .f32⟩
  | 75 => ⟨S2048x96, .f32⟩
  | 76 => ⟨S2048x96, .f32⟩
  | 77 => ⟨S1x96, .f32⟩
  | 78 => ⟨S96, .f32⟩
  | 79 => ⟨S1x96, .f32⟩
  | 80 => ⟨S2048x96, .f32⟩
  | 81 => ⟨S2048x96, .f32⟩
  | 82 => ⟨S1x64x64, .f32⟩
  | 83 => ⟨S64x64, .f32⟩
  | 84 => ⟨S64x64, .f32⟩
  | 85 => ⟨S2048x64, .f32⟩
  | 86 => ⟨S1x64, .f32⟩
  | 87 => ⟨S64, .f32⟩
  | 88 => ⟨S1x64, .f32⟩
  | 89 => ⟨S2048x64, .f32⟩
  | 90 => ⟨S2048x64, .f32⟩
  | 91 => ⟨S2048x64x255, .f32⟩
  | 92 => ⟨S2048x64x1, .f32⟩
  | 93 => ⟨S_, .f32⟩
  | 94 => ⟨S2048x64, .f32⟩
  | 95 => ⟨S2048x64, .f32⟩
  | 96 => ⟨S2048x64, .f32⟩
  | 97 => ⟨S2048x64x1, .f32⟩
  | 98 => ⟨S2048x64, .f32⟩
  | 99 => ⟨S1x64x64, .f32⟩
  | 100 => ⟨S64x64, .f32⟩
  | 101 => ⟨S64x64, .f32⟩
  | 102 => ⟨S2048x64, .f32⟩
  | 103 => ⟨S1x64x64, .f32⟩
  | 104 => ⟨S64x64, .f32⟩
  | 105 => ⟨S64x64, .f32⟩
  | 106 => ⟨S2048x64, .f32⟩
  | 107 => ⟨S2048x64, .f32⟩
  | 108 => ⟨S1x64, .f32⟩
  | 109 => ⟨S64, .f32⟩
  | 110 => ⟨S1x64, .f32⟩
  | 111 => ⟨S2048x64, .f32⟩
  | 112 => ⟨S2048x64, .f32⟩
  | 113 => ⟨S1x64x64, .f32⟩
  | 114 => ⟨S64x64, .f32⟩
  | 115 => ⟨S64x64, .f32⟩
  | 116 => ⟨S2048x64, .f32⟩
  | 117 => ⟨S1x64x64, .f32⟩
  | 118 => ⟨S64x64, .f32⟩
  | 119 => ⟨S64x64, .f32⟩
  | 120 => ⟨S2048x64, .f32⟩
  | 121 => ⟨S2048x64, .f32⟩
  | 122 => ⟨S1x64, .f32⟩
  | 123 => ⟨S64, .f32⟩
  | 124 => ⟨S1x64, .f32⟩
  | 125 => ⟨S2048x64, .f32⟩
  | 126 => ⟨S2048x64, .f32⟩
  | 127 => ⟨S2048x64, .f32⟩
  | _ => ⟨S2048x32, .f32⟩

abbrev hbmTy0_5 (i : Nat) : BufTy := match i % 128 with
  | 0 => ⟨S2048x64, .f32⟩
  | 1 => ⟨S2048x64, .f32⟩
  | 2 => ⟨S_, .f32⟩
  | 3 => ⟨S2048x64, .f32⟩
  | 4 => ⟨S2048x64, .f32⟩
  | 5 => ⟨S_, .f32⟩
  | 6 => ⟨S2048x64, .f32⟩
  | 7 => ⟨S2048x64, .f32⟩
  | 8 => ⟨S2048x64, .f32⟩
  | 9 => ⟨S1x96x64, .f32⟩
  | 10 => ⟨S96x64, .f32⟩
  | 11 => ⟨S64x96, .f32⟩
  | 12 => ⟨S2048x96, .f32⟩
  | 13 => ⟨S2048x96, .f32⟩
  | 14 => ⟨S1x96, .f32⟩
  | 15 => ⟨S96, .f32⟩
  | 16 => ⟨S1x96, .f32⟩
  | 17 => ⟨S2048x96, .f32⟩
  | 18 => ⟨S2048x96, .f32⟩
  | 19 => ⟨S1x64x64, .f32⟩
  | 20 => ⟨S64x64, .f32⟩
  | 21 => ⟨S64x64, .f32⟩
  | 22 => ⟨S2048x64, .f32⟩
  | 23 => ⟨S1x64, .f32⟩
  | 24 => ⟨S64, .f32⟩
  | 25 => ⟨S1x64, .f32⟩
  | 26 => ⟨S2048x64, .f32⟩
  | 27 => ⟨S2048x64, .f32⟩
  | 28 => ⟨S2048x64x511, .f32⟩
  | 29 => ⟨S2048x64x1, .f32⟩
  | 30 => ⟨S_, .f32⟩
  | 31 => ⟨S2048x64, .f32⟩
  | 32 => ⟨S2048x64, .f32⟩
  | 33 => ⟨S2048x64, .f32⟩
  | 34 => ⟨S2048x64x510, .f32⟩
  | 35 => ⟨S2048x64x513, .f32⟩
  | 36 => ⟨S2048x64x1023, .f32⟩
  | 37 => ⟨S_, .f32⟩
  | 38 => ⟨S2048x96, .f32⟩
  | 39 => ⟨S2048x96, .f32⟩
  | 40 => ⟨S96x96, .f32⟩
  | 41 => ⟨S2048x96, .f32⟩
  | 42 => ⟨S1x96, .f32⟩
  | 43 => ⟨S2048x96, .f32⟩
  | 44 => ⟨S2048x96, .f32⟩
  | 45 => ⟨S_, .f32⟩
  | 46 => ⟨S2048x96, .f32⟩
  | 47 => ⟨S2048x96, .f32⟩
  | 48 => ⟨S96x2, .f32⟩
  | 49 => ⟨S2048x2, .f32⟩
  | 50 => ⟨S1x2, .f32⟩
  | 51 => ⟨S2048x2, .f32⟩
  | 52 => ⟨S2048x2, .f32⟩
  | _ => ⟨S2048x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2048x32, .f32⟩

abbrev bufTy : (tb : Table) → Fin (tcTables nBuf tb) → BufTy
  | .hbm, ⟨i, _⟩ => hbmTy i
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_0 : Ref sig .tc := ⟨.hbm, 58, rfl⟩
abbrev main_v39 : Ref sig .tc := ⟨.hbm, 59, rfl⟩
abbrev main_v40 : Ref sig .tc := ⟨.hbm, 60, rfl⟩
abbrev main_cst_1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_2 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_3 : Ref sig .tc := ⟨.hbm, 122, rfl⟩
abbrev main_v100 : Ref sig .tc := ⟨.hbm, 123, rfl⟩
abbrev main_v101 : Ref sig .tc := ⟨.hbm, 124, rfl⟩
abbrev main_cst_4 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_5 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_cst_6 : Ref sig .tc := ⟨.hbm, 187, rfl⟩
abbrev main_v162 : Ref sig .tc := ⟨.hbm, 188, rfl⟩
abbrev main_v163 : Ref sig .tc := ⟨.hbm, 189, rfl⟩
abbrev main_cst_7 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_cst_8 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_cst_9 : Ref sig .tc := ⟨.hbm, 252, rfl⟩
abbrev main_v224 : Ref sig .tc := ⟨.hbm, 253, rfl⟩
abbrev main_v225 : Ref sig .tc := ⟨.hbm, 254, rfl⟩
abbrev main_cst_10 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_v239 : Ref sig .tc := ⟨.hbm, 269, rfl⟩
abbrev main_v240 : Ref sig .tc := ⟨.hbm, 270, rfl⟩
abbrev main_v241 : Ref sig .tc := ⟨.hbm, 271, rfl⟩
abbrev main_v242 : Ref sig .tc := ⟨.hbm, 272, rfl⟩
abbrev main_v243 : Ref sig .tc := ⟨.hbm, 273, rfl⟩
abbrev main_v244 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_v248 : Ref sig .tc := ⟨.hbm, 278, rfl⟩
abbrev main_v249 : Ref sig .tc := ⟨.hbm, 279, rfl⟩
abbrev main_cst_11 : Ref sig .tc := ⟨.hbm, 280, rfl⟩
abbrev main_v250 : Ref sig .tc := ⟨.hbm, 281, rfl⟩
abbrev main_v251 : Ref sig .tc := ⟨.hbm, 282, rfl⟩
abbrev main_v252 : Ref sig .tc := ⟨.hbm, 283, rfl⟩
abbrev main_v253 : Ref sig .tc := ⟨.hbm, 284, rfl⟩
abbrev main_v254 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_v280 : Ref sig .tc := ⟨.hbm, 311, rfl⟩
abbrev main_v281 : Ref sig .tc := ⟨.hbm, 312, rfl⟩
abbrev main_v282 : Ref sig .tc := ⟨.hbm, 313, rfl⟩
abbrev main_v283 : Ref sig .tc := ⟨.hbm, 314, rfl⟩
abbrev main_v284 : Ref sig .tc := ⟨.hbm, 315, rfl⟩
abbrev main_v285 : Ref sig .tc := ⟨.hbm, 316, rfl⟩
abbrev main_cst_12 : Ref sig .tc := ⟨.hbm, 317, rfl⟩
abbrev main_v286 : Ref sig .tc := ⟨.hbm, 318, rfl⟩
abbrev main_v287 : Ref sig .tc := ⟨.hbm, 319, rfl⟩
abbrev main_cst_13 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_v302 : Ref sig .tc := ⟨.hbm, 335, rfl⟩
abbrev main_v303 : Ref sig .tc := ⟨.hbm, 336, rfl⟩
abbrev main_v304 : Ref sig .tc := ⟨.hbm, 337, rfl⟩
abbrev main_v305 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_cst_14 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_v327 : Ref sig .tc := ⟨.hbm, 361, rfl⟩
abbrev main_v328 : Ref sig .tc := ⟨.hbm, 362, rfl⟩
abbrev main_v329 : Ref sig .tc := ⟨.hbm, 363, rfl⟩
abbrev main_v330 : Ref sig .tc := ⟨.hbm, 364, rfl⟩
abbrev main_v331 : Ref sig .tc := ⟨.hbm, 365, rfl⟩
abbrev main_v332 : Ref sig .tc := ⟨.hbm, 366, rfl⟩
abbrev main_v333 : Ref sig .tc := ⟨.hbm, 367, rfl⟩
abbrev main_v334 : Ref sig .tc := ⟨.hbm, 368, rfl⟩
abbrev main_v335 : Ref sig .tc := ⟨.hbm, 369, rfl⟩
abbrev main_v336 : Ref sig .tc := ⟨.hbm, 370, rfl⟩
abbrev main_v337 : Ref sig .tc := ⟨.hbm, 371, rfl⟩
abbrev main_v338 : Ref sig .tc := ⟨.hbm, 372, rfl⟩
abbrev main_v339 : Ref sig .tc := ⟨.hbm, 373, rfl⟩
abbrev main_v340 : Ref sig .tc := ⟨.hbm, 374, rfl⟩
abbrev main_v341 : Ref sig .tc := ⟨.hbm, 375, rfl⟩
abbrev main_v342 : Ref sig .tc := ⟨.hbm, 376, rfl⟩
abbrev main_v343 : Ref sig .tc := ⟨.hbm, 377, rfl⟩
abbrev main_v344 : Ref sig .tc := ⟨.hbm, 378, rfl⟩
abbrev main_v345 : Ref sig .tc := ⟨.hbm, 379, rfl⟩
abbrev main_v346 : Ref sig .tc := ⟨.hbm, 380, rfl⟩
abbrev main_v347 : Ref sig .tc := ⟨.hbm, 381, rfl⟩
abbrev main_cst_15 : Ref sig .tc := ⟨.hbm, 382, rfl⟩
abbrev main_v348 : Ref sig .tc := ⟨.hbm, 383, rfl⟩
abbrev main_v349 : Ref sig .tc := ⟨.hbm, 384, rfl⟩
abbrev main_cst_16 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_v363 : Ref sig .tc := ⟨.hbm, 399, rfl⟩
abbrev main_v364 : Ref sig .tc := ⟨.hbm, 400, rfl⟩
abbrev main_v365 : Ref sig .tc := ⟨.hbm, 401, rfl⟩
abbrev main_v366 : Ref sig .tc := ⟨.hbm, 402, rfl⟩
abbrev main_v367 : Ref sig .tc := ⟨.hbm, 403, rfl⟩
abbrev main_v368 : Ref sig .tc := ⟨.hbm, 404, rfl⟩
abbrev main_v369 : Ref sig .tc := ⟨.hbm, 405, rfl⟩
abbrev main_v370 : Ref sig .tc := ⟨.hbm, 406, rfl⟩
abbrev main_v371 : Ref sig .tc := ⟨.hbm, 407, rfl⟩
abbrev main_v372 : Ref sig .tc := ⟨.hbm, 408, rfl⟩
abbrev main_v373 : Ref sig .tc := ⟨.hbm, 409, rfl⟩
abbrev main_cst_17 : Ref sig .tc := ⟨.hbm, 410, rfl⟩
abbrev main_v374 : Ref sig .tc := ⟨.hbm, 411, rfl⟩
abbrev main_v375 : Ref sig .tc := ⟨.hbm, 412, rfl⟩
abbrev main_v376 : Ref sig .tc := ⟨.hbm, 413, rfl⟩
abbrev main_v377 : Ref sig .tc := ⟨.hbm, 414, rfl⟩
abbrev main_v378 : Ref sig .tc := ⟨.hbm, 415, rfl⟩
abbrev main_v379 : Ref sig .tc := ⟨.hbm, 416, rfl⟩
abbrev main_v380 : Ref sig .tc := ⟨.hbm, 417, rfl⟩
abbrev main_v381 : Ref sig .tc := ⟨.hbm, 418, rfl⟩
abbrev main_v382 : Ref sig .tc := ⟨.hbm, 419, rfl⟩
abbrev main_v383 : Ref sig .tc := ⟨.hbm, 420, rfl⟩
abbrev main_v384 : Ref sig .tc := ⟨.hbm, 421, rfl⟩
abbrev main_v385 : Ref sig .tc := ⟨.hbm, 422, rfl⟩
abbrev main_v386 : Ref sig .tc := ⟨.hbm, 423, rfl⟩
abbrev main_v387 : Ref sig .tc := ⟨.hbm, 424, rfl⟩
abbrev main_v388 : Ref sig .tc := ⟨.hbm, 425, rfl⟩
abbrev main_v389 : Ref sig .tc := ⟨.hbm, 426, rfl⟩
abbrev main_v390 : Ref sig .tc := ⟨.hbm, 427, rfl⟩
abbrev main_v391 : Ref sig .tc := ⟨.hbm, 428, rfl⟩
abbrev main_v392 : Ref sig .tc := ⟨.hbm, 429, rfl⟩
abbrev main_v393 : Ref sig .tc := ⟨.hbm, 430, rfl⟩
abbrev main_v394 : Ref sig .tc := ⟨.hbm, 431, rfl⟩
abbrev main_v395 : Ref sig .tc := ⟨.hbm, 432, rfl⟩
abbrev main_v396 : Ref sig .tc := ⟨.hbm, 433, rfl⟩
abbrev main_v397 : Ref sig .tc := ⟨.hbm, 434, rfl⟩
abbrev main_v398 : Ref sig .tc := ⟨.hbm, 435, rfl⟩
abbrev main_v399 : Ref sig .tc := ⟨.hbm, 436, rfl⟩
abbrev main_v400 : Ref sig .tc := ⟨.hbm, 437, rfl⟩
abbrev main_v401 : Ref sig .tc := ⟨.hbm, 438, rfl⟩
abbrev main_v402 : Ref sig .tc := ⟨.hbm, 439, rfl⟩
abbrev main_v403 : Ref sig .tc := ⟨.hbm, 440, rfl⟩
abbrev main_v404 : Ref sig .tc := ⟨.hbm, 441, rfl⟩
abbrev main_v405 : Ref sig .tc := ⟨.hbm, 442, rfl⟩
abbrev main_v406 : Ref sig .tc := ⟨.hbm, 443, rfl⟩
abbrev main_v407 : Ref sig .tc := ⟨.hbm, 444, rfl⟩
abbrev main_v408 : Ref sig .tc := ⟨.hbm, 445, rfl⟩
abbrev main_v409 : Ref sig .tc := ⟨.hbm, 446, rfl⟩
abbrev main_cst_18 : Ref sig .tc := ⟨.hbm, 447, rfl⟩
abbrev main_v410 : Ref sig .tc := ⟨.hbm, 448, rfl⟩
abbrev main_v411 : Ref sig .tc := ⟨.hbm, 449, rfl⟩
abbrev main_cst_19 : Ref sig .tc := ⟨.hbm, 450, rfl⟩
abbrev main_v412 : Ref sig .tc := ⟨.hbm, 451, rfl⟩
abbrev main_v413 : Ref sig .tc := ⟨.hbm, 452, rfl⟩
abbrev main_v414 : Ref sig .tc := ⟨.hbm, 453, rfl⟩
abbrev main_v415 : Ref sig .tc := ⟨.hbm, 454, rfl⟩
abbrev main_v416 : Ref sig .tc := ⟨.hbm, 455, rfl⟩
abbrev main_v417 : Ref sig .tc := ⟨.hbm, 456, rfl⟩
abbrev main_v418 : Ref sig .tc := ⟨.hbm, 457, rfl⟩
abbrev main_v419 : Ref sig .tc := ⟨.hbm, 458, rfl⟩
abbrev main_v420 : Ref sig .tc := ⟨.hbm, 459, rfl⟩
abbrev main_v421 : Ref sig .tc := ⟨.hbm, 460, rfl⟩
abbrev main_v422 : Ref sig .tc := ⟨.hbm, 461, rfl⟩
abbrev main_v423 : Ref sig .tc := ⟨.hbm, 462, rfl⟩
abbrev main_v424 : Ref sig .tc := ⟨.hbm, 463, rfl⟩
abbrev main_v425 : Ref sig .tc := ⟨.hbm, 464, rfl⟩
abbrev main_v426 : Ref sig .tc := ⟨.hbm, 465, rfl⟩
abbrev main_v427 : Ref sig .tc := ⟨.hbm, 466, rfl⟩
abbrev main_v428 : Ref sig .tc := ⟨.hbm, 467, rfl⟩
abbrev main_v429 : Ref sig .tc := ⟨.hbm, 468, rfl⟩
abbrev main_v430 : Ref sig .tc := ⟨.hbm, 469, rfl⟩
abbrev main_v431 : Ref sig .tc := ⟨.hbm, 470, rfl⟩
abbrev main_v432 : Ref sig .tc := ⟨.hbm, 471, rfl⟩
abbrev main_v433 : Ref sig .tc := ⟨.hbm, 472, rfl⟩
abbrev main_v434 : Ref sig .tc := ⟨.hbm, 473, rfl⟩
abbrev main_v435 : Ref sig .tc := ⟨.hbm, 474, rfl⟩
abbrev main_cst_20 : Ref sig .tc := ⟨.hbm, 475, rfl⟩
abbrev main_v436 : Ref sig .tc := ⟨.hbm, 476, rfl⟩
abbrev main_v437 : Ref sig .tc := ⟨.hbm, 477, rfl⟩
abbrev main_v438 : Ref sig .tc := ⟨.hbm, 478, rfl⟩
abbrev main_v439 : Ref sig .tc := ⟨.hbm, 479, rfl⟩
abbrev main_v440 : Ref sig .tc := ⟨.hbm, 480, rfl⟩
abbrev main_v441 : Ref sig .tc := ⟨.hbm, 481, rfl⟩
abbrev main_v442 : Ref sig .tc := ⟨.hbm, 482, rfl⟩
abbrev main_v443 : Ref sig .tc := ⟨.hbm, 483, rfl⟩
abbrev main_v444 : Ref sig .tc := ⟨.hbm, 484, rfl⟩
abbrev main_v445 : Ref sig .tc := ⟨.hbm, 485, rfl⟩
abbrev main_v446 : Ref sig .tc := ⟨.hbm, 486, rfl⟩
abbrev main_v447 : Ref sig .tc := ⟨.hbm, 487, rfl⟩
abbrev main_v448 : Ref sig .tc := ⟨.hbm, 488, rfl⟩
abbrev main_v449 : Ref sig .tc := ⟨.hbm, 489, rfl⟩
abbrev main_v450 : Ref sig .tc := ⟨.hbm, 490, rfl⟩
abbrev main_v451 : Ref sig .tc := ⟨.hbm, 491, rfl⟩
abbrev main_v452 : Ref sig .tc := ⟨.hbm, 492, rfl⟩
abbrev main_v453 : Ref sig .tc := ⟨.hbm, 493, rfl⟩
abbrev main_v454 : Ref sig .tc := ⟨.hbm, 494, rfl⟩
abbrev main_v455 : Ref sig .tc := ⟨.hbm, 495, rfl⟩
abbrev main_v456 : Ref sig .tc := ⟨.hbm, 496, rfl⟩
abbrev main_v457 : Ref sig .tc := ⟨.hbm, 497, rfl⟩
abbrev main_v458 : Ref sig .tc := ⟨.hbm, 498, rfl⟩
abbrev main_v459 : Ref sig .tc := ⟨.hbm, 499, rfl⟩
abbrev main_v460 : Ref sig .tc := ⟨.hbm, 500, rfl⟩
abbrev main_v461 : Ref sig .tc := ⟨.hbm, 501, rfl⟩
abbrev main_v462 : Ref sig .tc := ⟨.hbm, 502, rfl⟩
abbrev main_v463 : Ref sig .tc := ⟨.hbm, 503, rfl⟩
abbrev main_v464 : Ref sig .tc := ⟨.hbm, 504, rfl⟩
abbrev main_v465 : Ref sig .tc := ⟨.hbm, 505, rfl⟩
abbrev main_v466 : Ref sig .tc := ⟨.hbm, 506, rfl⟩
abbrev main_v467 : Ref sig .tc := ⟨.hbm, 507, rfl⟩
abbrev main_v468 : Ref sig .tc := ⟨.hbm, 508, rfl⟩
abbrev main_v469 : Ref sig .tc := ⟨.hbm, 509, rfl⟩
abbrev main_v470 : Ref sig .tc := ⟨.hbm, 510, rfl⟩
abbrev main_v471 : Ref sig .tc := ⟨.hbm, 511, rfl⟩
abbrev main_cst_21 : Ref sig .tc := ⟨.hbm, 512, rfl⟩
abbrev main_v472 : Ref sig .tc := ⟨.hbm, 513, rfl⟩
abbrev main_v473 : Ref sig .tc := ⟨.hbm, 514, rfl⟩
abbrev main_cst_22 : Ref sig .tc := ⟨.hbm, 515, rfl⟩
abbrev main_v474 : Ref sig .tc := ⟨.hbm, 516, rfl⟩
abbrev main_v475 : Ref sig .tc := ⟨.hbm, 517, rfl⟩
abbrev main_v476 : Ref sig .tc := ⟨.hbm, 518, rfl⟩
abbrev main_v477 : Ref sig .tc := ⟨.hbm, 519, rfl⟩
abbrev main_v478 : Ref sig .tc := ⟨.hbm, 520, rfl⟩
abbrev main_v479 : Ref sig .tc := ⟨.hbm, 521, rfl⟩
abbrev main_v480 : Ref sig .tc := ⟨.hbm, 522, rfl⟩
abbrev main_v481 : Ref sig .tc := ⟨.hbm, 523, rfl⟩
abbrev main_v482 : Ref sig .tc := ⟨.hbm, 524, rfl⟩
abbrev main_v483 : Ref sig .tc := ⟨.hbm, 525, rfl⟩
abbrev main_v484 : Ref sig .tc := ⟨.hbm, 526, rfl⟩
abbrev main_v485 : Ref sig .tc := ⟨.hbm, 527, rfl⟩
abbrev main_v486 : Ref sig .tc := ⟨.hbm, 528, rfl⟩
abbrev main_v487 : Ref sig .tc := ⟨.hbm, 529, rfl⟩
abbrev main_v488 : Ref sig .tc := ⟨.hbm, 530, rfl⟩
abbrev main_v489 : Ref sig .tc := ⟨.hbm, 531, rfl⟩
abbrev main_v490 : Ref sig .tc := ⟨.hbm, 532, rfl⟩
abbrev main_v491 : Ref sig .tc := ⟨.hbm, 533, rfl⟩
abbrev main_v492 : Ref sig .tc := ⟨.hbm, 534, rfl⟩
abbrev main_v493 : Ref sig .tc := ⟨.hbm, 535, rfl⟩
abbrev main_v494 : Ref sig .tc := ⟨.hbm, 536, rfl⟩
abbrev main_v495 : Ref sig .tc := ⟨.hbm, 537, rfl⟩
abbrev main_v496 : Ref sig .tc := ⟨.hbm, 538, rfl⟩
abbrev main_v497 : Ref sig .tc := ⟨.hbm, 539, rfl⟩
abbrev main_cst_23 : Ref sig .tc := ⟨.hbm, 540, rfl⟩
abbrev main_v498 : Ref sig .tc := ⟨.hbm, 541, rfl⟩
abbrev main_v499 : Ref sig .tc := ⟨.hbm, 542, rfl⟩
abbrev main_v500 : Ref sig .tc := ⟨.hbm, 543, rfl⟩
abbrev main_v501 : Ref sig .tc := ⟨.hbm, 544, rfl⟩
abbrev main_v502 : Ref sig .tc := ⟨.hbm, 545, rfl⟩
abbrev main_v503 : Ref sig .tc := ⟨.hbm, 546, rfl⟩
abbrev main_v504 : Ref sig .tc := ⟨.hbm, 547, rfl⟩
abbrev main_v505 : Ref sig .tc := ⟨.hbm, 548, rfl⟩
abbrev main_v506 : Ref sig .tc := ⟨.hbm, 549, rfl⟩
abbrev main_v507 : Ref sig .tc := ⟨.hbm, 550, rfl⟩
abbrev main_v508 : Ref sig .tc := ⟨.hbm, 551, rfl⟩
abbrev main_v509 : Ref sig .tc := ⟨.hbm, 552, rfl⟩
abbrev main_v510 : Ref sig .tc := ⟨.hbm, 553, rfl⟩
abbrev main_v511 : Ref sig .tc := ⟨.hbm, 554, rfl⟩
abbrev main_v512 : Ref sig .tc := ⟨.hbm, 555, rfl⟩
abbrev main_v513 : Ref sig .tc := ⟨.hbm, 556, rfl⟩
abbrev main_v514 : Ref sig .tc := ⟨.hbm, 557, rfl⟩
abbrev main_v515 : Ref sig .tc := ⟨.hbm, 558, rfl⟩
abbrev main_v516 : Ref sig .tc := ⟨.hbm, 559, rfl⟩
abbrev main_v517 : Ref sig .tc := ⟨.hbm, 560, rfl⟩
abbrev main_v518 : Ref sig .tc := ⟨.hbm, 561, rfl⟩
abbrev main_v519 : Ref sig .tc := ⟨.hbm, 562, rfl⟩
abbrev main_v520 : Ref sig .tc := ⟨.hbm, 563, rfl⟩
abbrev main_v521 : Ref sig .tc := ⟨.hbm, 564, rfl⟩
abbrev main_v522 : Ref sig .tc := ⟨.hbm, 565, rfl⟩
abbrev main_v523 : Ref sig .tc := ⟨.hbm, 566, rfl⟩
abbrev main_v524 : Ref sig .tc := ⟨.hbm, 567, rfl⟩
abbrev main_v525 : Ref sig .tc := ⟨.hbm, 568, rfl⟩
abbrev main_v526 : Ref sig .tc := ⟨.hbm, 569, rfl⟩
abbrev main_v527 : Ref sig .tc := ⟨.hbm, 570, rfl⟩
abbrev main_v528 : Ref sig .tc := ⟨.hbm, 571, rfl⟩
abbrev main_v529 : Ref sig .tc := ⟨.hbm, 572, rfl⟩
abbrev main_v530 : Ref sig .tc := ⟨.hbm, 573, rfl⟩
abbrev main_v531 : Ref sig .tc := ⟨.hbm, 574, rfl⟩
abbrev main_v532 : Ref sig .tc := ⟨.hbm, 575, rfl⟩
abbrev main_v533 : Ref sig .tc := ⟨.hbm, 576, rfl⟩
abbrev main_cst_24 : Ref sig .tc := ⟨.hbm, 577, rfl⟩
abbrev main_v534 : Ref sig .tc := ⟨.hbm, 578, rfl⟩
abbrev main_v535 : Ref sig .tc := ⟨.hbm, 579, rfl⟩
abbrev main_cst_25 : Ref sig .tc := ⟨.hbm, 580, rfl⟩
abbrev main_v536 : Ref sig .tc := ⟨.hbm, 581, rfl⟩
abbrev main_v537 : Ref sig .tc := ⟨.hbm, 582, rfl⟩
abbrev main_v538 : Ref sig .tc := ⟨.hbm, 583, rfl⟩
abbrev main_v539 : Ref sig .tc := ⟨.hbm, 584, rfl⟩
abbrev main_v540 : Ref sig .tc := ⟨.hbm, 585, rfl⟩
abbrev main_v541 : Ref sig .tc := ⟨.hbm, 586, rfl⟩
abbrev main_v542 : Ref sig .tc := ⟨.hbm, 587, rfl⟩
abbrev main_v543 : Ref sig .tc := ⟨.hbm, 588, rfl⟩
abbrev main_v544 : Ref sig .tc := ⟨.hbm, 589, rfl⟩
abbrev main_v545 : Ref sig .tc := ⟨.hbm, 590, rfl⟩
abbrev main_v546 : Ref sig .tc := ⟨.hbm, 591, rfl⟩
abbrev main_v547 : Ref sig .tc := ⟨.hbm, 592, rfl⟩
abbrev main_v548 : Ref sig .tc := ⟨.hbm, 593, rfl⟩
abbrev main_v549 : Ref sig .tc := ⟨.hbm, 594, rfl⟩
abbrev main_v550 : Ref sig .tc := ⟨.hbm, 595, rfl⟩
abbrev main_v551 : Ref sig .tc := ⟨.hbm, 596, rfl⟩
abbrev main_v552 : Ref sig .tc := ⟨.hbm, 597, rfl⟩
abbrev main_v553 : Ref sig .tc := ⟨.hbm, 598, rfl⟩
abbrev main_v554 : Ref sig .tc := ⟨.hbm, 599, rfl⟩
abbrev main_v555 : Ref sig .tc := ⟨.hbm, 600, rfl⟩
abbrev main_v556 : Ref sig .tc := ⟨.hbm, 601, rfl⟩
abbrev main_v557 : Ref sig .tc := ⟨.hbm, 602, rfl⟩
abbrev main_v558 : Ref sig .tc := ⟨.hbm, 603, rfl⟩
abbrev main_v559 : Ref sig .tc := ⟨.hbm, 604, rfl⟩
abbrev main_cst_26 : Ref sig .tc := ⟨.hbm, 605, rfl⟩
abbrev main_v560 : Ref sig .tc := ⟨.hbm, 606, rfl⟩
abbrev main_v561 : Ref sig .tc := ⟨.hbm, 607, rfl⟩
abbrev main_v562 : Ref sig .tc := ⟨.hbm, 608, rfl⟩
abbrev main_v563 : Ref sig .tc := ⟨.hbm, 609, rfl⟩
abbrev main_v564 : Ref sig .tc := ⟨.hbm, 610, rfl⟩
abbrev main_v565 : Ref sig .tc := ⟨.hbm, 611, rfl⟩
abbrev main_v566 : Ref sig .tc := ⟨.hbm, 612, rfl⟩
abbrev main_v567 : Ref sig .tc := ⟨.hbm, 613, rfl⟩
abbrev main_v568 : Ref sig .tc := ⟨.hbm, 614, rfl⟩
abbrev main_v569 : Ref sig .tc := ⟨.hbm, 615, rfl⟩
abbrev main_v570 : Ref sig .tc := ⟨.hbm, 616, rfl⟩
abbrev main_v571 : Ref sig .tc := ⟨.hbm, 617, rfl⟩
abbrev main_v572 : Ref sig .tc := ⟨.hbm, 618, rfl⟩
abbrev main_v573 : Ref sig .tc := ⟨.hbm, 619, rfl⟩
abbrev main_v574 : Ref sig .tc := ⟨.hbm, 620, rfl⟩
abbrev main_v575 : Ref sig .tc := ⟨.hbm, 621, rfl⟩
abbrev main_v576 : Ref sig .tc := ⟨.hbm, 622, rfl⟩
abbrev main_v577 : Ref sig .tc := ⟨.hbm, 623, rfl⟩
abbrev main_v578 : Ref sig .tc := ⟨.hbm, 624, rfl⟩
abbrev main_v579 : Ref sig .tc := ⟨.hbm, 625, rfl⟩
abbrev main_v580 : Ref sig .tc := ⟨.hbm, 626, rfl⟩
abbrev main_v581 : Ref sig .tc := ⟨.hbm, 627, rfl⟩
abbrev main_v582 : Ref sig .tc := ⟨.hbm, 628, rfl⟩
abbrev main_v583 : Ref sig .tc := ⟨.hbm, 629, rfl⟩
abbrev main_v584 : Ref sig .tc := ⟨.hbm, 630, rfl⟩
abbrev main_v585 : Ref sig .tc := ⟨.hbm, 631, rfl⟩
abbrev main_v586 : Ref sig .tc := ⟨.hbm, 632, rfl⟩
abbrev main_v587 : Ref sig .tc := ⟨.hbm, 633, rfl⟩
abbrev main_v588 : Ref sig .tc := ⟨.hbm, 634, rfl⟩
abbrev main_v589 : Ref sig .tc := ⟨.hbm, 635, rfl⟩
abbrev main_v590 : Ref sig .tc := ⟨.hbm, 636, rfl⟩
abbrev main_v591 : Ref sig .tc := ⟨.hbm, 637, rfl⟩
abbrev main_v592 : Ref sig .tc := ⟨.hbm, 638, rfl⟩
abbrev main_v593 : Ref sig .tc := ⟨.hbm, 639, rfl⟩
abbrev main_v594 : Ref sig .tc := ⟨.hbm, 640, rfl⟩
abbrev main_v595 : Ref sig .tc := ⟨.hbm, 641, rfl⟩
abbrev main_cst_27 : Ref sig .tc := ⟨.hbm, 642, rfl⟩
abbrev main_v596 : Ref sig .tc := ⟨.hbm, 643, rfl⟩
abbrev main_v597 : Ref sig .tc := ⟨.hbm, 644, rfl⟩
abbrev main_cst_28 : Ref sig .tc := ⟨.hbm, 645, rfl⟩
abbrev main_v598 : Ref sig .tc := ⟨.hbm, 646, rfl⟩
abbrev main_v599 : Ref sig .tc := ⟨.hbm, 647, rfl⟩
abbrev main_v600 : Ref sig .tc := ⟨.hbm, 648, rfl⟩
abbrev main_v601 : Ref sig .tc := ⟨.hbm, 649, rfl⟩
abbrev main_v602 : Ref sig .tc := ⟨.hbm, 650, rfl⟩
abbrev main_v603 : Ref sig .tc := ⟨.hbm, 651, rfl⟩
abbrev main_v604 : Ref sig .tc := ⟨.hbm, 652, rfl⟩
abbrev main_v605 : Ref sig .tc := ⟨.hbm, 653, rfl⟩
abbrev main_v606 : Ref sig .tc := ⟨.hbm, 654, rfl⟩
abbrev main_v607 : Ref sig .tc := ⟨.hbm, 655, rfl⟩
abbrev main_v608 : Ref sig .tc := ⟨.hbm, 656, rfl⟩
abbrev main_v609 : Ref sig .tc := ⟨.hbm, 657, rfl⟩
abbrev main_v610 : Ref sig .tc := ⟨.hbm, 658, rfl⟩
abbrev main_v611 : Ref sig .tc := ⟨.hbm, 659, rfl⟩
abbrev main_v612 : Ref sig .tc := ⟨.hbm, 660, rfl⟩
abbrev main_v613 : Ref sig .tc := ⟨.hbm, 661, rfl⟩
abbrev main_v614 : Ref sig .tc := ⟨.hbm, 662, rfl⟩
abbrev main_v615 : Ref sig .tc := ⟨.hbm, 663, rfl⟩
abbrev main_v616 : Ref sig .tc := ⟨.hbm, 664, rfl⟩
abbrev main_v617 : Ref sig .tc := ⟨.hbm, 665, rfl⟩
abbrev main_v618 : Ref sig .tc := ⟨.hbm, 666, rfl⟩
abbrev main_v619 : Ref sig .tc := ⟨.hbm, 667, rfl⟩
abbrev main_v620 : Ref sig .tc := ⟨.hbm, 668, rfl⟩
abbrev main_v621 : Ref sig .tc := ⟨.hbm, 669, rfl⟩
abbrev main_cst_29 : Ref sig .tc := ⟨.hbm, 670, rfl⟩
abbrev main_v622 : Ref sig .tc := ⟨.hbm, 671, rfl⟩
abbrev main_v623 : Ref sig .tc := ⟨.hbm, 672, rfl⟩
abbrev main_v624 : Ref sig .tc := ⟨.hbm, 673, rfl⟩
abbrev main_v625 : Ref sig .tc := ⟨.hbm, 674, rfl⟩
abbrev main_v626 : Ref sig .tc := ⟨.hbm, 675, rfl⟩
abbrev main_v627 : Ref sig .tc := ⟨.hbm, 676, rfl⟩
abbrev main_call0_cst : Ref sig .tc := ⟨.hbm, 677, rfl⟩
abbrev main_call0_v0 : Ref sig .tc := ⟨.hbm, 678, rfl⟩
abbrev main_v628 : Ref sig .tc := ⟨.hbm, 679, rfl⟩
abbrev main_v629 : Ref sig .tc := ⟨.hbm, 680, rfl⟩
abbrev main_v630 : Ref sig .tc := ⟨.hbm, 681, rfl⟩
abbrev main_v631 : Ref sig .tc := ⟨.hbm, 682, rfl⟩
abbrev main_v632 : Ref sig .tc := ⟨.hbm, 683, rfl⟩
abbrev main_v633 : Ref sig .tc := ⟨.hbm, 684, rfl⟩
abbrev main_call1_cst : Ref sig .tc := ⟨.hbm, 685, rfl⟩
abbrev main_call1_v0 : Ref sig .tc := ⟨.hbm, 686, rfl⟩
abbrev main_v634 : Ref sig .tc := ⟨.hbm, 687, rfl⟩
abbrev main_v635 : Ref sig .tc := ⟨.hbm, 688, rfl⟩
abbrev main_v636 : Ref sig .tc := ⟨.hbm, 689, rfl⟩
abbrev main_v637 : Ref sig .tc := ⟨.hbm, 690, rfl⟩
abbrev main_v638 : Ref sig .tc := ⟨.hbm, 691, rfl⟩
abbrev main_v639 : Ref sig .tc := ⟨.hbm, 692, rfl⟩

abbrev nD : Nat := 1
abbrev τ : Topo := Topo.v7x

variable {F : FTy → Type} [FloatOps F]

class Facts₀ : Prop where
  transposes_S64x32_S32x64_1_0 : S64x32.Transposes [1, 0] S32x64
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S2048x96 : S_.BroadcastsInDim S2048x96 (![] : Fin 0 → Fin S2048x96.rank)
  slices_S2048x64x1023_S2048x64x1_0_0_0 : S2048x64x1023.Slices ![0, 0, 0] S2048x64x1
  shapeCasts_S2048x64x1_S2048x64 : S2048x64x1.ShapeCasts S2048x64
  slices_S10x64x64_S1x64x64_0_0_0 : S10x64x64.Slices ![0, 0, 0] S1x64x64
  shapeCasts_S1x64x64_S64x64 : S1x64x64.ShapeCasts S64x64
  transposes_S64x64_S64x64_1_0 : S64x64.Transposes [1, 0] S64x64
  slices_S10x64_S1x64_0_0 : S10x64.Slices ![0, 0] S1x64
  shapeCasts_S1x64_S64 : S1x64.ShapeCasts S64
  bcast_S_S2048x64 : S_.BroadcastsInDim S2048x64 (![] : Fin 0 → Fin S2048x64.rank)
  slices_S10x96x64_S1x96x64_0_0_0 : S10x96x64.Slices ![0, 0, 0] S1x96x64
  shapeCasts_S1x96x64_S96x64 : S1x96x64.ShapeCasts S96x64
  transposes_S96x64_S64x96_1_0 : S96x64.Transposes [1, 0] S64x96
  slices_S10x96_S1x96_0_0 : S10x96.Slices ![0, 0] S1x96
  shapeCasts_S1x96_S96 : S1x96.ShapeCasts S96
  bcast_S96_S1x96_1 : S96.BroadcastsInDim S1x96 (![1] : Fin 1 → Fin S1x96.rank)
  bcast_S1x96_S2048x96_0_1 : S1x96.BroadcastsInDim S2048x96 (![0, 1] : Fin 2 → Fin S2048x96.rank)
  bcast_S2048x64_S2048x64x1_0_1 : S2048x64.BroadcastsInDim S2048x64x1 (![0, 1] : Fin 2 → Fin S2048x64x1.rank)
  slices_S2048x64x1023_S2048x64x1_0_0_1 : S2048x64x1023.Slices ![0, 0, 1] S2048x64x1
  slices_S10x64x64_S1x64x64_1_0_0 : S10x64x64.Slices ![1, 0, 0] S1x64x64
  slices_S10x64_S1x64_1_0 : S10x64.Slices ![1, 0] S1x64
  slices_S10x96x64_S1x96x64_1_0_0 : S10x96x64.Slices ![1, 0, 0] S1x96x64
  slices_S10x96_S1x96_1_0 : S10x96.Slices ![1, 0] S1x96
  slices_S2048x64x1023_S2048x64x1_0_0_2 : S2048x64x1023.Slices ![0, 0, 2] S2048x64x1
  slices_S2048x64x1023_S2048x64x1_0_0_3 : S2048x64x1023.Slices ![0, 0, 3] S2048x64x1
  slices_S10x64x64_S1x64x64_2_0_0 : S10x64x64.Slices ![2, 0, 0] S1x64x64
  slices_S10x64_S1x64_2_0 : S10x64.Slices ![2, 0] S1x64
  slices_S10x96x64_S1x96x64_2_0_0 : S10x96x64.Slices ![2, 0, 0] S1x96x64
  slices_S10x96_S1x96_2_0 : S10x96.Slices ![2, 0] S1x96
  slices_S2048x64x1023_S2048x64x3_0_0_4 : S2048x64x1023.Slices ![0, 0, 4] S2048x64x3
  slices_S2048x64x1023_S2048x64x1_0_0_7 : S2048x64x1023.Slices ![0, 0, 7] S2048x64x1
  slices_S10x64x64_S1x64x64_3_0_0 : S10x64x64.Slices ![3, 0, 0] S1x64x64
  slices_S10x64_S1x64_3_0 : S10x64.Slices ![3, 0] S1x64
  slices_S10x96x64_S1x96x64_3_0_0 : S10x96x64.Slices ![3, 0, 0] S1x96x64
  slices_S10x96_S1x96_3_0 : S10x96.Slices ![3, 0] S1x96
  slices_S2048x64x1023_S2048x64x7_0_0_8 : S2048x64x1023.Slices ![0, 0, 8] S2048x64x7
  slices_S2048x64x1023_S2048x64x1_0_0_15 : S2048x64x1023.Slices ![0, 0, 15] S2048x64x1
  slices_S10x64x64_S1x64x64_4_0_0 : S10x64x64.Slices ![4, 0, 0] S1x64x64
  slices_S10x64_S1x64_4_0 : S10x64.Slices ![4, 0] S1x64
  slices_S10x96x64_S1x96x64_4_0_0 : S10x96x64.Slices ![4, 0, 0] S1x96x64
  slices_S10x96_S1x96_4_0 : S10x96.Slices ![4, 0] S1x96
  slices_S2048x64x1023_S2048x64x15_0_0_16 : S2048x64x1023.Slices ![0, 0, 16] S2048x64x15
  slices_S2048x64x1023_S2048x64x1_0_0_31 : S2048x64x1023.Slices ![0, 0, 31] S2048x64x1
  slices_S10x64x64_S1x64x64_5_0_0 : S10x64x64.Slices ![5, 0, 0] S1x64x64
  slices_S10x64_S1x64_5_0 : S10x64.Slices ![5, 0] S1x64
  slices_S10x96x64_S1x96x64_5_0_0 : S10x96x64.Slices ![5, 0, 0] S1x96x64
  slices_S10x96_S1x96_5_0 : S10x96.Slices ![5, 0] S1x96
  slices_S2048x64x1023_S2048x64x31_0_0_32 : S2048x64x1023.Slices ![0, 0, 32] S2048x64x31
  slices_S2048x64x1023_S2048x64x1_0_0_63 : S2048x64x1023.Slices ![0, 0, 63] S2048x64x1
  slices_S10x64x64_S1x64x64_6_0_0 : S10x64x64.Slices ![6, 0, 0] S1x64x64
  slices_S10x64_S1x64_6_0 : S10x64.Slices ![6, 0] S1x64
  slices_S10x96x64_S1x96x64_6_0_0 : S10x96x64.Slices ![6, 0, 0] S1x96x64
  slices_S10x96_S1x96_6_0 : S10x96.Slices ![6, 0] S1x96
  slices_S2048x64x1023_S2048x64x63_0_0_64 : S2048x64x1023.Slices ![0, 0, 64] S2048x64x63
  slices_S2048x64x1023_S2048x64x1_0_0_127 : S2048x64x1023.Slices ![0, 0, 127] S2048x64x1
  slices_S10x64x64_S1x64x64_7_0_0 : S10x64x64.Slices ![7, 0, 0] S1x64x64
  slices_S10x64_S1x64_7_0 : S10x64.Slices ![7, 0] S1x64
  slices_S10x96x64_S1x96x64_7_0_0 : S10x96x64.Slices ![7, 0, 0] S1x96x64
  slices_S10x96_S1x96_7_0 : S10x96.Slices ![7, 0] S1x96
  slices_S2048x64x1023_S2048x64x127_0_0_128 : S2048x64x1023.Slices ![0, 0, 128] S2048x64x127
  slices_S2048x64x1023_S2048x64x1_0_0_255 : S2048x64x1023.Slices ![0, 0, 255] S2048x64x1
  slices_S10x64x64_S1x64x64_8_0_0 : S10x64x64.Slices ![8, 0, 0] S1x64x64
  slices_S10x64_S1x64_8_0 : S10x64.Slices ![8, 0] S1x64
  slices_S10x96x64_S1x96x64_8_0_0 : S10x96x64.Slices ![8, 0, 0] S1x96x64
  slices_S10x96_S1x96_8_0 : S10x96.Slices ![8, 0] S1x96
  slices_S2048x64x1023_S2048x64x255_0_0_256 : S2048x64x1023.Slices ![0, 0, 256] S2048x64x255
  slices_S2048x64x1023_S2048x64x1_0_0_511 : S2048x64x1023.Slices ![0, 0, 511] S2048x64x1
  slices_S10x64x64_S1x64x64_9_0_0 : S10x64x64.Slices ![9, 0, 0] S1x64x64
  slices_S10x64_S1x64_9_0 : S10x64.Slices ![9, 0] S1x64
  slices_S10x96x64_S1x96x64_9_0_0 : S10x96x64.Slices ![9, 0, 0] S1x96x64
  slices_S10x96_S1x96_9_0 : S10x96.Slices ![9, 0] S1x96
  slices_S2048x64x1023_S2048x64x511_0_0_512 : S2048x64x1023.Slices ![0, 0, 512] S2048x64x511
  concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 : Shape.Concatenates [S2048x64x1, S2048x64x1, S2048x64x1, S2048x64x3, S2048x64x1, S2048x64x7, S2048x64x1, S2048x64x15, S2048x64x1, S2048x64x31, S2048x64x1, S2048x64x63, S2048x64x1, S2048x64x127, S2048x64x1, S2048x64x255] S2048x64x510 2
  concatenates_S2048x64x1_S2048x64x511_S2048x64x1_S2048x64x513_d2 : Shape.Concatenates [S2048x64x1, S2048x64x511, S2048x64x1] S2048x64x513 2
  concatenates_S2048x64x510_S2048x64x513_S2048x64x1023_d2 : Shape.Concatenates [S2048x64x510, S2048x64x513] S2048x64x1023 2
  transposes_S96x96_S96x96_1_0 : S96x96.Transposes [1, 0] S96x96
  transposes_S2x96_S96x2_1_0 : S2x96.Transposes [1, 0] S96x2
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  dot_S2048x32_S32x64_S2048x64_1_0_0_1_n_n_wf : DotDims.WF S2048x32 S32x64 S2048x64 [1] [0] [0] [1] [] []
  dot_S2048x64_S64x64_S2048x64_1_0_0_1_n_n_wf : DotDims.WF S2048x64 S64x64 S2048x64 [1] [0] [0] [1] [] []
  dot_S2048x64_S64x96_S2048x96_1_0_0_1_n_n_wf : DotDims.WF S2048x64 S64x96 S2048x96 [1] [0] [0] [1] [] []
  dot_S2048x96_S96x96_S2048x96_1_0_0_1_n_n_wf : DotDims.WF S2048x96 S96x96 S2048x96 [1] [0] [0] [1] [] []
  dot_S2048x96_S96x2_S2048x2_1_0_0_1_n_n_wf : DotDims.WF S2048x96 S96x2 S2048x2 [1] [0] [0] [1] [] []

variable [Facts₀]

def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x96_S2048x96_1_0_0_1_n_n : DotDims S2048x64 S64x96 S2048x96 where
  lhsContracting := [1]
  rhsContracting := [0]
  lhsNonContracting := [0]
  rhsNonContracting := [1]
  lhsBatch := []
  rhsBatch := []
  wf := dot_S2048x64_S64x96_S2048x96_1_0_0_1_n_n_wf
def dot_S2048x96_S96x96_S2048x96_1_0_0_1_n_n : DotDims S2048x96 S96x96 S2048x96 where
  lhsContracting := [1]
  rhsContracting := [0]
  lhsNonContracting := [0]
  rhsNonContracting := [1]
  lhsBatch := []
  rhsBatch := []
  wf := dot_S2048x96_S96x96_S2048x96_1_0_0_1_n_n_wf
def dot_S2048x96_S96x2_S2048x2_1_0_0_1_n_n : DotDims S2048x96 S96x2 S2048x2 where
  lhsContracting := [1]
  rhsContracting := [0]
  lhsNonContracting := [0]
  rhsNonContracting := [1]
  lhsBatch := []
  rhsBatch := []
  wf := dot_S2048x96_S96x2_S2048x2_1_0_0_1_n_n_wf

class Facts : Prop extends Facts₀ where

variable [Facts]
-- ==== Proof.KChain.lean ====
/-
  The network's arithmetic on one row block, written once. A layer takes the block's running activation `cur`
  (`[32, 64]`) and running skip sum (`[32, 96]`), the delayed activation read from the ring buffer, and the layer's
  weights, and returns the next activation and skip sum:
    f = delayed · fw0ᵀ + cur · fw1ᵀ + fb,   g = delayed · gw0ᵀ + cur · gw1ᵀ + gb,   z = tanh f · sigmoid g,
    skip' = skip + z · swᵀ + sb,            cur' = cur + 0.3 · (z · rwᵀ + rb).
  The block's activation after `n` layers is the `n`-fold iterate, over any family of per-layer operands.
-/
import proofs.«172806_j69252052680869_2_alg».proof.Proof.Gen.KernelIdeal

noncomputable section

namespace Cert.KernelIdeal.Hand

open Idealize.ShloMosaic Cert.KernelIdeal Cert.KernelIdeal.Gen

variable {F : FTy → Type} [FloatOps F]

/-- One layer's operands on a row block: the delayed activation and the ten weight arrays. -/
structure LayerW (F : FTy → Type) where
  d : FVec F S32x64 .f32
  fw0 : FVec F S64x64 .f32
  fw1 : FVec F S64x64 .f32
  fb : FVec F S64 .f32
  gw0 : FVec F S64x64 .f32
  gw1 : FVec F S64x64 .f32
  gb : FVec F S64 .f32
  rw : FVec F S64x64 .f32
  rb : FVec F S64 .f32
  sw : FVec F S96x64 .f32
  sb : FVec F S96 .f32

/-- `a · Wᵀ` for a block of 64-wide rows and a `[64, 64]` weight matrix. -/
def mmT (a : FVec F S32x64 .f32) (W : FVec F S64x64 .f32) : FVec F S32x64 .f32 :=
  matmul dot_S32x64_S64x64_S32x64_1_0_0_1_n_n none a (transpose S64x64 [1, 0] W transposes_S64x64_p1_0_S64x64)
    (constant S32x64 .f32 0x00000000#32)

/-- A 64-entry bias laid over the block's rows. -/
def rowb64 (b : FVec F S64 .f32) : FVec F S32x64 .f32 :=
  broadcastTo S32x64 (shapeCast S1x64 b shapeCasts_S64_S1x64) broadcasts_S1x64_S32x64

/-- A 96-entry bias laid over the block's rows. -/
def rowb96 (b : FVec F S96 .f32) : FVec F S32x96 .f32 :=
  broadcastTo S32x96 (shapeCast S1x96 b shapeCasts_S96_S1x96) broadcasts_S1x96_S32x96

/-- The gated activation `tanh f · sigmoid g`. -/
def gate (w : LayerW F) (c : FVec F S32x64 .f32) : FVec F S32x64 .f32 :=
  mulf (tanh (addf (addf (mmT w.d w.fw0) (mmT c w.fw1)) (rowb64 w.fb)))
    (logistic (addf (addf (mmT w.d w.gw0) (mmT c w.gw1)) (rowb64 w.gb)))

/-- The skip sum after the layer. -/
def skipNext (w : LayerW F) (c : FVec F S32x64 .f32) (s : FVec F S32x96 .f32) : FVec F S32x96 .f32 :=
  addf (addf s (matmul dot_S32x64_S64x96_S32x96_1_0_0_1_n_n none (gate w c)
    (transpose S64x96 [1, 0] w.sw transposes_S96x64_p1_0_S64x96) (constant S32x96 .f32 0x00000000#32))) (rowb96 w.sb)

/-- The activation after the layer: the residual update with scale 0.3. -/
def curNext (w : LayerW F) (c : FVec F S32x64 .f32) : FVec F S32x64 .f32 :=
  addf c (mulf (broadcast S32x64 (Scalar.ofBits .f32 0x3E99999A#32)) (addf (mmT (gate w c) w.rw) (rowb64 w.rb)))

/-- The activation and skip sum after `n` layers, from the input projection and the zero skip sum. -/
def state (W : Nat → LayerW F) (c0 : FVec F S32x64 .f32) : Nat → FVec F S32x64 .f32 × FVec F S32x96 .f32
  | 0 => (c0, broadcast S32x96 (Scalar.ofBits .f32 0x00000000#32))
  | n + 1 => (curNext (W n) (state W c0 n).1, skipNext (W n) (state W c0 n).1 (state W c0 n).2)

/-- The input projection `x · inp_wᵀ + inp_b`. -/
def cur0 (x : FVec F S32x32 .f32) (w : FVec F S64x32 .f32) (b : FVec F S64 .f32) : FVec F S32x64 .f32 :=
  addf (matmul dot_S32x32_S32x64_S32x64_1_0_0_1_n_n none x (transpose S32x64 [1, 0] w transposes_S64x32_p1_0_S32x64)
    (constant S32x64 .f32 0x00000000#32)) (rowb64 b)

/-- The two-layer head on the final skip sum: `relu`, a `[96, 96]` layer, `relu`, a `[2, 96]` layer. -/
def head (s : FVec F S32x96 .f32) (w1 : FVec F S96x96 .f32) (b1 : FVec F S96 .f32) (w2 : FVec F S2x96 .f32)
    (b2 : FVec F S2 .f32) : FVec F S32x2 .f32 :=
  addf (matmul dot_S32x96_S96x2_S32x2_1_0_0_1_n_n none
      (maximumf (addf (matmul dot_S32x96_S96x96_S32x96_1_0_0_1_n_n none
          (maximumf s (broadcast S32x96 (Scalar.ofBits .f32 0x00000000#32)))
          (transpose S96x96 [1, 0] w1 transposes_S96x96_p1_0_S96x96) (constant S32x96 .f32 0x00000000#32)) (rowb96 b1))
        (broadcast S32x96 (Scalar.ofBits .f32 0x00000000#32)))
      (transpose S96x2 [1, 0] w2 transposes_S2x96_p1_0_S96x2) (constant S32x2 .f32 0x00000000#32))
    (broadcastTo S32x2 (shapeCast S1x2 b2 shapeCasts_S2_S1x2) broadcasts_S1x2_S32x2)

end Cert.KernelIdeal.Hand

end
-- ==== Proof.KBlock.lean ====
/-
  The row block the kernel body leaves in its two output buffers, in terms of the network's arithmetic (KChain): the
  `[32, 2]` output block is the head applied to the skip sum after ten layers; the `[32, 64, 1023]` ring-buffer block
  is the input block shifted left by one lane with lane `2^(i+1) - 2` overwritten by the activation before layer `i`.
  Layer `i` reads its delayed activation at lane `2^i - 1` of the input ring buffer and slab `i` of each weight stack.
-/
import proofs.«172806_j69252052680869_2_alg».proof.Proof.Gen.KernelIdeal.Frame
import proofs.«172806_j69252052680869_2_alg».proof.Proof.KChain
import Idealize.ShloMosaic.Lib.Pipeline.Value

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]

section Leaves

/-- Layer `i`'s operands as the body loads them: lane `off` of the ring-buffer block, slab `i` of each weight stack. -/
def leaves (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) (i off : Nat)
    (hd : ∀ a, (![0, 0, off] : Fin 3 → Nat) a + S32x64x1.size a ≤ S32x64x1023.size a)
    (hw : ∀ a, (![i, 0, 0] : Fin 3 → Nat) a + S1x64x64.size a ≤ S10x64x64.size a)
    (hb : ∀ a, (![i, 0] : Fin 2 → Nat) a + S1x64.size a ≤ S10x64.size a)
    (hsw : ∀ a, (![i, 0, 0] : Fin 3 → Nat) a + S1x96x64.size a ≤ S10x96x64.size a)
    (hsb : ∀ a, (![i, 0] : Fin 2 → Nat) a + S1x96.size a ≤ S10x96.size a) : LayerW F where
  d := shapeCast S32x64 (View.readAt (Elt F) arg2.view (Rect.unit (s := S32x64x1023) ![0, 0, off] S32x64x1.size hd).toLoadRect (harg2.unread x1) : Vec F S32x64x1 .f32) shapeCasts_S32x64x1_S32x64
  fw0 := shapeCast S64x64 (View.readAt (Elt F) arg5.view (Rect.unit (s := S10x64x64) ![i, 0, 0] S1x64x64.size hw).toLoadRect (harg5.unread x4) : Vec F S1x64x64 .f32) shapeCasts_S1x64x64_S64x64
  fw1 := shapeCast S64x64 (View.readAt (Elt F) arg6.view (Rect.unit (s := S10x64x64) ![i, 0, 0] S1x64x64.size hw).toLoadRect (harg6.unread x5) : Vec F S1x64x64 .f32) shapeCasts_S1x64x64_S64x64
  fb := shapeCast S64 (View.readAt (Elt F) arg7.view (Rect.unit (s := S10x64) ![i, 0] S1x64.size hb).toLoadRect (harg7.unread x6) : Vec F S1x64 .f32) shapeCasts_S1x64_S64
  gw0 := shapeCast S64x64 (View.readAt (Elt F) arg8.view (Rect.unit (s := S10x64x64) ![i, 0, 0] S1x64x64.size hw).toLoadRect (harg8.unread x7) : Vec F S1x64x64 .f32) shapeCasts_S1x64x64_S64x64
  gw1 := shapeCast S64x64 (View.readAt (Elt F) arg9.view (Rect.unit (s := S10x64x64) ![i, 0, 0] S1x64x64.size hw).toLoadRect (harg9.unread x8) : Vec F S1x64x64 .f32) shapeCasts_S1x64x64_S64x64
  gb := shapeCast S64 (View.readAt (Elt F) arg10.view (Rect.unit (s := S10x64) ![i, 0] S1x64.size hb).toLoadRect (harg10.unread x9) : Vec F S1x64 .f32) shapeCasts_S1x64_S64
  rw := shapeCast S64x64 (View.readAt (Elt F) arg11.view (Rect.unit (s := S10x64x64) ![i, 0, 0] S1x64x64.size hw).toLoadRect (harg11.unread x10) : Vec F S1x64x64 .f32) shapeCasts_S1x64x64_S64x64
  rb := shapeCast S64 (View.readAt (Elt F) arg12.view (Rect.unit (s := S10x64) ![i, 0] S1x64.size hb).toLoadRect (harg12.unread x11) : Vec F S1x64 .f32) shapeCasts_S1x64_S64
  sw := shapeCast S96x64 (View.readAt (Elt F) arg13.view (Rect.unit (s := S10x96x64) ![i, 0, 0] S1x96x64.size hsw).toLoadRect (harg13.unread x12) : Vec F S1x96x64 .f32) shapeCasts_S1x96x64_S96x64
  sb := shapeCast S96 (View.readAt (Elt F) arg14.view (Rect.unit (s := S10x96) ![i, 0] S1x96.size hsb).toLoadRect (harg14.unread x13) : Vec F S1x96 .f32) shapeCasts_S1x96_S96

/-- The ten layers' operands (any index past the last repeats layer 0: never read). -/
def kW (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : Nat → LayerW F
  | 0 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0 0 (by decide) (by decide) (by decide) (by decide) (by decide)
  | 1 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1 1 (by decide) (by decide) (by decide) (by decide) (by decide)
  | 2 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2 3 (by decide) (by decide) (by decide) (by decide) (by decide)
  | 3 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3 7 (by decide) (by decide) (by decide) (by decide) (by decide)
  | 4 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4 15 (by decide) (by decide) (by decide) (by decide) (by decide)
  | 5 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5 31 (by decide) (by decide) (by decide) (by decide) (by decide)
  | 6 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6 63 (by decide) (by decide) (by decide) (by decide) (by decide)
  | 7 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7 127 (by decide) (by decide) (by decide) (by decide) (by decide)
  | 8 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8 255 (by decide) (by decide) (by decide) (by decide) (by decide)
  | 9 => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9 511 (by decide) (by decide) (by decide) (by decide) (by decide)
  | _ => leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0 0 (by decide) (by decide) (by decide) (by decide) (by decide)

/-- The input projection of the block as the body loads it. -/
def kcur0 (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : FVec F S32x64 .f32 :=
  cur0 (View.readAt (Elt F) arg1.view (Rect.unit (s := S32x32) ![0, 0] S32x32.size inb_S32x32_S32x32_0_0).toLoadRect (harg1.unread x0) : Vec F S32x32 .f32)
    (View.readAt (Elt F) arg3.view (Rect.unit (s := S64x32) ![0, 0] S64x32.size inb_S64x32_S64x32_0_0).toLoadRect (harg3.unread x2) : Vec F S64x32 .f32)
    (View.readAt (Elt F) arg4.view (Rect.unit (s := S64) ![0] S64.size inb_S64_S64_0).toLoadRect (harg4.unread x3) : Vec F S64 .f32)

/-- The block's activation and skip sum after `n` layers. -/
def kstate (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) (n : Nat) : FVec F S32x64 .f32 × FVec F S32x96 .f32 :=
  state (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) (kcur0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) n

/-- The head over the operands the body loads. -/
def khead (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) (s : FVec F S32x96 .f32) : FVec F S32x2 .f32 :=
  head s
    (View.readAt (Elt F) arg15.view (Rect.unit (s := S96x96) ![0, 0] S96x96.size inb_S96x96_S96x96_0_0).toLoadRect (harg15.unread x14) : Vec F S96x96 .f32)
    (View.readAt (Elt F) arg16.view (Rect.unit (s := S96) ![0] S96.size inb_S96_S96_0).toLoadRect (harg16.unread x15) : Vec F S96 .f32)
    (View.readAt (Elt F) arg17.view (Rect.unit (s := S2x96) ![0, 0] S2x96.size inb_S2x96_S2x96_0_0).toLoadRect (harg17.unread x16) : Vec F S2x96 .f32)
    (View.readAt (Elt F) arg18.view (Rect.unit (s := S2) ![0] S2.size inb_S2_S2_0).toLoadRect (harg18.unread x17) : Vec F S2 .f32)

/-- The output block. -/
def kout (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : FVec F S32x2 .f32 :=
  khead arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 10).2

end Leaves

theorem hz2 : (![0, 0] : Fin 2 → Nat) = fun _ => 0 := funext fun a => by fin_cases a <;> rfl

end Cert.KernelIdeal.Hand

end
-- ==== Proof.KWords.lean ====
/-
  The body's run names its intermediate values; this module identifies them, one layer at a time, with the network's
  arithmetic on a row block (KChain) over the operands the body loads (KBlock): the activation and skip sum after layer
  `i + 1` are the layer's step applied to those after layer `i`, and the output block's payload is the head applied to
  the skip sum after the tenth layer. Each identity is an unfolding of one layer's operations; chained, they say the
  named values are the iterates of the layer step.
-/
import proofs.«172806_j69252052680869_2_alg».proof.Proof.Gen.KernelIdeal.Frame
import proofs.«172806_j69252052680869_2_alg».proof.Proof.KBlock

set_option maxRecDepth 16384

noncomputable section

namespace Cert.KernelIdeal.Hand

open Idealize.ShloMosaic Idealize.ShloMosaic.TcCoe Idealize.SL.Sem Cert.KernelIdeal Cert.KernelIdeal.Gen

variable {F : FTy → Type} [FloatOps F]

/-- The input projection. -/
theorem word_cur0 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : kernelRun0_A.sl.r c arg1 harg1 arg3 harg3 arg4 harg4 x0 x2 x3 = kcur0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 := rfl

set_option maxHeartbeats 2000000 in
/-- The activation after layer 0. -/
theorem word_cur1 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_10 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0) (kernelRun0_A.sl.r c arg1 harg1 arg3 harg3 arg4 harg4 x0 x2 x3) := rfl

set_option maxHeartbeats 2000000 in
/-- The skip sum after layer 0. -/
theorem word_skip1 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_8 c arg1 harg1 arg2 harg2 arg3 harg3 arg4 harg4 arg5 harg5 arg6 harg6 arg7 harg7 arg8 harg8 arg9 harg9 arg10 harg10 arg13 harg13 arg14 harg14 x0 x1 x2 x3 x4 x5 x6 x7 x8 x9 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0) (kernelRun0_A.sl.r c arg1 harg1 arg3 harg3 arg4 harg4 x0 x2 x3) (k0_pay3 : FVec F S32x96 .f32) := rfl

set_option maxHeartbeats 2000000 in
/-- The activation after layer 1. -/
theorem word_cur2 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_23 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1) (kernelRun0_A.sl.r_10 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 1. -/
theorem word_skip2 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_22 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1) (kernelRun0_A.sl.r_10 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_8 c arg1 harg1 arg2 harg2 arg3 harg3 arg4 harg4 arg5 harg5 arg6 harg6 arg7 harg7 arg8 harg8 arg9 harg9 arg10 harg10 arg13 harg13 arg14 harg14 x0 x1 x2 x3 x4 x5 x6 x7 x8 x9 x12 x13) := rfl

set_option maxHeartbeats 2000000 in
/-- The activation after layer 2. -/
theorem word_cur3 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_34 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2) (kernelRun0_A.sl.r_23 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 2. -/
theorem word_skip3 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_33 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2) (kernelRun0_A.sl.r_23 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_22 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) := rfl

set_option maxHeartbeats 2000000 in
/-- The activation after layer 3. -/
theorem word_cur4 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_45 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3) (kernelRun0_A.sl.r_34 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 3. -/
theorem word_skip4 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_44 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3) (kernelRun0_A.sl.r_34 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_33 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) := rfl

set_option maxHeartbeats 2000000 in
/-- The activation after layer 4. -/
theorem word_cur5 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_56 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4) (kernelRun0_A.sl.r_45 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 4. -/
theorem word_skip5 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_55 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4) (kernelRun0_A.sl.r_45 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_44 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) := rfl

set_option maxHeartbeats 2000000 in
/-- The activation after layer 5. -/
theorem word_cur6 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_66 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5) (kernelRun0_A.sl.r_56 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 5. -/
theorem word_skip6 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_63 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5) (kernelRun0_A.sl.r_56 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_55 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) := rfl

set_option maxHeartbeats 2000000 in
/-- The activation after layer 6. -/
theorem word_cur7 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_79 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6) (kernelRun0_A.sl.r_66 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 6. -/
theorem word_skip7 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_78 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6) (kernelRun0_A.sl.r_66 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_63 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) := rfl

set_option maxHeartbeats 2000000 in
/-- The activation after layer 7. -/
theorem word_cur8 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_89 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7) (kernelRun0_A.sl.r_79 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 7. -/
theorem word_skip8 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_88 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7) (kernelRun0_A.sl.r_79 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_78 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) := rfl

set_option maxHeartbeats 2000000 in
/-- The activation after layer 8. -/
theorem word_cur9 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_99 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8) (kernelRun0_A.sl.r_89 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) := rfl

set_option maxHeartbeats 2000000 in
/-- The skip sum after layer 8. -/
theorem word_skip9 (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    kernelRun0_A.sl.r_98 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 = skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8) (kernelRun0_A.sl.r_89 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_88 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) := rfl

set_option maxHeartbeats 4000000 in
/-- The output block's payload: the head of the skip sum after layer 9. -/
theorem word_out (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    k0_pay1 (kernelRun0_A.sl.r_105 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14 x15 x16) (kernelRun0_A.sl.r_106 c arg18 harg18 x17)
      = khead arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 (skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9) (kernelRun0_A.sl.r_99 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11) (kernelRun0_A.sl.r_98 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13)) := rfl

/-! ## The named values are the iterates -/

theorem st0_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0).1 = kernelRun0_A.sl.r c arg1 harg1 arg3 harg3 arg4 harg4 x0 x2 x3 := (word_cur0 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17).symm
theorem st0_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0).2 = (k0_pay3 : FVec F S32x96 .f32) := rfl

theorem st1_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1).1 = kernelRun0_A.sl.r_10 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0).1 = _
  rw [st0_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st1_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1).2 = kernelRun0_A.sl.r_8 c arg1 harg1 arg2 harg2 arg3 harg3 arg4 harg4 arg5 harg5 arg6 harg6 arg7 harg7 arg8 harg8 arg9 harg9 arg10 harg10 arg13 harg13 arg14 harg14 x0 x1 x2 x3 x4 x5 x6 x7 x8 x9 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0).2 = _
  rw [st0_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st0_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st2_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2).1 = kernelRun0_A.sl.r_23 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1).1 = _
  rw [st1_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st2_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2).2 = kernelRun0_A.sl.r_22 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1).2 = _
  rw [st1_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st1_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st3_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3).1 = kernelRun0_A.sl.r_34 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2).1 = _
  rw [st2_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st3_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3).2 = kernelRun0_A.sl.r_33 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2).2 = _
  rw [st2_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st2_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st4_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4).1 = kernelRun0_A.sl.r_45 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3).1 = _
  rw [st3_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st4_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4).2 = kernelRun0_A.sl.r_44 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3).2 = _
  rw [st3_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st3_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip4 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st5_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5).1 = kernelRun0_A.sl.r_56 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4).1 = _
  rw [st4_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st5_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5).2 = kernelRun0_A.sl.r_55 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4).2 = _
  rw [st4_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st4_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip5 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st6_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6).1 = kernelRun0_A.sl.r_66 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5).1 = _
  rw [st5_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st6_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6).2 = kernelRun0_A.sl.r_63 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5).2 = _
  rw [st5_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st5_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip6 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st7_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7).1 = kernelRun0_A.sl.r_79 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6).1 = _
  rw [st6_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st7_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7).2 = kernelRun0_A.sl.r_78 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6).2 = _
  rw [st6_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st6_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip7 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st8_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8).1 = kernelRun0_A.sl.r_89 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7).1 = _
  rw [st7_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st8_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8).2 = kernelRun0_A.sl.r_88 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7).2 = _
  rw [st7_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st7_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip8 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

theorem st9_cur (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9).1 = kernelRun0_A.sl.r_99 c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 := by
  show curNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8).1 = _
  rw [st8_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_cur9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
theorem st9_skip (c : Dev nD) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) : (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9).2 = kernelRun0_A.sl.r_98 c arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13 := by
  show skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8).2 = _
  rw [st8_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st8_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, ← word_skip9 c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

/-- What the body leaves in the `[32, 2]` output buffer: its one covering store's payload, the head of the skip sum
    after ten layers. -/
theorem out18_eq (c : Dev nD) (i : grid0.Coords) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (arg19 : Memref sig .tc .vmem S32x2 .f32) (harg19 : arg19.IsWhole) (arg20 : Memref sig .tc .vmem S32x64x1023 .f32) (harg20 : arg20.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 = kout arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17)]
  unfold kernelRun0_A
  dsimp only
  rw [View.canon_unit_zero (S := S32x2) hz2, word_out c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
  show _ = khead arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 (skipNext (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9) (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9).2)
  rw [st9_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st9_skip c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]

end Cert.KernelIdeal.Hand

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.LibRowBlock.lean ====
/-
  Row blocks. A batch of 2048 rows is cut into 64 blocks of 32 consecutive rows; block `t` of an array whose leading
  axis is the batch axis holds rows `32 t … 32 t + 31`. Every operation of the network acts on each batch row by
  itself, so it commutes with taking a row block: the block of the result is the operation applied to the blocks of
  the operands. This module states that for the operations that are not pointwise: a matrix product with a weight
  matrix on the right (accumulated into zeros, against the host's product), a bias row broadcast over the batch, a
  scalar broadcast, and the casts between `[rows, c]` and `[rows, c, 1]`.
-/
import Idealize.ShloMosaic.PureOps.Ideal.Laws
import Idealize.ShloMosaic.Lib.ValueIdx
import Idealize.ShloMosaic.Lib.Pipeline.Value
import proofs.«172806_j69252052680869_2_alg».proof.Proof.LibMatmul
import proofs.«172806_j69252052680869_2_alg».proof.Proof.LibDotGeneral

noncomputable section

namespace Cert.LibRowBlock

open Idealize.ShloMosaic Idealize.ShloMosaic.ValueIdx

/-- Row `r` of block `t` is batch row `32 t + r`. -/
def blockRow (t : Fin 64) (r : Fin 32) : Fin 2048 := ⟨32 * t.val + r.val, by have := t.isLt; have := r.isLt; omega⟩

/-- Block `t` of a `[2048, n]` array. -/
def rows2 {α : Type} {n : Nat} (t : Fin 64) (A : (⟨2, ![2048, n]⟩ : Shape).Idx → α) : (⟨2, ![32, n]⟩ : Shape).Idx → α :=
  fun y => A (ix2 (blockRow t (y 0)) (y 1))

/-- Block `t` of a `[2048, n, k]` array. -/
def rows3 {α : Type} {n k : Nat} (t : Fin 64) (A : (⟨3, ![2048, n, k]⟩ : Shape).Idx → α) :
    (⟨3, ![32, n, k]⟩ : Shape).Idx → α :=
  fun y => A (ix3 (blockRow t (y 0)) (y 1) (y 2))

theorem rows2_apply {α : Type} {n : Nat} (t : Fin 64) (A : (⟨2, ![2048, n]⟩ : Shape).Idx → α) (r : Fin 32) (c : Fin n) :
    rows2 t A (ix2 r c) = A (ix2 (blockRow t r) c) := rfl

theorem rows3_apply {α : Type} {n k : Nat} (t : Fin 64) (A : (⟨3, ![2048, n, k]⟩ : Shape).Idx → α) (r : Fin 32)
    (c : Fin n) (l : Fin k) : rows3 t A (ix3 r c l) = A (ix3 (blockRow t r) c l) := rfl

/-- A product with a weight matrix on the right acts on each row by itself: the block's product, accumulated into
    zeros, is the block of the host's product — both are, at row `r` and column `q`, the sum over `k` of the row's
    entry `k` times the weight `(k, q)`. -/
theorem rows2_dot {K b : Nat}
    (d : DotDims ⟨2, ![32, K]⟩ ⟨2, ![K, b]⟩ ⟨2, ![32, b]⟩) (D : DotDims ⟨2, ![2048, K]⟩ ⟨2, ![K, b]⟩ ⟨2, ![2048, b]⟩)
    (prec prec' : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (Hr : D.contr.rank = 1) (Hs : D.contr.size ⟨0, by omega⟩ = K)
    (Hl0 : ∀ j q, (D.lhsIdx j q 0).val = (j 0).val)
    (Hl1 : ∀ j q, (D.lhsIdx j q 1).val = (q ⟨0, by omega⟩).val)
    (Hr0 : ∀ j q, (D.rhsIdx j q 0).val = (q ⟨0, by omega⟩).val)
    (Hr1 : ∀ j q, (D.rhsIdx j q 1).val = (j 1).val)
    (t : Fin 64) (A : FVec Ideal ⟨2, ![2048, K]⟩ .f32) (W : FVec Ideal ⟨2, ![K, b]⟩ .f32) :
    FloatOps.matmul d prec (rows2 t A) W (constant ⟨2, ![32, b]⟩ .f32 0x00000000#32)
      = rows2 t (FloatOps.dotGeneral D prec' sched A W) := by
  funext j
  rw [Cert.LibMatmul.matmul_zero_ix2 d prec hr hs hl0 hl1 hr0 hr1]
  show _ = FloatOps.dotGeneral D prec' sched A W (ix2 (blockRow t (j 0)) (j 1))
  rw [Cert.LibDotGeneral.dotGeneral_ix2 D prec' sched Hr Hs Hl0 Hl1 Hr0 Hr1]
  rfl

end Cert.LibRowBlock

end
-- ==== Proof.NewBufSpec.lean ====
/-
  The new ring buffer, lane by lane. Layer `i` of dilation `2^i` owns lanes `2^i - 1 … 2^(i+1) - 2`: it passes on the
  input ring buffer's lanes shifted down by one and puts the activation it received in its last lane. So lane `l` of the
  new ring buffer holds the activation before layer `i` when `l = 2^(i+1) - 2`, and lane `l + 1` of the input ring buffer
  otherwise. This module states that over any batch extent and shows it commutes with taking a row block.
-/
import Idealize.ShloMosaic.Lib.ValueIdx
import proofs.«172806_j69252052680869_2_alg».proof.Proof.LibRowBlock

noncomputable section

namespace Cert.NewBuf

open Idealize.ShloMosaic Idealize.ShloMosaic.ValueIdx Cert.LibRowBlock

/-- The layer whose activation lane `l` holds, if any. -/
def slot (l : Nat) : Option (Fin 10) :=
  if l = 0 then some 0 else if l = 2 then some 1 else if l = 6 then some 2 else if l = 14 then some 3
  else if l = 30 then some 4 else if l = 62 then some 5 else if l = 126 then some 6 else if l = 254 then some 7
  else if l = 510 then some 8 else if l = 1022 then some 9 else none

theorem slot_none {l : Nat} (h0 : l ≠ 0) (h1 : l ≠ 2) (h2 : l ≠ 6) (h3 : l ≠ 14) (h4 : l ≠ 30) (h5 : l ≠ 62)
    (h6 : l ≠ 126) (h7 : l ≠ 254) (h8 : l ≠ 510) (h9 : l ≠ 1022) : slot l = none := by
  simp [slot, h0, h1, h2, h3, h4, h5, h6, h7, h8, h9]

/-- The new ring buffer from the activations before each layer and the input ring buffer. -/
def newbuf {α : Type} {B : Nat} (cur : Fin 10 → (⟨2, ![B, 64]⟩ : Shape).Idx → α) (A1 : (⟨3, ![B, 64, 1023]⟩ : Shape).Idx → α) :
    (⟨3, ![B, 64, 1023]⟩ : Shape).Idx → α :=
  fun y => match slot (y 2).val with
    | some i => cur i (ix2 (y 0) (y 1))
    | none => A1 (ix3 (y 0) (y 1) (⟨min ((y 2).val + 1) 1022, by omega⟩ : Fin 1023))

theorem newbuf_hit {α : Type} {B : Nat} (cur : Fin 10 → (⟨2, ![B, 64]⟩ : Shape).Idx → α)
    (A1 : (⟨3, ![B, 64, 1023]⟩ : Shape).Idx → α) (p : Fin B) (c : Fin 64) (l : Fin 1023) (i : Fin 10)
    (h : slot l.val = some i) : newbuf cur A1 (ix3 p c l) = cur i (ix2 p c) := by
  show (match slot l.val with | some i => cur i (ix2 p c) | none => _) = _
  rw [h]

theorem newbuf_miss {α : Type} {B : Nat} (cur : Fin 10 → (⟨2, ![B, 64]⟩ : Shape).Idx → α)
    (A1 : (⟨3, ![B, 64, 1023]⟩ : Shape).Idx → α) (p : Fin B) (c : Fin 64) (l : Fin 1023) (l' : Fin 1023)
    (h : slot l.val = none) (hl : l'.val = l.val + 1) : newbuf cur A1 (ix3 p c l) = A1 (ix3 p c l') := by
  show (match slot l.val with | some i => cur i (ix2 p c) | none => A1 (ix3 p c ⟨min (l.val + 1) 1022, _⟩)) = _
  rw [h]
  show A1 (ix3 p c ⟨min (l.val + 1) 1022, _⟩) = A1 (ix3 p c l')
  congr 2
  apply Fin.ext
  show min (l.val + 1) 1022 = l'.val
  have := l'.isLt
  omega

/-- The new ring buffer of a row block is the row block of the new ring buffer. -/
theorem newbuf_rows {α : Type} (t : Fin 64) (cur : Fin 10 → (⟨2, ![2048, 64]⟩ : Shape).Idx → α)
    (A1 : (⟨3, ![2048, 64, 1023]⟩ : Shape).Idx → α) :
    newbuf (fun i => rows2 t (cur i)) (rows3 t A1) = rows3 t (newbuf cur A1) := by
  funext y
  show (match slot (y 2).val with | some i => _ | none => _) = (match slot (y 2).val with | some i => _ | none => _)
  cases slot (y 2).val <;> rfl

end Cert.NewBuf

end
-- ==== Proof.KNewBuf.lean ====
/-
  What the body leaves in the ring-buffer output block. Its stores are, in order: the input block's lanes `1 … 1022`
  written to lanes `0 … 1021` in one piece, then for each layer `i` the activation before the layer written to the single
  lane `2^(i+1) - 2` (lane `1022`, which the first store does not reach, by the last layer). Read back lane by lane, the
  later single-lane stores win over the first store, which gives the lane-by-lane form of the new ring buffer.
-/
import proofs.«172806_j69252052680869_2_alg».proof.Proof.KWords
import proofs.«172806_j69252052680869_2_alg».proof.Proof.NewBufSpec
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen

variable {F : FTy → Type} [FloatOps F]

/-- A `[32, 64]` activation laid out as one lane, `[32, 64, 1]`. -/
def snapK (v : FVec F S32x64 .f32) : FVec F S32x64x1 .f32 := shapeCast S32x64x1 v shapeCasts_S32x64_S32x64x1

/-- The lane layout reads, at `(r, k, 0)`, the activation at `(r, k)`. -/
theorem snapK_apply (v : FVec F S32x64 .f32) (r : Fin 32) (k : Fin 64) (u : Fin 1) : snapK v (ix3 r k u) = v (ix2 r k) :=
  shapeCast_apply v _ _ _ (by
    have hu : u.val = 0 := by omega
    rw [Shape.rowMajor_val_three, Shape.rowMajor_val_two]
    show r.val * 64 + k.val = (r.val * 64 + k.val) * 1 + u.val
    omega)

section Layout

variable {α : Type} [Nonempty α]

/-- A single-lane store at lane `e`, read back at lane `e`: its payload. -/
theorem lane_hit {Val : EltTy → Type} [∀ e, Nonempty (Val e)] (e : Nat) (he : e < 1023)
    (inb : ∀ a, (![0, 0, e] : Fin 3 → Nat) a + S32x64x1.size a ≤ S32x64x1023.size a)
    (w : S32x64x1.Idx → Val .f32) (L : List (View.Piece Val S32x64x1023 .f32)) (r : Fin 32) (k : Fin 64) :
    View.canon (⟨Rect.unit (s := S32x64x1023) ![0, 0, e] S32x64x1.size inb, w⟩ :: L) (ix3 r k (⟨e, he⟩ : Fin 1023))
      = w (ix3 r k (0 : Fin 1)) := by
  have hy : (Rect.unit (s := S32x64x1023) ![0, 0, e] S32x64x1.size inb).emb (ix3 r k (0 : Fin 1)) = ix3 r k (⟨e, he⟩ : Fin 1023) := by
    funext a; apply Fin.ext
    match a with
    | ⟨0, _⟩ => show 0 + 1 * r.val = r.val; omega
    | ⟨1, _⟩ => show 0 + 1 * k.val = k.val; omega
    | ⟨2, _⟩ => show e + 1 * 0 = e; omega
  rw [← hy, View.canon_cons_emb]

/-- … and at any other lane: what the earlier stores left. -/
theorem lane_miss {Val : EltTy → Type} [∀ e, Nonempty (Val e)] (e : Nat)
    (inb : ∀ a, (![0, 0, e] : Fin 3 → Nat) a + S32x64x1.size a ≤ S32x64x1023.size a)
    (w : S32x64x1.Idx → Val .f32) (L : List (View.Piece Val S32x64x1023 .f32)) (r : Fin 32) (k : Fin 64) (l : Fin 1023)
    (hl : ¬ l.val = e) :
    View.canon (⟨Rect.unit (s := S32x64x1023) ![0, 0, e] S32x64x1.size inb, w⟩ :: L) (ix3 r k l) = View.canon L (ix3 r k l) := by
  refine View.canon_cons_of_not_mem _ _ ?_
  show ix3 r k l ∉ (Rect.unit (s := S32x64x1023) ![0, 0, e] S32x64x1.size inb).set
  rw [Rect.mem_set_unit]
  intro h
  have h2 : e ≤ l.val ∧ l.val < e + 1 := h 2
  omega

/-- The one-piece store of lanes `1 … 1022` to lanes `0 … 1021`, read back at lane `l ≤ 1021`: the source's lane `l + 1`. -/
theorem bulk_hit {Val : EltTy → Type} [∀ e, Nonempty (Val e)]
    (X : S32x64x1023.Idx → Val .f32) (r : Fin 32) (k : Fin 64) (L : List (View.Piece Val S32x64x1023 .f32)) (l : Fin 1023) (hl : l.val < 1022) :
    View.canon (⟨Rect.unit (s := S32x64x1023) ![0, 0, 0] S32x64x1022.size inb_S32x64x1023_S32x64x1022_0_0_0,
        (View.ld X (Rect.unit (s := S32x64x1023) ![0, 0, 1] S32x64x1022.size inb_S32x64x1023_S32x64x1022_0_0_1))⟩ :: L) (ix3 r k l)
      = X (ix3 r k (⟨l.val + 1, by omega⟩ : Fin 1023)) := by
  have hy : (Rect.unit (s := S32x64x1023) ![0, 0, 0] S32x64x1022.size inb_S32x64x1023_S32x64x1022_0_0_0).emb
      (ix3 r k (⟨l.val, hl⟩ : Fin 1022)) = ix3 r k l := by
    funext a; apply Fin.ext
    match a with
    | ⟨0, _⟩ => show 0 + 1 * r.val = r.val; omega
    | ⟨1, _⟩ => show 0 + 1 * k.val = k.val; omega
    | ⟨2, _⟩ => show 0 + 1 * l.val = l.val; omega
  rw [← hy, View.canon_cons_emb]
  show X _ = X _
  congr 1
  funext a; apply Fin.ext
  match a with
  | ⟨0, _⟩ => show 0 + 1 * r.val = r.val; omega
  | ⟨1, _⟩ => show 0 + 1 * k.val = k.val; omega
  | ⟨2, _⟩ => show 1 + 1 * l.val = l.val + 1; omega

end Layout

/-- The eleven stores, read back: lane by lane, the new ring buffer of the block. -/
theorem canon_layout (v0 : FVec F S32x64 .f32) (v1 : FVec F S32x64 .f32) (v2 : FVec F S32x64 .f32) (v3 : FVec F S32x64 .f32) (v4 : FVec F S32x64 .f32) (v5 : FVec F S32x64 .f32) (v6 : FVec F S32x64 .f32) (v7 : FVec F S32x64 .f32) (v8 : FVec F S32x64 .f32) (v9 : FVec F S32x64 .f32) (x1 : Vec F S32x64x1023 .f32)
    (L : List (View.Piece (Elt F) S32x64x1023 .f32)) :
    View.canon (
     [⟨(Rect.unit (s := S32x64x1023) ![0, 0, 1022] S32x64x1.size inb_S32x64x1023_S32x64x1_0_0_1022), snapK v9⟩,
      ⟨(Rect.unit (s := S32x64x1023) ![0, 0, 510] S32x64x1.size inb_S32x64x1023_S32x64x1_0_0_510), snapK v8⟩,
      ⟨(Rect.unit (s := S32x64x1023) ![0, 0, 254] S32x64x1.size inb_S32x64x1023_S32x64x1_0_0_254), snapK v7⟩,
      ⟨(Rect.unit (s := S32x64x1023) ![0, 0, 126] S32x64x1.size inb_S32x64x1023_S32x64x1_0_0_126), snapK v6⟩,
      ⟨(Rect.unit (s := S32x64x1023) ![0, 0, 62] S32x64x1.size inb_S32x64x1023_S32x64x1_0_0_62), snapK v5⟩,
      ⟨(Rect.unit (s := S32x64x1023) ![0, 0, 30] S32x64x1.size inb_S32x64x1023_S32x64x1_0_0_30), snapK v4⟩,
      ⟨(Rect.unit (s := S32x64x1023) ![0, 0, 14] S32x64x1.size inb_S32x64x1023_S32x64x1_0_0_14), snapK v3⟩,
      ⟨(Rect.unit (s := S32x64x1023) ![0, 0, 6] S32x64x1.size inb_S32x64x1023_S32x64x1_0_0_6), snapK v2⟩,
      ⟨(Rect.unit (s := S32x64x1023) ![0, 0, 2] S32x64x1.size inb_S32x64x1023_S32x64x1_0_0_2), snapK v1⟩,
      ⟨(Rect.unit (s := S32x64x1023) ![0, 0, 0] S32x64x1.size inb_S32x64x1023_S32x64x1_0_0_0), snapK v0⟩,
      ⟨Rect.unit (s := S32x64x1023) ![0, 0, 0] S32x64x1022.size inb_S32x64x1023_S32x64x1022_0_0_0, (View.ld x1 (Rect.unit (s := S32x64x1023) ![0, 0, 1] S32x64x1022.size inb_S32x64x1023_S32x64x1022_0_0_1) : Vec F S32x64x1022 .f32)⟩] ++ L)
      = Cert.NewBuf.newbuf (![v0, v1, v2, v3, v4, v5, v6, v7, v8, v9] : Fin 10 → FVec F S32x64 .f32) x1 := by
  funext y
  obtain ⟨r, k, l, rfl⟩ : ∃ (r : Fin 32) (k : Fin 64) (l : Fin 1023), y = ix3 r k l := ⟨y 0, y 1, y 2, eq_ix3 y⟩
  simp only [List.cons_append, List.nil_append]
  by_cases h9 : l.val = 1022
  · obtain rfl : l = (⟨1022, by decide⟩ : Fin 1023) := Fin.ext h9
    rw [lane_hit 1022 (by decide), snapK_apply]
    exact (Cert.NewBuf.newbuf_hit (![v0, v1, v2, v3, v4, v5, v6, v7, v8, v9] : Fin 10 → FVec F S32x64 .f32) x1 r k (⟨1022, by decide⟩ : Fin 1023) (9 : Fin 10) (by decide)).symm
  rw [lane_miss 1022 _ _ _ _ _ _ h9]
  by_cases h8 : l.val = 510
  · obtain rfl : l = (⟨510, by decide⟩ : Fin 1023) := Fin.ext h8
    rw [lane_hit 510 (by decide), snapK_apply]
    exact (Cert.NewBuf.newbuf_hit (![v0, v1, v2, v3, v4, v5, v6, v7, v8, v9] : Fin 10 → FVec F S32x64 .f32) x1 r k (⟨510, by decide⟩ : Fin 1023) (8 : Fin 10) (by decide)).symm
  rw [lane_miss 510 _ _ _ _ _ _ h8]
  by_cases h7 : l.val = 254
  · obtain rfl : l = (⟨254, by decide⟩ : Fin 1023) := Fin.ext h7
    rw [lane_hit 254 (by decide), snapK_apply]
    exact (Cert.NewBuf.newbuf_hit (![v0, v1, v2, v3, v4, v5, v6, v7, v8, v9] : Fin 10 → FVec F S32x64 .f32) x1 r k (⟨254, by decide⟩ : Fin 1023) (7 : Fin 10) (by decide)).symm
  rw [lane_miss 254 _ _ _ _ _ _ h7]
  by_cases h6 : l.val = 126
  · obtain rfl : l = (⟨126, by decide⟩ : Fin 1023) := Fin.ext h6
    rw [lane_hit 126 (by decide), snapK_apply]
    exact (Cert.NewBuf.newbuf_hit (![v0, v1, v2, v3, v4, v5, v6, v7, v8, v9] : Fin 10 → FVec F S32x64 .f32) x1 r k (⟨126, by decide⟩ : Fin 1023) (6 : Fin 10) (by decide)).symm
  rw [lane_miss 126 _ _ _ _ _ _ h6]
  by_cases h5 : l.val = 62
  · obtain rfl : l = (⟨62, by decide⟩ : Fin 1023) := Fin.ext h5
    rw [lane_hit 62 (by decide), snapK_apply]
    exact (Cert.NewBuf.newbuf_hit (![v0, v1, v2, v3, v4, v5, v6, v7, v8, v9] : Fin 10 → FVec F S32x64 .f32) x1 r k (⟨62, by decide⟩ : Fin 1023) (5 : Fin 10) (by decide)).symm
  rw [lane_miss 62 _ _ _ _ _ _ h5]
  by_cases h4 : l.val = 30
  · obtain rfl : l = (⟨30, by decide⟩ : Fin 1023) := Fin.ext h4
    rw [lane_hit 30 (by decide), snapK_apply]
    exact (Cert.NewBuf.newbuf_hit (![v0, v1, v2, v3, v4, v5, v6, v7, v8, v9] : Fin 10 → FVec F S32x64 .f32) x1 r k (⟨30, by decide⟩ : Fin 1023) (4 : Fin 10) (by decide)).symm
  rw [lane_miss 30 _ _ _ _ _ _ h4]
  by_cases h3 : l.val = 14
  · obtain rfl : l = (⟨14, by decide⟩ : Fin 1023) := Fin.ext h3
    rw [lane_hit 14 (by decide), snapK_apply]
    exact (Cert.NewBuf.newbuf_hit (![v0, v1, v2, v3, v4, v5, v6, v7, v8, v9] : Fin 10 → FVec F S32x64 .f32) x1 r k (⟨14, by decide⟩ : Fin 1023) (3 : Fin 10) (by decide)).symm
  rw [lane_miss 14 _ _ _ _ _ _ h3]
  by_cases h2 : l.val = 6
  · obtain rfl : l = (⟨6, by decide⟩ : Fin 1023) := Fin.ext h2
    rw [lane_hit 6 (by decide), snapK_apply]
    exact (Cert.NewBuf.newbuf_hit (![v0, v1, v2, v3, v4, v5, v6, v7, v8, v9] : Fin 10 → FVec F S32x64 .f32) x1 r k (⟨6, by decide⟩ : Fin 1023) (2 : Fin 10) (by decide)).symm
  rw [lane_miss 6 _ _ _ _ _ _ h2]
  by_cases h1 : l.val = 2
  · obtain rfl : l = (⟨2, by decide⟩ : Fin 1023) := Fin.ext h1
    rw [lane_hit 2 (by decide), snapK_apply]
    exact (Cert.NewBuf.newbuf_hit (![v0, v1, v2, v3, v4, v5, v6, v7, v8, v9] : Fin 10 → FVec F S32x64 .f32) x1 r k (⟨2, by decide⟩ : Fin 1023) (1 : Fin 10) (by decide)).symm
  rw [lane_miss 2 _ _ _ _ _ _ h1]
  by_cases h0 : l.val = 0
  · obtain rfl : l = (⟨0, by decide⟩ : Fin 1023) := Fin.ext h0
    rw [lane_hit 0 (by decide), snapK_apply]
    exact (Cert.NewBuf.newbuf_hit (![v0, v1, v2, v3, v4, v5, v6, v7, v8, v9] : Fin 10 → FVec F S32x64 .f32) x1 r k (⟨0, by decide⟩ : Fin 1023) (0 : Fin 10) (by decide)).symm
  rw [lane_miss 0 _ _ _ _ _ _ h0]
  have hl : l.val < 1022 := by have := l.isLt; omega
  rw [bulk_hit _ _ _ _ l hl]
  exact (Cert.NewBuf.newbuf_miss (![v0, v1, v2, v3, v4, v5, v6, v7, v8, v9] : Fin 10 → FVec F S32x64 .f32) x1 r k l (⟨l.val + 1, by omega⟩ : Fin 1023) (Cert.NewBuf.slot_none h0 h1 h2 h3 h4 h5 h6 h7 h8 h9) rfl).symm

set_option maxHeartbeats 4000000 in
/-- What the body leaves in the ring-buffer output block: the new ring buffer of the block, over the activations before
    each layer and the input block. -/
theorem out19_eq (c : Dev nD) (i : grid0.Coords) (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (arg19 : Memref sig .tc .vmem S32x2 .f32) (harg19 : arg19.IsWhole) (arg20 : Memref sig .tc .vmem S32x64x1023 .f32) (harg20 : arg20.IsWhole) (x0 : Vec F S32x32 .f32) (x1 : Vec F S32x64x1023 .f32) (x2 : Vec F S64x32 .f32) (x3 : Vec F S64 .f32) (x4 : Vec F S10x64x64 .f32) (x5 : Vec F S10x64x64 .f32) (x6 : Vec F S10x64 .f32) (x7 : Vec F S10x64x64 .f32) (x8 : Vec F S10x64x64 .f32) (x9 : Vec F S10x64 .f32) (x10 : Vec F S10x64x64 .f32) (x11 : Vec F S10x64 .f32) (x12 : Vec F S10x96x64 .f32) (x13 : Vec F S10x96 .f32) (x14 : Vec F S96x96 .f32) (x15 : Vec F S96 .f32) (x16 : Vec F S2x96 .f32) (x17 : Vec F S2 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17
      = Cert.NewBuf.newbuf (![(kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8).1, (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9).1] : Fin 10 → FVec F S32x64 .f32) x1 := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17)]
  unfold kernelRun0_A
  dsimp only
  rw [← canon_layout (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 0).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 1).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 2).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 3).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 4).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 5).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 6).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 7).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 8).1 (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 9).1 x1 [],
    st0_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st1_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st2_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st3_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st4_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st5_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st6_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st7_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st8_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17, st9_cur c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17]
  simp only [List.append_nil]
  rw [View.readAt_eq_ld, harg2.read_unread]
  rfl

end Cert.KernelIdeal.Hand

end
-- ==== Proof.RChain.lean ====
/-
  The network's arithmetic on the whole batch, as the reference spells it: the same layer step as on a row block, with
  the host's matrix product, the host's `tanh`, and the sigmoid written out as `1 / (1 + exp (-g))`. Layer `i` reads its
  delayed activation at lane `2^i - 1` of the ring buffer and slab `i` of each weight stack.
-/
import proofs.«172806_j69252052680869_2_alg».proof.Proof.Gen.ReferenceIdeal

noncomputable section

namespace Cert.ReferenceIdeal.Hand

open Idealize.ShloMosaic Cert.ReferenceIdeal Cert.ReferenceIdeal.Gen

variable {F : FTy → Type} [FloatOps F]

/-- One layer's operands on the whole batch: the delayed activation and the ten weight arrays. -/
structure LayerW (F : FTy → Type) where
  d : FVec F S2048x64 .f32
  fw0 : FVec F S64x64 .f32
  fw1 : FVec F S64x64 .f32
  fb : FVec F S64 .f32
  gw0 : FVec F S64x64 .f32
  gw1 : FVec F S64x64 .f32
  gb : FVec F S64 .f32
  rw : FVec F S64x64 .f32
  rb : FVec F S64 .f32
  sw : FVec F S96x64 .f32
  sb : FVec F S96 .f32

/-- `a · Wᵀ` for 64-wide rows and a `[64, 64]` weight matrix. -/
def mmT (a : FVec F S2048x64 .f32) (W : FVec F S64x64 .f32) : FVec F S2048x64 .f32 :=
  Host.dotGeneral dot_S2048x64_S64x64_S2048x64_1_0_0_1_n_n none a (transpose S64x64 [1, 0] W transposes_S64x64_S64x64_1_0)

/-- A 64-entry bias laid over the rows. -/
def rowb64 (b : FVec F S64 .f32) : FVec F S2048x64 .f32 :=
  broadcastInDim S2048x64 ![0, 1] bcast_S1x64_S2048x64_0_1 (broadcastInDim S1x64 ![1] bcast_S64_S1x64_1 b)

/-- A 96-entry bias laid over the rows. -/
def rowb96 (b : FVec F S96 .f32) : FVec F S2048x96 .f32 :=
  broadcastInDim S2048x96 ![0, 1] bcast_S1x96_S2048x96_0_1 (broadcastInDim S1x96 ![1] bcast_S96_S1x96_1 b)

/-- The constant one over `[2048, 64]`. -/
def one64 : FVec F S2048x64 .f32 := broadcastInDim S2048x64 ![] bcast_S_S2048x64 (constant S_ .f32 0x3F800000#32)

/-- The gated activation `tanh f · (1 / (1 + exp (-g)))`. -/
def gate (w : LayerW F) (c : FVec F S2048x64 .f32) : FVec F S2048x64 .f32 :=
  mulf (Host.tanh (addf (addf (mmT w.d w.fw0) (mmT c w.fw1)) (rowb64 w.fb)))
    (Host.divf one64 (addf one64 (Host.exp (Host.negf (addf (addf (mmT w.d w.gw0) (mmT c w.gw1)) (rowb64 w.gb))))))

/-- The skip sum after the layer. -/
def skipNext (w : LayerW F) (c : FVec F S2048x64 .f32) (s : FVec F S2048x96 .f32) : FVec F S2048x96 .f32 :=
  addf (addf s (Host.dotGeneral dot_S2048x64_S64x96_S2048x96_1_0_0_1_n_n none (gate w c)
    (transpose S64x96 [1, 0] w.sw transposes_S96x64_S64x96_1_0))) (rowb96 w.sb)

/-- The activation after the layer: the residual update with scale 0.3. -/
def curNext (w : LayerW F) (c : FVec F S2048x64 .f32) : FVec F S2048x64 .f32 :=
  addf c (mulf (broadcastInDim S2048x64 ![] bcast_S_S2048x64 (constant S_ .f32 0x3E99999A#32))
    (addf (mmT (gate w c) w.rw) (rowb64 w.rb)))

/-- The zero skip sum. -/
def skip0 : FVec F S2048x96 .f32 := broadcastInDim S2048x96 ![] bcast_S_S2048x96 (constant S_ .f32 0x00000000#32)

/-- The activation and skip sum after `n` layers. -/
def state (W : Nat → LayerW F) (c0 : FVec F S2048x64 .f32) : Nat → FVec F S2048x64 .f32 × FVec F S2048x96 .f32
  | 0 => (c0, skip0)
  | n + 1 => (curNext (W n) (state W c0 n).1, skipNext (W n) (state W c0 n).1 (state W c0 n).2)

/-- The input projection `x · inp_wᵀ + inp_b`. -/
def cur0 (x : FVec F S2048x32 .f32) (w : FVec F S64x32 .f32) (b : FVec F S64 .f32) : FVec F S2048x64 .f32 :=
  addf (Host.dotGeneral dot_S2048x32_S32x64_S2048x64_1_0_0_1_n_n none x (transpose S32x64 [1, 0] w transposes_S64x32_S32x64_1_0))
    (rowb64 b)

/-- `relu`. -/
def relu (x : FVec F S2048x96 .f32) : FVec F S2048x96 .f32 := maximumf x skip0

/-- The two-layer head on the final skip sum. -/
def head (s : FVec F S2048x96 .f32) (w1 : FVec F S96x96 .f32) (b1 : FVec F S96 .f32) (w2 : FVec F S2x96 .f32)
    (b2 : FVec F S2 .f32) : FVec F S2048x2 .f32 :=
  addf (Host.dotGeneral dot_S2048x96_S96x2_S2048x2_1_0_0_1_n_n none
      (relu (addf (Host.dotGeneral dot_S2048x96_S96x96_S2048x96_1_0_0_1_n_n none (relu s)
        (transpose S96x96 [1, 0] w1 transposes_S96x96_S96x96_1_0)) (rowb96 b1)))
      (transpose S96x2 [1, 0] w2 transposes_S2x96_S96x2_1_0))
    (broadcastInDim S2048x2 ![0, 1] bcast_S1x2_S2048x2_0_1 (broadcastInDim S1x2 ![1] bcast_S2_S1x2_1 b2))

/-- Layer `i`'s operands cut from the argument arrays: lane `off` of the ring buffer, slab `i` of each weight stack. -/
def leaves (A0 : FVec F S2048x32 .f32) (A1 : FVec F S2048x64x1023 .f32) (A2 : FVec F S64x32 .f32) (A3 : FVec F S64 .f32) (A4 : FVec F S10x64x64 .f32) (A5 : FVec F S10x64x64 .f32) (A6 : FVec F S10x64 .f32) (A7 : FVec F S10x64x64 .f32) (A8 : FVec F S10x64x64 .f32) (A9 : FVec F S10x64 .f32) (A10 : FVec F S10x64x64 .f32) (A11 : FVec F S10x64 .f32) (A12 : FVec F S10x96x64 .f32) (A13 : FVec F S10x96 .f32) (A14 : FVec F S96x96 .f32) (A15 : FVec F S96 .f32) (A16 : FVec F S2x96 .f32) (A17 : FVec F S2 .f32) (i off : Nat)
    (hd : S2048x64x1023.Slices ![0, 0, off] S2048x64x1) (hw : S10x64x64.Slices ![i, 0, 0] S1x64x64)
    (hb : S10x64.Slices ![i, 0] S1x64) (hsw : S10x96x64.Slices ![i, 0, 0] S1x96x64) (hsb : S10x96.Slices ![i, 0] S1x96) :
    LayerW F where
  d := shapeCast S2048x64 (extractStridedSlice S2048x64x1 ![0, 0, off] A1 hd) shapeCasts_S2048x64x1_S2048x64
  fw0 := shapeCast S64x64 (extractStridedSlice S1x64x64 ![i, 0, 0] A4 hw) shapeCasts_S1x64x64_S64x64
  fw1 := shapeCast S64x64 (extractStridedSlice S1x64x64 ![i, 0, 0] A5 hw) shapeCasts_S1x64x64_S64x64
  fb := shapeCast S64 (extractStridedSlice S1x64 ![i, 0] A6 hb) shapeCasts_S1x64_S64
  gw0 := shapeCast S64x64 (extractStridedSlice S1x64x64 ![i, 0, 0] A7 hw) shapeCasts_S1x64x64_S64x64
  gw1 := shapeCast S64x64 (extractStridedSlice S1x64x64 ![i, 0, 0] A8 hw) shapeCasts_S1x64x64_S64x64
  gb := shapeCast S64 (extractStridedSlice S1x64 ![i, 0] A9 hb) shapeCasts_S1x64_S64
  rw := shapeCast S64x64 (extractStridedSlice S1x64x64 ![i, 0, 0] A10 hw) shapeCasts_S1x64x64_S64x64
  rb := shapeCast S64 (extractStridedSlice S1x64 ![i, 0] A11 hb) shapeCasts_S1x64_S64
  sw := shapeCast S96x64 (extractStridedSlice S1x96x64 ![i, 0, 0] A12 hsw) shapeCasts_S1x96x64_S96x64
  sb := shapeCast S96 (extractStridedSlice S1x96 ![i, 0] A13 hsb) shapeCasts_S1x96_S96

/-- The ten layers' operands (any index past the last repeats layer 0: never read). -/
def rW (A0 : FVec F S2048x32 .f32) (A1 : FVec F S2048x64x1023 .f32) (A2 : FVec F S64x32 .f32) (A3 : FVec F S64 .f32) (A4 : FVec F S10x64x64 .f32) (A5 : FVec F S10x64x64 .f32) (A6 : FVec F S10x64 .f32) (A7 : FVec F S10x64x64 .f32) (A8 : FVec F S10x64x64 .f32) (A9 : FVec F S10x64 .f32) (A10 : FVec F S10x64x64 .f32) (A11 : FVec F S10x64 .f32) (A12 : FVec F S10x96x64 .f32) (A13 : FVec F S10x96 .f32) (A14 : FVec F S96x96 .f32) (A15 : FVec F S96 .f32) (A16 : FVec F S2x96 .f32) (A17 : FVec F S2 .f32) : Nat → LayerW F
  | 0 => leaves A0 A1 A2 A3 A4 A5 A6 A7 A8 A9 A10 A11 A12 A13 A14 A15 A16 A17 0 0 (by decide) (by decide) (by decide) (by decide) (by decide)
  | 1 => leaves A0 A1 A2 A3 A4 A5 A6 A7 A8 A9 A10 A11 A12 A13 A14 A15 A16 A17 1 1 (by decide) (by decide) (by decide) (by decide) (by decide)
  | 2 => leaves A0 A1 A2 A3 A4 A5 A6 A7 A8 A9 A10 A11 A12 A13 A14 A15 A16 A17 2 3 (by decide) (by decide) (by decide) (by decide) (by decide)
  | 3 => leaves A0 A1 A2 A3 A4 A5 A6 A7 A8 A9 A10 A11 A12 A13 A14 A15 A16 A17 3 7 (by decide) (by decide) (by decide) (by decide) (by decide)
  | 4 => leaves A0 A1 A2 A3 A4 A5 A6 A7 A8 A9 A10 A11 A12 A13 A14 A15 A16 A17 4 15 (by decide) (by decide) (by decide) (by decide) (by decide)
  | 5 => leaves A0 A1 A2 A3 A4 A5 A6 A7 A8 A9 A10 A11 A12 A13 A14 A15 A16 A17 5 31 (by decide) (by decide) (by decide) (by decide) (by decide)
  | 6 => leaves A0 A1 A2 A3 A4 A5 A6 A7 A8 A9 A10 A11 A12 A13 A14 A15 A16 A17 6 63 (by decide) (by decide) (by decide) (by decide) (by decide)
  | 7 => leaves A0 A1 A2 A3 A4 A5 A6 A7 A8 A9 A10 A11 A12 A13 A14 A15 A16 A17 7 127 (by decide) (by decide) (by decide) (by decide) (by decide)
  | 8 => leaves A0 A1 A2 A3 A4 A5 A6 A7 A8 A9 A10 A11 A12 A13 A14 A15 A16 A17 8 255 (by decide) (by decide) (by decide) (by decide) (by decide)
  | 9 => leaves A0 A1 A2 A3 A4 A5 A6 A7 A8 A9 A10 A11 A12 A13 A14 A15 A16 A17 9 511 (by decide) (by decide) (by decide) (by decide) (by decide)
  | _ => leaves A0 A1 A2 A3 A4 A5 A6 A7 A8 A9 A10 A11 A12 A13 A14 A15 A16 A17 0 0 (by decide) (by decide) (by decide) (by decide) (by decide)

/-- The batch's activation and skip sum after `n` layers. -/
def rstate (A0 : FVec F S2048x32 .f32) (A1 : FVec F S2048x64x1023 .f32) (A2 : FVec F S64x32 .f32) (A3 : FVec F S64 .f32) (A4 : FVec F S10x64x64 .f32) (A5 : FVec F S10x64x64 .f32) (A6 : FVec F S10x64 .f32) (A7 : FVec F S10x64x64 .f32) (A8 : FVec F S10x64x64 .f32) (A9 : FVec F S10x64 .f32) (A10 : FVec F S10x64x64 .f32) (A11 : FVec F S10x64 .f32) (A12 : FVec F S10x96x64 .f32) (A13 : FVec F S10x96 .f32) (A14 : FVec F S96x96 .f32) (A15 : FVec F S96 .f32) (A16 : FVec F S2x96 .f32) (A17 : FVec F S2 .f32) (n : Nat) : FVec F S2048x64 .f32 × FVec F S2048x96 .f32 :=
  state (rW A0 A1 A2 A3 A4 A5 A6 A7 A8 A9 A10 A11 A12 A13 A14 A15 A16 A17) (cur0 A0 A2 A3) n

/-- The output. -/
def rout (A0 : FVec F S2048x32 .f32) (A1 : FVec F S2048x64x1023 .f32) (A2 : FVec F S64x32 .f32) (A3 : FVec F S64 .f32) (A4 : FVec F S10x64x64 .f32) (A5 : FVec F S10x64x64 .f32) (A6 : FVec F S10x64 .f32) (A7 : FVec F S10x64x64 .f32) (A8 : FVec F S10x64x64 .f32) (A9 : FVec F S10x64 .f32) (A10 : FVec F S10x64x64 .f32) (A11 : FVec F S10x64 .f32) (A12 : FVec F S10x96x64 .f32) (A13 : FVec F S10x96 .f32) (A14 : FVec F S96x96 .f32) (A15 : FVec F S96 .f32) (A16 : FVec F S2x96 .f32) (A17 : FVec F S2 .f32) : FVec F S2048x2 .f32 := head (rstate A0 A1 A2 A3 A4 A5 A6 A7 A8 A9 A10 A11 A12 A13 A14 A15 A16 A17 10).2 A14 A15 A16 A17

end Cert.ReferenceIdeal.Hand

end
-- ==== Proof.Commute.lean ====
/-
  Every operation of the network acts on each batch row by itself, so a layer's step commutes with taking a row block:
  the step applied to block `t` of the activation and of the skip sum, with block `t` of the delayed activation and the
  same weights, is block `t` of the step applied to the whole batch. The kernel's body spells the step with the
  accelerator's matrix product into zeros, its `tanh` and its one-operation sigmoid; the reference with the host's
  product, the host's `tanh` and `1 / (1 + exp (-g))`: over the extended reals these are the same functions, with no
  condition on the values (only sums and products of the same terms in the same order are compared). By induction on the
  number of layers the block's state is the block of the batch's state, and so is the head's output.
-/
import proofs.«172806_j69252052680869_2_alg».proof.Proof.KChain
import proofs.«172806_j69252052680869_2_alg».proof.Proof.RChain
import proofs.«172806_j69252052680869_2_alg».proof.Proof.LibRowBlock
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.LibRowBlock

/-- A plain `[a, K] × [K, b]` product: the left operand's column axis contracted with the right operand's row axis. -/
structure PlainDot {a K b : Nat} (d : DotDims ⟨2, ![a, K]⟩ ⟨2, ![K, b]⟩ ⟨2, ![a, b]⟩) : Prop where
  hr : d.contr.rank = 1
  hs : d.contr.size ⟨0, by omega⟩ = K
  hl0 : ∀ j q, (d.lhsIdx j q 0).val = (j 0).val
  hl1 : ∀ j q, (d.lhsIdx j q 1).val = (q ⟨0, by omega⟩).val
  hr0 : ∀ j q, (d.rhsIdx j q 0).val = (q ⟨0, by omega⟩).val
  hr1 : ∀ j q, (d.rhsIdx j q 1).val = (j 1).val

theorem plain_k32 : PlainDot Cert.KernelIdeal.dot_S32x32_S32x64_S32x64_1_0_0_1_n_n where
  hr := rfl
  hs := rfl
  hl0 := fun j q => by
    unfold DotDims.lhsIdx
    rw [dif_neg (show ¬(0 : Fin Cert.KernelIdeal.S32x32.rank) ∈ (Cert.KernelIdeal.dot_S32x32_S32x64_S32x64_1_0_0_1_n_n).lhsBatch by decide), dif_pos (show (0 : Fin Cert.KernelIdeal.S32x32.rank) ∈ (Cert.KernelIdeal.dot_S32x32_S32x64_S32x64_1_0_0_1_n_n).lhsNonContracting by decide)]
    rfl
  hl1 := fun j q => (Cert.KernelIdeal.dot_S32x32_S32x64_S32x64_1_0_0_1_n_n).lhsIdx_val_of_single rfl j q
  hr0 := fun j q => (Cert.KernelIdeal.dot_S32x32_S32x64_S32x64_1_0_0_1_n_n).rhsIdx_val_of_single rfl j q
  hr1 := fun j q => by
    unfold DotDims.rhsIdx
    rw [dif_neg (show ¬(1 : Fin Cert.KernelIdeal.S32x64.rank) ∈ (Cert.KernelIdeal.dot_S32x32_S32x64_S32x64_1_0_0_1_n_n).rhsBatch by decide), dif_pos (show (1 : Fin Cert.KernelIdeal.S32x64.rank) ∈ (Cert.KernelIdeal.dot_S32x32_S32x64_S32x64_1_0_0_1_n_n).rhsNonContracting by decide)]
    rfl

theorem plain_k64 : PlainDot Cert.KernelIdeal.dot_S32x64_S64x64_S32x64_1_0_0_1_n_n where
  hr := rfl
  hs := rfl
  hl0 := fun j q => by
    unfold DotDims.lhsIdx
    rw [dif_neg (show ¬(0 : Fin Cert.KernelIdeal.S32x64.rank) ∈ (Cert.KernelIdeal.dot_S32x64_S64x64_S32x64_1_0_0_1_n_n).lhsBatch by decide), dif_pos (show (0 : Fin Cert.KernelIdeal.S32x64.rank) ∈ (Cert.KernelIdeal.dot_S32x64_S64x64_S32x64_1_0_0_1_n_n).lhsNonContracting by decide)]
    rfl
  hl1 := fun j q => (Cert.KernelIdeal.dot_S32x64_S64x64_S32x64_1_0_0_1_n_n).lhsIdx_val_of_single rfl j q
  hr0 := fun j q => (Cert.KernelIdeal.dot_S32x64_S64x64_S32x64_1_0_0_1_n_n).rhsIdx_val_of_single rfl j q
  hr1 := fun j q => by
    unfold DotDims.rhsIdx
    rw [dif_neg (show ¬(1 : Fin Cert.KernelIdeal.S64x64.rank) ∈ (Cert.KernelIdeal.dot_S32x64_S64x64_S32x64_1_0_0_1_n_n).rhsBatch by decide), dif_pos (show (1 : Fin Cert.KernelIdeal.S64x64.rank) ∈ (Cert.KernelIdeal.dot_S32x64_S64x64_S32x64_1_0_0_1_n_n).rhsNonContracting by decide)]
    rfl

theorem plain_k64x96 : PlainDot Cert.KernelIdeal.dot_S32x64_S64x96_S32x96_1_0_0_1_n_n where
  hr := rfl
  hs := rfl
  hl0 := fun j q => by
    unfold DotDims.lhsIdx
    rw [dif_neg (show ¬(0 : Fin Cert.KernelIdeal.S32x64.rank) ∈ (Cert.KernelIdeal.dot_S32x64_S64x96_S32x96_1_0_0_1_n_n).lhsBatch by decide), dif_pos (show (0 : Fin Cert.KernelIdeal.S32x64.rank) ∈ (Cert.KernelIdeal.dot_S32x64_S64x96_S32x96_1_0_0_1_n_n).lhsNonContracting by decide)]
    rfl
  hl1 := fun j q => (Cert.KernelIdeal.dot_S32x64_S64x96_S32x96_1_0_0_1_n_n).lhsIdx_val_of_single rfl j q
  hr0 := fun j q => (Cert.KernelIdeal.dot_S32x64_S64x96_S32x96_1_0_0_1_n_n).rhsIdx_val_of_single rfl j q
  hr1 := fun j q => by
    unfold DotDims.rhsIdx
    rw [dif_neg (show ¬(1 : Fin Cert.KernelIdeal.S64x96.rank) ∈ (Cert.KernelIdeal.dot_S32x64_S64x96_S32x96_1_0_0_1_n_n).rhsBatch by decide), dif_pos (show (1 : Fin Cert.KernelIdeal.S64x96.rank) ∈ (Cert.KernelIdeal.dot_S32x64_S64x96_S32x96_1_0_0_1_n_n).rhsNonContracting by decide)]
    rfl

theorem plain_k96 : PlainDot Cert.KernelIdeal.dot_S32x96_S96x96_S32x96_1_0_0_1_n_n where
  hr := rfl
  hs := rfl
  hl0 := fun j q => by
    unfold DotDims.lhsIdx
    rw [dif_neg (show ¬(0 : Fin Cert.KernelIdeal.S32x96.rank) ∈ (Cert.KernelIdeal.dot_S32x96_S96x96_S32x96_1_0_0_1_n_n).lhsBatch by decide), dif_pos (show (0 : Fin Cert.KernelIdeal.S32x96.rank) ∈ (Cert.KernelIdeal.dot_S32x96_S96x96_S32x96_1_0_0_1_n_n).lhsNonContracting by decide)]
    rfl
  hl1 := fun j q => (Cert.KernelIdeal.dot_S32x96_S96x96_S32x96_1_0_0_1_n_n).lhsIdx_val_of_single rfl j q
  hr0 := fun j q => (Cert.KernelIdeal.dot_S32x96_S96x96_S32x96_1_0_0_1_n_n).rhsIdx_val_of_single rfl j q
  hr1 := fun j q => by
    unfold DotDims.rhsIdx
    rw [dif_neg (show ¬(1 : Fin Cert.KernelIdeal.S96x96.rank) ∈ (Cert.KernelIdeal.dot_S32x96_S96x96_S32x96_1_0_0_1_n_n).rhsBatch by decide), dif_pos (show (1 : Fin Cert.KernelIdeal.S96x96.rank) ∈ (Cert.KernelIdeal.dot_S32x96_S96x96_S32x96_1_0_0_1_n_n).rhsNonContracting by decide)]
    rfl

theorem plain_k96x2 : PlainDot Cert.KernelIdeal.dot_S32x96_S96x2_S32x2_1_0_0_1_n_n where
  hr := rfl
  hs := rfl
  hl0 := fun j q => by
    unfold DotDims.lhsIdx
    rw [dif_neg (show ¬(0 : Fin Cert.KernelIdeal.S32x96.rank) ∈ (Cert.KernelIdeal.dot_S32x96_S96x2_S32x2_1_0_0_1_n_n).lhsBatch by decide), dif_pos (show (0 : Fin Cert.KernelIdeal.S32x96.rank) ∈ (Cert.KernelIdeal.dot_S32x96_S96x2_S32x2_1_0_0_1_n_n).lhsNonContracting by decide)]
    rfl
  hl1 := fun j q => (Cert.KernelIdeal.dot_S32x96_S96x2_S32x2_1_0_0_1_n_n).lhsIdx_val_of_single rfl j q
  hr0 := fun j q => (Cert.KernelIdeal.dot_S32x96_S96x2_S32x2_1_0_0_1_n_n).rhsIdx_val_of_single rfl j q
  hr1 := fun j q => by
    unfold DotDims.rhsIdx
    rw [dif_neg (show ¬(1 : Fin Cert.KernelIdeal.S96x2.rank) ∈ (Cert.KernelIdeal.dot_S32x96_S96x2_S32x2_1_0_0_1_n_n).rhsBatch by decide), dif_pos (show (1 : Fin Cert.KernelIdeal.S96x2.rank) ∈ (Cert.KernelIdeal.dot_S32x96_S96x2_S32x2_1_0_0_1_n_n).rhsNonContracting by decide)]
    rfl

theorem plain_r32 : PlainDot Cert.ReferenceIdeal.dot_S2048x32_S32x64_S2048x64_1_0_0_1_n_n where
  hr := rfl
  hs := rfl
  hl0 := fun j q => by
    unfold DotDims.lhsIdx
    rw [dif_neg (show ¬(0 : Fin Cert.ReferenceIdeal.S2048x32.rank) ∈ (Cert.ReferenceIdeal.dot_S2048x32_S32x64_S2048x64_1_0_0_1_n_n).lhsBatch by decide), dif_pos (show (0 : Fin Cert.ReferenceIdeal.S2048x32.rank) ∈ (Cert.ReferenceIdeal.dot_S2048x32_S32x64_S2048x64_1_0_0_1_n_n).lhsNonContracting by decide)]
    rfl
  hl1 := fun j q => (Cert.ReferenceIdeal.dot_S2048x32_S32x64_S2048x64_1_0_0_1_n_n).lhsIdx_val_of_single rfl j q
  hr0 := fun j q => (Cert.ReferenceIdeal.dot_S2048x32_S32x64_S2048x64_1_0_0_1_n_n).rhsIdx_val_of_single rfl j q
  hr1 := fun j q => by
    unfold DotDims.rhsIdx
    rw [dif_neg (show ¬(1 : Fin Cert.ReferenceIdeal.S32x64.rank) ∈ (Cert.ReferenceIdeal.dot_S2048x32_S32x64_S2048x64_1_0_0_1_n_n).rhsBatch by decide), dif_pos (show (1 : Fin Cert.ReferenceIdeal.S32x64.rank) ∈ (Cert.ReferenceIdeal.dot_S2048x32_S32x64_S2048x64_1_0_0_1_n_n).rhsNonContracting by decide)]
    rfl

theorem plain_r64 : PlainDot Cert.ReferenceIdeal.dot_S2048x64_S64x64_S2048x64_1_0_0_1_n_n where
  hr := rfl
  hs := rfl
  hl0 := fun j q => by
    unfold DotDims.lhsIdx
    rw [dif_neg (show ¬(0 : Fin Cert.ReferenceIdeal.S2048x64.rank) ∈ (Cert.ReferenceIdeal.dot_S2048x64_S64x64_S2048x64_1_0_0_1_n_n).lhsBatch by decide), dif_pos (show (0 : Fin Cert.ReferenceIdeal.S2048x64.rank) ∈ (Cert.ReferenceIdeal.dot_S2048x64_S64x64_S2048x64_1_0_0_1_n_n).lhsNonContracting by decide)]
    rfl
  hl1 := fun j q => (Cert.ReferenceIdeal.dot_S2048x64_S64x64_S2048x64_1_0_0_1_n_n).lhsIdx_val_of_single rfl j q
  hr0 := fun j q => (Cert.ReferenceIdeal.dot_S2048x64_S64x64_S2048x64_1_0_0_1_n_n).rhsIdx_val_of_single rfl j q
  hr1 := fun j q => by
    unfold DotDims.rhsIdx
    rw [dif_neg (show ¬(1 : Fin Cert.ReferenceIdeal.S64x64.rank) ∈ (Cert.ReferenceIdeal.dot_S2048x64_S64x64_S2048x64_1_0_0_1_n_n).rhsBatch by decide), dif_pos (show (1 : Fin Cert.ReferenceIdeal.S64x64.rank) ∈ (Cert.ReferenceIdeal.dot_S2048x64_S64x64_S2048x64_1_0_0_1_n_n).rhsNonContracting by decide)]
    rfl

theorem plain_r64x96 : PlainDot Cert.ReferenceIdeal.dot_S2048x64_S64x96_S2048x96_1_0_0_1_n_n where
  hr := rfl
  hs := rfl
  hl0 := fun j q => by
    unfold DotDims.lhsIdx
    rw [dif_neg (show ¬(0 : Fin Cert.ReferenceIdeal.S2048x64.rank) ∈ (Cert.ReferenceIdeal.dot_S2048x64_S64x96_S2048x96_1_0_0_1_n_n).lhsBatch by decide), dif_pos (show (0 : Fin Cert.ReferenceIdeal.S2048x64.rank) ∈ (Cert.ReferenceIdeal.dot_S2048x64_S64x96_S2048x96_1_0_0_1_n_n).lhsNonContracting by decide)]
    rfl
  hl1 := fun j q => (Cert.ReferenceIdeal.dot_S2048x64_S64x96_S2048x96_1_0_0_1_n_n).lhsIdx_val_of_single rfl j q
  hr0 := fun j q => (Cert.ReferenceIdeal.dot_S2048x64_S64x96_S2048x96_1_0_0_1_n_n).rhsIdx_val_of_single rfl j q
  hr1 := fun j q => by
    unfold DotDims.rhsIdx
    rw [dif_neg (show ¬(1 : Fin Cert.ReferenceIdeal.S64x96.rank) ∈ (Cert.ReferenceIdeal.dot_S2048x64_S64x96_S2048x96_1_0_0_1_n_n).rhsBatch by decide), dif_pos (show (1 : Fin Cert.ReferenceIdeal.S64x96.rank) ∈ (Cert.ReferenceIdeal.dot_S2048x64_S64x96_S2048x96_1_0_0_1_n_n).rhsNonContracting by decide)]
    rfl

theorem plain_r96 : PlainDot Cert.ReferenceIdeal.dot_S2048x96_S96x96_S2048x96_1_0_0_1_n_n where
  hr := rfl
  hs := rfl
  hl0 := fun j q => by
    unfold DotDims.lhsIdx
    rw [dif_neg (show ¬(0 : Fin Cert.ReferenceIdeal.S2048x96.rank) ∈ (Cert.ReferenceIdeal.dot_S2048x96_S96x96_S2048x96_1_0_0_1_n_n).lhsBatch by decide), dif_pos (show (0 : Fin Cert.ReferenceIdeal.S2048x96.rank) ∈ (Cert.ReferenceIdeal.dot_S2048x96_S96x96_S2048x96_1_0_0_1_n_n).lhsNonContracting by decide)]
    rfl
  hl1 := fun j q => (Cert.ReferenceIdeal.dot_S2048x96_S96x96_S2048x96_1_0_0_1_n_n).lhsIdx_val_of_single rfl j q
  hr0 := fun j q => (Cert.ReferenceIdeal.dot_S2048x96_S96x96_S2048x96_1_0_0_1_n_n).rhsIdx_val_of_single rfl j q
  hr1 := fun j q => by
    unfold DotDims.rhsIdx
    rw [dif_neg (show ¬(1 : Fin Cert.ReferenceIdeal.S96x96.rank) ∈ (Cert.ReferenceIdeal.dot_S2048x96_S96x96_S2048x96_1_0_0_1_n_n).rhsBatch by decide), dif_pos (show (1 : Fin Cert.ReferenceIdeal.S96x96.rank) ∈ (Cert.ReferenceIdeal.dot_S2048x96_S96x96_S2048x96_1_0_0_1_n_n).rhsNonContracting by decide)]
    rfl

theorem plain_r96x2 : PlainDot Cert.ReferenceIdeal.dot_S2048x96_S96x2_S2048x2_1_0_0_1_n_n where
  hr := rfl
  hs := rfl
  hl0 := fun j q => by
    unfold DotDims.lhsIdx
    rw [dif_neg (show ¬(0 : Fin Cert.ReferenceIdeal.S2048x96.rank) ∈ (Cert.ReferenceIdeal.dot_S2048x96_S96x2_S2048x2_1_0_0_1_n_n).lhsBatch by decide), dif_pos (show (0 : Fin Cert.ReferenceIdeal.S2048x96.rank) ∈ (Cert.ReferenceIdeal.dot_S2048x96_S96x2_S2048x2_1_0_0_1_n_n).lhsNonContracting by decide)]
    rfl
  hl1 := fun j q => (Cert.ReferenceIdeal.dot_S2048x96_S96x2_S2048x2_1_0_0_1_n_n).lhsIdx_val_of_single rfl j q
  hr0 := fun j q => (Cert.ReferenceIdeal.dot_S2048x96_S96x2_S2048x2_1_0_0_1_n_n).rhsIdx_val_of_single rfl j q
  hr1 := fun j q => by
    unfold DotDims.rhsIdx
    rw [dif_neg (show ¬(1 : Fin Cert.ReferenceIdeal.S96x2.rank) ∈ (Cert.ReferenceIdeal.dot_S2048x96_S96x2_S2048x2_1_0_0_1_n_n).rhsBatch by decide), dif_pos (show (1 : Fin Cert.ReferenceIdeal.S96x2.rank) ∈ (Cert.ReferenceIdeal.dot_S2048x96_S96x2_S2048x2_1_0_0_1_n_n).rhsNonContracting by decide)]
    rfl

/-- The block's product is the block of the batch's product, for plain products. -/
theorem dot_rows {K b : Nat} {d : DotDims ⟨2, ![32, K]⟩ ⟨2, ![K, b]⟩ ⟨2, ![32, b]⟩}
    {D : DotDims ⟨2, ![2048, K]⟩ ⟨2, ![K, b]⟩ ⟨2, ![2048, b]⟩} (hd : PlainDot d) (hD : PlainDot D) (t : Fin 64)
    (A : FVec Ideal ⟨2, ![2048, K]⟩ .f32) (W : FVec Ideal ⟨2, ![K, b]⟩ .f32) :
    matmul d none (rows2 t A) W (constant ⟨2, ![32, b]⟩ .f32 0x00000000#32) = rows2 t (Host.dotGeneral D none A W) :=
  rows2_dot d D none none _ hd.hr hd.hs hd.hl0 hd.hl1 hd.hr0 hd.hr1 hD.hr hD.hs hD.hl0 hD.hl1 hD.hr0 hD.hr1 t A W

variable (t : Fin 64)

theorem mmT_rows (A : FVec Ideal Cert.ReferenceIdeal.S2048x64 .f32) (W : FVec Ideal Cert.ReferenceIdeal.S64x64 .f32) :
    Cert.KernelIdeal.Hand.mmT (rows2 t A) W = rows2 t (Cert.ReferenceIdeal.Hand.mmT A W) :=
  dot_rows plain_k64 plain_r64 t A _

/-- A bias row laid over the block's rows is the block of the bias row laid over the batch: entry `(r, k)` is `b k`. -/
theorem rowb64_rows (b : FVec Ideal Cert.ReferenceIdeal.S64 .f32) :
    Cert.KernelIdeal.Hand.rowb64 b = rows2 t (Cert.ReferenceIdeal.Hand.rowb64 b) := by
  funext j
  obtain ⟨r, k, rfl⟩ : ∃ (r : Fin 32) (k : Fin 64), j = ix2 r k := ⟨j 0, j 1, eq_ix2 j⟩
  rw [rows2_apply]
  unfold Cert.KernelIdeal.Hand.rowb64 Cert.ReferenceIdeal.Hand.rowb64
  rw [broadcastTo_1b_ab_apply, shapeCast_a_1a_apply]
  rw [broadcastInDim_apply _ _ _ (ix2 (blockRow t r) k) (ix2 (0 : Fin 1) k) (fun a => by
      match a with
      | ⟨0, _⟩ => rfl
      | ⟨1, _⟩ => rfl),
    broadcastInDim_apply _ _ b (ix2 (0 : Fin 1) k) (ix1 k) (fun a => by
      match a with
      | ⟨0, _⟩ => rfl)]

theorem rowb96_rows (b : FVec Ideal Cert.ReferenceIdeal.S96 .f32) :
    Cert.KernelIdeal.Hand.rowb96 b = rows2 t (Cert.ReferenceIdeal.Hand.rowb96 b) := by
  funext j
  obtain ⟨r, k, rfl⟩ : ∃ (r : Fin 32) (k : Fin 96), j = ix2 r k := ⟨j 0, j 1, eq_ix2 j⟩
  rw [rows2_apply]
  unfold Cert.KernelIdeal.Hand.rowb96 Cert.ReferenceIdeal.Hand.rowb96
  rw [broadcastTo_1b_ab_apply, shapeCast_a_1a_apply]
  rw [broadcastInDim_apply _ _ _ (ix2 (blockRow t r) k) (ix2 (0 : Fin 1) k) (fun a => by
      match a with
      | ⟨0, _⟩ => rfl
      | ⟨1, _⟩ => rfl),
    broadcastInDim_apply _ _ b (ix2 (0 : Fin 1) k) (ix1 k) (fun a => by
      match a with
      | ⟨0, _⟩ => rfl)]

/-- The bit pattern of `1.0` is the real number one. -/
theorem ofBits_one : Ideal.ofBits .f32 0x3F800000#32 = 1 := by
  simp [Ideal.ofBits, Ideal.ieee, -EReal.coe_mul]; norm_num

/-- The one-operation sigmoid of a block is the block of `1 / (1 + exp (-g))`: over the extended reals the sigmoid is that
    expression, at the infinities too. -/
theorem sigmoid_rows (G : FVec Ideal Cert.ReferenceIdeal.S2048x64 .f32) :
    logistic (rows2 t G) = rows2 t (Host.divf Cert.ReferenceIdeal.Hand.one64 (addf Cert.ReferenceIdeal.Hand.one64 (Host.exp (Host.negf G)))) := by
  funext j
  show Ideal.logistic (G _) = Ideal.div (Ideal.ofBits .f32 0x3F800000#32) (Ideal.ofBits .f32 0x3F800000#32 + Ideal.exp (-(G _)))
  rw [ofBits_one]
  rfl

/-- Pointwise operations act entry by entry, so they commute with taking a row block. -/
theorem addf_rows {n : Nat} (X Y : FVec Ideal ⟨2, ![2048, n]⟩ .f32) : addf (rows2 t X) (rows2 t Y) = rows2 t (addf X Y) := rfl
theorem mulf_rows {n : Nat} (X Y : FVec Ideal ⟨2, ![2048, n]⟩ .f32) : mulf (rows2 t X) (rows2 t Y) = rows2 t (mulf X Y) := rfl
theorem tanh_rows {n : Nat} (X : FVec Ideal ⟨2, ![2048, n]⟩ .f32) : tanh (rows2 t X) = rows2 t (Host.tanh X) := rfl

/-- The kernel's operands of a layer are the block's view of the reference's: the delayed activation its block, the
    weights the same arrays. -/
structure Rel (w : Cert.KernelIdeal.Hand.LayerW Ideal) (W : Cert.ReferenceIdeal.Hand.LayerW Ideal) : Prop where
  d : w.d = rows2 t W.d
  fw0 : w.fw0 = W.fw0
  fw1 : w.fw1 = W.fw1
  fb : w.fb = W.fb
  gw0 : w.gw0 = W.gw0
  gw1 : w.gw1 = W.gw1
  gb : w.gb = W.gb
  rw : w.rw = W.rw
  rb : w.rb = W.rb
  sw : w.sw = W.sw
  sb : w.sb = W.sb

variable {t}

/-- The gated activation of a block is the block of the gated activation. -/
theorem gate_rows {w : Cert.KernelIdeal.Hand.LayerW Ideal} {W : Cert.ReferenceIdeal.Hand.LayerW Ideal} (h : Rel t w W)
    (C : FVec Ideal Cert.ReferenceIdeal.S2048x64 .f32) :
    Cert.KernelIdeal.Hand.gate w (rows2 t C) = rows2 t (Cert.ReferenceIdeal.Hand.gate W C) := by
  unfold Cert.KernelIdeal.Hand.gate Cert.ReferenceIdeal.Hand.gate
  rw [h.d, h.fw0, h.fw1, h.fb, h.gw0, h.gw1, h.gb, mmT_rows, mmT_rows, mmT_rows, mmT_rows, rowb64_rows t, rowb64_rows t]
  rw [addf_rows, addf_rows, addf_rows, addf_rows, tanh_rows, sigmoid_rows, mulf_rows]

/-- The activation after a layer. -/
theorem curNext_rows {w : Cert.KernelIdeal.Hand.LayerW Ideal} {W : Cert.ReferenceIdeal.Hand.LayerW Ideal} (h : Rel t w W)
    (C : FVec Ideal Cert.ReferenceIdeal.S2048x64 .f32) :
    Cert.KernelIdeal.Hand.curNext w (rows2 t C) = rows2 t (Cert.ReferenceIdeal.Hand.curNext W C) := by
  unfold Cert.KernelIdeal.Hand.curNext Cert.ReferenceIdeal.Hand.curNext
  rw [gate_rows h, h.rw, h.rb, mmT_rows, rowb64_rows t]
  rfl

/-- The skip sum after a layer. -/
theorem skipNext_rows {w : Cert.KernelIdeal.Hand.LayerW Ideal} {W : Cert.ReferenceIdeal.Hand.LayerW Ideal} (h : Rel t w W)
    (C : FVec Ideal Cert.ReferenceIdeal.S2048x64 .f32) (S : FVec Ideal Cert.ReferenceIdeal.S2048x96 .f32) :
    Cert.KernelIdeal.Hand.skipNext w (rows2 t C) (rows2 t S) = rows2 t (Cert.ReferenceIdeal.Hand.skipNext W C S) := by
  unfold Cert.KernelIdeal.Hand.skipNext Cert.ReferenceIdeal.Hand.skipNext
  rw [gate_rows h, h.sw, h.sb, dot_rows plain_k64x96 plain_r64x96, rowb96_rows t]
  rfl

/-- The state after `n` layers: the block's is the block of the batch's, when every layer's operands correspond. -/
theorem state_rows {w : Nat → Cert.KernelIdeal.Hand.LayerW Ideal} {W : Nat → Cert.ReferenceIdeal.Hand.LayerW Ideal}
    (c0 : FVec Ideal Cert.KernelIdeal.S32x64 .f32) (C0 : FVec Ideal Cert.ReferenceIdeal.S2048x64 .f32) (h0 : c0 = rows2 t C0) :
    ∀ n : Nat, (∀ i, i < n → Rel t (w i) (W i)) →
      (Cert.KernelIdeal.Hand.state w c0 n).1 = rows2 t (Cert.ReferenceIdeal.Hand.state W C0 n).1
      ∧ (Cert.KernelIdeal.Hand.state w c0 n).2 = rows2 t (Cert.ReferenceIdeal.Hand.state W C0 n).2
  | 0, _ => ⟨h0, rfl⟩
  | n + 1, h => by
    obtain ⟨ih1, ih2⟩ := state_rows c0 C0 h0 n (fun i hi => h i (Nat.lt_succ_of_lt hi))
    have hn := h n (Nat.lt_succ_self n)
    refine ⟨?_, ?_⟩
    · show Cert.KernelIdeal.Hand.curNext (w n) (Cert.KernelIdeal.Hand.state w c0 n).1 = rows2 t (Cert.ReferenceIdeal.Hand.curNext (W n) (Cert.ReferenceIdeal.Hand.state W C0 n).1)
      rw [ih1, curNext_rows hn]
    · show Cert.KernelIdeal.Hand.skipNext (w n) (Cert.KernelIdeal.Hand.state w c0 n).1 (Cert.KernelIdeal.Hand.state w c0 n).2
        = rows2 t (Cert.ReferenceIdeal.Hand.skipNext (W n) (Cert.ReferenceIdeal.Hand.state W C0 n).1 (Cert.ReferenceIdeal.Hand.state W C0 n).2)
      rw [ih1, ih2, skipNext_rows hn]

/-- The input projection. -/
theorem cur0_rows (X : FVec Ideal Cert.ReferenceIdeal.S2048x32 .f32) (w : FVec Ideal Cert.ReferenceIdeal.S64x32 .f32) (b : FVec Ideal Cert.ReferenceIdeal.S64 .f32) :
    Cert.KernelIdeal.Hand.cur0 (rows2 t X) w b = rows2 t (Cert.ReferenceIdeal.Hand.cur0 X w b) := by
  unfold Cert.KernelIdeal.Hand.cur0 Cert.ReferenceIdeal.Hand.cur0
  rw [dot_rows plain_k32 plain_r32, rowb64_rows t]
  rfl

/-- The last bias row, two entries wide. -/
theorem rowb2_rows (b : FVec Ideal Cert.ReferenceIdeal.S2 .f32) :
    broadcastTo Cert.KernelIdeal.S32x2 (shapeCast Cert.KernelIdeal.S1x2 b Cert.KernelIdeal.Gen.shapeCasts_S2_S1x2) Cert.KernelIdeal.Gen.broadcasts_S1x2_S32x2
      = rows2 t (broadcastInDim Cert.ReferenceIdeal.S2048x2 ![0, 1] Cert.ReferenceIdeal.Gen.bcast_S1x2_S2048x2_0_1
          (broadcastInDim Cert.ReferenceIdeal.S1x2 ![1] Cert.ReferenceIdeal.Gen.bcast_S2_S1x2_1 b)) := by
  funext j
  obtain ⟨r, k, rfl⟩ : ∃ (r : Fin 32) (k : Fin 2), j = ix2 r k := ⟨j 0, j 1, eq_ix2 j⟩
  rw [rows2_apply, broadcastTo_1b_ab_apply, shapeCast_a_1a_apply]
  rw [broadcastInDim_apply _ _ _ (ix2 (blockRow t r) k) (ix2 (0 : Fin 1) k) (fun a => by
      match a with
      | ⟨0, _⟩ => rfl
      | ⟨1, _⟩ => rfl),
    broadcastInDim_apply _ _ b (ix2 (0 : Fin 1) k) (ix1 k) (fun a => by
      match a with
      | ⟨0, _⟩ => rfl)]

/-- The head. -/
theorem head_rows (S : FVec Ideal Cert.ReferenceIdeal.S2048x96 .f32) (w1 : FVec Ideal Cert.ReferenceIdeal.S96x96 .f32) (b1 : FVec Ideal Cert.ReferenceIdeal.S96 .f32)
    (w2 : FVec Ideal Cert.ReferenceIdeal.S2x96 .f32) (b2 : FVec Ideal Cert.ReferenceIdeal.S2 .f32) :
    Cert.KernelIdeal.Hand.head (rows2 t S) w1 b1 w2 b2 = rows2 t (Cert.ReferenceIdeal.Hand.head S w1 b1 w2 b2) := by
  unfold Cert.KernelIdeal.Hand.head Cert.ReferenceIdeal.Hand.head Cert.ReferenceIdeal.Hand.relu
  have e1 : maximumf (rows2 t S) (broadcast Cert.KernelIdeal.S32x96 (Scalar.ofBits (F := Ideal) .f32 0x00000000#32))
      = rows2 t (maximumf S Cert.ReferenceIdeal.Hand.skip0) := rfl
  rw [e1, dot_rows plain_k96 plain_r96, rowb96_rows t]
  have e2 : ∀ Y : FVec Ideal Cert.ReferenceIdeal.S2048x96 .f32, ∀ B : FVec Ideal Cert.ReferenceIdeal.S2048x96 .f32,
      maximumf (addf (rows2 t Y) (rows2 t B)) (broadcast Cert.KernelIdeal.S32x96 (Scalar.ofBits (F := Ideal) .f32 0x00000000#32))
      = rows2 t (maximumf (addf Y B) Cert.ReferenceIdeal.Hand.skip0) := fun _ _ => rfl
  rw [e2, dot_rows plain_k96x2 plain_r96x2, rowb2_rows]
  rfl

end Cert.Bridge

end
-- ==== Proof.KLeaves.lean ====
/-
  The operands the kernel body loads at a grid point are the row block's view of the argument arrays: the body's
  `[32, 32]` and `[32, 64, 1023]` operands are row blocks of `x` and of the ring buffer, every weight operand is the whole
  weight array. So the delayed activation a layer loads (one lane of the ring-buffer block) is the row block of the
  reference's delayed activation, and slab `i` of a weight stack is the reference's slab `i`. With the layer step's
  commutation with row blocks this makes the body's output block the row block of the reference's output.
-/
import proofs.«172806_j69252052680869_2_alg».proof.Proof.KBlock
import proofs.«172806_j69252052680869_2_alg».proof.Proof.Commute

set_option maxRecDepth 16384

noncomputable section

namespace Cert.KernelIdeal.Hand

open Idealize.ShloMosaic Idealize.ShloMosaic.TcCoe Idealize.ShloMosaic.ValueIdx Idealize.SL.Sem Cert.KernelIdeal Cert.KernelIdeal.Gen
open Cert.LibRowBlock Cert.Bridge

/-- A load of a whole buffer's box at unit stride reads the slice of the buffer's contents at the box's offset. -/
theorem readAt_unit_eq_slice {F : FTy → Type} {S : Shape} (arg : Memref sig .tc .vmem S .f32) (harg : arg.IsWhole)
    (x : Vec F S .f32) (off size : Fin S.rank → Nat) (inb : ∀ a, off a + size a ≤ S.size a)
    (h : S.Slices off ⟨S.rank, size⟩) :
    View.readAt (Elt F) arg.view (Rect.unit (s := S) off size inb).toLoadRect (harg.unread x)
      = extractStridedSlice ⟨S.rank, size⟩ off x h := by
  rw [View.readAt_eq_ld, harg.read_unread]
  funext j
  unfold View.ld extractStridedSlice
  refine congrArg x (funext fun a => Fin.ext ?_)
  show off a + 1 * (j a).val = off a + (j a).val
  rw [Nat.one_mul]

/-- A load of the whole buffer reads its contents. -/
theorem readAt_whole {F : FTy → Type} {S : Shape} (arg : Memref sig .tc .vmem S .f32) (harg : arg.IsWhole)
    (x : Vec F S .f32) (off : Fin S.rank → Nat) (hz : off = fun _ => 0) (inb : ∀ a, off a + S.size a ≤ S.size a) :
    View.readAt (Elt F) arg.view (Rect.unit (s := S) off S.size inb).toLoadRect (harg.unread x) = x := by
  rw [View.readAt_eq_ld, harg.read_unread, View.ld_unit_zero hz]

/-- An `[a, b, 1]` array cast to `[a, b]` reads, at `(i, j)`, the operand at `(i, j, 0)`. -/
theorem shapeCast_ab1_ab_apply {α : Type} {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

variable (t : Fin 64)

/-- One lane of the ring-buffer block, as a `[32, 64]` array, is the row block of that lane of the whole ring buffer. -/
theorem lane_rows (A1 : FVec Ideal Cert.ReferenceIdeal.S2048x64x1023 .f32) (off : Nat)
    (hd : S32x64x1023.Slices ![0, 0, off] S32x64x1) (hD : Cert.ReferenceIdeal.S2048x64x1023.Slices ![0, 0, off] Cert.ReferenceIdeal.S2048x64x1)
    (h1 : S32x64x1.ShapeCasts S32x64) (h2 : Cert.ReferenceIdeal.S2048x64x1.ShapeCasts Cert.ReferenceIdeal.S2048x64) :
    shapeCast S32x64 (extractStridedSlice S32x64x1 ![0, 0, off] (rows3 t A1) hd) h1
      = rows2 t (shapeCast Cert.ReferenceIdeal.S2048x64 (extractStridedSlice Cert.ReferenceIdeal.S2048x64x1 ![0, 0, off] A1 hD) h2) := by
  have hoff : off < 1023 := by have := hd.2 2; simp at this; omega
  funext j
  obtain ⟨r, k, rfl⟩ : ∃ (r : Fin 32) (k : Fin 64), j = ix2 r k := ⟨j 0, j 1, eq_ix2 j⟩
  rw [rows2_apply, shapeCast_ab1_ab_apply, shapeCast_ab1_ab_apply]
  rw [extractStridedSlice_apply _ _ hd (ix3 r k (0 : Fin 1)) (ix3 r k (⟨off, hoff⟩ : Fin 1023)) (fun a => by
      match a with
      | ⟨0, _⟩ => show r.val = 0 + r.val; omega
      | ⟨1, _⟩ => show k.val = 0 + k.val; omega
      | ⟨2, _⟩ => show off = off + 0; omega),
    extractStridedSlice_apply _ _ hD (ix3 (blockRow t r) k (0 : Fin 1)) (ix3 (blockRow t r) k (⟨off, hoff⟩ : Fin 1023)) (fun a => by
      match a with
      | ⟨0, _⟩ => show (blockRow t r).val = 0 + (blockRow t r).val; omega
      | ⟨1, _⟩ => show k.val = 0 + k.val; omega
      | ⟨2, _⟩ => show off = off + 0; omega)]
  rfl

variable (arg1 : Memref sig .tc .vmem S32x32 .f32) (harg1 : arg1.IsWhole) (arg2 : Memref sig .tc .vmem S32x64x1023 .f32) (harg2 : arg2.IsWhole) (arg3 : Memref sig .tc .vmem S64x32 .f32) (harg3 : arg3.IsWhole) (arg4 : Memref sig .tc .vmem S64 .f32) (harg4 : arg4.IsWhole) (arg5 : Memref sig .tc .vmem S10x64x64 .f32) (harg5 : arg5.IsWhole) (arg6 : Memref sig .tc .vmem S10x64x64 .f32) (harg6 : arg6.IsWhole) (arg7 : Memref sig .tc .vmem S10x64 .f32) (harg7 : arg7.IsWhole) (arg8 : Memref sig .tc .vmem S10x64x64 .f32) (harg8 : arg8.IsWhole) (arg9 : Memref sig .tc .vmem S10x64x64 .f32) (harg9 : arg9.IsWhole) (arg10 : Memref sig .tc .vmem S10x64 .f32) (harg10 : arg10.IsWhole) (arg11 : Memref sig .tc .vmem S10x64x64 .f32) (harg11 : arg11.IsWhole) (arg12 : Memref sig .tc .vmem S10x64 .f32) (harg12 : arg12.IsWhole) (arg13 : Memref sig .tc .vmem S10x96x64 .f32) (harg13 : arg13.IsWhole) (arg14 : Memref sig .tc .vmem S10x96 .f32) (harg14 : arg14.IsWhole) (arg15 : Memref sig .tc .vmem S96x96 .f32) (harg15 : arg15.IsWhole) (arg16 : Memref sig .tc .vmem S96 .f32) (harg16 : arg16.IsWhole) (arg17 : Memref sig .tc .vmem S2x96 .f32) (harg17 : arg17.IsWhole) (arg18 : Memref sig .tc .vmem S2 .f32) (harg18 : arg18.IsWhole) (x0 : Vec Ideal S32x32 .f32) (x1 : Vec Ideal S32x64x1023 .f32) (x2 : Vec Ideal S64x32 .f32) (x3 : Vec Ideal S64 .f32) (x4 : Vec Ideal S10x64x64 .f32) (x5 : Vec Ideal S10x64x64 .f32) (x6 : Vec Ideal S10x64 .f32) (x7 : Vec Ideal S10x64x64 .f32) (x8 : Vec Ideal S10x64x64 .f32) (x9 : Vec Ideal S10x64 .f32) (x10 : Vec Ideal S10x64x64 .f32) (x11 : Vec Ideal S10x64 .f32) (x12 : Vec Ideal S10x96x64 .f32) (x13 : Vec Ideal S10x96 .f32) (x14 : Vec Ideal S96x96 .f32) (x15 : Vec Ideal S96 .f32) (x16 : Vec Ideal S2x96 .f32) (x17 : Vec Ideal S2 .f32) (A0 : FVec Ideal Cert.ReferenceIdeal.S2048x32 .f32) (A1 : FVec Ideal Cert.ReferenceIdeal.S2048x64x1023 .f32) (A2 : FVec Ideal Cert.ReferenceIdeal.S64x32 .f32) (A3 : FVec Ideal Cert.ReferenceIdeal.S64 .f32) (A4 : FVec Ideal Cert.ReferenceIdeal.S10x64x64 .f32) (A5 : FVec Ideal Cert.ReferenceIdeal.S10x64x64 .f32) (A6 : FVec Ideal Cert.ReferenceIdeal.S10x64 .f32) (A7 : FVec Ideal Cert.ReferenceIdeal.S10x64x64 .f32) (A8 : FVec Ideal Cert.ReferenceIdeal.S10x64x64 .f32) (A9 : FVec Ideal Cert.ReferenceIdeal.S10x64 .f32) (A10 : FVec Ideal Cert.ReferenceIdeal.S10x64x64 .f32) (A11 : FVec Ideal Cert.ReferenceIdeal.S10x64 .f32) (A12 : FVec Ideal Cert.ReferenceIdeal.S10x96x64 .f32) (A13 : FVec Ideal Cert.ReferenceIdeal.S10x96 .f32) (A14 : FVec Ideal Cert.ReferenceIdeal.S96x96 .f32) (A15 : FVec Ideal Cert.ReferenceIdeal.S96 .f32) (A16 : FVec Ideal Cert.ReferenceIdeal.S2x96 .f32) (A17 : FVec Ideal Cert.ReferenceIdeal.S2 .f32) (hx0 : x0 = rows2 t A0) (hx1 : x1 = rows3 t A1) (hx2 : x2 = A2) (hx3 : x3 = A3) (hx4 : x4 = A4) (hx5 : x5 = A5) (hx6 : x6 = A6) (hx7 : x7 = A7) (hx8 : x8 = A8) (hx9 : x9 = A9) (hx10 : x10 = A10) (hx11 : x11 = A11) (hx12 : x12 = A12) (hx13 : x13 = A13) (hx14 : x14 = A14) (hx15 : x15 = A15) (hx16 : x16 = A16) (hx17 : x17 = A17)

include hx0 hx1 hx2 hx3 hx4 hx5 hx6 hx7 hx8 hx9 hx10 hx11 hx12 hx13 hx14 hx15 hx16 hx17 in
/-- Layer `i`'s operands as the body loads them are the block's view of the reference's. -/
theorem leaves_rel (i off : Nat)
    (hd : ∀ a, (![0, 0, off] : Fin 3 → Nat) a + S32x64x1.size a ≤ S32x64x1023.size a)
    (hw : ∀ a, (![i, 0, 0] : Fin 3 → Nat) a + S1x64x64.size a ≤ S10x64x64.size a)
    (hb : ∀ a, (![i, 0] : Fin 2 → Nat) a + S1x64.size a ≤ S10x64.size a)
    (hsw : ∀ a, (![i, 0, 0] : Fin 3 → Nat) a + S1x96x64.size a ≤ S10x96x64.size a)
    (hsb : ∀ a, (![i, 0] : Fin 2 → Nat) a + S1x96.size a ≤ S10x96.size a)
    (Hd : Cert.ReferenceIdeal.S2048x64x1023.Slices ![0, 0, off] Cert.ReferenceIdeal.S2048x64x1) (Hw : Cert.ReferenceIdeal.S10x64x64.Slices ![i, 0, 0] Cert.ReferenceIdeal.S1x64x64)
    (Hb : Cert.ReferenceIdeal.S10x64.Slices ![i, 0] Cert.ReferenceIdeal.S1x64) (Hsw : Cert.ReferenceIdeal.S10x96x64.Slices ![i, 0, 0] Cert.ReferenceIdeal.S1x96x64)
    (Hsb : Cert.ReferenceIdeal.S10x96.Slices ![i, 0] Cert.ReferenceIdeal.S1x96) :
    Rel t (leaves arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 i off hd hw hb hsw hsb) (Cert.ReferenceIdeal.Hand.leaves A0 A1 A2 A3 A4 A5 A6 A7 A8 A9 A10 A11 A12 A13 A14 A15 A16 A17 i off Hd Hw Hb Hsw Hsb) := by
  have sd : S32x64x1023.Slices ![0, 0, off] S32x64x1 := ⟨rfl, hd⟩
  have sw' : S10x64x64.Slices ![i, 0, 0] S1x64x64 := ⟨rfl, hw⟩
  have sb' : S10x64.Slices ![i, 0] S1x64 := ⟨rfl, hb⟩
  have ssw : S10x96x64.Slices ![i, 0, 0] S1x96x64 := ⟨rfl, hsw⟩
  have ssb : S10x96.Slices ![i, 0] S1x96 := ⟨rfl, hsb⟩
  unfold leaves Cert.ReferenceIdeal.Hand.leaves
  refine ⟨?_, ?_, ?_, ?_, ?_, ?_, ?_, ?_, ?_, ?_, ?_⟩
  · show shapeCast S32x64 (View.readAt (Elt Ideal) arg2.view _ (harg2.unread x1)) _ = _
    rw [readAt_unit_eq_slice arg2 harg2 x1 _ _ hd sd, hx1]
    exact lane_rows t A1 off sd Hd _ _
  · show shapeCast S64x64 (View.readAt (Elt Ideal) arg5.view _ (harg5.unread x4)) _ = _
    rw [readAt_unit_eq_slice arg5 harg5 x4 _ _ hw sw', hx4]
  · show shapeCast S64x64 (View.readAt (Elt Ideal) arg6.view _ (harg6.unread x5)) _ = _
    rw [readAt_unit_eq_slice arg6 harg6 x5 _ _ hw sw', hx5]
  · show shapeCast S64 (View.readAt (Elt Ideal) arg7.view _ (harg7.unread x6)) _ = _
    rw [readAt_unit_eq_slice arg7 harg7 x6 _ _ hb sb', hx6]
  · show shapeCast S64x64 (View.readAt (Elt Ideal) arg8.view _ (harg8.unread x7)) _ = _
    rw [readAt_unit_eq_slice arg8 harg8 x7 _ _ hw sw', hx7]
  · show shapeCast S64x64 (View.readAt (Elt Ideal) arg9.view _ (harg9.unread x8)) _ = _
    rw [readAt_unit_eq_slice arg9 harg9 x8 _ _ hw sw', hx8]
  · show shapeCast S64 (View.readAt (Elt Ideal) arg10.view _ (harg10.unread x9)) _ = _
    rw [readAt_unit_eq_slice arg10 harg10 x9 _ _ hb sb', hx9]
  · show shapeCast S64x64 (View.readAt (Elt Ideal) arg11.view _ (harg11.unread x10)) _ = _
    rw [readAt_unit_eq_slice arg11 harg11 x10 _ _ hw sw', hx10]
  · show shapeCast S64 (View.readAt (Elt Ideal) arg12.view _ (harg12.unread x11)) _ = _
    rw [readAt_unit_eq_slice arg12 harg12 x11 _ _ hb sb', hx11]
  · show shapeCast S96x64 (View.readAt (Elt Ideal) arg13.view _ (harg13.unread x12)) _ = _
    rw [readAt_unit_eq_slice arg13 harg13 x12 _ _ hsw ssw, hx12]
  · show shapeCast S96 (View.readAt (Elt Ideal) arg14.view _ (harg14.unread x13)) _ = _
    rw [readAt_unit_eq_slice arg14 harg14 x13 _ _ hsb ssb, hx13]

include hx0 hx1 hx2 hx3 hx4 hx5 hx6 hx7 hx8 hx9 hx10 hx11 hx12 hx13 hx14 hx15 hx16 hx17 in
/-- So for each of the ten layers. -/
theorem kW_rel (i : Nat) (hi : i < 10) : Rel t (kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 i) (Cert.ReferenceIdeal.Hand.rW A0 A1 A2 A3 A4 A5 A6 A7 A8 A9 A10 A11 A12 A13 A14 A15 A16 A17 i) := by
  interval_cases i <;>
    exact leaves_rel t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 A0 A1 A2 A3 A4 A5 A6 A7 A8 A9 A10 A11 A12 A13 A14 A15 A16 A17 hx0 hx1 hx2 hx3 hx4 hx5 hx6 hx7 hx8 hx9 hx10 hx11 hx12 hx13 hx14 hx15 hx16 hx17 _ _ _ _ _ _ _ _ _ _ _ _

include hx0 hx1 hx2 hx3 hx4 hx5 hx6 hx7 hx8 hx9 hx10 hx11 hx12 hx13 hx14 hx15 hx16 hx17 in
/-- The block's input projection is the row block of the reference's. -/
theorem kcur0_rows : kcur0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 = rows2 t (Cert.ReferenceIdeal.Hand.cur0 A0 A2 A3) := by
  unfold kcur0
  rw [readAt_whole arg1 harg1 x0 _ hz2, readAt_whole arg3 harg3 x2 _ hz2,
    readAt_whole arg4 harg4 x3 _ (funext fun a => by fin_cases a; rfl), hx0, hx2, hx3]
  exact cur0_rows _ _ _

include hx0 hx1 hx2 hx3 hx4 hx5 hx6 hx7 hx8 hx9 hx10 hx11 hx12 hx13 hx14 hx15 hx16 hx17 in
/-- The block's activation and skip sum after `n` layers are the row blocks of the reference's. -/
theorem kstate_rows (n : Nat) (hn : n ≤ 10) :
    (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 n).1 = rows2 t (Cert.ReferenceIdeal.Hand.rstate A0 A1 A2 A3 A4 A5 A6 A7 A8 A9 A10 A11 A12 A13 A14 A15 A16 A17 n).1
    ∧ (kstate arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 n).2 = rows2 t (Cert.ReferenceIdeal.Hand.rstate A0 A1 A2 A3 A4 A5 A6 A7 A8 A9 A10 A11 A12 A13 A14 A15 A16 A17 n).2 :=
  state_rows (t := t) (w := kW arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17) (W := Cert.ReferenceIdeal.Hand.rW A0 A1 A2 A3 A4 A5 A6 A7 A8 A9 A10 A11 A12 A13 A14 A15 A16 A17) _ _
    (kcur0_rows t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 A0 A1 A2 A3 A4 A5 A6 A7 A8 A9 A10 A11 A12 A13 A14 A15 A16 A17 hx0 hx1 hx2 hx3 hx4 hx5 hx6 hx7 hx8 hx9 hx10 hx11 hx12 hx13 hx14 hx15 hx16 hx17) n
    (fun i hi => kW_rel t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 A0 A1 A2 A3 A4 A5 A6 A7 A8 A9 A10 A11 A12 A13 A14 A15 A16 A17 hx0 hx1 hx2 hx3 hx4 hx5 hx6 hx7 hx8 hx9 hx10 hx11 hx12 hx13 hx14 hx15 hx16 hx17 i (by omega))

include hx0 hx1 hx2 hx3 hx4 hx5 hx6 hx7 hx8 hx9 hx10 hx11 hx12 hx13 hx14 hx15 hx16 hx17 in
/-- The body's output block is the row block of the reference's output. -/
theorem kout_rows : kout arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 = rows2 t (Cert.ReferenceIdeal.Hand.rout A0 A1 A2 A3 A4 A5 A6 A7 A8 A9 A10 A11 A12 A13 A14 A15 A16 A17) := by
  have hs := kstate_rows t arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 x16 x17 A0 A1 A2 A3 A4 A5 A6 A7 A8 A9 A10 A11 A12 A13 A14 A15 A16 A17 hx0 hx1 hx2 hx3 hx4 hx5 hx6 hx7 hx8 hx9 hx10 hx11 hx12 hx13 hx14 hx15 hx16 hx17 10 (le_refl 10)
  unfold kout khead Cert.ReferenceIdeal.Hand.rout
  rw [hs.2, readAt_whole arg15 harg15 x14 _ hz2, readAt_whole arg16 harg16 x15 _ (funext fun a => by fin_cases a; rfl),
    readAt_whole arg17 harg17 x16 _ hz2, readAt_whole arg18 harg18 x17 _ (funext fun a => by fin_cases a; rfl),
    hx14, hx15, hx16, hx17]
  exact head_rows _ _ _ _ _

end Cert.KernelIdeal.Hand

end
-- ==== Proof.KFinal.lean ====
/-
  The kernel's run, read at the exact extended reals. At grid point `t` the body's operands are row block `t` of `x` and of
  the ring buffer and the whole weight arrays, so what the point writes back is row block `t` of the reference's two
  results (the head's output; the lane-by-lane new ring buffer over the activations before each layer). The 64 blocks
  tile both result arrays, so after the run the arrays are those results.
-/
import proofs.«172806_j69252052680869_2_alg».proof.Proof.Gen.KernelIdeal.Value
import proofs.«172806_j69252052680869_2_alg».proof.Proof.KWords
import proofs.«172806_j69252052680869_2_alg».proof.Proof.KNewBuf
import proofs.«172806_j69252052680869_2_alg».proof.Proof.KLeaves

set_option maxRecDepth 16384

noncomputable section

namespace Cert.KernelIdeal.HandValue

open Idealize.ShloMosaic Idealize.ShloMosaic.TcCoe Idealize.ShloMosaic.ValueIdx Idealize.SL.Sem Cert.KernelIdeal Cert.KernelIdeal.Gen
open Cert.KernelIdeal.Hand Cert.LibRowBlock Cert.Bridge
open Idealize.ShloMosaic.Pipeline (Dat)

variable (m : (ℓ : Loc nD τ sig) → Buf (Elt Ideal) ℓ) (ρ : Dev nD → PrngReg)

/-- A grid point as a block number. -/
def tt (t : Fin cfg0.N) : Fin 64 := ⟨t.val, by have h := t.isLt; have hN : cfg0.N = 64 := N_0; omega⟩

/-- The index maps, decided over the grid: the batch windows move one block per point along the batch axis. -/
theorem idx2 : ∀ t : Fin cfg0.N, win0_0.index t (0 : Fin 2) = t.val ∧ win0_0.index t (1 : Fin 2) = 0
    ∧ win0_18.index t (0 : Fin 2) = t.val ∧ win0_18.index t (1 : Fin 2) = 0 :=
  (by decide +kernel : ∀ t : Fin grid0.N, _)

theorem idx3 : ∀ t : Fin cfg0.N, win0_1.index t (0 : Fin 3) = t.val ∧ win0_1.index t (1 : Fin 3) = 0
    ∧ win0_1.index t (2 : Fin 3) = 0 ∧ win0_19.index t (0 : Fin 3) = t.val ∧ win0_19.index t (1 : Fin 3) = 0
    ∧ win0_19.index t (2 : Fin 3) = 0 :=
  (by decide +kernel : ∀ t : Fin grid0.N, _)

/-- Window 0's block at point `t` is row block `t` of `x`. -/
theorem blk0 (c : Dev nD) (t : Fin cfg0.N) :
    (iblk m c 0 t : Vec Ideal S32x32 .f32) = rows2 (tt t) (m ((c : Thread nD τ).loc main_arg0)) := by
  funext j
  unfold iblk
  rw [View.read_apply]
  show V m c main_arg0 _ = _
  rw [V_main_arg0 m c]
  show m ((c : Thread nD τ).loc main_arg0) (((cfg0.win 0).blk t).view.emb j)
    = m ((c : Thread nD τ).loc main_arg0) (ix2 (blockRow (tt t) (j 0)) (j 1))
  obtain ⟨e0, e1, -, -⟩ := idx2 t
  refine congrArg _ (funext fun a => Fin.ext ?_)
  match a with
  | ⟨0, _⟩ => show win0_0.index t (0 : Fin 2) * 32 + 1 * (j 0).val = 32 * t.val + (j 0).val; rw [e0]; omega
  | ⟨1, _⟩ => show win0_0.index t (1 : Fin 2) * 32 + 1 * (j 1).val = (j 1).val; rw [e1]; omega

/-- Window 1's block at point `t` is row block `t` of the ring buffer. -/
theorem blk1 (c : Dev nD) (t : Fin cfg0.N) :
    (iblk m c 1 t : Vec Ideal S32x64x1023 .f32) = rows3 (tt t) (m ((c : Thread nD τ).loc main_arg1)) := by
  funext j
  unfold iblk
  rw [View.read_apply]
  show V m c main_arg1 _ = _
  rw [V_main_arg1 m c]
  show m ((c : Thread nD τ).loc main_arg1) (((cfg0.win 1).blk t).view.emb j)
    = m ((c : Thread nD τ).loc main_arg1) (ix3 (blockRow (tt t) (j 0)) (j 1) (j 2))
  obtain ⟨e0, e1, e2, -, -, -⟩ := idx3 t
  refine congrArg _ (funext fun a => Fin.ext ?_)
  match a with
  | ⟨0, _⟩ => show win0_1.index t (0 : Fin 3) * 32 + 1 * (j 0).val = 32 * t.val + (j 0).val; rw [e0]; omega
  | ⟨1, _⟩ => show win0_1.index t (1 : Fin 3) * 64 + 1 * (j 1).val = (j 1).val; rw [e1]; omega
  | ⟨2, _⟩ => show win0_1.index t (2 : Fin 3) * 1023 + 1 * (j 2).val = (j 2).val; rw [e2]; omega

theorem idxw2 : ∀ (t : Fin cfg0.N) (a : Fin 2), win0_2.index t a = 0 :=
  (by decide +kernel : ∀ (t : Fin grid0.N) (a : Fin 2), win0_2.index t a = 0)

/-- Window 2's block is the whole array at every point. -/
theorem blk2 (c : Dev nD) (t : Fin cfg0.N) :
    (iblk m c 2 t : Vec Ideal S64x32 .f32) = m ((c : Thread nD τ).loc main_arg2) := by
  funext j
  unfold iblk
  rw [View.read_apply]
  show V m c main_arg2 _ = _
  rw [V_main_arg2 m c]
  show m ((c : Thread nD τ).loc main_arg2) (((cfg0.win 2).blk t).view.emb j) = m ((c : Thread nD τ).loc main_arg2) j
  refine congrArg _ (funext fun a => Fin.ext ?_)
  match a with
    | ⟨0, _⟩ => show win0_2.index t (0 : Fin 2) * 64 + 1 * (j 0).val = (j 0).val; rw [idxw2 t (0 : Fin 2)]; omega
    | ⟨1, _⟩ => show win0_2.index t (1 : Fin 2) * 32 + 1 * (j 1).val = (j 1).val; rw [idxw2 t (1 : Fin 2)]; omega

theorem idxw3 : ∀ (t : Fin cfg0.N) (a : Fin 1), win0_3.index t a = 0 :=
  (by decide +kernel : ∀ (t : Fin grid0.N) (a : Fin 1), win0_3.index t a = 0)

/-- Window 3's block is the whole array at every point. -/
theorem blk3 (c : Dev nD) (t : Fin cfg0.N) :
    (iblk m c 3 t : Vec Ideal S64 .f32) = m ((c : Thread nD τ).loc main_arg3) := by
  funext j
  unfold iblk
  rw [View.read_apply]
  show V m c main_arg3 _ = _
  rw [V_main_arg3 m c]
  show m ((c : Thread nD τ).loc main_arg3) (((cfg0.win 3).blk t).view.emb j) = m ((c : Thread nD τ).loc main_arg3) j
  refine congrArg _ (funext fun a => Fin.ext ?_)
  match a with
    | ⟨0, _⟩ => show win0_3.index t (0 : Fin 1) * 64 + 1 * (j 0).val = (j 0).val; rw [idxw3 t (0 : Fin 1)]; omega

theorem idxw4 : ∀ (t : Fin cfg0.N) (a : Fin 3), win0_4.index t a = 0 :=
  (by decide +kernel : ∀ (t : Fin grid0.N) (a : Fin 3), win0_4.index t a = 0)

/-- Window 4's block is the whole array at every point. -/
theorem blk4 (c : Dev nD) (t : Fin cfg0.N) :
    (iblk m c 4 t : Vec Ideal S10x64x64 .f32) = m ((c : Thread nD τ).loc main_arg4) := by
  funext j
  unfold iblk
  rw [View.read_apply]
  show V m c main_arg4 _ = _
  rw [V_main_arg4 m c]
  show m ((c : Thread nD τ).loc main_arg4) (((cfg0.win 4).blk t).view.emb j) = m ((c : Thread nD τ).loc main_arg4) j
  refine congrArg _ (funext fun a => Fin.ext ?_)
  match a with
    | ⟨0, _⟩ => show win0_4.index t (0 : Fin 3) * 10 + 1 * (j 0).val = (j 0).val; rw [idxw4 t (0 : Fin 3)]; omega
    | ⟨1, _⟩ => show win0_4.index t (1 : Fin 3) * 64 + 1 * (j 1).val = (j 1).val; rw [idxw4 t (1 : Fin 3)]; omega
    | ⟨2, _⟩ => show win0_4.index t (2 : Fin 3) * 64 + 1 * (j 2).val = (j 2).val; rw [idxw4 t (2 : Fin 3)]; omega

theorem idxw5 : ∀ (t : Fin cfg0.N) (a : Fin 3), win0_5.index t a = 0 :=
  (by decide +kernel : ∀ (t : Fin grid0.N) (a : Fin 3), win0_5.index t a = 0)

/-- Window 5's block is the whole array at every point. -/
theorem blk5 (c : Dev nD) (t : Fin cfg0.N) :
    (iblk m c 5 t : Vec Ideal S10x64x64 .f32) = m ((c : Thread nD τ).loc main_arg5) := by
  funext j
  unfold iblk
  rw [View.read_apply]
  show V m c main_arg5 _ = _
  rw [V_main_arg5 m c]
  show m ((c : Thread nD τ).loc main_arg5) (((cfg0.win 5).blk t).view.emb j) = m ((c : Thread nD τ).loc main_arg5) j
  refine congrArg _ (funext fun a => Fin.ext ?_)
  match a with
    | ⟨0, _⟩ => show win0_5.index t (0 : Fin 3) * 10 + 1 * (j 0).val = (j 0).val; rw [idxw5 t (0 : Fin 3)]; omega
    | ⟨1, _⟩ => show win0_5.index t (1 : Fin 3) * 64 + 1 * (j 1).val = (j 1).val; rw [idxw5 t (1 : Fin 3)]; omega
    | ⟨2, _⟩ => show win0_5.index t (2 : Fin 3) * 64 + 1 * (j 2).val = (j 2).val; rw [idxw5 t (2 : Fin 3)]; omega

theorem idxw6 : ∀ (t : Fin cfg0.N) (a : Fin 2), win0_6.index t a = 0 :=
  (by decide +kernel : ∀ (t : Fin grid0.N) (a : Fin 2), win0_6.index t a = 0)

/-- Window 6's block is the whole array at every point. -/
theorem blk6 (c : Dev nD) (t : Fin cfg0.N) :
    (iblk m c 6 t : Vec Ideal S10x64 .f32) = m ((c : Thread nD τ).loc main_arg6) := by
  funext j
  unfold iblk
  rw [View.read_apply]
  show V m c main_arg6 _ = _
  rw [V_main_arg6 m c]
  show m ((c : Thread nD τ).loc main_arg6) (((cfg0.win 6).blk t).view.emb j) = m ((c : Thread nD τ).loc main_arg6) j
  refine congrArg _ (funext fun a => Fin.ext ?_)
  match a with
    | ⟨0, _⟩ => show win0_6.index t (0 : Fin 2) * 10 + 1 * (j 0).val = (j 0).val; rw [idxw6 t (0 : Fin 2)]; omega
    | ⟨1, _⟩ => show win0_6.index t (1 : Fin 2) * 64 + 1 * (j 1).val = (j 1).val; rw [idxw6 t (1 : Fin 2)]; omega

theorem idxw7 : ∀ (t : Fin cfg0.N) (a : Fin 3), win0_7.index t a = 0 :=
  (by decide +kernel : ∀ (t : Fin grid0.N) (a : Fin 3), win0_7.index t a = 0)

/-- Window 7's block is the whole array at every point. -/
theorem blk7 (c : Dev nD) (t : Fin cfg0.N) :
    (iblk m c 7 t : Vec Ideal S10x64x64 .f32) = m ((c : Thread nD τ).loc main_arg7) := by
  funext j
  unfold iblk
  rw [View.read_apply]
  show V m c main_arg7 _ = _
  rw [V_main_arg7 m c]
  show m ((c : Thread nD τ).loc main_arg7) (((cfg0.win 7).blk t).view.emb j) = m ((c : Thread nD τ).loc main_arg7) j
  refine congrArg _ (funext fun a => Fin.ext ?_)
  match a with
    | ⟨0, _⟩ => show win0_7.index t (0 : Fin 3) * 10 + 1 * (j 0).val = (j 0).val; rw [idxw7 t (0 : Fin 3)]; omega
    | ⟨1, _⟩ => show win0_7.index t (1 : Fin 3) * 64 + 1 * (j 1).val = (j 1).val; rw [idxw7 t (1 : Fin 3)]; omega
    | ⟨2, _⟩ => show win0_7.index t (2 : Fin 3) * 64 + 1 * (j 2).val = (j 2).val; rw [idxw7 t (2 : Fin 3)]; omega

theorem idxw8 : ∀ (t : Fin cfg0.N) (a : Fin 3), win0_8.index t a = 0 :=
  (by decide +kernel : ∀ (t : Fin grid0.N) (a : Fin 3), win0_8.index t a = 0)

/-- Window 8's block is the whole array at every point. -/
theorem blk8 (c : Dev nD) (t : Fin cfg0.N) :
    (iblk m c 8 t : Vec Ideal S10x64x64 .f32) = m ((c : Thread nD τ).loc main_arg8) := by
  funext j
  unfold iblk
  rw [View.read_apply]
  show V m c main_arg8 _ = _
  rw [V_main_arg8 m c]
  show m ((c : Thread nD τ).loc main_arg8) (((cfg0.win 8).blk t).view.emb j) = m ((c : Thread nD τ).loc main_arg8) j
  refine congrArg _ (funext fun a => Fin.ext ?_)
  match a with
    | ⟨0, _⟩ => show win0_8.index t (0 : Fin 3) * 10 + 1 * (j 0).val = (j 0).val; rw [idxw8 t (0 : Fin 3)]; omega
    | ⟨1, _⟩ => show win0_8.index t (1 : Fin 3) * 64 + 1 * (j 1).val = (j 1).val; rw [idxw8 t (1 : Fin 3)]; omega
    | ⟨2, _⟩ => show win0_8.index t (2 : Fin 3) * 64 + 1 * (j 2).val = (j 2).val; rw [idxw8 t (2 : Fin 3)]; omega

theorem idxw9 : ∀ (t : Fin cfg0.N) (a : Fin 2), win0_9.index t a = 0 :=
  (by decide +kernel : ∀ (t : Fin grid0.N) (a : Fin 2), win0_9.index t a = 0)

/-- Window 9's block is the whole array at every point. -/
theorem blk9 (c : Dev nD) (t : Fin cfg0.N) :
    (iblk m c 9 t : Vec Ideal S10x64 .f32) = m ((c : Thread nD τ).loc main_arg9) := by
  funext j
  unfold iblk
  rw [View.read_apply]
  show V m c main_arg9 _ = _
  rw [V_main_arg9 m c]
  show m ((c : Thread nD τ).loc main_arg9) (((cfg0.win 9).blk t).view.emb j) = m ((c : Thread nD τ).loc main_arg9) j
  refine congrArg _ (funext fun a => Fin.ext ?_)
  match a with
    | ⟨0, _⟩ => show win0_9.index t (0 : Fin 2) * 10 + 1 * (j 0).val = (j 0).val; rw [idxw9 t (0 : Fin 2)]; omega
    | ⟨1, _⟩ => show win0_9.index t (1 : Fin 2) * 64 + 1 * (j 1).val = (j 1).val; rw [idxw9 t (1 : Fin 2)]; omega

theorem idxw10 : ∀ (t : Fin cfg0.N) (a : Fin 3), win0_10.index t a = 0 :=
  (by decide +kernel : ∀ (t : Fin grid0.N) (a : Fin 3), win0_10.index t a = 0)

/-- Window 10's block is the whole array at every point. -/
theorem blk10 (c : Dev nD) (t : Fin cfg0.N) :
    (iblk m c 10 t : Vec Ideal S10x64x64 .f32) = m ((c : Thread nD τ).loc main_arg10) := by
  funext j
  unfold iblk
  rw [View.read_apply]
  show V m c main_arg10 _ = _
  rw [V_main_arg10 m c]
  show m ((c : Thread nD τ).loc main_arg10) (((cfg0.win 10).blk t).view.emb j) = m ((c : Thread nD τ).loc main_arg10) j
  refine congrArg _ (funext fun a => Fin.ext ?_)
  match a with
    | ⟨0, _⟩ => show win0_10.index t (0 : Fin 3) * 10 + 1 * (j 0).val = (j 0).val; rw [idxw10 t (0 : Fin 3)]; omega
    | ⟨1, _⟩ => show win0_10.index t (1 : Fin 3) * 64 + 1 * (j 1).val = (j 1).val; rw [idxw10 t (1 : Fin 3)]; omega
    | ⟨2, _⟩ => show win0_10.index t (2 : Fin 3) * 64 + 1 * (j 2).val = (j 2).val; rw [idxw10 t (2 : Fin 3)]; omega

theorem idxw11 : ∀ (t : Fin cfg0.N) (a : Fin 2), win0_11.index t a = 0 :=
  (by decide +kernel : ∀ (t : Fin grid0.N) (a : Fin 2), win0_11.index t a = 0)

/-- Window 11's block is the whole array at every point. -/
theorem blk11 (c : Dev nD) (t : Fin cfg0.N) :
    (iblk m c 11 t : Vec Ideal S10x64 .f32) = m ((c : Thread nD τ).loc main_arg11) := by
  funext j
  unfold iblk
  rw [View.read_apply]
  show V m c main_arg11 _ = _
  rw [V_main_arg11 m c]
  show m ((c : Thread nD τ).loc main_arg11) (((cfg0.win 11).blk t).view.emb j) = m ((c : Thread nD τ).loc main_arg11) j
  refine congrArg _ (funext fun a => Fin.ext ?_)
  match a with
    | ⟨0, _⟩ => show win0_11.index t (0 : Fin 2) * 10 + 1 * (j 0).val = (j 0).val; rw [idxw11 t (0 : Fin 2)]; omega
    | ⟨1, _⟩ => show win0_11.index t (1 : Fin 2) * 64 + 1 * (j 1).val = (j 1).val; rw [idxw11 t (1 : Fin 2)]; omega

theorem idxw12 : ∀ (t : Fin cfg0.N) (a : Fin 3), win0_12.index t a = 0 :=
  (by decide +kernel : ∀ (t : Fin grid0.N) (a : Fin 3), win0_12.index t a = 0)

/-- Window 12's block is the whole array at every point. -/
theorem blk12 (c : Dev nD) (t : Fin cfg0.N) :
    (iblk m c 12 t : Vec Ideal S10x96x64 .f32) = m ((c : Thread nD τ).loc main_arg12) := by
  funext j
  unfold iblk
  rw [View.read_apply]
  show V m c main_arg12 _ = _
  rw [V_main_arg12 m c]
  show m ((c : Thread nD τ).loc main_arg12) (((cfg0.win 12).blk t).view.emb j) = m ((c : Thread nD τ).loc main_arg12) j
  refine congrArg _ (funext fun a => Fin.ext ?_)
  match a with
    | ⟨0, _⟩ => show win0_12.index t (0 : Fin 3) * 10 + 1 * (j 0).val = (j 0).val; rw [idxw12 t (0 : Fin 3)]; omega
    | ⟨1, _⟩ => show win0_12.index t (1 : Fin 3) * 96 + 1 * (j 1).val = (j 1).val; rw [idxw12 t (1 : Fin 3)]; omega
    | ⟨2, _⟩ => show win0_12.index t (2 : Fin 3) * 64 + 1 * (j 2).val = (j 2).val; rw [idxw12 t (2 : Fin 3)]; omega

theorem idxw13 : ∀ (t : Fin cfg0.N) (a : Fin 2), win0_13.index t a = 0 :=
  (by decide +kernel : ∀ (t : Fin grid0.N) (a : Fin 2), win0_13.index t a = 0)

/-- Window 13's block is the whole array at every point. -/
theorem blk13 (c : Dev nD) (t : Fin cfg0.N) :
    (iblk m c 13 t : Vec Ideal S10x96 .f32) = m ((c : Thread nD τ).loc main_arg13) := by
  funext j
  unfold iblk
  rw [View.read_apply]
  show V m c main_arg13 _ = _
  rw [V_main_arg13 m c]
  show m ((c : Thread nD τ).loc main_arg13) (((cfg0.win 13).blk t).view.emb j) = m ((c : Thread nD τ).loc main_arg13) j
  refine congrArg _ (funext fun a => Fin.ext ?_)
  match a with
    | ⟨0, _⟩ => show win0_13.index t (0 : Fin 2) * 10 + 1 * (j 0).val = (j 0).val; rw [idxw13 t (0 : Fin 2)]; omega
    | ⟨1, _⟩ => show win0_13.index t (1 : Fin 2) * 96 + 1 * (j 1).val = (j 1).val; rw [idxw13 t (1 : Fin 2)]; omega

theorem idxw14 : ∀ (t : Fin cfg0.N) (a : Fin 2), win0_14.index t a = 0 :=
  (by decide +kernel : ∀ (t : Fin grid0.N) (a : Fin 2), win0_14.index t a = 0)

/-- Window 14's block is the whole array at every point. -/
theorem blk14 (c : Dev nD) (t : Fin cfg0.N) :
    (iblk m c 14 t : Vec Ideal S96x96 .f32) = m ((c : Thread nD τ).loc main_arg14) := by
  funext j
  unfold iblk
  rw [View.read_apply]
  show V m c main_arg14 _ = _
  rw [V_main_arg14 m c]
  show m ((c : Thread nD τ).loc main_arg14) (((cfg0.win 14).blk t).view.emb j) = m ((c : Thread nD τ).loc main_arg14) j
  refine congrArg _ (funext fun a => Fin.ext ?_)
  match a with
    | ⟨0, _⟩ => show win0_14.index t (0 : Fin 2) * 96 + 1 * (j 0).val = (j 0).val; rw [idxw14 t (0 : Fin 2)]; omega
    | ⟨1, _⟩ => show win0_14.index t (1 : Fin 2) * 96 + 1 * (j 1).val = (j 1).val; rw [idxw14 t (1 : Fin 2)]; omega

theorem idxw15 : ∀ (t : Fin cfg0.N) (a : Fin 1), win0_15.index t a = 0 :=
  (by decide +kernel : ∀ (t : Fin grid0.N) (a : Fin 1), win0_15.index t a = 0)

/-- Window 15's block is the whole array at every point. -/
theorem blk15 (c : Dev nD) (t : Fin cfg0.N) :
    (iblk m c 15 t : Vec Ideal S96 .f32) = m ((c : Thread nD τ).loc main_arg15) := by
  funext j
  unfold iblk
  rw [View.read_apply]
  show V m c main_arg15 _ = _
  rw [V_main_arg15 m c]
  show m ((c : Thread nD τ).loc main_arg15) (((cfg0.win 15).blk t).view.emb j) = m ((c : Thread nD τ).loc main_arg15) j
  refine congrArg _ (funext fun a => Fin.ext ?_)
  match a with
    | ⟨0, _⟩ => show win0_15.index t (0 : Fin 1) * 96 + 1 * (j 0).val = (j 0).val; rw [idxw15 t (0 : Fin 1)]; omega

theorem idxw16 : ∀ (t : Fin cfg0.N) (a : Fin 2), win0_16.index t a = 0 :=
  (by decide +kernel : ∀ (t : Fin grid0.N) (a : Fin 2), win0_16.index t a = 0)

/-- Window 16's block is the whole array at every point. -/
theorem blk16 (c : Dev nD) (t : Fin cfg0.N) :
    (iblk m c 16 t : Vec Ideal S2x96 .f32) = m ((c : Thread nD τ).loc main_arg16) := by
  funext j
  unfold iblk
  rw [View.read_apply]
  show V m c main_arg16 _ = _
  rw [V_main_arg16 m c]
  show m ((c : Thread nD τ).loc main_arg16) (((cfg0.win 16).blk t).view.emb j) = m ((c : Thread nD τ).loc main_arg16) j
  refine congrArg _ (funext fun a => Fin.ext ?_)
  match a with
    | ⟨0, _⟩ => show win0_16.index t (0 : Fin 2) * 2 + 1 * (j 0).val = (j 0).val; rw [idxw16 t (0 : Fin 2)]; omega
    | ⟨1, _⟩ => show win0_16.index t (1 : Fin 2) * 96 + 1 * (j 1).val = (j 1).val; rw [idxw16 t (1 : Fin 2)]; omega

theorem idxw17 : ∀ (t : Fin cfg0.N) (a : Fin 1), win0_17.index t a = 0 :=
  (by decide +kernel : ∀ (t : Fin grid0.N) (a : Fin 1), win0_17.index t a = 0)

/-- Window 17's block is the whole array at every point. -/
theorem blk17 (c : Dev nD) (t : Fin cfg0.N) :
    (iblk m c 17 t : Vec Ideal S2 .f32) = m ((c : Thread nD τ).loc main_arg17) := by
  funext j
  unfold iblk
  rw [View.read_apply]
  show V m c main_arg17 _ = _
  rw [V_main_arg17 m c]
  show m ((c : Thread nD τ).loc main_arg17) (((cfg0.win 17).blk t).view.emb j) = m ((c : Thread nD τ).loc main_arg17) j
  refine congrArg _ (funext fun a => Fin.ext ?_)
  match a with
    | ⟨0, _⟩ => show win0_17.index t (0 : Fin 1) * 2 + 1 * (j 0).val = (j 0).val; rw [idxw17 t (0 : Fin 1)]; omega

/-! ## The two results -/

/-- The first result, of the argument arrays on core `c`. -/
def Rout (c : Dev nD) : FVec Ideal Cert.ReferenceIdeal.S2048x2 .f32 := Cert.ReferenceIdeal.Hand.rout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- The second result: the lane-by-lane new ring buffer over the activations before each layer. -/
def Rnew (c : Dev nD) : FVec Ideal Cert.ReferenceIdeal.S2048x64x1023 .f32 :=
  Cert.NewBuf.newbuf (fun n : Fin 10 => (Cert.ReferenceIdeal.Hand.rstate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) n.val).1) (m ((c : Thread nD τ).loc main_arg1))

/-- What point `t` writes back to the first result's array is block `t` of it. -/
theorem flushed18_eq (c : Dev nD) (t : Fin cfg0.N) :
    (dats m 0 c).flushed 18 t = ((cfg0.win 18).blk t).view.read (Elt Ideal) (Rout m c) := by
  rw [Cert.KernelIdeal.Value.flushed18]
  have h1 : (outsAt0 m c t).1 = kout (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) :=
    out18_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
  rw [h1, kout_rows (tt t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t)]
  funext j
  show Cert.ReferenceIdeal.Hand.rout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (ix2 (blockRow (tt t) (j 0)) (j 1)) = Rout m c (((cfg0.win 18).blk t).view.emb j)
  obtain ⟨-, -, e2, e3⟩ := idx2 t
  refine congrArg _ (funext fun a => Fin.ext ?_)
  match a with
  | ⟨0, _⟩ => show 32 * t.val + (j 0).val = win0_18.index t (0 : Fin 2) * 32 + 1 * (j 0).val; rw [e2]; omega
  | ⟨1, _⟩ => show (j 1).val = win0_18.index t (1 : Fin 2) * 2 + 1 * (j 1).val; rw [e3]; omega

/-- The 64 blocks cover the first result's array: row `p` is in block `p / 32`. -/
theorem cover18 (c : Dev nD) (i : Cert.ReferenceIdeal.S2048x2.Idx) :
    ∃ t : Fin cfg0.N, (cfg0.win 18).flush t = true ∧ i ∈ ((cfg0.win 18).blk t).view.set := by
  have hi0 : (i 0).val < 2048 := (i 0).isLt
  have hi1 : (i 1).val < 2 := (i 1).isLt
  have hN : cfg0.N = 64 := N_0
  let t : Fin cfg0.N := ⟨(i 0).val / 32, by omega⟩
  refine ⟨t, flush0_18 t, ?_⟩
  show i ∈ ((View.whole main_v0_0).slice (win0_18.rect t)).set
  rw [View.set_slice_whole, Rect.mem_set_unit]
  obtain ⟨-, -, e2, e3⟩ := idx2 t
  have ht : t.val = (i 0).val / 32 := rfl
  intro a
  match a with
  | ⟨0, _⟩ => show win0_18.index t (0 : Fin 2) * 32 ≤ (i 0).val ∧ (i 0).val < win0_18.index t (0 : Fin 2) * 32 + 32; rw [e2]; omega
  | ⟨1, _⟩ => show win0_18.index t (1 : Fin 2) * 2 ≤ (i 1).val ∧ (i 1).val < win0_18.index t (1 : Fin 2) * 2 + 2; rw [e3]; omega

/-- So after the run the first result's array is the first result. -/
theorem final18 (c : Dev nD) : (dats m 0 c).arrAt 18 cfg0.N = Rout m c :=
  (dats m 0 c).arrAt_eq_of_cover 18 (Rout m c) (fun t _ => flushed18_eq m c t) (cover18 c)

/-- What point `t` writes back to the second result's array is block `t` of it. -/
theorem flushed19_eq (c : Dev nD) (t : Fin cfg0.N) :
    (dats m 0 c).flushed 19 t = ((cfg0.win 19).blk t).view.read (Elt Ideal) (Rnew m c) := by
  rw [Cert.KernelIdeal.Value.flushed19]
  have h1 : (outsAt0 m c t).2 = Cert.NewBuf.newbuf (![(kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 0).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 1).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 2).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 3).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 4).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 5).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 6).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 7).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 8).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 9).1] : Fin 10 → FVec Ideal S32x64 .f32) (iblk m c 1 t) :=
    out19_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
  have hv : (![(kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 0).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 1).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 2).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 3).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 4).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 5).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 6).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 7).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 8).1, (kstate (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) 9).1] : Fin 10 → FVec Ideal S32x64 .f32)
      = fun n : Fin 10 => rows2 (tt t) (Cert.ReferenceIdeal.Hand.rstate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) n.val).1 := by
    funext n
    fin_cases n <;> exact (kstate_rows (tt t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) _ (by decide)).1
  rw [h1, hv, blk1 m c t, Cert.NewBuf.newbuf_rows]
  funext j
  show Rnew m c (ix3 (blockRow (tt t) (j 0)) (j 1) (j 2)) = Rnew m c (((cfg0.win 19).blk t).view.emb j)
  obtain ⟨-, -, -, e3, e4, e5⟩ := idx3 t
  refine congrArg _ (funext fun a => Fin.ext ?_)
  match a with
  | ⟨0, _⟩ => show 32 * t.val + (j 0).val = win0_19.index t (0 : Fin 3) * 32 + 1 * (j 0).val; rw [e3]; omega
  | ⟨1, _⟩ => show (j 1).val = win0_19.index t (1 : Fin 3) * 64 + 1 * (j 1).val; rw [e4]; omega
  | ⟨2, _⟩ => show (j 2).val = win0_19.index t (2 : Fin 3) * 1023 + 1 * (j 2).val; rw [e5]; omega

theorem cover19 (c : Dev nD) (i : Cert.ReferenceIdeal.S2048x64x1023.Idx) :
    ∃ t : Fin cfg0.N, (cfg0.win 19).flush t = true ∧ i ∈ ((cfg0.win 19).blk t).view.set := by
  have hi0 : (i 0).val < 2048 := (i 0).isLt
  have hi1 : (i 1).val < 64 := (i 1).isLt
  have hi2 : (i 2).val < 1023 := (i 2).isLt
  have hN : cfg0.N = 64 := N_0
  let t : Fin cfg0.N := ⟨(i 0).val / 32, by omega⟩
  refine ⟨t, flush0_19 t, ?_⟩
  show i ∈ ((View.whole main_v0_1).slice (win0_19.rect t)).set
  rw [View.set_slice_whole, Rect.mem_set_unit]
  obtain ⟨-, -, -, e3, e4, e5⟩ := idx3 t
  have ht : t.val = (i 0).val / 32 := rfl
  intro a
  match a with
  | ⟨0, _⟩ => show win0_19.index t (0 : Fin 3) * 32 ≤ (i 0).val ∧ (i 0).val < win0_19.index t (0 : Fin 3) * 32 + 32; rw [e3]; omega
  | ⟨1, _⟩ => show win0_19.index t (1 : Fin 3) * 64 ≤ (i 1).val ∧ (i 1).val < win0_19.index t (1 : Fin 3) * 64 + 64; rw [e4]; omega
  | ⟨2, _⟩ => show win0_19.index t (2 : Fin 3) * 1023 ≤ (i 2).val ∧ (i 2).val < win0_19.index t (2 : Fin 3) * 1023 + 1023; rw [e5]; omega

theorem final19 (c : Dev nD) : (dats m 0 c).arrAt 19 cfg0.N = Rnew m c :=
  (dats m 0 c).arrAt_eq_of_cover 19 (Rnew m c) (fun t _ => flushed19_eq m c t) (cover19 c)

/-- The run, read: the two result arrays at the two results, the arguments unchanged. -/
theorem run : θ_run defs (onTc (τ := τ) (main (F := Ideal))) ⟨m, fun _ => 0, ρ⟩ fun r => ∀ c : Dev nD,
      r.2.mem ((c : Thread nD τ).loc main_v0_0) = Rout m c
      ∧ r.2.mem ((c : Thread nD τ).loc main_v0_1) = Rnew m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (final18 m c), (h c).2.1.trans (final19 m c), (h c).2.2⟩)
    (Cert.KernelIdeal.Value.run_blocks m ρ)

end Cert.KernelIdeal.HandValue

end
-- ==== Proof.RefBase.lean ====
/-
  What every window of the reference's run shares: a valuation gives each buffer its contents; a layer's operands are
  cut from the contents of the argument buffers; and a line of operations that writes none of the argument buffers
  leaves them as they were.
-/
import proofs.«172806_j69252052680869_2_alg».proof.Proof.Gen.ReferenceIdeal
import proofs.«172806_j69252052680869_2_alg».proof.Proof.RChain
import Idealize.ShloMosaic.Lib.StableHlo.Run

noncomputable section

namespace Idealize.ShloMosaic.StableHlo

variable {τ : Topo} {sig : RefSig} {Val : EltTy → Type}

/-- Running two lines one after the other: the contents after the concatenation are the contents after the second
    line, started from the contents after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The one buffer `y`, a member of the list `W`, lies in `W` read as a set of device buffers. -/
theorem singleton_sub_of_mem {W : List (Ref sig .tc)} {y : Ref sig .tc} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

end Idealize.ShloMosaic.StableHlo

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The ten layers' operands, cut from what a valuation holds in the argument buffers. -/
def rWV (V : Valuation τ sig (Elt F)) : Nat → Hand.LayerW F :=
  Hand.rW (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17))

/-- The argument buffers. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-- Two valuations agree on the argument buffers. -/
def ArgsEq (V V0 : Valuation τ sig (Elt F)) : Prop := ∀ a ∈ argRefs, V (Proc.devRef .tc a) = V0 (Proc.devRef .tc a)

theorem ArgsEq.refl (V : Valuation τ sig (Elt F)) : ArgsEq V V := fun _ _ => rfl

/-- Layer operands depend on the argument buffers only. -/
theorem rWV_congr {V V0 : Valuation τ sig (Elt F)} (h : ArgsEq V V0) : rWV V = rWV V0 := by
  unfold rWV
  rw [h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide)]

/-- A line whose written buffers are listed in `W`, none of them an argument, keeps the arguments. -/
theorem ArgsEq.after {V V0 : Valuation τ sig (Elt F)} (h : ArgsEq V V0) (ops : List (HloOp τ sig (Elt F)))
    (W : List (Ref sig .tc))
    (hW : ops.Forall fun op => op.writes ⊆ (W.map (Proc.devRef (τ := τ) .tc)).toFinset)
    (hd : ∀ a ∈ argRefs, a ∉ W) : ArgsEq (after ops V) V0 :=
  fun a ha => (after_of_writes_sub ops V hW (hd a ha)).trans (h a ha)

end Cert.ReferenceIdeal.RefRun

end
-- ==== Proof.RefWinI.lean ====
/-
  The reference's first operations: the input projection and the zero skip sum.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first seven operations, in program order. -/
def winI : List (HloOp τ sig (Elt F)) :=
  [
    unary main_arg2 main_v0 ((transpose S32x64 [1, 0] · transposes_S64x32_S32x64_1_0) : (⟨S64x32, .f32⟩ : BufTy).Contents (Elt F) → (⟨S32x64, .f32⟩ : BufTy).Contents (Elt F)),
    binary main_arg0 main_v0 main_v1 ((fun l r => Host.dotGeneral dot_S2048x32_S32x64_S2048x64_1_0_0_1_n_n none l r) : (⟨S2048x32, .f32⟩ : BufTy).Contents (Elt F) → (⟨S32x64, .f32⟩ : BufTy).Contents (Elt F) → (⟨S2048x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S2048x64 ![0, 1] bcast_S1x64_S2048x64_0_1 : (⟨S1x64, .f32⟩ : BufTy).Contents (Elt F) → (⟨S2048x64, .f32⟩ : BufTy).Contents (Elt F)),
    binary main_v1 main_v3 main_v4 (addf : (⟨S2048x64, .f32⟩ : BufTy).Contents (Elt F) → (⟨S2048x64, .f32⟩ : BufTy).Contents (Elt F) → (⟨S2048x64, .f32⟩ : BufTy).Contents (Elt F)),
    nullary main_cst (constant S_ .f32 0x00000000#32),
    unary main_cst main_v5 (broadcastInDim S2048x96 ![] bcast_S_S2048x96 : (⟨S_, .f32⟩ : BufTy).Contents (Elt F) → (⟨S2048x96, .f32⟩ : BufTy).Contents (Elt F)) ]

/-- The buffers the line writes. -/
def wrI : List (Ref sig .tc) := [main_v0, main_v1, main_v2, main_v3, main_v4, main_cst, main_v5]

theorem winI_writes : (winI (F := F)).Forall fun op => op.writes ⊆ ((wrI).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide)⟩

theorem winI_keep (V : Valuation τ sig (Elt F)) (r : Ref sig .tc) (hr : r ∉ wrI) :
    after (winI (F := F)) V (Proc.devRef .tc r) = V (Proc.devRef .tc r) :=
  after_of_writes_sub winI V winI_writes hr

/-- The input projection. -/
theorem winI_cur (V : Valuation τ sig (Elt F)) :
    after (winI (F := F)) V (Proc.devRef .tc main_v4)
      = Hand.cur0 (V (Proc.devRef .tc main_arg0)) (V (Proc.devRef .tc main_arg2)) (V (Proc.devRef .tc main_arg3)) := by
  unfold winI
  after_results_simp <;> rfl

/-- The zero skip sum. -/
theorem winI_skip (V : Valuation τ sig (Elt F)) :
    after (winI (F := F)) V (Proc.devRef .tc main_v5) = Hand.skip0 := by
  unfold winI
  after_results_simp <;> rfl

end Cert.ReferenceIdeal.RefRun

end
-- ==== Proof.RefPart0.lean ====
/-
  Statements 1 … 60 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part0 : List (HloOp τ sig (Elt F)) :=
  [
    unary main_arg2 main_v0 ((transpose S32x64 [1, 0] · transposes_S64x32_S32x64_1_0) : (⟨S64x32, .f32⟩ : BufTy).Contents (Elt F) → (⟨S32x64, .f32⟩ : BufTy).Contents (Elt F)),
    binary main_arg0 main_v0 main_v1 ((fun l r => Host.dotGeneral dot_S2048x32_S32x64_S2048x64_1_0_0_1_n_n none l r) : (⟨S2048x32, .f32⟩ : BufTy).Contents (Elt F) → (⟨S32x64, .f32⟩ : BufTy).Contents (Elt F) → (⟨S2048x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S2048x64 ![0, 1] bcast_S1x64_S2048x64_0_1 : (⟨S1x64, .f32⟩ : BufTy).Contents (Elt F) → (⟨S2048x64, .f32⟩ : BufTy).Contents (Elt F)),
    binary main_v1 main_v3 main_v4 (addf : (⟨S2048x64, .f32⟩ : BufTy).Contents (Elt F) → (⟨S2048x64, .f32⟩ : BufTy).Contents (Elt F) → (⟨S2048x64, .f32⟩ : BufTy).Contents (Elt F)),
    nullary main_cst (constant S_ .f32 0x00000000#32),
    unary main_cst main_v5 (broadcastInDim S2048x96 ![] bcast_S_S2048x96 : (⟨S_, .f32⟩ : BufTy).Contents (Elt F) → (⟨S2048x96, .f32⟩ : BufTy).Contents (Elt F)),
    unary main_arg1 main_v6 ((extractStridedSlice S2048x64x1 ![0, 0, 0] · slices_S2048x64x1023_S2048x64x1_0_0_0) : (⟨S2048x64x1023, .f32⟩ : BufTy).Contents (Elt F) → (⟨S2048x64x1, .f32⟩ : BufTy).Contents (Elt F)),
    reshape main_v6 main_v7 rfl shapeCasts_S2048x64x1_S2048x64,
    unary main_arg4 main_v8 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v8 main_v9 rfl shapeCasts_S1x64x64_S64x64,
    unary main_v9 main_v10 ((transpose S64x64 [1, 0] · transposes_S64x64_S64x64_1_0) : (⟨S64x64, .f32⟩ : BufTy).Contents (Elt F) → (⟨S64x64, .f32⟩ : BufTy).Contents (Elt F)),
    binary main_v7 main_v10 main_v11 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v12 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v12 main_v13 rfl shapeCasts_S1x64x64_S64x64,
    unary main_v13 main_v14 ((transpose S64x64 [1, 0] · transposes_S64x64_S64x64_1_0) : (⟨S64x64, .f32⟩ : BufTy).Contents (Elt F) → (⟨S64x64, .f32⟩ : BufTy).Contents (Elt F)),
    binary main_v4 main_v14 main_v15 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v11 main_v15 main_v16 (addf : (⟨S2048x64, .f32⟩ : BufTy).Contents (Elt F) → (⟨S2048x64, .f32⟩ : BufTy).Contents (Elt F) → (⟨S2048x64, .f32⟩ : BufTy).Contents (Elt F)),
    unary main_arg6 main_v17 ((extractStridedSlice S1x64 ![0, 0] · slices_S10x64_S1x64_0_0) : (⟨S10x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S2048x64 ![0, 1] bcast_S1x64_S2048x64_0_1 : (⟨S1x64, .f32⟩ : BufTy).Contents (Elt F) → (⟨S2048x64, .f32⟩ : BufTy).Contents (Elt F)),
    binary main_v16 main_v20 main_v21 (addf : (⟨S2048x64, .f32⟩ : BufTy).Contents (Elt F) → (⟨S2048x64, .f32⟩ : BufTy).Contents (Elt F) → (⟨S2048x64, .f32⟩ : BufTy).Contents (Elt F)),
    unary main_arg7 main_v22 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v22 main_v23 rfl shapeCasts_S1x64x64_S64x64,
    unary main_v23 main_v24 ((transpose S64x64 [1, 0] · transposes_S64x64_S64x64_1_0) : (⟨S64x64, .f32⟩ : BufTy).Contents (Elt F) → (⟨S64x64, .f32⟩ : BufTy).Contents (Elt F)),
    binary main_v7 main_v24 main_v25 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v26 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v26 main_v27 rfl shapeCasts_S1x64x64_S64x64,
    unary main_v27 main_v28 ((transpose S64x64 [1, 0] · transposes_S64x64_S64x64_1_0) : (⟨S64x64, .f32⟩ : BufTy).Contents (Elt F) → (⟨S64x64, .f32⟩ : BufTy).Contents (Elt F)),
    binary main_v4 main_v28 main_v29 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v25 main_v29 main_v30 (addf : (⟨S2048x64, .f32⟩ : BufTy).Contents (Elt F) → (⟨S2048x64, .f32⟩ : BufTy).Contents (Elt F) → (⟨S2048x64, .f32⟩ : BufTy).Contents (Elt F)),
    unary main_arg9 main_v31 ((extractStridedSlice S1x64 ![0, 0] · slices_S10x64_S1x64_0_0) : (⟨S10x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S2048x64 ![0, 1] bcast_S1x64_S2048x64_0_1 : (⟨S1x64, .f32⟩ : BufTy).Contents (Elt F) → (⟨S2048x64, .f32⟩ : BufTy).Contents (Elt F)),
    binary main_v30 main_v34 main_v35 (addf : (⟨S2048x64, .f32⟩ : BufTy).Contents (Elt F) → (⟨S2048x64, .f32⟩ : BufTy).Contents (Elt F) → (⟨S2048x64, .f32⟩ : BufTy).Contents (Elt F)),
    unary main_v21 main_v36 (Host.tanh : (⟨S2048x64, .f32⟩ : BufTy).Contents (Elt F) → (⟨S2048x64, .f32⟩ : BufTy).Contents (Elt F)),
    unary main_v35 main_v37 (Host.negf : (⟨S2048x64, .f32⟩ : BufTy).Contents (Elt F) → (⟨S2048x64, .f32⟩ : BufTy).Contents (Elt F)),
    unary main_v37 main_v38 (Host.exp : (⟨S2048x64, .f32⟩ : BufTy).Contents (Elt F) → (⟨S2048x64, .f32⟩ : BufTy).Contents (Elt F)),
    nullary main_cst_0 (constant S_ .f32 0x3F800000#32),
    unary main_cst_0 main_v39 (broadcastInDim S2048x64 ![] bcast_S_S2048x64 : (⟨S_, .f32⟩ : BufTy).Contents (Elt F) → (⟨S2048x64, .f32⟩ : BufTy).Contents (Elt F)),
    binary main_v39 main_v38 main_v40 (addf : (⟨S2048x64, .f32⟩ : BufTy).Contents (Elt F) → (⟨S2048x64, .f32⟩ : BufTy).Contents (Elt F) → (⟨S2048x64, .f32⟩ : BufTy).Contents (Elt F)),
    nullary main_cst_1 (constant S_ .f32 0x3F800000#32),
    unary main_cst_1 main_v41 (broadcastInDim S2048x64 ![] bcast_S_S2048x64 : (⟨S_, .f32⟩ : BufTy).Contents (Elt F) → (⟨S2048x64, .f32⟩ : BufTy).Contents (Elt F)),
    binary main_v41 main_v40 main_v42 (Host.divf : (⟨S2048x64, .f32⟩ : BufTy).Contents (Elt F) → (⟨S2048x64, .f32⟩ : BufTy).Contents (Elt F) → (⟨S2048x64, .f32⟩ : BufTy).Contents (Elt F)),
    binary main_v36 main_v42 main_v43 (mulf : (⟨S2048x64, .f32⟩ : BufTy).Contents (Elt F) → (⟨S2048x64, .f32⟩ : BufTy).Contents (Elt F) → (⟨S2048x64, .f32⟩ : BufTy).Contents (Elt F)),
    unary main_arg12 main_v44 ((extractStridedSlice S1x96x64 ![0, 0, 0] · slices_S10x96x64_S1x96x64_0_0_0) : (⟨S10x96x64, .f32⟩ : BufTy).Contents (Elt F) → (⟨S1x96x64, .f32⟩ : BufTy).Contents (Elt F)),
    reshape main_v44 main_v45 rfl shapeCasts_S1x96x64_S96x64,
    unary main_v45 main_v46 ((transpose S64x96 [1, 0] · transposes_S96x64_S64x96_1_0) : (⟨S96x64, .f32⟩ : BufTy).Contents (Elt F) → (⟨S64x96, .f32⟩ : BufTy).Contents (Elt F)),
    binary main_v43 main_v46 main_v47 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v5 main_v47 main_v48 (addf : (⟨S2048x96, .f32⟩ : BufTy).Contents (Elt F) → (⟨S2048x96, .f32⟩ : BufTy).Contents (Elt F) → (⟨S2048x96, .f32⟩ : BufTy).Contents (Elt F)),
    unary main_arg13 main_v49 ((extractStridedSlice S1x96 ![0, 0] · slices_S10x96_S1x96_0_0) : (⟨S10x96, .f32⟩ : BufTy).Contents (Elt F) → (⟨S1x96, .f32⟩ : BufTy).Contents (Elt F)),
    reshape main_v49 main_v50 rfl shapeCasts_S1x96_S96,
    unary main_v50 main_v51 (broadcastInDim S1x96 ![1] bcast_S96_S1x96_1 : (⟨S96, .f32⟩ : BufTy).Contents (Elt F) → (⟨S1x96, .f32⟩ : BufTy).Contents (Elt F)),
    unary main_v51 main_v52 (broadcastInDim S2048x96 ![0, 1] bcast_S1x96_S2048x96_0_1 : (⟨S1x96, .f32⟩ : BufTy).Contents (Elt F) → (⟨S2048x96, .f32⟩ : BufTy).Contents (Elt F)),
    binary main_v48 main_v52 main_v53 (addf : (⟨S2048x96, .f32⟩ : BufTy).Contents (Elt F) → (⟨S2048x96, .f32⟩ : BufTy).Contents (Elt F) → (⟨S2048x96, .f32⟩ : BufTy).Contents (Elt F)),
    unary main_arg10 main_v54 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v54 main_v55 rfl shapeCasts_S1x64x64_S64x64,
    unary main_v55 main_v56 ((transpose S64x64 [1, 0] · transposes_S64x64_S64x64_1_0) : (⟨S64x64, .f32⟩ : BufTy).Contents (Elt F) → (⟨S64x64, .f32⟩ : BufTy).Contents (Elt F)) ]

set_option maxHeartbeats 4000000 in
theorem part0_eq (c : Dev nD) : main_part0 (F := F) c = seq part0 := rfl

end Cert.ReferenceIdeal.RefRun

end
-- ==== Proof.RefPart1.lean ====
/-
  Statements 61 … 120 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part1 : List (HloOp τ sig (Elt F)) :=
  [
    binary main_v43 main_v56 main_v57 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v58 ((extractStridedSlice S1x64 ![0, 0] · slices_S10x64_S1x64_0_0) : (⟨S10x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S2048x64 ![0, 1] bcast_S1x64_S2048x64_0_1 : (⟨S1x64, .f32⟩ : BufTy).Contents (Elt F) → (⟨S2048x64, .f32⟩ : BufTy).Contents (Elt F)),
    binary main_v57 main_v61 main_v62 (addf : (⟨S2048x64, .f32⟩ : BufTy).Contents (Elt F) → (⟨S2048x64, .f32⟩ : BufTy).Contents (Elt F) → (⟨S2048x64, .f32⟩ : BufTy).Contents (Elt F)),
    unary main_v4 main_v63 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_2 (constant S_ .f32 0x3E99999A#32),
    unary main_cst_2 main_v64 (broadcastInDim S2048x64 ![] bcast_S_S2048x64 : (⟨S_, .f32⟩ : BufTy).Contents (Elt F) → (⟨S2048x64, .f32⟩ : BufTy).Contents (Elt F)),
    binary main_v64 main_v62 main_v65 (mulf : (⟨S2048x64, .f32⟩ : BufTy).Contents (Elt F) → (⟨S2048x64, .f32⟩ : BufTy).Contents (Elt F) → (⟨S2048x64, .f32⟩ : BufTy).Contents (Elt F)),
    binary main_v4 main_v65 main_v66 (addf : (⟨S2048x64, .f32⟩ : BufTy).Contents (Elt F) → (⟨S2048x64, .f32⟩ : BufTy).Contents (Elt F) → (⟨S2048x64, .f32⟩ : BufTy).Contents (Elt F)),
    unary main_arg1 main_v67 ((extractStridedSlice S2048x64x1 ![0, 0, 1] · slices_S2048x64x1023_S2048x64x1_0_0_1) : (⟨S2048x64x1023, .f32⟩ : BufTy).Contents (Elt F) → (⟨S2048x64x1, .f32⟩ : BufTy).Contents (Elt F)),
    reshape main_v67 main_v68 rfl shapeCasts_S2048x64x1_S2048x64,
    unary main_arg4 main_v69 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v69 main_v70 rfl shapeCasts_S1x64x64_S64x64,
    unary main_v70 main_v71 ((transpose S64x64 [1, 0] · transposes_S64x64_S64x64_1_0) : (⟨S64x64, .f32⟩ : BufTy).Contents (Elt F) → (⟨S64x64, .f32⟩ : BufTy).Contents (Elt F)),
    binary main_v68 main_v71 main_v72 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v73 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v73 main_v74 rfl shapeCasts_S1x64x64_S64x64,
    unary main_v74 main_v75 ((transpose S64x64 [1, 0] · transposes_S64x64_S64x64_1_0) : (⟨S64x64, .f32⟩ : BufTy).Contents (Elt F) → (⟨S64x64, .f32⟩ : BufTy).Contents (Elt F)),
    binary main_v66 main_v75 main_v76 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v72 main_v76 main_v77 (addf : (⟨S2048x64, .f32⟩ : BufTy).Contents (Elt F) → (⟨S2048x64, .f32⟩ : BufTy).Contents (Elt F) → (⟨S2048x64, .f32⟩ : BufTy).Contents (Elt F)),
    unary main_arg6 main_v78 ((extractStridedSlice S1x64 ![1, 0] · slices_S10x64_S1x64_1_0) : (⟨S10x64, .f32⟩ : BufTy).Contents (Elt F) → (⟨S1x64, .f32⟩ : BufTy).Contents (Elt F)),
    reshape main_v78 main_v79 rfl shapeCasts_S1x64_S64,
    unary main_v79 main_v80 (broadcastInDim S1x64 ![1] bcast_S64_S1x64_1 : (⟨S64, .f32⟩ : BufTy).Contents (Elt F) → (⟨S1x64, .f32⟩ : BufTy).Contents (Elt F)),
    unary main_v80 main_v81 (broadcastInDim S2048x64 ![0, 1] bcast_S1x64_S2048x64_0_1 : (⟨S1x64, .f32⟩ : BufTy).Contents (Elt F) → (⟨S2048x64, .f32⟩ : BufTy).Contents (Elt F)),
    binary main_v77 main_v81 main_v82 (addf : (⟨S2048x64, .f32⟩ : BufTy).Contents (Elt F) → (⟨S2048x64, .f32⟩ : BufTy).Contents (Elt F) → (⟨S2048x64, .f32⟩ : BufTy).Contents (Elt F)),
    unary main_arg7 main_v83 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v83 main_v84 rfl shapeCasts_S1x64x64_S64x64,
    unary main_v84 main_v85 ((transpose S64x64 [1, 0] · transposes_S64x64_S64x64_1_0) : (⟨S64x64, .f32⟩ : BufTy).Contents (Elt F) → (⟨S64x64, .f32⟩ : BufTy).Contents (Elt F)),
    binary main_v68 main_v85 main_v86 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v87 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v87 main_v88 rfl shapeCasts_S1x64x64_S64x64,
    unary main_v88 main_v89 ((transpose S64x64 [1, 0] · transposes_S64x64_S64x64_1_0) : (⟨S64x64, .f32⟩ : BufTy).Contents (Elt F) → (⟨S64x64, .f32⟩ : BufTy).Contents (Elt F)),
    binary main_v66 main_v89 main_v90 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v86 main_v90 main_v91 (addf : (⟨S2048x64, .f32⟩ : BufTy).Contents (Elt F) → (⟨S2048x64, .f32⟩ : BufTy).Contents (Elt F) → (⟨S2048x64, .f32⟩ : BufTy).Contents (Elt F)),
    unary main_arg9 main_v92 ((extractStridedSlice S1x64 ![1, 0] · slices_S10x64_S1x64_1_0) : (⟨S10x64, .f32⟩ : BufTy).Contents (Elt F) → (⟨S1x64, .f32⟩ : BufTy).Contents (Elt F)),
    reshape main_v92 main_v93 rfl shapeCasts_S1x64_S64,
    unary main_v93 main_v94 (broadcastInDim S1x64 ![1] bcast_S64_S1x64_1 : (⟨S64, .f32⟩ : BufTy).Contents (Elt F) → (⟨S1x64, .f32⟩ : BufTy).Contents (Elt F)),
    unary main_v94 main_v95 (broadcastInDim S2048x64 ![0, 1] bcast_S1x64_S2048x64_0_1 : (⟨S1x64, .f32⟩ : BufTy).Contents (Elt F) → (⟨S2048x64, .f32⟩ : BufTy).Contents (Elt F)),
    binary main_v91 main_v95 main_v96 (addf : (⟨S2048x64, .f32⟩ : BufTy).Contents (Elt F) → (⟨S2048x64, .f32⟩ : BufTy).Contents (Elt F) → (⟨S2048x64, .f32⟩ : BufTy).Contents (Elt F)),
    unary main_v82 main_v97 (Host.tanh : (⟨S2048x64, .f32⟩ : BufTy).Contents (Elt F) → (⟨S2048x64, .f32⟩ : BufTy).Contents (Elt F)),
    unary main_v96 main_v98 (Host.negf : (⟨S2048x64, .f32⟩ : BufTy).Contents (Elt F) → (⟨S2048x64, .f32⟩ : BufTy).Contents (Elt F)),
    unary main_v98 main_v99 (Host.exp : (⟨S2048x64, .f32⟩ : BufTy).Contents (Elt F) → (⟨S2048x64, .f32⟩ : BufTy).Contents (Elt F)),
    nullary main_cst_3 (constant S_ .f32 0x3F800000#32),
    unary main_cst_3 main_v100 (broadcastInDim S2048x64 ![] bcast_S_S2048x64 : (⟨S_, .f32⟩ : BufTy).Contents (Elt F) → (⟨S2048x64, .f32⟩ : BufTy).Contents (Elt F)),
    binary main_v100 main_v99 main_v101 (addf : (⟨S2048x64, .f32⟩ : BufTy).Contents (Elt F) → (⟨S2048x64, .f32⟩ : BufTy).Contents (Elt F) → (⟨S2048x64, .f32⟩ : BufTy).Contents (Elt F)),
    nullary main_cst_4 (constant S_ .f32 0x3F800000#32),
    unary main_cst_4 main_v102 (broadcastInDim S2048x64 ![] bcast_S_S2048x64 : (⟨S_, .f32⟩ : BufTy).Contents (Elt F) → (⟨S2048x64, .f32⟩ : BufTy).Contents (Elt F)),
    binary main_v102 main_v101 main_v103 (Host.divf : (⟨S2048x64, .f32⟩ : BufTy).Contents (Elt F) → (⟨S2048x64, .f32⟩ : BufTy).Contents (Elt F) → (⟨S2048x64, .f32⟩ : BufTy).Contents (Elt F)),
    binary main_v97 main_v103 main_v104 (mulf : (⟨S2048x64, .f32⟩ : BufTy).Contents (Elt F) → (⟨S2048x64, .f32⟩ : BufTy).Contents (Elt F) → (⟨S2048x64, .f32⟩ : BufTy).Contents (Elt F)),
    unary main_arg12 main_v105 ((extractStridedSlice S1x96x64 ![1, 0, 0] · slices_S10x96x64_S1x96x64_1_0_0) : (⟨S10x96x64, .f32⟩ : BufTy).Contents (Elt F) → (⟨S1x96x64, .f32⟩ : BufTy).Contents (Elt F)),
    reshape main_v105 main_v106 rfl shapeCasts_S1x96x64_S96x64,
    unary main_v106 main_v107 ((transpose S64x96 [1, 0] · transposes_S96x64_S64x96_1_0) : (⟨S96x64, .f32⟩ : BufTy).Contents (Elt F) → (⟨S64x96, .f32⟩ : BufTy).Contents (Elt F)),
    binary main_v104 main_v107 main_v108 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v53 main_v108 main_v109 (addf : (⟨S2048x96, .f32⟩ : BufTy).Contents (Elt F) → (⟨S2048x96, .f32⟩ : BufTy).Contents (Elt F) → (⟨S2048x96, .f32⟩ : BufTy).Contents (Elt F)),
    unary main_arg13 main_v110 ((extractStridedSlice S1x96 ![1, 0] · slices_S10x96_S1x96_1_0) : (⟨S10x96, .f32⟩ : BufTy).Contents (Elt F) → (⟨S1x96, .f32⟩ : BufTy).Contents (Elt F)),
    reshape main_v110 main_v111 rfl shapeCasts_S1x96_S96,
    unary main_v111 main_v112 (broadcastInDim S1x96 ![1] bcast_S96_S1x96_1 : (⟨S96, .f32⟩ : BufTy).Contents (Elt F) → (⟨S1x96, .f32⟩ : BufTy).Contents (Elt F)),
    unary main_v112 main_v113 (broadcastInDim S2048x96 ![0, 1] bcast_S1x96_S2048x96_0_1 : (⟨S1x96, .f32⟩ : BufTy).Contents (Elt F) → (⟨S2048x96, .f32⟩ : BufTy).Contents (Elt F)) ]

set_option maxHeartbeats 4000000 in
theorem part1_eq (c : Dev nD) : main_part1 (F := F) c = seq part1 := rfl

end Cert.ReferenceIdeal.RefRun

end
-- ==== Proof.RefPart2.lean ====
/-
  Statements 121 … 180 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part2 : List (HloOp τ sig (Elt F)) :=
  [
    binary main_v109 main_v113 main_v114 (addf : (⟨S2048x96, .f32⟩ : BufTy).Contents (Elt F) → (⟨S2048x96, .f32⟩ : BufTy).Contents (Elt F) → (⟨S2048x96, .f32⟩ : BufTy).Contents (Elt F)),
    unary main_arg10 main_v115 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v115 main_v116 rfl shapeCasts_S1x64x64_S64x64,
    unary main_v116 main_v117 ((transpose S64x64 [1, 0] · transposes_S64x64_S64x64_1_0) : (⟨S64x64, .f32⟩ : BufTy).Contents (Elt F) → (⟨S64x64, .f32⟩ : BufTy).Contents (Elt F)),
    binary main_v104 main_v117 main_v118 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v119 ((extractStridedSlice S1x64 ![1, 0] · slices_S10x64_S1x64_1_0) : (⟨S10x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S2048x64 ![0, 1] bcast_S1x64_S2048x64_0_1 : (⟨S1x64, .f32⟩ : BufTy).Contents (Elt F) → (⟨S2048x64, .f32⟩ : BufTy).Contents (Elt F)),
    binary main_v118 main_v122 main_v123 (addf : (⟨S2048x64, .f32⟩ : BufTy).Contents (Elt F) → (⟨S2048x64, .f32⟩ : BufTy).Contents (Elt F) → (⟨S2048x64, .f32⟩ : BufTy).Contents (Elt F)),
    unary main_arg1 main_v124 ((extractStridedSlice S2048x64x1 ![0, 0, 2] · slices_S2048x64x1023_S2048x64x1_0_0_2) : (⟨S2048x64x1023, .f32⟩ : BufTy).Contents (Elt F) → (⟨S2048x64x1, .f32⟩ : BufTy).Contents (Elt F)),
    unary main_v66 main_v125 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_5 (constant S_ .f32 0x3E99999A#32),
    unary main_cst_5 main_v126 (broadcastInDim S2048x64 ![] bcast_S_S2048x64 : (⟨S_, .f32⟩ : BufTy).Contents (Elt F) → (⟨S2048x64, .f32⟩ : BufTy).Contents (Elt F)),
    binary main_v126 main_v123 main_v127 (mulf : (⟨S2048x64, .f32⟩ : BufTy).Contents (Elt F) → (⟨S2048x64, .f32⟩ : BufTy).Contents (Elt F) → (⟨S2048x64, .f32⟩ : BufTy).Contents (Elt F)),
    binary main_v66 main_v127 main_v128 (addf : (⟨S2048x64, .f32⟩ : BufTy).Contents (Elt F) → (⟨S2048x64, .f32⟩ : BufTy).Contents (Elt F) → (⟨S2048x64, .f32⟩ : BufTy).Contents (Elt F)),
    unary main_arg1 main_v129 ((extractStridedSlice S2048x64x1 ![0, 0, 3] · slices_S2048x64x1023_S2048x64x1_0_0_3) : (⟨S2048x64x1023, .f32⟩ : BufTy).Contents (Elt F) → (⟨S2048x64x1, .f32⟩ : BufTy).Contents (Elt F)),
    reshape main_v129 main_v130 rfl shapeCasts_S2048x64x1_S2048x64,
    unary main_arg4 main_v131 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v131 main_v132 rfl shapeCasts_S1x64x64_S64x64,
    unary main_v132 main_v133 ((transpose S64x64 [1, 0] · transposes_S64x64_S64x64_1_0) : (⟨S64x64, .f32⟩ : BufTy).Contents (Elt F) → (⟨S64x64, .f32⟩ : BufTy).Contents (Elt F)),
    binary main_v130 main_v133 main_v134 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v135 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v135 main_v136 rfl shapeCasts_S1x64x64_S64x64,
    unary main_v136 main_v137 ((transpose S64x64 [1, 0] · transposes_S64x64_S64x64_1_0) : (⟨S64x64, .f32⟩ : BufTy).Contents (Elt F) → (⟨S64x64, .f32⟩ : BufTy).Contents (Elt F)),
    binary main_v128 main_v137 main_v138 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v134 main_v138 main_v139 (addf : (⟨S2048x64, .f32⟩ : BufTy).Contents (Elt F) → (⟨S2048x64, .f32⟩ : BufTy).Contents (Elt F) → (⟨S2048x64, .f32⟩ : BufTy).Contents (Elt F)),
    unary main_arg6 main_v140 ((extractStridedSlice S1x64 ![2, 0] · slices_S10x64_S1x64_2_0) : (⟨S10x64, .f32⟩ : BufTy).Contents (Elt F) → (⟨S1x64, .f32⟩ : BufTy).Contents (Elt F)),
    reshape main_v140 main_v141 rfl shapeCasts_S1x64_S64,
    unary main_v141 main_v142 (broadcastInDim S1x64 ![1] bcast_S64_S1x64_1 : (⟨S64, .f32⟩ : BufTy).Contents (Elt F) → (⟨S1x64, .f32⟩ : BufTy).Contents (Elt F)),
    unary main_v142 main_v143 (broadcastInDim S2048x64 ![0, 1] bcast_S1x64_S2048x64_0_1 : (⟨S1x64, .f32⟩ : BufTy).Contents (Elt F) → (⟨S2048x64, .f32⟩ : BufTy).Contents (Elt F)),
    binary main_v139 main_v143 main_v144 (addf : (⟨S2048x64, .f32⟩ : BufTy).Contents (Elt F) → (⟨S2048x64, .f32⟩ : BufTy).Contents (Elt F) → (⟨S2048x64, .f32⟩ : BufTy).Contents (Elt F)),
    unary main_arg7 main_v145 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v145 main_v146 rfl shapeCasts_S1x64x64_S64x64,
    unary main_v146 main_v147 ((transpose S64x64 [1, 0] · transposes_S64x64_S64x64_1_0) : (⟨S64x64, .f32⟩ : BufTy).Contents (Elt F) → (⟨S64x64, .f32⟩ : BufTy).Contents (Elt F)),
    binary main_v130 main_v147 main_v148 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v149 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v149 main_v150 rfl shapeCasts_S1x64x64_S64x64,
    unary main_v150 main_v151 ((transpose S64x64 [1, 0] · transposes_S64x64_S64x64_1_0) : (⟨S64x64, .f32⟩ : BufTy).Contents (Elt F) → (⟨S64x64, .f32⟩ : BufTy).Contents (Elt F)),
    binary main_v128 main_v151 main_v152 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v148 main_v152 main_v153 (addf : (⟨S2048x64, .f32⟩ : BufTy).Contents (Elt F) → (⟨S2048x64, .f32⟩ : BufTy).Contents (Elt F) → (⟨S2048x64, .f32⟩ : BufTy).Contents (Elt F)),
    unary main_arg9 main_v154 ((extractStridedSlice S1x64 ![2, 0] · slices_S10x64_S1x64_2_0) : (⟨S10x64, .f32⟩ : BufTy).Contents (Elt F) → (⟨S1x64, .f32⟩ : BufTy).Contents (Elt F)),
    reshape main_v154 main_v155 rfl shapeCasts_S1x64_S64,
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S2048x64 ![0, 1] bcast_S1x64_S2048x64_0_1 : (⟨S1x64, .f32⟩ : BufTy).Contents (Elt F) → (⟨S2048x64, .f32⟩ : BufTy).Contents (Elt F)),
    binary main_v153 main_v157 main_v158 (addf : (⟨S2048x64, .f32⟩ : BufTy).Contents (Elt F) → (⟨S2048x64, .f32⟩ : BufTy).Contents (Elt F) → (⟨S2048x64, .f32⟩ : BufTy).Contents (Elt F)),
    unary main_v144 main_v159 (Host.tanh : (⟨S2048x64, .f32⟩ : BufTy).Contents (Elt F) → (⟨S2048x64, .f32⟩ : BufTy).Contents (Elt F)),
    unary main_v158 main_v160 (Host.negf : (⟨S2048x64, .f32⟩ : BufTy).Contents (Elt F) → (⟨S2048x64, .f32⟩ : BufTy).Contents (Elt F)),
    unary main_v160 main_v161 (Host.exp : (⟨S2048x64, .f32⟩ : BufTy).Contents (Elt F) → (⟨S2048x64, .f32⟩ : BufTy).Contents (Elt F)),
    nullary main_cst_6 (constant S_ .f32 0x3F800000#32),
    unary main_cst_6 main_v162 (broadcastInDim S2048x64 ![] bcast_S_S2048x64 : (⟨S_, .f32⟩ : BufTy).Contents (Elt F) → (⟨S2048x64, .f32⟩ : BufTy).Contents (Elt F)),
    binary main_v162 main_v161 main_v163 (addf : (⟨S2048x64, .f32⟩ : BufTy).Contents (Elt F) → (⟨S2048x64, .f32⟩ : BufTy).Contents (Elt F) → (⟨S2048x64, .f32⟩ : BufTy).Contents (Elt F)),
    nullary main_cst_7 (constant S_ .f32 0x3F800000#32),
    unary main_cst_7 main_v164 (broadcastInDim S2048x64 ![] bcast_S_S2048x64 : (⟨S_, .f32⟩ : BufTy).Contents (Elt F) → (⟨S2048x64, .f32⟩ : BufTy).Contents (Elt F)),
    binary main_v164 main_v163 main_v165 (Host.divf : (⟨S2048x64, .f32⟩ : BufTy).Contents (Elt F) → (⟨S2048x64, .f32⟩ : BufTy).Contents (Elt F) → (⟨S2048x64, .f32⟩ : BufTy).Contents (Elt F)),
    binary main_v159 main_v165 main_v166 (mulf : (⟨S2048x64, .f32⟩ : BufTy).Contents (Elt F) → (⟨S2048x64, .f32⟩ : BufTy).Contents (Elt F) → (⟨S2048x64, .f32⟩ : BufTy).Contents (Elt F)),
    unary main_arg12 main_v167 ((extractStridedSlice S1x96x64 ![2, 0, 0] · slices_S10x96x64_S1x96x64_2_0_0) : (⟨S10x96x64, .f32⟩ : BufTy).Contents (Elt F) → (⟨S1x96x64, .f32⟩ : BufTy).Contents (Elt F)),
    reshape main_v167 main_v168 rfl shapeCasts_S1x96x64_S96x64,
    unary main_v168 main_v169 ((transpose S64x96 [1, 0] · transposes_S96x64_S64x96_1_0) : (⟨S96x64, .f32⟩ : BufTy).Contents (Elt F) → (⟨S64x96, .f32⟩ : BufTy).Contents (Elt F)),
    binary main_v166 main_v169 main_v170 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)) ]

set_option maxHeartbeats 4000000 in
theorem part2_eq (c : Dev nD) : main_part2 (F := F) c = seq part2 := rfl

end Cert.ReferenceIdeal.RefRun

end
-- ==== Proof.RefPart3.lean ====
/-
  Statements 181 … 240 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part3 : List (HloOp τ sig (Elt F)) :=
  [
    binary main_v114 main_v170 main_v171 (addf : (⟨S2048x96, .f32⟩ : BufTy).Contents (Elt F) → (⟨S2048x96, .f32⟩ : BufTy).Contents (Elt F) → (⟨S2048x96, .f32⟩ : BufTy).Contents (Elt F)),
    unary main_arg13 main_v172 ((extractStridedSlice S1x96 ![2, 0] · slices_S10x96_S1x96_2_0) : (⟨S10x96, .f32⟩ : BufTy).Contents (Elt F) → (⟨S1x96, .f32⟩ : BufTy).Contents (Elt F)),
    reshape main_v172 main_v173 rfl shapeCasts_S1x96_S96,
    unary main_v173 main_v174 (broadcastInDim S1x96 ![1] bcast_S96_S1x96_1 : (⟨S96, .f32⟩ : BufTy).Contents (Elt F) → (⟨S1x96, .f32⟩ : BufTy).Contents (Elt F)),
    unary main_v174 main_v175 (broadcastInDim S2048x96 ![0, 1] bcast_S1x96_S2048x96_0_1 : (⟨S1x96, .f32⟩ : BufTy).Contents (Elt F) → (⟨S2048x96, .f32⟩ : BufTy).Contents (Elt F)),
    binary main_v171 main_v175 main_v176 (addf : (⟨S2048x96, .f32⟩ : BufTy).Contents (Elt F) → (⟨S2048x96, .f32⟩ : BufTy).Contents (Elt F) → (⟨S2048x96, .f32⟩ : BufTy).Contents (Elt F)),
    unary main_arg10 main_v177 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v177 main_v178 rfl shapeCasts_S1x64x64_S64x64,
    unary main_v178 main_v179 ((transpose S64x64 [1, 0] · transposes_S64x64_S64x64_1_0) : (⟨S64x64, .f32⟩ : BufTy).Contents (Elt F) → (⟨S64x64, .f32⟩ : BufTy).Contents (Elt F)),
    binary main_v166 main_v179 main_v180 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v181 ((extractStridedSlice S1x64 ![2, 0] · slices_S10x64_S1x64_2_0) : (⟨S10x64, .f32⟩ : BufTy).Contents (Elt F) → (⟨S1x64, .f32⟩ : BufTy).Contents (Elt F)),
    reshape main_v181 main_v182 rfl shapeCasts_S1x64_S64,
    unary main_v182 main_v183 (broadcastInDim S1x64 ![1] bcast_S64_S1x64_1 : (⟨S64, .f32⟩ : BufTy).Contents (Elt F) → (⟨S1x64, .f32⟩ : BufTy).Contents (Elt F)),
    unary main_v183 main_v184 (broadcastInDim S2048x64 ![0, 1] bcast_S1x64_S2048x64_0_1 : (⟨S1x64, .f32⟩ : BufTy).Contents (Elt F) → (⟨S2048x64, .f32⟩ : BufTy).Contents (Elt F)),
    binary main_v180 main_v184 main_v185 (addf : (⟨S2048x64, .f32⟩ : BufTy).Contents (Elt F) → (⟨S2048x64, .f32⟩ : BufTy).Contents (Elt F) → (⟨S2048x64, .f32⟩ : BufTy).Contents (Elt F)),
    unary main_arg1 main_v186 ((extractStridedSlice S2048x64x3 ![0, 0, 4] · slices_S2048x64x1023_S2048x64x3_0_0_4) : (⟨S2048x64x1023, .f32⟩ : BufTy).Contents (Elt F) → (⟨S2048x64x3, .f32⟩ : BufTy).Contents (Elt F)),
    unary main_v128 main_v187 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_8 (constant S_ .f32 0x3E99999A#32),
    unary main_cst_8 main_v188 (broadcastInDim S2048x64 ![] bcast_S_S2048x64 : (⟨S_, .f32⟩ : BufTy).Contents (Elt F) → (⟨S2048x64, .f32⟩ : BufTy).Contents (Elt F)),
    binary main_v188 main_v185 main_v189 (mulf : (⟨S2048x64, .f32⟩ : BufTy).Contents (Elt F) → (⟨S2048x64, .f32⟩ : BufTy).Contents (Elt F) → (⟨S2048x64, .f32⟩ : BufTy).Contents (Elt F)),
    binary main_v128 main_v189 main_v190 (addf : (⟨S2048x64, .f32⟩ : BufTy).Contents (Elt F) → (⟨S2048x64, .f32⟩ : BufTy).Contents (Elt F) → (⟨S2048x64, .f32⟩ : BufTy).Contents (Elt F)),
    unary main_arg1 main_v191 ((extractStridedSlice S2048x64x1 ![0, 0, 7] · slices_S2048x64x1023_S2048x64x1_0_0_7) : (⟨S2048x64x1023, .f32⟩ : BufTy).Contents (Elt F) → (⟨S2048x64x1, .f32⟩ : BufTy).Contents (Elt F)),
    reshape main_v191 main_v192 rfl shapeCasts_S2048x64x1_S2048x64,
    unary main_arg4 main_v193 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v193 main_v194 rfl shapeCasts_S1x64x64_S64x64,
    unary main_v194 main_v195 ((transpose S64x64 [1, 0] · transposes_S64x64_S64x64_1_0) : (⟨S64x64, .f32⟩ : BufTy).Contents (Elt F) → (⟨S64x64, .f32⟩ : BufTy).Contents (Elt F)),
    binary main_v192 main_v195 main_v196 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v197 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v197 main_v198 rfl shapeCasts_S1x64x64_S64x64,
    unary main_v198 main_v199 ((transpose S64x64 [1, 0] · transposes_S64x64_S64x64_1_0) : (⟨S64x64, .f32⟩ : BufTy).Contents (Elt F) → (⟨S64x64, .f32⟩ : BufTy).Contents (Elt F)),
    binary main_v190 main_v199 main_v200 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v196 main_v200 main_v201 (addf : (⟨S2048x64, .f32⟩ : BufTy).Contents (Elt F) → (⟨S2048x64, .f32⟩ : BufTy).Contents (Elt F) → (⟨S2048x64, .f32⟩ : BufTy).Contents (Elt F)),
    unary main_arg6 main_v202 ((extractStridedSlice S1x64 ![3, 0] · slices_S10x64_S1x64_3_0) : (⟨S10x64, .f32⟩ : BufTy).Contents (Elt F) → (⟨S1x64, .f32⟩ : BufTy).Contents (Elt F)),
    reshape main_v202 main_v203 rfl shapeCasts_S1x64_S64,
    unary main_v203 main_v204 (broadcastInDim S1x64 ![1] bcast_S64_S1x64_1 : (⟨S64, .f32⟩ : BufTy).Contents (Elt F) → (⟨S1x64, .f32⟩ : BufTy).Contents (Elt F)),
    unary main_v204 main_v205 (broadcastInDim S2048x64 ![0, 1] bcast_S1x64_S2048x64_0_1 : (⟨S1x64, .f32⟩ : BufTy).Contents (Elt F) → (⟨S2048x64, .f32⟩ : BufTy).Contents (Elt F)),
    binary main_v201 main_v205 main_v206 (addf : (⟨S2048x64, .f32⟩ : BufTy).Contents (Elt F) → (⟨S2048x64, .f32⟩ : BufTy).Contents (Elt F) → (⟨S2048x64, .f32⟩ : BufTy).Contents (Elt F)),
    unary main_arg7 main_v207 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v207 main_v208 rfl shapeCasts_S1x64x64_S64x64,
    unary main_v208 main_v209 ((transpose S64x64 [1, 0] · transposes_S64x64_S64x64_1_0) : (⟨S64x64, .f32⟩ : BufTy).Contents (Elt F) → (⟨S64x64, .f32⟩ : BufTy).Contents (Elt F)),
    binary main_v192 main_v209 main_v210 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v211 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v211 main_v212 rfl shapeCasts_S1x64x64_S64x64,
    unary main_v212 main_v213 ((transpose S64x64 [1, 0] · transposes_S64x64_S64x64_1_0) : (⟨S64x64, .f32⟩ : BufTy).Contents (Elt F) → (⟨S64x64, .f32⟩ : BufTy).Contents (Elt F)),
    binary main_v190 main_v213 main_v214 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v210 main_v214 main_v215 (addf : (⟨S2048x64, .f32⟩ : BufTy).Contents (Elt F) → (⟨S2048x64, .f32⟩ : BufTy).Contents (Elt F) → (⟨S2048x64, .f32⟩ : BufTy).Contents (Elt F)),
    unary main_arg9 main_v216 ((extractStridedSlice S1x64 ![3, 0] · slices_S10x64_S1x64_3_0) : (⟨S10x64, .f32⟩ : BufTy).Contents (Elt F) → (⟨S1x64, .f32⟩ : BufTy).Contents (Elt F)),
    reshape main_v216 main_v217 rfl shapeCasts_S1x64_S64,
    unary main_v217 main_v218 (broadcastInDim S1x64 ![1] bcast_S64_S1x64_1 : (⟨S64, .f32⟩ : BufTy).Contents (Elt F) → (⟨S1x64, .f32⟩ : BufTy).Contents (Elt F)),
    unary main_v218 main_v219 (broadcastInDim S2048x64 ![0, 1] bcast_S1x64_S2048x64_0_1 : (⟨S1x64, .f32⟩ : BufTy).Contents (Elt F) → (⟨S2048x64, .f32⟩ : BufTy).Contents (Elt F)),
    binary main_v215 main_v219 main_v220 (addf : (⟨S2048x64, .f32⟩ : BufTy).Contents (Elt F) → (⟨S2048x64, .f32⟩ : BufTy).Contents (Elt F) → (⟨S2048x64, .f32⟩ : BufTy).Contents (Elt F)),
    unary main_v206 main_v221 (Host.tanh : (⟨S2048x64, .f32⟩ : BufTy).Contents (Elt F) → (⟨S2048x64, .f32⟩ : BufTy).Contents (Elt F)),
    unary main_v220 main_v222 (Host.negf : (⟨S2048x64, .f32⟩ : BufTy).Contents (Elt F) → (⟨S2048x64, .f32⟩ : BufTy).Contents (Elt F)),
    unary main_v222 main_v223 (Host.exp : (⟨S2048x64, .f32⟩ : BufTy).Contents (Elt F) → (⟨S2048x64, .f32⟩ : BufTy).Contents (Elt F)),
    nullary main_cst_9 (constant S_ .f32 0x3F800000#32),
    unary main_cst_9 main_v224 (broadcastInDim S2048x64 ![] bcast_S_S2048x64 : (⟨S_, .f32⟩ : BufTy).Contents (Elt F) → (⟨S2048x64, .f32⟩ : BufTy).Contents (Elt F)),
    binary main_v224 main_v223 main_v225 (addf : (⟨S2048x64, .f32⟩ : BufTy).Contents (Elt F) → (⟨S2048x64, .f32⟩ : BufTy).Contents (Elt F) → (⟨S2048x64, .f32⟩ : BufTy).Contents (Elt F)),
    nullary main_cst_10 (constant S_ .f32 0x3F800000#32),
    unary main_cst_10 main_v226 (broadcastInDim S2048x64 ![] bcast_S_S2048x64 : (⟨S_, .f32⟩ : BufTy).Contents (Elt F) → (⟨S2048x64, .f32⟩ : BufTy).Contents (Elt F)),
    binary main_v226 main_v225 main_v227 (Host.divf : (⟨S2048x64, .f32⟩ : BufTy).Contents (Elt F) → (⟨S2048x64, .f32⟩ : BufTy).Contents (Elt F) → (⟨S2048x64, .f32⟩ : BufTy).Contents (Elt F)) ]

set_option maxHeartbeats 4000000 in
theorem part3_eq (c : Dev nD) : main_part3 (F := F) c = seq part3 := rfl

end Cert.ReferenceIdeal.RefRun

end
-- ==== Proof.RefPart4.lean ====
/-
  Statements 241 … 300 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part4 : List (HloOp τ sig (Elt F)) :=
  [
    binary main_v221 main_v227 main_v228 (mulf : (⟨S2048x64, .f32⟩ : BufTy).Contents (Elt F) → (⟨S2048x64, .f32⟩ : BufTy).Contents (Elt F) → (⟨S2048x64, .f32⟩ : BufTy).Contents (Elt F)),
    unary main_arg12 main_v229 ((extractStridedSlice S1x96x64 ![3, 0, 0] · slices_S10x96x64_S1x96x64_3_0_0) : (⟨S10x96x64, .f32⟩ : BufTy).Contents (Elt F) → (⟨S1x96x64, .f32⟩ : BufTy).Contents (Elt F)),
    reshape main_v229 main_v230 rfl shapeCasts_S1x96x64_S96x64,
    unary main_v230 main_v231 ((transpose S64x96 [1, 0] · transposes_S96x64_S64x96_1_0) : (⟨S96x64, .f32⟩ : BufTy).Contents (Elt F) → (⟨S64x96, .f32⟩ : BufTy).Contents (Elt F)),
    binary main_v228 main_v231 main_v232 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v176 main_v232 main_v233 (addf : (⟨S2048x96, .f32⟩ : BufTy).Contents (Elt F) → (⟨S2048x96, .f32⟩ : BufTy).Contents (Elt F) → (⟨S2048x96, .f32⟩ : BufTy).Contents (Elt F)),
    unary main_arg13 main_v234 ((extractStridedSlice S1x96 ![3, 0] · slices_S10x96_S1x96_3_0) : (⟨S10x96, .f32⟩ : BufTy).Contents (Elt F) → (⟨S1x96, .f32⟩ : BufTy).Contents (Elt F)),
    reshape main_v234 main_v235 rfl shapeCasts_S1x96_S96,
    unary main_v235 main_v236 (broadcastInDim S1x96 ![1] bcast_S96_S1x96_1 : (⟨S96, .f32⟩ : BufTy).Contents (Elt F) → (⟨S1x96, .f32⟩ : BufTy).Contents (Elt F)),
    unary main_v236 main_v237 (broadcastInDim S2048x96 ![0, 1] bcast_S1x96_S2048x96_0_1 : (⟨S1x96, .f32⟩ : BufTy).Contents (Elt F) → (⟨S2048x96, .f32⟩ : BufTy).Contents (Elt F)),
    binary main_v233 main_v237 main_v238 (addf : (⟨S2048x96, .f32⟩ : BufTy).Contents (Elt F) → (⟨S2048x96, .f32⟩ : BufTy).Contents (Elt F) → (⟨S2048x96, .f32⟩ : BufTy).Contents (Elt F)),
    unary main_arg10 main_v239 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v239 main_v240 rfl shapeCasts_S1x64x64_S64x64,
    unary main_v240 main_v241 ((transpose S64x64 [1, 0] · transposes_S64x64_S64x64_1_0) : (⟨S64x64, .f32⟩ : BufTy).Contents (Elt F) → (⟨S64x64, .f32⟩ : BufTy).Contents (Elt F)),
    binary main_v228 main_v241 main_v242 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v243 ((extractStridedSlice S1x64 ![3, 0] · slices_S10x64_S1x64_3_0) : (⟨S10x64, .f32⟩ : BufTy).Contents (Elt F) → (⟨S1x64, .f32⟩ : BufTy).Contents (Elt F)),
    reshape main_v243 main_v244 rfl shapeCasts_S1x64_S64,
    unary main_v244 main_v245 (broadcastInDim S1x64 ![1] bcast_S64_S1x64_1 : (⟨S64, .f32⟩ : BufTy).Contents (Elt F) → (⟨S1x64, .f32⟩ : BufTy).Contents (Elt F)),
    unary main_v245 main_v246 (broadcastInDim S2048x64 ![0, 1] bcast_S1x64_S2048x64_0_1 : (⟨S1x64, .f32⟩ : BufTy).Contents (Elt F) → (⟨S2048x64, .f32⟩ : BufTy).Contents (Elt F)),
    binary main_v242 main_v246 main_v247 (addf : (⟨S2048x64, .f32⟩ : BufTy).Contents (Elt F) → (⟨S2048x64, .f32⟩ : BufTy).Contents (Elt F) → (⟨S2048x64, .f32⟩ : BufTy).Contents (Elt F)),
    unary main_arg1 main_v248 ((extractStridedSlice S2048x64x7 ![0, 0, 8] · slices_S2048x64x1023_S2048x64x7_0_0_8) : (⟨S2048x64x1023, .f32⟩ : BufTy).Contents (Elt F) → (⟨S2048x64x7, .f32⟩ : BufTy).Contents (Elt F)),
    unary main_v190 main_v249 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_11 (constant S_ .f32 0x3E99999A#32),
    unary main_cst_11 main_v250 (broadcastInDim S2048x64 ![] bcast_S_S2048x64 : (⟨S_, .f32⟩ : BufTy).Contents (Elt F) → (⟨S2048x64, .f32⟩ : BufTy).Contents (Elt F)),
    binary main_v250 main_v247 main_v251 (mulf : (⟨S2048x64, .f32⟩ : BufTy).Contents (Elt F) → (⟨S2048x64, .f32⟩ : BufTy).Contents (Elt F) → (⟨S2048x64, .f32⟩ : BufTy).Contents (Elt F)),
    binary main_v190 main_v251 main_v252 (addf : (⟨S2048x64, .f32⟩ : BufTy).Contents (Elt F) → (⟨S2048x64, .f32⟩ : BufTy).Contents (Elt F) → (⟨S2048x64, .f32⟩ : BufTy).Contents (Elt F)),
    unary main_arg1 main_v253 ((extractStridedSlice S2048x64x1 ![0, 0, 15] · slices_S2048x64x1023_S2048x64x1_0_0_15) : (⟨S2048x64x1023, .f32⟩ : BufTy).Contents (Elt F) → (⟨S2048x64x1, .f32⟩ : BufTy).Contents (Elt F)),
    reshape main_v253 main_v254 rfl shapeCasts_S2048x64x1_S2048x64,
    unary main_arg4 main_v255 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v255 main_v256 rfl shapeCasts_S1x64x64_S64x64,
    unary main_v256 main_v257 ((transpose S64x64 [1, 0] · transposes_S64x64_S64x64_1_0) : (⟨S64x64, .f32⟩ : BufTy).Contents (Elt F) → (⟨S64x64, .f32⟩ : BufTy).Contents (Elt F)),
    binary main_v254 main_v257 main_v258 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v259 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v259 main_v260 rfl shapeCasts_S1x64x64_S64x64,
    unary main_v260 main_v261 ((transpose S64x64 [1, 0] · transposes_S64x64_S64x64_1_0) : (⟨S64x64, .f32⟩ : BufTy).Contents (Elt F) → (⟨S64x64, .f32⟩ : BufTy).Contents (Elt F)),
    binary main_v252 main_v261 main_v262 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v258 main_v262 main_v263 (addf : (⟨S2048x64, .f32⟩ : BufTy).Contents (Elt F) → (⟨S2048x64, .f32⟩ : BufTy).Contents (Elt F) → (⟨S2048x64, .f32⟩ : BufTy).Contents (Elt F)),
    unary main_arg6 main_v264 ((extractStridedSlice S1x64 ![4, 0] · slices_S10x64_S1x64_4_0) : (⟨S10x64, .f32⟩ : BufTy).Contents (Elt F) → (⟨S1x64, .f32⟩ : BufTy).Contents (Elt F)),
    reshape main_v264 main_v265 rfl shapeCasts_S1x64_S64,
    unary main_v265 main_v266 (broadcastInDim S1x64 ![1] bcast_S64_S1x64_1 : (⟨S64, .f32⟩ : BufTy).Contents (Elt F) → (⟨S1x64, .f32⟩ : BufTy).Contents (Elt F)),
    unary main_v266 main_v267 (broadcastInDim S2048x64 ![0, 1] bcast_S1x64_S2048x64_0_1 : (⟨S1x64, .f32⟩ : BufTy).Contents (Elt F) → (⟨S2048x64, .f32⟩ : BufTy).Contents (Elt F)),
    binary main_v263 main_v267 main_v268 (addf : (⟨S2048x64, .f32⟩ : BufTy).Contents (Elt F) → (⟨S2048x64, .f32⟩ : BufTy).Contents (Elt F) → (⟨S2048x64, .f32⟩ : BufTy).Contents (Elt F)),
    unary main_arg7 main_v269 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v269 main_v270 rfl shapeCasts_S1x64x64_S64x64,
    unary main_v270 main_v271 ((transpose S64x64 [1, 0] · transposes_S64x64_S64x64_1_0) : (⟨S64x64, .f32⟩ : BufTy).Contents (Elt F) → (⟨S64x64, .f32⟩ : BufTy).Contents (Elt F)),
    binary main_v254 main_v271 main_v272 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v273 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v273 main_v274 rfl shapeCasts_S1x64x64_S64x64,
    unary main_v274 main_v275 ((transpose S64x64 [1, 0] · transposes_S64x64_S64x64_1_0) : (⟨S64x64, .f32⟩ : BufTy).Contents (Elt F) → (⟨S64x64, .f32⟩ : BufTy).Contents (Elt F)),
    binary main_v252 main_v275 main_v276 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v272 main_v276 main_v277 (addf : (⟨S2048x64, .f32⟩ : BufTy).Contents (Elt F) → (⟨S2048x64, .f32⟩ : BufTy).Contents (Elt F) → (⟨S2048x64, .f32⟩ : BufTy).Contents (Elt F)),
    unary main_arg9 main_v278 ((extractStridedSlice S1x64 ![4, 0] · slices_S10x64_S1x64_4_0) : (⟨S10x64, .f32⟩ : BufTy).Contents (Elt F) → (⟨S1x64, .f32⟩ : BufTy).Contents (Elt F)),
    reshape main_v278 main_v279 rfl shapeCasts_S1x64_S64,
    unary main_v279 main_v280 (broadcastInDim S1x64 ![1] bcast_S64_S1x64_1 : (⟨S64, .f32⟩ : BufTy).Contents (Elt F) → (⟨S1x64, .f32⟩ : BufTy).Contents (Elt F)),
    unary main_v280 main_v281 (broadcastInDim S2048x64 ![0, 1] bcast_S1x64_S2048x64_0_1 : (⟨S1x64, .f32⟩ : BufTy).Contents (Elt F) → (⟨S2048x64, .f32⟩ : BufTy).Contents (Elt F)),
    binary main_v277 main_v281 main_v282 (addf : (⟨S2048x64, .f32⟩ : BufTy).Contents (Elt F) → (⟨S2048x64, .f32⟩ : BufTy).Contents (Elt F) → (⟨S2048x64, .f32⟩ : BufTy).Contents (Elt F)),
    unary main_v268 main_v283 (Host.tanh : (⟨S2048x64, .f32⟩ : BufTy).Contents (Elt F) → (⟨S2048x64, .f32⟩ : BufTy).Contents (Elt F)),
    unary main_v282 main_v284 (Host.negf : (⟨S2048x64, .f32⟩ : BufTy).Contents (Elt F) → (⟨S2048x64, .f32⟩ : BufTy).Contents (Elt F)),
    unary main_v284 main_v285 (Host.exp : (⟨S2048x64, .f32⟩ : BufTy).Contents (Elt F) → (⟨S2048x64, .f32⟩ : BufTy).Contents (Elt F)),
    nullary main_cst_12 (constant S_ .f32 0x3F800000#32) ]

set_option maxHeartbeats 4000000 in
theorem part4_eq (c : Dev nD) : main_part4 (F := F) c = seq part4 := rfl

end Cert.ReferenceIdeal.RefRun

end
-- ==== Proof.RefPart5.lean ====
/-
  Statements 301 … 360 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part5 : List (HloOp τ sig (Elt F)) :=
  [
    unary main_cst_12 main_v286 (broadcastInDim S2048x64 ![] bcast_S_S2048x64 : (⟨S_, .f32⟩ : BufTy).Contents (Elt F) → (⟨S2048x64, .f32⟩ : BufTy).Contents (Elt F)),
    binary main_v286 main_v285 main_v287 (addf : (⟨S2048x64, .f32⟩ : BufTy).Contents (Elt F) → (⟨S2048x64, .f32⟩ : BufTy).Contents (Elt F) → (⟨S2048x64, .f32⟩ : BufTy).Contents (Elt F)),
    nullary main_cst_13 (constant S_ .f32 0x3F800000#32),
    unary main_cst_13 main_v288 (broadcastInDim S2048x64 ![] bcast_S_S2048x64 : (⟨S_, .f32⟩ : BufTy).Contents (Elt F) → (⟨S2048x64, .f32⟩ : BufTy).Contents (Elt F)),
    binary main_v288 main_v287 main_v289 (Host.divf : (⟨S2048x64, .f32⟩ : BufTy).Contents (Elt F) → (⟨S2048x64, .f32⟩ : BufTy).Contents (Elt F) → (⟨S2048x64, .f32⟩ : BufTy).Contents (Elt F)),
    binary main_v283 main_v289 main_v290 (mulf : (⟨S2048x64, .f32⟩ : BufTy).Contents (Elt F) → (⟨S2048x64, .f32⟩ : BufTy).Contents (Elt F) → (⟨S2048x64, .f32⟩ : BufTy).Contents (Elt F)),
    unary main_arg12 main_v291 ((extractStridedSlice S1x96x64 ![4, 0, 0] · slices_S10x96x64_S1x96x64_4_0_0) : (⟨S10x96x64, .f32⟩ : BufTy).Contents (Elt F) → (⟨S1x96x64, .f32⟩ : BufTy).Contents (Elt F)),
    reshape main_v291 main_v292 rfl shapeCasts_S1x96x64_S96x64,
    unary main_v292 main_v293 ((transpose S64x96 [1, 0] · transposes_S96x64_S64x96_1_0) : (⟨S96x64, .f32⟩ : BufTy).Contents (Elt F) → (⟨S64x96, .f32⟩ : BufTy).Contents (Elt F)),
    binary main_v290 main_v293 main_v294 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v238 main_v294 main_v295 (addf : (⟨S2048x96, .f32⟩ : BufTy).Contents (Elt F) → (⟨S2048x96, .f32⟩ : BufTy).Contents (Elt F) → (⟨S2048x96, .f32⟩ : BufTy).Contents (Elt F)),
    unary main_arg13 main_v296 ((extractStridedSlice S1x96 ![4, 0] · slices_S10x96_S1x96_4_0) : (⟨S10x96, .f32⟩ : BufTy).Contents (Elt F) → (⟨S1x96, .f32⟩ : BufTy).Contents (Elt F)),
    reshape main_v296 main_v297 rfl shapeCasts_S1x96_S96,
    unary main_v297 main_v298 (broadcastInDim S1x96 ![1] bcast_S96_S1x96_1 : (⟨S96, .f32⟩ : BufTy).Contents (Elt F) → (⟨S1x96, .f32⟩ : BufTy).Contents (Elt F)),
    unary main_v298 main_v299 (broadcastInDim S2048x96 ![0, 1] bcast_S1x96_S2048x96_0_1 : (⟨S1x96, .f32⟩ : BufTy).Contents (Elt F) → (⟨S2048x96, .f32⟩ : BufTy).Contents (Elt F)),
    binary main_v295 main_v299 main_v300 (addf : (⟨S2048x96, .f32⟩ : BufTy).Contents (Elt F) → (⟨S2048x96, .f32⟩ : BufTy).Contents (Elt F) → (⟨S2048x96, .f32⟩ : BufTy).Contents (Elt F)),
    unary main_arg10 main_v301 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v301 main_v302 rfl shapeCasts_S1x64x64_S64x64,
    unary main_v302 main_v303 ((transpose S64x64 [1, 0] · transposes_S64x64_S64x64_1_0) : (⟨S64x64, .f32⟩ : BufTy).Contents (Elt F) → (⟨S64x64, .f32⟩ : BufTy).Contents (Elt F)),
    binary main_v290 main_v303 main_v304 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v305 ((extractStridedSlice S1x64 ![4, 0] · slices_S10x64_S1x64_4_0) : (⟨S10x64, .f32⟩ : BufTy).Contents (Elt F) → (⟨S1x64, .f32⟩ : BufTy).Contents (Elt F)),
    reshape main_v305 main_v306 rfl shapeCasts_S1x64_S64,
    unary main_v306 main_v307 (broadcastInDim S1x64 ![1] bcast_S64_S1x64_1 : (⟨S64, .f32⟩ : BufTy).Contents (Elt F) → (⟨S1x64, .f32⟩ : BufTy).Contents (Elt F)),
    unary main_v307 main_v308 (broadcastInDim S2048x64 ![0, 1] bcast_S1x64_S2048x64_0_1 : (⟨S1x64, .f32⟩ : BufTy).Contents (Elt F) → (⟨S2048x64, .f32⟩ : BufTy).Contents (Elt F)),
    binary main_v304 main_v308 main_v309 (addf : (⟨S2048x64, .f32⟩ : BufTy).Contents (Elt F) → (⟨S2048x64, .f32⟩ : BufTy).Contents (Elt F) → (⟨S2048x64, .f32⟩ : BufTy).Contents (Elt F)),
    unary main_arg1 main_v310 ((extractStridedSlice S2048x64x15 ![0, 0, 16] · slices_S2048x64x1023_S2048x64x15_0_0_16) : (⟨S2048x64x1023, .f32⟩ : BufTy).Contents (Elt F) → (⟨S2048x64x15, .f32⟩ : BufTy).Contents (Elt F)),
    unary main_v252 main_v311 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_14 (constant S_ .f32 0x3E99999A#32),
    unary main_cst_14 main_v312 (broadcastInDim S2048x64 ![] bcast_S_S2048x64 : (⟨S_, .f32⟩ : BufTy).Contents (Elt F) → (⟨S2048x64, .f32⟩ : BufTy).Contents (Elt F)),
    binary main_v312 main_v309 main_v313 (mulf : (⟨S2048x64, .f32⟩ : BufTy).Contents (Elt F) → (⟨S2048x64, .f32⟩ : BufTy).Contents (Elt F) → (⟨S2048x64, .f32⟩ : BufTy).Contents (Elt F)),
    binary main_v252 main_v313 main_v314 (addf : (⟨S2048x64, .f32⟩ : BufTy).Contents (Elt F) → (⟨S2048x64, .f32⟩ : BufTy).Contents (Elt F) → (⟨S2048x64, .f32⟩ : BufTy).Contents (Elt F)),
    unary main_arg1 main_v315 ((extractStridedSlice S2048x64x1 ![0, 0, 31] · slices_S2048x64x1023_S2048x64x1_0_0_31) : (⟨S2048x64x1023, .f32⟩ : BufTy).Contents (Elt F) → (⟨S2048x64x1, .f32⟩ : BufTy).Contents (Elt F)),
    reshape main_v315 main_v316 rfl shapeCasts_S2048x64x1_S2048x64,
    unary main_arg4 main_v317 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v317 main_v318 rfl shapeCasts_S1x64x64_S64x64,
    unary main_v318 main_v319 ((transpose S64x64 [1, 0] · transposes_S64x64_S64x64_1_0) : (⟨S64x64, .f32⟩ : BufTy).Contents (Elt F) → (⟨S64x64, .f32⟩ : BufTy).Contents (Elt F)),
    binary main_v316 main_v319 main_v320 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v321 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v321 main_v322 rfl shapeCasts_S1x64x64_S64x64,
    unary main_v322 main_v323 ((transpose S64x64 [1, 0] · transposes_S64x64_S64x64_1_0) : (⟨S64x64, .f32⟩ : BufTy).Contents (Elt F) → (⟨S64x64, .f32⟩ : BufTy).Contents (Elt F)),
    binary main_v314 main_v323 main_v324 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v320 main_v324 main_v325 (addf : (⟨S2048x64, .f32⟩ : BufTy).Contents (Elt F) → (⟨S2048x64, .f32⟩ : BufTy).Contents (Elt F) → (⟨S2048x64, .f32⟩ : BufTy).Contents (Elt F)),
    unary main_arg6 main_v326 ((extractStridedSlice S1x64 ![5, 0] · slices_S10x64_S1x64_5_0) : (⟨S10x64, .f32⟩ : BufTy).Contents (Elt F) → (⟨S1x64, .f32⟩ : BufTy).Contents (Elt F)),
    reshape main_v326 main_v327 rfl shapeCasts_S1x64_S64,
    unary main_v327 main_v328 (broadcastInDim S1x64 ![1] bcast_S64_S1x64_1 : (⟨S64, .f32⟩ : BufTy).Contents (Elt F) → (⟨S1x64, .f32⟩ : BufTy).Contents (Elt F)),
    unary main_v328 main_v329 (broadcastInDim S2048x64 ![0, 1] bcast_S1x64_S2048x64_0_1 : (⟨S1x64, .f32⟩ : BufTy).Contents (Elt F) → (⟨S2048x64, .f32⟩ : BufTy).Contents (Elt F)),
    binary main_v325 main_v329 main_v330 (addf : (⟨S2048x64, .f32⟩ : BufTy).Contents (Elt F) → (⟨S2048x64, .f32⟩ : BufTy).Contents (Elt F) → (⟨S2048x64, .f32⟩ : BufTy).Contents (Elt F)),
    unary main_arg7 main_v331 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v331 main_v332 rfl shapeCasts_S1x64x64_S64x64,
    unary main_v332 main_v333 ((transpose S64x64 [1, 0] · transposes_S64x64_S64x64_1_0) : (⟨S64x64, .f32⟩ : BufTy).Contents (Elt F) → (⟨S64x64, .f32⟩ : BufTy).Contents (Elt F)),
    binary main_v316 main_v333 main_v334 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v335 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v335 main_v336 rfl shapeCasts_S1x64x64_S64x64,
    unary main_v336 main_v337 ((transpose S64x64 [1, 0] · transposes_S64x64_S64x64_1_0) : (⟨S64x64, .f32⟩ : BufTy).Contents (Elt F) → (⟨S64x64, .f32⟩ : BufTy).Contents (Elt F)),
    binary main_v314 main_v337 main_v338 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v334 main_v338 main_v339 (addf : (⟨S2048x64, .f32⟩ : BufTy).Contents (Elt F) → (⟨S2048x64, .f32⟩ : BufTy).Contents (Elt F) → (⟨S2048x64, .f32⟩ : BufTy).Contents (Elt F)),
    unary main_arg9 main_v340 ((extractStridedSlice S1x64 ![5, 0] · slices_S10x64_S1x64_5_0) : (⟨S10x64, .f32⟩ : BufTy).Contents (Elt F) → (⟨S1x64, .f32⟩ : BufTy).Contents (Elt F)),
    reshape main_v340 main_v341 rfl shapeCasts_S1x64_S64,
    unary main_v341 main_v342 (broadcastInDim S1x64 ![1] bcast_S64_S1x64_1 : (⟨S64, .f32⟩ : BufTy).Contents (Elt F) → (⟨S1x64, .f32⟩ : BufTy).Contents (Elt F)),
    unary main_v342 main_v343 (broadcastInDim S2048x64 ![0, 1] bcast_S1x64_S2048x64_0_1 : (⟨S1x64, .f32⟩ : BufTy).Contents (Elt F) → (⟨S2048x64, .f32⟩ : BufTy).Contents (Elt F)) ]

set_option maxHeartbeats 4000000 in
theorem part5_eq (c : Dev nD) : main_part5 (F := F) c = seq part5 := rfl

end Cert.ReferenceIdeal.RefRun

end
-- ==== Proof.RefPart6.lean ====
/-
  Statements 361 … 420 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part6 : List (HloOp τ sig (Elt F)) :=
  [
    binary main_v339 main_v343 main_v344 (addf : (⟨S2048x64, .f32⟩ : BufTy).Contents (Elt F) → (⟨S2048x64, .f32⟩ : BufTy).Contents (Elt F) → (⟨S2048x64, .f32⟩ : BufTy).Contents (Elt F)),
    unary main_v330 main_v345 (Host.tanh : (⟨S2048x64, .f32⟩ : BufTy).Contents (Elt F) → (⟨S2048x64, .f32⟩ : BufTy).Contents (Elt F)),
    unary main_v344 main_v346 (Host.negf : (⟨S2048x64, .f32⟩ : BufTy).Contents (Elt F) → (⟨S2048x64, .f32⟩ : BufTy).Contents (Elt F)),
    unary main_v346 main_v347 (Host.exp : (⟨S2048x64, .f32⟩ : BufTy).Contents (Elt F) → (⟨S2048x64, .f32⟩ : BufTy).Contents (Elt F)),
    nullary main_cst_15 (constant S_ .f32 0x3F800000#32),
    unary main_cst_15 main_v348 (broadcastInDim S2048x64 ![] bcast_S_S2048x64 : (⟨S_, .f32⟩ : BufTy).Contents (Elt F) → (⟨S2048x64, .f32⟩ : BufTy).Contents (Elt F)),
    binary main_v348 main_v347 main_v349 (addf : (⟨S2048x64, .f32⟩ : BufTy).Contents (Elt F) → (⟨S2048x64, .f32⟩ : BufTy).Contents (Elt F) → (⟨S2048x64, .f32⟩ : BufTy).Contents (Elt F)),
    nullary main_cst_16 (constant S_ .f32 0x3F800000#32),
    unary main_cst_16 main_v350 (broadcastInDim S2048x64 ![] bcast_S_S2048x64 : (⟨S_, .f32⟩ : BufTy).Contents (Elt F) → (⟨S2048x64, .f32⟩ : BufTy).Contents (Elt F)),
    binary main_v350 main_v349 main_v351 (Host.divf : (⟨S2048x64, .f32⟩ : BufTy).Contents (Elt F) → (⟨S2048x64, .f32⟩ : BufTy).Contents (Elt F) → (⟨S2048x64, .f32⟩ : BufTy).Contents (Elt F)),
    binary main_v345 main_v351 main_v352 (mulf : (⟨S2048x64, .f32⟩ : BufTy).Contents (Elt F) → (⟨S2048x64, .f32⟩ : BufTy).Contents (Elt F) → (⟨S2048x64, .f32⟩ : BufTy).Contents (Elt F)),
    unary main_arg12 main_v353 ((extractStridedSlice S1x96x64 ![5, 0, 0] · slices_S10x96x64_S1x96x64_5_0_0) : (⟨S10x96x64, .f32⟩ : BufTy).Contents (Elt F) → (⟨S1x96x64, .f32⟩ : BufTy).Contents (Elt F)),
    reshape main_v353 main_v354 rfl shapeCasts_S1x96x64_S96x64,
    unary main_v354 main_v355 ((transpose S64x96 [1, 0] · transposes_S96x64_S64x96_1_0) : (⟨S96x64, .f32⟩ : BufTy).Contents (Elt F) → (⟨S64x96, .f32⟩ : BufTy).Contents (Elt F)),
    binary main_v352 main_v355 main_v356 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v300 main_v356 main_v357 (addf : (⟨S2048x96, .f32⟩ : BufTy).Contents (Elt F) → (⟨S2048x96, .f32⟩ : BufTy).Contents (Elt F) → (⟨S2048x96, .f32⟩ : BufTy).Contents (Elt F)),
    unary main_arg13 main_v358 ((extractStridedSlice S1x96 ![5, 0] · slices_S10x96_S1x96_5_0) : (⟨S10x96, .f32⟩ : BufTy).Contents (Elt F) → (⟨S1x96, .f32⟩ : BufTy).Contents (Elt F)),
    reshape main_v358 main_v359 rfl shapeCasts_S1x96_S96,
    unary main_v359 main_v360 (broadcastInDim S1x96 ![1] bcast_S96_S1x96_1 : (⟨S96, .f32⟩ : BufTy).Contents (Elt F) → (⟨S1x96, .f32⟩ : BufTy).Contents (Elt F)),
    unary main_v360 main_v361 (broadcastInDim S2048x96 ![0, 1] bcast_S1x96_S2048x96_0_1 : (⟨S1x96, .f32⟩ : BufTy).Contents (Elt F) → (⟨S2048x96, .f32⟩ : BufTy).Contents (Elt F)),
    binary main_v357 main_v361 main_v362 (addf : (⟨S2048x96, .f32⟩ : BufTy).Contents (Elt F) → (⟨S2048x96, .f32⟩ : BufTy).Contents (Elt F) → (⟨S2048x96, .f32⟩ : BufTy).Contents (Elt F)),
    unary main_arg10 main_v363 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v363 main_v364 rfl shapeCasts_S1x64x64_S64x64,
    unary main_v364 main_v365 ((transpose S64x64 [1, 0] · transposes_S64x64_S64x64_1_0) : (⟨S64x64, .f32⟩ : BufTy).Contents (Elt F) → (⟨S64x64, .f32⟩ : BufTy).Contents (Elt F)),
    binary main_v352 main_v365 main_v366 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v367 ((extractStridedSlice S1x64 ![5, 0] · slices_S10x64_S1x64_5_0) : (⟨S10x64, .f32⟩ : BufTy).Contents (Elt F) → (⟨S1x64, .f32⟩ : BufTy).Contents (Elt F)),
    reshape main_v367 main_v368 rfl shapeCasts_S1x64_S64,
    unary main_v368 main_v369 (broadcastInDim S1x64 ![1] bcast_S64_S1x64_1 : (⟨S64, .f32⟩ : BufTy).Contents (Elt F) → (⟨S1x64, .f32⟩ : BufTy).Contents (Elt F)),
    unary main_v369 main_v370 (broadcastInDim S2048x64 ![0, 1] bcast_S1x64_S2048x64_0_1 : (⟨S1x64, .f32⟩ : BufTy).Contents (Elt F) → (⟨S2048x64, .f32⟩ : BufTy).Contents (Elt F)),
    binary main_v366 main_v370 main_v371 (addf : (⟨S2048x64, .f32⟩ : BufTy).Contents (Elt F) → (⟨S2048x64, .f32⟩ : BufTy).Contents (Elt F) → (⟨S2048x64, .f32⟩ : BufTy).Contents (Elt F)),
    unary main_arg1 main_v372 ((extractStridedSlice S2048x64x31 ![0, 0, 32] · slices_S2048x64x1023_S2048x64x31_0_0_32) : (⟨S2048x64x1023, .f32⟩ : BufTy).Contents (Elt F) → (⟨S2048x64x31, .f32⟩ : BufTy).Contents (Elt F)),
    unary main_v314 main_v373 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_17 (constant S_ .f32 0x3E99999A#32),
    unary main_cst_17 main_v374 (broadcastInDim S2048x64 ![] bcast_S_S2048x64 : (⟨S_, .f32⟩ : BufTy).Contents (Elt F) → (⟨S2048x64, .f32⟩ : BufTy).Contents (Elt F)),
    binary main_v374 main_v371 main_v375 (mulf : (⟨S2048x64, .f32⟩ : BufTy).Contents (Elt F) → (⟨S2048x64, .f32⟩ : BufTy).Contents (Elt F) → (⟨S2048x64, .f32⟩ : BufTy).Contents (Elt F)),
    binary main_v314 main_v375 main_v376 (addf : (⟨S2048x64, .f32⟩ : BufTy).Contents (Elt F) → (⟨S2048x64, .f32⟩ : BufTy).Contents (Elt F) → (⟨S2048x64, .f32⟩ : BufTy).Contents (Elt F)),
    unary main_arg1 main_v377 ((extractStridedSlice S2048x64x1 ![0, 0, 63] · slices_S2048x64x1023_S2048x64x1_0_0_63) : (⟨S2048x64x1023, .f32⟩ : BufTy).Contents (Elt F) → (⟨S2048x64x1, .f32⟩ : BufTy).Contents (Elt F)),
    reshape main_v377 main_v378 rfl shapeCasts_S2048x64x1_S2048x64,
    unary main_arg4 main_v379 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v379 main_v380 rfl shapeCasts_S1x64x64_S64x64,
    unary main_v380 main_v381 ((transpose S64x64 [1, 0] · transposes_S64x64_S64x64_1_0) : (⟨S64x64, .f32⟩ : BufTy).Contents (Elt F) → (⟨S64x64, .f32⟩ : BufTy).Contents (Elt F)),
    binary main_v378 main_v381 main_v382 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v383 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v383 main_v384 rfl shapeCasts_S1x64x64_S64x64,
    unary main_v384 main_v385 ((transpose S64x64 [1, 0] · transposes_S64x64_S64x64_1_0) : (⟨S64x64, .f32⟩ : BufTy).Contents (Elt F) → (⟨S64x64, .f32⟩ : BufTy).Contents (Elt F)),
    binary main_v376 main_v385 main_v386 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v382 main_v386 main_v387 (addf : (⟨S2048x64, .f32⟩ : BufTy).Contents (Elt F) → (⟨S2048x64, .f32⟩ : BufTy).Contents (Elt F) → (⟨S2048x64, .f32⟩ : BufTy).Contents (Elt F)),
    unary main_arg6 main_v388 ((extractStridedSlice S1x64 ![6, 0] · slices_S10x64_S1x64_6_0) : (⟨S10x64, .f32⟩ : BufTy).Contents (Elt F) → (⟨S1x64, .f32⟩ : BufTy).Contents (Elt F)),
    reshape main_v388 main_v389 rfl shapeCasts_S1x64_S64,
    unary main_v389 main_v390 (broadcastInDim S1x64 ![1] bcast_S64_S1x64_1 : (⟨S64, .f32⟩ : BufTy).Contents (Elt F) → (⟨S1x64, .f32⟩ : BufTy).Contents (Elt F)),
    unary main_v390 main_v391 (broadcastInDim S2048x64 ![0, 1] bcast_S1x64_S2048x64_0_1 : (⟨S1x64, .f32⟩ : BufTy).Contents (Elt F) → (⟨S2048x64, .f32⟩ : BufTy).Contents (Elt F)),
    binary main_v387 main_v391 main_v392 (addf : (⟨S2048x64, .f32⟩ : BufTy).Contents (Elt F) → (⟨S2048x64, .f32⟩ : BufTy).Contents (Elt F) → (⟨S2048x64, .f32⟩ : BufTy).Contents (Elt F)),
    unary main_arg7 main_v393 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v393 main_v394 rfl shapeCasts_S1x64x64_S64x64,
    unary main_v394 main_v395 ((transpose S64x64 [1, 0] · transposes_S64x64_S64x64_1_0) : (⟨S64x64, .f32⟩ : BufTy).Contents (Elt F) → (⟨S64x64, .f32⟩ : BufTy).Contents (Elt F)),
    binary main_v378 main_v395 main_v396 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v397 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v397 main_v398 rfl shapeCasts_S1x64x64_S64x64,
    unary main_v398 main_v399 ((transpose S64x64 [1, 0] · transposes_S64x64_S64x64_1_0) : (⟨S64x64, .f32⟩ : BufTy).Contents (Elt F) → (⟨S64x64, .f32⟩ : BufTy).Contents (Elt F)),
    binary main_v376 main_v399 main_v400 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)) ]

set_option maxHeartbeats 4000000 in
theorem part6_eq (c : Dev nD) : main_part6 (F := F) c = seq part6 := rfl

end Cert.ReferenceIdeal.RefRun

end
-- ==== Proof.RefPart7.lean ====
/-
  Statements 421 … 480 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part7 : List (HloOp τ sig (Elt F)) :=
  [
    binary main_v396 main_v400 main_v401 (addf : (⟨S2048x64, .f32⟩ : BufTy).Contents (Elt F) → (⟨S2048x64, .f32⟩ : BufTy).Contents (Elt F) → (⟨S2048x64, .f32⟩ : BufTy).Contents (Elt F)),
    unary main_arg9 main_v402 ((extractStridedSlice S1x64 ![6, 0] · slices_S10x64_S1x64_6_0) : (⟨S10x64, .f32⟩ : BufTy).Contents (Elt F) → (⟨S1x64, .f32⟩ : BufTy).Contents (Elt F)),
    reshape main_v402 main_v403 rfl shapeCasts_S1x64_S64,
    unary main_v403 main_v404 (broadcastInDim S1x64 ![1] bcast_S64_S1x64_1 : (⟨S64, .f32⟩ : BufTy).Contents (Elt F) → (⟨S1x64, .f32⟩ : BufTy).Contents (Elt F)),
    unary main_v404 main_v405 (broadcastInDim S2048x64 ![0, 1] bcast_S1x64_S2048x64_0_1 : (⟨S1x64, .f32⟩ : BufTy).Contents (Elt F) → (⟨S2048x64, .f32⟩ : BufTy).Contents (Elt F)),
    binary main_v401 main_v405 main_v406 (addf : (⟨S2048x64, .f32⟩ : BufTy).Contents (Elt F) → (⟨S2048x64, .f32⟩ : BufTy).Contents (Elt F) → (⟨S2048x64, .f32⟩ : BufTy).Contents (Elt F)),
    unary main_v392 main_v407 (Host.tanh : (⟨S2048x64, .f32⟩ : BufTy).Contents (Elt F) → (⟨S2048x64, .f32⟩ : BufTy).Contents (Elt F)),
    unary main_v406 main_v408 (Host.negf : (⟨S2048x64, .f32⟩ : BufTy).Contents (Elt F) → (⟨S2048x64, .f32⟩ : BufTy).Contents (Elt F)),
    unary main_v408 main_v409 (Host.exp : (⟨S2048x64, .f32⟩ : BufTy).Contents (Elt F) → (⟨S2048x64, .f32⟩ : BufTy).Contents (Elt F)),
    nullary main_cst_18 (constant S_ .f32 0x3F800000#32),
    unary main_cst_18 main_v410 (broadcastInDim S2048x64 ![] bcast_S_S2048x64 : (⟨S_, .f32⟩ : BufTy).Contents (Elt F) → (⟨S2048x64, .f32⟩ : BufTy).Contents (Elt F)),
    binary main_v410 main_v409 main_v411 (addf : (⟨S2048x64, .f32⟩ : BufTy).Contents (Elt F) → (⟨S2048x64, .f32⟩ : BufTy).Contents (Elt F) → (⟨S2048x64, .f32⟩ : BufTy).Contents (Elt F)),
    nullary main_cst_19 (constant S_ .f32 0x3F800000#32),
    unary main_cst_19 main_v412 (broadcastInDim S2048x64 ![] bcast_S_S2048x64 : (⟨S_, .f32⟩ : BufTy).Contents (Elt F) → (⟨S2048x64, .f32⟩ : BufTy).Contents (Elt F)),
    binary main_v412 main_v411 main_v413 (Host.divf : (⟨S2048x64, .f32⟩ : BufTy).Contents (Elt F) → (⟨S2048x64, .f32⟩ : BufTy).Contents (Elt F) → (⟨S2048x64, .f32⟩ : BufTy).Contents (Elt F)),
    binary main_v407 main_v413 main_v414 (mulf : (⟨S2048x64, .f32⟩ : BufTy).Contents (Elt F) → (⟨S2048x64, .f32⟩ : BufTy).Contents (Elt F) → (⟨S2048x64, .f32⟩ : BufTy).Contents (Elt F)),
    unary main_arg12 main_v415 ((extractStridedSlice S1x96x64 ![6, 0, 0] · slices_S10x96x64_S1x96x64_6_0_0) : (⟨S10x96x64, .f32⟩ : BufTy).Contents (Elt F) → (⟨S1x96x64, .f32⟩ : BufTy).Contents (Elt F)),
    reshape main_v415 main_v416 rfl shapeCasts_S1x96x64_S96x64,
    unary main_v416 main_v417 ((transpose S64x96 [1, 0] · transposes_S96x64_S64x96_1_0) : (⟨S96x64, .f32⟩ : BufTy).Contents (Elt F) → (⟨S64x96, .f32⟩ : BufTy).Contents (Elt F)),
    binary main_v414 main_v417 main_v418 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v362 main_v418 main_v419 (addf : (⟨S2048x96, .f32⟩ : BufTy).Contents (Elt F) → (⟨S2048x96, .f32⟩ : BufTy).Contents (Elt F) → (⟨S2048x96, .f32⟩ : BufTy).Contents (Elt F)),
    unary main_arg13 main_v420 ((extractStridedSlice S1x96 ![6, 0] · slices_S10x96_S1x96_6_0) : (⟨S10x96, .f32⟩ : BufTy).Contents (Elt F) → (⟨S1x96, .f32⟩ : BufTy).Contents (Elt F)),
    reshape main_v420 main_v421 rfl shapeCasts_S1x96_S96,
    unary main_v421 main_v422 (broadcastInDim S1x96 ![1] bcast_S96_S1x96_1 : (⟨S96, .f32⟩ : BufTy).Contents (Elt F) → (⟨S1x96, .f32⟩ : BufTy).Contents (Elt F)),
    unary main_v422 main_v423 (broadcastInDim S2048x96 ![0, 1] bcast_S1x96_S2048x96_0_1 : (⟨S1x96, .f32⟩ : BufTy).Contents (Elt F) → (⟨S2048x96, .f32⟩ : BufTy).Contents (Elt F)),
    binary main_v419 main_v423 main_v424 (addf : (⟨S2048x96, .f32⟩ : BufTy).Contents (Elt F) → (⟨S2048x96, .f32⟩ : BufTy).Contents (Elt F) → (⟨S2048x96, .f32⟩ : BufTy).Contents (Elt F)),
    unary main_arg10 main_v425 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v425 main_v426 rfl shapeCasts_S1x64x64_S64x64,
    unary main_v426 main_v427 ((transpose S64x64 [1, 0] · transposes_S64x64_S64x64_1_0) : (⟨S64x64, .f32⟩ : BufTy).Contents (Elt F) → (⟨S64x64, .f32⟩ : BufTy).Contents (Elt F)),
    binary main_v414 main_v427 main_v428 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v429 ((extractStridedSlice S1x64 ![6, 0] · slices_S10x64_S1x64_6_0) : (⟨S10x64, .f32⟩ : BufTy).Contents (Elt F) → (⟨S1x64, .f32⟩ : BufTy).Contents (Elt F)),
    reshape main_v429 main_v430 rfl shapeCasts_S1x64_S64,
    unary main_v430 main_v431 (broadcastInDim S1x64 ![1] bcast_S64_S1x64_1 : (⟨S64, .f32⟩ : BufTy).Contents (Elt F) → (⟨S1x64, .f32⟩ : BufTy).Contents (Elt F)),
    unary main_v431 main_v432 (broadcastInDim S2048x64 ![0, 1] bcast_S1x64_S2048x64_0_1 : (⟨S1x64, .f32⟩ : BufTy).Contents (Elt F) → (⟨S2048x64, .f32⟩ : BufTy).Contents (Elt F)),
    binary main_v428 main_v432 main_v433 (addf : (⟨S2048x64, .f32⟩ : BufTy).Contents (Elt F) → (⟨S2048x64, .f32⟩ : BufTy).Contents (Elt F) → (⟨S2048x64, .f32⟩ : BufTy).Contents (Elt F)),
    unary main_arg1 main_v434 ((extractStridedSlice S2048x64x63 ![0, 0, 64] · slices_S2048x64x1023_S2048x64x63_0_0_64) : (⟨S2048x64x1023, .f32⟩ : BufTy).Contents (Elt F) → (⟨S2048x64x63, .f32⟩ : BufTy).Contents (Elt F)),
    unary main_v376 main_v435 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_20 (constant S_ .f32 0x3E99999A#32),
    unary main_cst_20 main_v436 (broadcastInDim S2048x64 ![] bcast_S_S2048x64 : (⟨S_, .f32⟩ : BufTy).Contents (Elt F) → (⟨S2048x64, .f32⟩ : BufTy).Contents (Elt F)),
    binary main_v436 main_v433 main_v437 (mulf : (⟨S2048x64, .f32⟩ : BufTy).Contents (Elt F) → (⟨S2048x64, .f32⟩ : BufTy).Contents (Elt F) → (⟨S2048x64, .f32⟩ : BufTy).Contents (Elt F)),
    binary main_v376 main_v437 main_v438 (addf : (⟨S2048x64, .f32⟩ : BufTy).Contents (Elt F) → (⟨S2048x64, .f32⟩ : BufTy).Contents (Elt F) → (⟨S2048x64, .f32⟩ : BufTy).Contents (Elt F)),
    unary main_arg1 main_v439 ((extractStridedSlice S2048x64x1 ![0, 0, 127] · slices_S2048x64x1023_S2048x64x1_0_0_127) : (⟨S2048x64x1023, .f32⟩ : BufTy).Contents (Elt F) → (⟨S2048x64x1, .f32⟩ : BufTy).Contents (Elt F)),
    reshape main_v439 main_v440 rfl shapeCasts_S2048x64x1_S2048x64,
    unary main_arg4 main_v441 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v441 main_v442 rfl shapeCasts_S1x64x64_S64x64,
    unary main_v442 main_v443 ((transpose S64x64 [1, 0] · transposes_S64x64_S64x64_1_0) : (⟨S64x64, .f32⟩ : BufTy).Contents (Elt F) → (⟨S64x64, .f32⟩ : BufTy).Contents (Elt F)),
    binary main_v440 main_v443 main_v444 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v445 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v445 main_v446 rfl shapeCasts_S1x64x64_S64x64,
    unary main_v446 main_v447 ((transpose S64x64 [1, 0] · transposes_S64x64_S64x64_1_0) : (⟨S64x64, .f32⟩ : BufTy).Contents (Elt F) → (⟨S64x64, .f32⟩ : BufTy).Contents (Elt F)),
    binary main_v438 main_v447 main_v448 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v444 main_v448 main_v449 (addf : (⟨S2048x64, .f32⟩ : BufTy).Contents (Elt F) → (⟨S2048x64, .f32⟩ : BufTy).Contents (Elt F) → (⟨S2048x64, .f32⟩ : BufTy).Contents (Elt F)),
    unary main_arg6 main_v450 ((extractStridedSlice S1x64 ![7, 0] · slices_S10x64_S1x64_7_0) : (⟨S10x64, .f32⟩ : BufTy).Contents (Elt F) → (⟨S1x64, .f32⟩ : BufTy).Contents (Elt F)),
    reshape main_v450 main_v451 rfl shapeCasts_S1x64_S64,
    unary main_v451 main_v452 (broadcastInDim S1x64 ![1] bcast_S64_S1x64_1 : (⟨S64, .f32⟩ : BufTy).Contents (Elt F) → (⟨S1x64, .f32⟩ : BufTy).Contents (Elt F)),
    unary main_v452 main_v453 (broadcastInDim S2048x64 ![0, 1] bcast_S1x64_S2048x64_0_1 : (⟨S1x64, .f32⟩ : BufTy).Contents (Elt F) → (⟨S2048x64, .f32⟩ : BufTy).Contents (Elt F)),
    binary main_v449 main_v453 main_v454 (addf : (⟨S2048x64, .f32⟩ : BufTy).Contents (Elt F) → (⟨S2048x64, .f32⟩ : BufTy).Contents (Elt F) → (⟨S2048x64, .f32⟩ : BufTy).Contents (Elt F)),
    unary main_arg7 main_v455 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v455 main_v456 rfl shapeCasts_S1x64x64_S64x64,
    unary main_v456 main_v457 ((transpose S64x64 [1, 0] · transposes_S64x64_S64x64_1_0) : (⟨S64x64, .f32⟩ : BufTy).Contents (Elt F) → (⟨S64x64, .f32⟩ : BufTy).Contents (Elt F)) ]

set_option maxHeartbeats 4000000 in
theorem part7_eq (c : Dev nD) : main_part7 (F := F) c = seq part7 := rfl

end Cert.ReferenceIdeal.RefRun

end
-- ==== Proof.RefPart8.lean ====
/-
  Statements 481 … 540 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part8 : List (HloOp τ sig (Elt F)) :=
  [
    binary main_v440 main_v457 main_v458 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v459 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v459 main_v460 rfl shapeCasts_S1x64x64_S64x64,
    unary main_v460 main_v461 ((transpose S64x64 [1, 0] · transposes_S64x64_S64x64_1_0) : (⟨S64x64, .f32⟩ : BufTy).Contents (Elt F) → (⟨S64x64, .f32⟩ : BufTy).Contents (Elt F)),
    binary main_v438 main_v461 main_v462 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v458 main_v462 main_v463 (addf : (⟨S2048x64, .f32⟩ : BufTy).Contents (Elt F) → (⟨S2048x64, .f32⟩ : BufTy).Contents (Elt F) → (⟨S2048x64, .f32⟩ : BufTy).Contents (Elt F)),
    unary main_arg9 main_v464 ((extractStridedSlice S1x64 ![7, 0] · slices_S10x64_S1x64_7_0) : (⟨S10x64, .f32⟩ : BufTy).Contents (Elt F) → (⟨S1x64, .f32⟩ : BufTy).Contents (Elt F)),
    reshape main_v464 main_v465 rfl shapeCasts_S1x64_S64,
    unary main_v465 main_v466 (broadcastInDim S1x64 ![1] bcast_S64_S1x64_1 : (⟨S64, .f32⟩ : BufTy).Contents (Elt F) → (⟨S1x64, .f32⟩ : BufTy).Contents (Elt F)),
    unary main_v466 main_v467 (broadcastInDim S2048x64 ![0, 1] bcast_S1x64_S2048x64_0_1 : (⟨S1x64, .f32⟩ : BufTy).Contents (Elt F) → (⟨S2048x64, .f32⟩ : BufTy).Contents (Elt F)),
    binary main_v463 main_v467 main_v468 (addf : (⟨S2048x64, .f32⟩ : BufTy).Contents (Elt F) → (⟨S2048x64, .f32⟩ : BufTy).Contents (Elt F) → (⟨S2048x64, .f32⟩ : BufTy).Contents (Elt F)),
    unary main_v454 main_v469 (Host.tanh : (⟨S2048x64, .f32⟩ : BufTy).Contents (Elt F) → (⟨S2048x64, .f32⟩ : BufTy).Contents (Elt F)),
    unary main_v468 main_v470 (Host.negf : (⟨S2048x64, .f32⟩ : BufTy).Contents (Elt F) → (⟨S2048x64, .f32⟩ : BufTy).Contents (Elt F)),
    unary main_v470 main_v471 (Host.exp : (⟨S2048x64, .f32⟩ : BufTy).Contents (Elt F) → (⟨S2048x64, .f32⟩ : BufTy).Contents (Elt F)),
    nullary main_cst_21 (constant S_ .f32 0x3F800000#32),
    unary main_cst_21 main_v472 (broadcastInDim S2048x64 ![] bcast_S_S2048x64 : (⟨S_, .f32⟩ : BufTy).Contents (Elt F) → (⟨S2048x64, .f32⟩ : BufTy).Contents (Elt F)),
    binary main_v472 main_v471 main_v473 (addf : (⟨S2048x64, .f32⟩ : BufTy).Contents (Elt F) → (⟨S2048x64, .f32⟩ : BufTy).Contents (Elt F) → (⟨S2048x64, .f32⟩ : BufTy).Contents (Elt F)),
    nullary main_cst_22 (constant S_ .f32 0x3F800000#32),
    unary main_cst_22 main_v474 (broadcastInDim S2048x64 ![] bcast_S_S2048x64 : (⟨S_, .f32⟩ : BufTy).Contents (Elt F) → (⟨S2048x64, .f32⟩ : BufTy).Contents (Elt F)),
    binary main_v474 main_v473 main_v475 (Host.divf : (⟨S2048x64, .f32⟩ : BufTy).Contents (Elt F) → (⟨S2048x64, .f32⟩ : BufTy).Contents (Elt F) → (⟨S2048x64, .f32⟩ : BufTy).Contents (Elt F)),
    binary main_v469 main_v475 main_v476 (mulf : (⟨S2048x64, .f32⟩ : BufTy).Contents (Elt F) → (⟨S2048x64, .f32⟩ : BufTy).Contents (Elt F) → (⟨S2048x64, .f32⟩ : BufTy).Contents (Elt F)),
    unary main_arg12 main_v477 ((extractStridedSlice S1x96x64 ![7, 0, 0] · slices_S10x96x64_S1x96x64_7_0_0) : (⟨S10x96x64, .f32⟩ : BufTy).Contents (Elt F) → (⟨S1x96x64, .f32⟩ : BufTy).Contents (Elt F)),
    reshape main_v477 main_v478 rfl shapeCasts_S1x96x64_S96x64,
    unary main_v478 main_v479 ((transpose S64x96 [1, 0] · transposes_S96x64_S64x96_1_0) : (⟨S96x64, .f32⟩ : BufTy).Contents (Elt F) → (⟨S64x96, .f32⟩ : BufTy).Contents (Elt F)),
    binary main_v476 main_v479 main_v480 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v424 main_v480 main_v481 (addf : (⟨S2048x96, .f32⟩ : BufTy).Contents (Elt F) → (⟨S2048x96, .f32⟩ : BufTy).Contents (Elt F) → (⟨S2048x96, .f32⟩ : BufTy).Contents (Elt F)),
    unary main_arg13 main_v482 ((extractStridedSlice S1x96 ![7, 0] · slices_S10x96_S1x96_7_0) : (⟨S10x96, .f32⟩ : BufTy).Contents (Elt F) → (⟨S1x96, .f32⟩ : BufTy).Contents (Elt F)),
    reshape main_v482 main_v483 rfl shapeCasts_S1x96_S96,
    unary main_v483 main_v484 (broadcastInDim S1x96 ![1] bcast_S96_S1x96_1 : (⟨S96, .f32⟩ : BufTy).Contents (Elt F) → (⟨S1x96, .f32⟩ : BufTy).Contents (Elt F)),
    unary main_v484 main_v485 (broadcastInDim S2048x96 ![0, 1] bcast_S1x96_S2048x96_0_1 : (⟨S1x96, .f32⟩ : BufTy).Contents (Elt F) → (⟨S2048x96, .f32⟩ : BufTy).Contents (Elt F)),
    binary main_v481 main_v485 main_v486 (addf : (⟨S2048x96, .f32⟩ : BufTy).Contents (Elt F) → (⟨S2048x96, .f32⟩ : BufTy).Contents (Elt F) → (⟨S2048x96, .f32⟩ : BufTy).Contents (Elt F)),
    unary main_arg10 main_v487 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v487 main_v488 rfl shapeCasts_S1x64x64_S64x64,
    unary main_v488 main_v489 ((transpose S64x64 [1, 0] · transposes_S64x64_S64x64_1_0) : (⟨S64x64, .f32⟩ : BufTy).Contents (Elt F) → (⟨S64x64, .f32⟩ : BufTy).Contents (Elt F)),
    binary main_v476 main_v489 main_v490 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v491 ((extractStridedSlice S1x64 ![7, 0] · slices_S10x64_S1x64_7_0) : (⟨S10x64, .f32⟩ : BufTy).Contents (Elt F) → (⟨S1x64, .f32⟩ : BufTy).Contents (Elt F)),
    reshape main_v491 main_v492 rfl shapeCasts_S1x64_S64,
    unary main_v492 main_v493 (broadcastInDim S1x64 ![1] bcast_S64_S1x64_1 : (⟨S64, .f32⟩ : BufTy).Contents (Elt F) → (⟨S1x64, .f32⟩ : BufTy).Contents (Elt F)),
    unary main_v493 main_v494 (broadcastInDim S2048x64 ![0, 1] bcast_S1x64_S2048x64_0_1 : (⟨S1x64, .f32⟩ : BufTy).Contents (Elt F) → (⟨S2048x64, .f32⟩ : BufTy).Contents (Elt F)),
    binary main_v490 main_v494 main_v495 (addf : (⟨S2048x64, .f32⟩ : BufTy).Contents (Elt F) → (⟨S2048x64, .f32⟩ : BufTy).Contents (Elt F) → (⟨S2048x64, .f32⟩ : BufTy).Contents (Elt F)),
    unary main_arg1 main_v496 ((extractStridedSlice S2048x64x127 ![0, 0, 128] · slices_S2048x64x1023_S2048x64x127_0_0_128) : (⟨S2048x64x1023, .f32⟩ : BufTy).Contents (Elt F) → (⟨S2048x64x127, .f32⟩ : BufTy).Contents (Elt F)),
    unary main_v438 main_v497 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_23 (constant S_ .f32 0x3E99999A#32),
    unary main_cst_23 main_v498 (broadcastInDim S2048x64 ![] bcast_S_S2048x64 : (⟨S_, .f32⟩ : BufTy).Contents (Elt F) → (⟨S2048x64, .f32⟩ : BufTy).Contents (Elt F)),
    binary main_v498 main_v495 main_v499 (mulf : (⟨S2048x64, .f32⟩ : BufTy).Contents (Elt F) → (⟨S2048x64, .f32⟩ : BufTy).Contents (Elt F) → (⟨S2048x64, .f32⟩ : BufTy).Contents (Elt F)),
    binary main_v438 main_v499 main_v500 (addf : (⟨S2048x64, .f32⟩ : BufTy).Contents (Elt F) → (⟨S2048x64, .f32⟩ : BufTy).Contents (Elt F) → (⟨S2048x64, .f32⟩ : BufTy).Contents (Elt F)),
    unary main_arg1 main_v501 ((extractStridedSlice S2048x64x1 ![0, 0, 255] · slices_S2048x64x1023_S2048x64x1_0_0_255) : (⟨S2048x64x1023, .f32⟩ : BufTy).Contents (Elt F) → (⟨S2048x64x1, .f32⟩ : BufTy).Contents (Elt F)),
    reshape main_v501 main_v502 rfl shapeCasts_S2048x64x1_S2048x64,
    unary main_arg4 main_v503 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v503 main_v504 rfl shapeCasts_S1x64x64_S64x64,
    unary main_v504 main_v505 ((transpose S64x64 [1, 0] · transposes_S64x64_S64x64_1_0) : (⟨S64x64, .f32⟩ : BufTy).Contents (Elt F) → (⟨S64x64, .f32⟩ : BufTy).Contents (Elt F)),
    binary main_v502 main_v505 main_v506 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v507 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v507 main_v508 rfl shapeCasts_S1x64x64_S64x64,
    unary main_v508 main_v509 ((transpose S64x64 [1, 0] · transposes_S64x64_S64x64_1_0) : (⟨S64x64, .f32⟩ : BufTy).Contents (Elt F) → (⟨S64x64, .f32⟩ : BufTy).Contents (Elt F)),
    binary main_v500 main_v509 main_v510 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v506 main_v510 main_v511 (addf : (⟨S2048x64, .f32⟩ : BufTy).Contents (Elt F) → (⟨S2048x64, .f32⟩ : BufTy).Contents (Elt F) → (⟨S2048x64, .f32⟩ : BufTy).Contents (Elt F)),
    unary main_arg6 main_v512 ((extractStridedSlice S1x64 ![8, 0] · slices_S10x64_S1x64_8_0) : (⟨S10x64, .f32⟩ : BufTy).Contents (Elt F) → (⟨S1x64, .f32⟩ : BufTy).Contents (Elt F)),
    reshape main_v512 main_v513 rfl shapeCasts_S1x64_S64,
    unary main_v513 main_v514 (broadcastInDim S1x64 ![1] bcast_S64_S1x64_1 : (⟨S64, .f32⟩ : BufTy).Contents (Elt F) → (⟨S1x64, .f32⟩ : BufTy).Contents (Elt F)) ]

set_option maxHeartbeats 4000000 in
theorem part8_eq (c : Dev nD) : main_part8 (F := F) c = seq part8 := rfl

end Cert.ReferenceIdeal.RefRun

end
-- ==== Proof.RefPart9.lean ====
/-
  Statements 541 … 600 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part9 : List (HloOp τ sig (Elt F)) :=
  [
    unary main_v514 main_v515 (broadcastInDim S2048x64 ![0, 1] bcast_S1x64_S2048x64_0_1 : (⟨S1x64, .f32⟩ : BufTy).Contents (Elt F) → (⟨S2048x64, .f32⟩ : BufTy).Contents (Elt F)),
    binary main_v511 main_v515 main_v516 (addf : (⟨S2048x64, .f32⟩ : BufTy).Contents (Elt F) → (⟨S2048x64, .f32⟩ : BufTy).Contents (Elt F) → (⟨S2048x64, .f32⟩ : BufTy).Contents (Elt F)),
    unary main_arg7 main_v517 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v517 main_v518 rfl shapeCasts_S1x64x64_S64x64,
    unary main_v518 main_v519 ((transpose S64x64 [1, 0] · transposes_S64x64_S64x64_1_0) : (⟨S64x64, .f32⟩ : BufTy).Contents (Elt F) → (⟨S64x64, .f32⟩ : BufTy).Contents (Elt F)),
    binary main_v502 main_v519 main_v520 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v521 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v521 main_v522 rfl shapeCasts_S1x64x64_S64x64,
    unary main_v522 main_v523 ((transpose S64x64 [1, 0] · transposes_S64x64_S64x64_1_0) : (⟨S64x64, .f32⟩ : BufTy).Contents (Elt F) → (⟨S64x64, .f32⟩ : BufTy).Contents (Elt F)),
    binary main_v500 main_v523 main_v524 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v520 main_v524 main_v525 (addf : (⟨S2048x64, .f32⟩ : BufTy).Contents (Elt F) → (⟨S2048x64, .f32⟩ : BufTy).Contents (Elt F) → (⟨S2048x64, .f32⟩ : BufTy).Contents (Elt F)),
    unary main_arg9 main_v526 ((extractStridedSlice S1x64 ![8, 0] · slices_S10x64_S1x64_8_0) : (⟨S10x64, .f32⟩ : BufTy).Contents (Elt F) → (⟨S1x64, .f32⟩ : BufTy).Contents (Elt F)),
    reshape main_v526 main_v527 rfl shapeCasts_S1x64_S64,
    unary main_v527 main_v528 (broadcastInDim S1x64 ![1] bcast_S64_S1x64_1 : (⟨S64, .f32⟩ : BufTy).Contents (Elt F) → (⟨S1x64, .f32⟩ : BufTy).Contents (Elt F)),
    unary main_v528 main_v529 (broadcastInDim S2048x64 ![0, 1] bcast_S1x64_S2048x64_0_1 : (⟨S1x64, .f32⟩ : BufTy).Contents (Elt F) → (⟨S2048x64, .f32⟩ : BufTy).Contents (Elt F)),
    binary main_v525 main_v529 main_v530 (addf : (⟨S2048x64, .f32⟩ : BufTy).Contents (Elt F) → (⟨S2048x64, .f32⟩ : BufTy).Contents (Elt F) → (⟨S2048x64, .f32⟩ : BufTy).Contents (Elt F)),
    unary main_v516 main_v531 (Host.tanh : (⟨S2048x64, .f32⟩ : BufTy).Contents (Elt F) → (⟨S2048x64, .f32⟩ : BufTy).Contents (Elt F)),
    unary main_v530 main_v532 (Host.negf : (⟨S2048x64, .f32⟩ : BufTy).Contents (Elt F) → (⟨S2048x64, .f32⟩ : BufTy).Contents (Elt F)),
    unary main_v532 main_v533 (Host.exp : (⟨S2048x64, .f32⟩ : BufTy).Contents (Elt F) → (⟨S2048x64, .f32⟩ : BufTy).Contents (Elt F)),
    nullary main_cst_24 (constant S_ .f32 0x3F800000#32),
    unary main_cst_24 main_v534 (broadcastInDim S2048x64 ![] bcast_S_S2048x64 : (⟨S_, .f32⟩ : BufTy).Contents (Elt F) → (⟨S2048x64, .f32⟩ : BufTy).Contents (Elt F)),
    binary main_v534 main_v533 main_v535 (addf : (⟨S2048x64, .f32⟩ : BufTy).Contents (Elt F) → (⟨S2048x64, .f32⟩ : BufTy).Contents (Elt F) → (⟨S2048x64, .f32⟩ : BufTy).Contents (Elt F)),
    nullary main_cst_25 (constant S_ .f32 0x3F800000#32),
    unary main_cst_25 main_v536 (broadcastInDim S2048x64 ![] bcast_S_S2048x64 : (⟨S_, .f32⟩ : BufTy).Contents (Elt F) → (⟨S2048x64, .f32⟩ : BufTy).Contents (Elt F)),
    binary main_v536 main_v535 main_v537 (Host.divf : (⟨S2048x64, .f32⟩ : BufTy).Contents (Elt F) → (⟨S2048x64, .f32⟩ : BufTy).Contents (Elt F) → (⟨S2048x64, .f32⟩ : BufTy).Contents (Elt F)),
    binary main_v531 main_v537 main_v538 (mulf : (⟨S2048x64, .f32⟩ : BufTy).Contents (Elt F) → (⟨S2048x64, .f32⟩ : BufTy).Contents (Elt F) → (⟨S2048x64, .f32⟩ : BufTy).Contents (Elt F)),
    unary main_arg12 main_v539 ((extractStridedSlice S1x96x64 ![8, 0, 0] · slices_S10x96x64_S1x96x64_8_0_0) : (⟨S10x96x64, .f32⟩ : BufTy).Contents (Elt F) → (⟨S1x96x64, .f32⟩ : BufTy).Contents (Elt F)),
    reshape main_v539 main_v540 rfl shapeCasts_S1x96x64_S96x64,
    unary main_v540 main_v541 ((transpose S64x96 [1, 0] · transposes_S96x64_S64x96_1_0) : (⟨S96x64, .f32⟩ : BufTy).Contents (Elt F) → (⟨S64x96, .f32⟩ : BufTy).Contents (Elt F)),
    binary main_v538 main_v541 main_v542 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v486 main_v542 main_v543 (addf : (⟨S2048x96, .f32⟩ : BufTy).Contents (Elt F) → (⟨S2048x96, .f32⟩ : BufTy).Contents (Elt F) → (⟨S2048x96, .f32⟩ : BufTy).Contents (Elt F)),
    unary main_arg13 main_v544 ((extractStridedSlice S1x96 ![8, 0] · slices_S10x96_S1x96_8_0) : (⟨S10x96, .f32⟩ : BufTy).Contents (Elt F) → (⟨S1x96, .f32⟩ : BufTy).Contents (Elt F)),
    reshape main_v544 main_v545 rfl shapeCasts_S1x96_S96,
    unary main_v545 main_v546 (broadcastInDim S1x96 ![1] bcast_S96_S1x96_1 : (⟨S96, .f32⟩ : BufTy).Contents (Elt F) → (⟨S1x96, .f32⟩ : BufTy).Contents (Elt F)),
    unary main_v546 main_v547 (broadcastInDim S2048x96 ![0, 1] bcast_S1x96_S2048x96_0_1 : (⟨S1x96, .f32⟩ : BufTy).Contents (Elt F) → (⟨S2048x96, .f32⟩ : BufTy).Contents (Elt F)),
    binary main_v543 main_v547 main_v548 (addf : (⟨S2048x96, .f32⟩ : BufTy).Contents (Elt F) → (⟨S2048x96, .f32⟩ : BufTy).Contents (Elt F) → (⟨S2048x96, .f32⟩ : BufTy).Contents (Elt F)),
    unary main_arg10 main_v549 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v549 main_v550 rfl shapeCasts_S1x64x64_S64x64,
    unary main_v550 main_v551 ((transpose S64x64 [1, 0] · transposes_S64x64_S64x64_1_0) : (⟨S64x64, .f32⟩ : BufTy).Contents (Elt F) → (⟨S64x64, .f32⟩ : BufTy).Contents (Elt F)),
    binary main_v538 main_v551 main_v552 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v553 ((extractStridedSlice S1x64 ![8, 0] · slices_S10x64_S1x64_8_0) : (⟨S10x64, .f32⟩ : BufTy).Contents (Elt F) → (⟨S1x64, .f32⟩ : BufTy).Contents (Elt F)),
    reshape main_v553 main_v554 rfl shapeCasts_S1x64_S64,
    unary main_v554 main_v555 (broadcastInDim S1x64 ![1] bcast_S64_S1x64_1 : (⟨S64, .f32⟩ : BufTy).Contents (Elt F) → (⟨S1x64, .f32⟩ : BufTy).Contents (Elt F)),
    unary main_v555 main_v556 (broadcastInDim S2048x64 ![0, 1] bcast_S1x64_S2048x64_0_1 : (⟨S1x64, .f32⟩ : BufTy).Contents (Elt F) → (⟨S2048x64, .f32⟩ : BufTy).Contents (Elt F)),
    binary main_v552 main_v556 main_v557 (addf : (⟨S2048x64, .f32⟩ : BufTy).Contents (Elt F) → (⟨S2048x64, .f32⟩ : BufTy).Contents (Elt F) → (⟨S2048x64, .f32⟩ : BufTy).Contents (Elt F)),
    unary main_arg1 main_v558 ((extractStridedSlice S2048x64x255 ![0, 0, 256] · slices_S2048x64x1023_S2048x64x255_0_0_256) : (⟨S2048x64x1023, .f32⟩ : BufTy).Contents (Elt F) → (⟨S2048x64x255, .f32⟩ : BufTy).Contents (Elt F)),
    unary main_v500 main_v559 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_26 (constant S_ .f32 0x3E99999A#32),
    unary main_cst_26 main_v560 (broadcastInDim S2048x64 ![] bcast_S_S2048x64 : (⟨S_, .f32⟩ : BufTy).Contents (Elt F) → (⟨S2048x64, .f32⟩ : BufTy).Contents (Elt F)),
    binary main_v560 main_v557 main_v561 (mulf : (⟨S2048x64, .f32⟩ : BufTy).Contents (Elt F) → (⟨S2048x64, .f32⟩ : BufTy).Contents (Elt F) → (⟨S2048x64, .f32⟩ : BufTy).Contents (Elt F)),
    binary main_v500 main_v561 main_v562 (addf : (⟨S2048x64, .f32⟩ : BufTy).Contents (Elt F) → (⟨S2048x64, .f32⟩ : BufTy).Contents (Elt F) → (⟨S2048x64, .f32⟩ : BufTy).Contents (Elt F)),
    unary main_arg1 main_v563 ((extractStridedSlice S2048x64x1 ![0, 0, 511] · slices_S2048x64x1023_S2048x64x1_0_0_511) : (⟨S2048x64x1023, .f32⟩ : BufTy).Contents (Elt F) → (⟨S2048x64x1, .f32⟩ : BufTy).Contents (Elt F)),
    reshape main_v563 main_v564 rfl shapeCasts_S2048x64x1_S2048x64,
    unary main_arg4 main_v565 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v565 main_v566 rfl shapeCasts_S1x64x64_S64x64,
    unary main_v566 main_v567 ((transpose S64x64 [1, 0] · transposes_S64x64_S64x64_1_0) : (⟨S64x64, .f32⟩ : BufTy).Contents (Elt F) → (⟨S64x64, .f32⟩ : BufTy).Contents (Elt F)),
    binary main_v564 main_v567 main_v568 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v569 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v569 main_v570 rfl shapeCasts_S1x64x64_S64x64,
    unary main_v570 main_v571 ((transpose S64x64 [1, 0] · transposes_S64x64_S64x64_1_0) : (⟨S64x64, .f32⟩ : BufTy).Contents (Elt F) → (⟨S64x64, .f32⟩ : BufTy).Contents (Elt F)) ]

set_option maxHeartbeats 4000000 in
theorem part9_eq (c : Dev nD) : main_part9 (F := F) c = seq part9 := rfl

end Cert.ReferenceIdeal.RefRun

end
-- ==== Proof.RefPart10.lean ====
/-
  Statements 601 … 660 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part10 : List (HloOp τ sig (Elt F)) :=
  [
    binary main_v562 main_v571 main_v572 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v568 main_v572 main_v573 (addf : (⟨S2048x64, .f32⟩ : BufTy).Contents (Elt F) → (⟨S2048x64, .f32⟩ : BufTy).Contents (Elt F) → (⟨S2048x64, .f32⟩ : BufTy).Contents (Elt F)),
    unary main_arg6 main_v574 ((extractStridedSlice S1x64 ![9, 0] · slices_S10x64_S1x64_9_0) : (⟨S10x64, .f32⟩ : BufTy).Contents (Elt F) → (⟨S1x64, .f32⟩ : BufTy).Contents (Elt F)),
    reshape main_v574 main_v575 rfl shapeCasts_S1x64_S64,
    unary main_v575 main_v576 (broadcastInDim S1x64 ![1] bcast_S64_S1x64_1 : (⟨S64, .f32⟩ : BufTy).Contents (Elt F) → (⟨S1x64, .f32⟩ : BufTy).Contents (Elt F)),
    unary main_v576 main_v577 (broadcastInDim S2048x64 ![0, 1] bcast_S1x64_S2048x64_0_1 : (⟨S1x64, .f32⟩ : BufTy).Contents (Elt F) → (⟨S2048x64, .f32⟩ : BufTy).Contents (Elt F)),
    binary main_v573 main_v577 main_v578 (addf : (⟨S2048x64, .f32⟩ : BufTy).Contents (Elt F) → (⟨S2048x64, .f32⟩ : BufTy).Contents (Elt F) → (⟨S2048x64, .f32⟩ : BufTy).Contents (Elt F)),
    unary main_arg7 main_v579 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v579 main_v580 rfl shapeCasts_S1x64x64_S64x64,
    unary main_v580 main_v581 ((transpose S64x64 [1, 0] · transposes_S64x64_S64x64_1_0) : (⟨S64x64, .f32⟩ : BufTy).Contents (Elt F) → (⟨S64x64, .f32⟩ : BufTy).Contents (Elt F)),
    binary main_v564 main_v581 main_v582 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v583 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v583 main_v584 rfl shapeCasts_S1x64x64_S64x64,
    unary main_v584 main_v585 ((transpose S64x64 [1, 0] · transposes_S64x64_S64x64_1_0) : (⟨S64x64, .f32⟩ : BufTy).Contents (Elt F) → (⟨S64x64, .f32⟩ : BufTy).Contents (Elt F)),
    binary main_v562 main_v585 main_v586 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v582 main_v586 main_v587 (addf : (⟨S2048x64, .f32⟩ : BufTy).Contents (Elt F) → (⟨S2048x64, .f32⟩ : BufTy).Contents (Elt F) → (⟨S2048x64, .f32⟩ : BufTy).Contents (Elt F)),
    unary main_arg9 main_v588 ((extractStridedSlice S1x64 ![9, 0] · slices_S10x64_S1x64_9_0) : (⟨S10x64, .f32⟩ : BufTy).Contents (Elt F) → (⟨S1x64, .f32⟩ : BufTy).Contents (Elt F)),
    reshape main_v588 main_v589 rfl shapeCasts_S1x64_S64,
    unary main_v589 main_v590 (broadcastInDim S1x64 ![1] bcast_S64_S1x64_1 : (⟨S64, .f32⟩ : BufTy).Contents (Elt F) → (⟨S1x64, .f32⟩ : BufTy).Contents (Elt F)),
    unary main_v590 main_v591 (broadcastInDim S2048x64 ![0, 1] bcast_S1x64_S2048x64_0_1 : (⟨S1x64, .f32⟩ : BufTy).Contents (Elt F) → (⟨S2048x64, .f32⟩ : BufTy).Contents (Elt F)),
    binary main_v587 main_v591 main_v592 (addf : (⟨S2048x64, .f32⟩ : BufTy).Contents (Elt F) → (⟨S2048x64, .f32⟩ : BufTy).Contents (Elt F) → (⟨S2048x64, .f32⟩ : BufTy).Contents (Elt F)),
    unary main_v578 main_v593 (Host.tanh : (⟨S2048x64, .f32⟩ : BufTy).Contents (Elt F) → (⟨S2048x64, .f32⟩ : BufTy).Contents (Elt F)),
    unary main_v592 main_v594 (Host.negf : (⟨S2048x64, .f32⟩ : BufTy).Contents (Elt F) → (⟨S2048x64, .f32⟩ : BufTy).Contents (Elt F)),
    unary main_v594 main_v595 (Host.exp : (⟨S2048x64, .f32⟩ : BufTy).Contents (Elt F) → (⟨S2048x64, .f32⟩ : BufTy).Contents (Elt F)),
    nullary main_cst_27 (constant S_ .f32 0x3F800000#32),
    unary main_cst_27 main_v596 (broadcastInDim S2048x64 ![] bcast_S_S2048x64 : (⟨S_, .f32⟩ : BufTy).Contents (Elt F) → (⟨S2048x64, .f32⟩ : BufTy).Contents (Elt F)),
    binary main_v596 main_v595 main_v597 (addf : (⟨S2048x64, .f32⟩ : BufTy).Contents (Elt F) → (⟨S2048x64, .f32⟩ : BufTy).Contents (Elt F) → (⟨S2048x64, .f32⟩ : BufTy).Contents (Elt F)),
    nullary main_cst_28 (constant S_ .f32 0x3F800000#32),
    unary main_cst_28 main_v598 (broadcastInDim S2048x64 ![] bcast_S_S2048x64 : (⟨S_, .f32⟩ : BufTy).Contents (Elt F) → (⟨S2048x64, .f32⟩ : BufTy).Contents (Elt F)),
    binary main_v598 main_v597 main_v599 (Host.divf : (⟨S2048x64, .f32⟩ : BufTy).Contents (Elt F) → (⟨S2048x64, .f32⟩ : BufTy).Contents (Elt F) → (⟨S2048x64, .f32⟩ : BufTy).Contents (Elt F)),
    binary main_v593 main_v599 main_v600 (mulf : (⟨S2048x64, .f32⟩ : BufTy).Contents (Elt F) → (⟨S2048x64, .f32⟩ : BufTy).Contents (Elt F) → (⟨S2048x64, .f32⟩ : BufTy).Contents (Elt F)),
    unary main_arg12 main_v601 ((extractStridedSlice S1x96x64 ![9, 0, 0] · slices_S10x96x64_S1x96x64_9_0_0) : (⟨S10x96x64, .f32⟩ : BufTy).Contents (Elt F) → (⟨S1x96x64, .f32⟩ : BufTy).Contents (Elt F)),
    reshape main_v601 main_v602 rfl shapeCasts_S1x96x64_S96x64,
    unary main_v602 main_v603 ((transpose S64x96 [1, 0] · transposes_S96x64_S64x96_1_0) : (⟨S96x64, .f32⟩ : BufTy).Contents (Elt F) → (⟨S64x96, .f32⟩ : BufTy).Contents (Elt F)),
    binary main_v600 main_v603 main_v604 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v548 main_v604 main_v605 (addf : (⟨S2048x96, .f32⟩ : BufTy).Contents (Elt F) → (⟨S2048x96, .f32⟩ : BufTy).Contents (Elt F) → (⟨S2048x96, .f32⟩ : BufTy).Contents (Elt F)),
    unary main_arg13 main_v606 ((extractStridedSlice S1x96 ![9, 0] · slices_S10x96_S1x96_9_0) : (⟨S10x96, .f32⟩ : BufTy).Contents (Elt F) → (⟨S1x96, .f32⟩ : BufTy).Contents (Elt F)),
    reshape main_v606 main_v607 rfl shapeCasts_S1x96_S96,
    unary main_v607 main_v608 (broadcastInDim S1x96 ![1] bcast_S96_S1x96_1 : (⟨S96, .f32⟩ : BufTy).Contents (Elt F) → (⟨S1x96, .f32⟩ : BufTy).Contents (Elt F)),
    unary main_v608 main_v609 (broadcastInDim S2048x96 ![0, 1] bcast_S1x96_S2048x96_0_1 : (⟨S1x96, .f32⟩ : BufTy).Contents (Elt F) → (⟨S2048x96, .f32⟩ : BufTy).Contents (Elt F)),
    binary main_v605 main_v609 main_v610 (addf : (⟨S2048x96, .f32⟩ : BufTy).Contents (Elt F) → (⟨S2048x96, .f32⟩ : BufTy).Contents (Elt F) → (⟨S2048x96, .f32⟩ : BufTy).Contents (Elt F)),
    unary main_arg10 main_v611 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v611 main_v612 rfl shapeCasts_S1x64x64_S64x64,
    unary main_v612 main_v613 ((transpose S64x64 [1, 0] · transposes_S64x64_S64x64_1_0) : (⟨S64x64, .f32⟩ : BufTy).Contents (Elt F) → (⟨S64x64, .f32⟩ : BufTy).Contents (Elt F)),
    binary main_v600 main_v613 main_v614 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v615 ((extractStridedSlice S1x64 ![9, 0] · slices_S10x64_S1x64_9_0) : (⟨S10x64, .f32⟩ : BufTy).Contents (Elt F) → (⟨S1x64, .f32⟩ : BufTy).Contents (Elt F)),
    reshape main_v615 main_v616 rfl shapeCasts_S1x64_S64,
    unary main_v616 main_v617 (broadcastInDim S1x64 ![1] bcast_S64_S1x64_1 : (⟨S64, .f32⟩ : BufTy).Contents (Elt F) → (⟨S1x64, .f32⟩ : BufTy).Contents (Elt F)),
    unary main_v617 main_v618 (broadcastInDim S2048x64 ![0, 1] bcast_S1x64_S2048x64_0_1 : (⟨S1x64, .f32⟩ : BufTy).Contents (Elt F) → (⟨S2048x64, .f32⟩ : BufTy).Contents (Elt F)),
    binary main_v614 main_v618 main_v619 (addf : (⟨S2048x64, .f32⟩ : BufTy).Contents (Elt F) → (⟨S2048x64, .f32⟩ : BufTy).Contents (Elt F) → (⟨S2048x64, .f32⟩ : BufTy).Contents (Elt F)),
    unary main_arg1 main_v620 ((extractStridedSlice S2048x64x511 ![0, 0, 512] · slices_S2048x64x1023_S2048x64x511_0_0_512) : (⟨S2048x64x1023, .f32⟩ : BufTy).Contents (Elt F) → (⟨S2048x64x511, .f32⟩ : BufTy).Contents (Elt F)),
    unary main_v562 main_v621 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_29 (constant S_ .f32 0x3E99999A#32),
    unary main_cst_29 main_v622 (broadcastInDim S2048x64 ![] bcast_S_S2048x64 : (⟨S_, .f32⟩ : BufTy).Contents (Elt F) → (⟨S2048x64, .f32⟩ : BufTy).Contents (Elt F)),
    binary main_v622 main_v619 main_v623 (mulf : (⟨S2048x64, .f32⟩ : BufTy).Contents (Elt F) → (⟨S2048x64, .f32⟩ : BufTy).Contents (Elt F) → (⟨S2048x64, .f32⟩ : BufTy).Contents (Elt F)),
    binary main_v562 main_v623 main_v624 (addf : (⟨S2048x64, .f32⟩ : BufTy).Contents (Elt F) → (⟨S2048x64, .f32⟩ : BufTy).Contents (Elt F) → (⟨S2048x64, .f32⟩ : BufTy).Contents (Elt F)),
    nary ![main_v63, main_v124, main_v125, main_v186, main_v187, main_v248, main_v249, main_v310, main_v311, main_v372, main_v373, main_v434, main_v435, main_v496, main_v497, main_v558] main_v625 (fun u => concatenate S2048x64x510 2 [⟨S2048x64x1, u 0⟩, ⟨S2048x64x1, u 1⟩, ⟨S2048x64x1, u 2⟩, ⟨S2048x64x3, u 3⟩, ⟨S2048x64x1, u 4⟩, ⟨S2048x64x7, u 5⟩, ⟨S2048x64x1, u 6⟩, ⟨S2048x64x15, u 7⟩, ⟨S2048x64x1, u 8⟩, ⟨S2048x64x31, u 9⟩, ⟨S2048x64x1, u 10⟩, ⟨S2048x64x63, u 11⟩, ⟨S2048x64x1, u 12⟩, ⟨S2048x64x127, u 13⟩, ⟨S2048x64x1, u 14⟩, ⟨S2048x64x255, u 15⟩] concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2),
    nary ![main_v559, main_v620, main_v621] main_v626 (fun u => concatenate S2048x64x513 2 [⟨S2048x64x1, u 0⟩, ⟨S2048x64x511, u 1⟩, ⟨S2048x64x1, u 2⟩] concatenates_S2048x64x1_S2048x64x511_S2048x64x1_S2048x64x513_d2),
    binary main_v625 main_v626 main_v627 ((fun a b => concatenate S2048x64x1023 2 [⟨S2048x64x510, a⟩, ⟨S2048x64x513, b⟩] concatenates_S2048x64x510_S2048x64x513_S2048x64x1023_d2) : (⟨S2048x64x510, .f32⟩ : BufTy).Contents (Elt F) → (⟨S2048x64x513, .f32⟩ : BufTy).Contents (Elt F) → (⟨S2048x64x1023, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S2048x96, .f32⟩) main_call0_v0) (broadcastInDim S2048x96 ![] bcast_S_S2048x96),
    TRef.binary (TRef.of (T := ⟨S2048x96, .f32⟩) main_v610) (TRef.of (T := ⟨S2048x96, .f32⟩) main_call0_v0) (TRef.of (T := ⟨S2048x96, .f32⟩) main_v628) maximumf ]

set_option maxHeartbeats 4000000 in
theorem part10_eq (c : Dev nD) : main_part10 (F := F) c = seq part10 := rfl

end Cert.ReferenceIdeal.RefRun

end
-- ==== Proof.RefPart11.lean ====
/-
  Statements 661 … 672 of the reference program as a list of host operations: running the list is running those statements.
-/
import proofs.«172806_j69252052680869_2_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The statements' operations, in order. -/
def part11 : List (HloOp τ sig (Elt F)) :=
  [
    unary main_arg14 main_v629 ((transpose S96x96 [1, 0] · transposes_S96x96_S96x96_1_0) : (⟨S96x96, .f32⟩ : BufTy).Contents (Elt F) → (⟨S96x96, .f32⟩ : BufTy).Contents (Elt F)),
    binary main_v628 main_v629 main_v630 ((fun l r => Host.dotGeneral dot_S2048x96_S96x96_S2048x96_1_0_0_1_n_n none l r) : (⟨S2048x96, .f32⟩ : BufTy).Contents (Elt F) → (⟨S96x96, .f32⟩ : BufTy).Contents (Elt F) → (⟨S2048x96, .f32⟩ : BufTy).Contents (Elt F)),
    unary main_arg15 main_v631 (broadcastInDim S1x96 ![1] bcast_S96_S1x96_1 : (⟨S96, .f32⟩ : BufTy).Contents (Elt F) → (⟨S1x96, .f32⟩ : BufTy).Contents (Elt F)),
    unary main_v631 main_v632 (broadcastInDim S2048x96 ![0, 1] bcast_S1x96_S2048x96_0_1 : (⟨S1x96, .f32⟩ : BufTy).Contents (Elt F) → (⟨S2048x96, .f32⟩ : BufTy).Contents (Elt F)),
    binary main_v630 main_v632 main_v633 (addf : (⟨S2048x96, .f32⟩ : BufTy).Contents (Elt F) → (⟨S2048x96, .f32⟩ : BufTy).Contents (Elt F) → (⟨S2048x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x96, .f32⟩) main_call1_v0) (broadcastInDim S2048x96 ![] bcast_S_S2048x96),
    TRef.binary (TRef.of (T := ⟨S2048x96, .f32⟩) main_v633) (TRef.of (T := ⟨S2048x96, .f32⟩) main_call1_v0) (TRef.of (T := ⟨S2048x96, .f32⟩) main_v634) maximumf,
    unary main_arg16 main_v635 ((transpose S96x2 [1, 0] · transposes_S2x96_S96x2_1_0) : (⟨S2x96, .f32⟩ : BufTy).Contents (Elt F) → (⟨S96x2, .f32⟩ : BufTy).Contents (Elt F)),
    binary main_v634 main_v635 main_v636 ((fun l r => Host.dotGeneral dot_S2048x96_S96x2_S2048x2_1_0_0_1_n_n none l r) : (⟨S2048x96, .f32⟩ : BufTy).Contents (Elt F) → (⟨S96x2, .f32⟩ : BufTy).Contents (Elt F) → (⟨S2048x2, .f32⟩ : BufTy).Contents (Elt F)),
    unary main_arg17 main_v637 (broadcastInDim S1x2 ![1] bcast_S2_S1x2_1 : (⟨S2, .f32⟩ : BufTy).Contents (Elt F) → (⟨S1x2, .f32⟩ : BufTy).Contents (Elt F)),
    unary main_v637 main_v638 (broadcastInDim S2048x2 ![0, 1] bcast_S1x2_S2048x2_0_1 : (⟨S1x2, .f32⟩ : BufTy).Contents (Elt F) → (⟨S2048x2, .f32⟩ : BufTy).Contents (Elt F)),
    binary main_v636 main_v638 main_v639 (addf : (⟨S2048x2, .f32⟩ : BufTy).Contents (Elt F) → (⟨S2048x2, .f32⟩ : BufTy).Contents (Elt F) → (⟨S2048x2, .f32⟩ : BufTy).Contents (Elt F)) ]

set_option maxHeartbeats 4000000 in
theorem part11_eq (c : Dev nD) : main_part11 (F := F) c = seq part11 := rfl

end Cert.ReferenceIdeal.RefRun

end
-- ==== Proof.RefWin0.lean ====
/-
  Layer 0 of the reference, as a line of host operations: from any contents of the buffers, the line leaves the next
  activation and skip sum at the layer's step of the ones it found, a copy of the activation it found laid out
  `[2048, 64, 1]` and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0's operations, in program order. -/
def win0 : List (HloOp τ sig (Elt F)) :=
  [
    unary main_arg1 main_v6 ((extractStridedSlice S2048x64x1 ![0, 0, 0] · slices_S2048x64x1023_S2048x64x1_0_0_0) : (⟨S2048x64x1023, .f32⟩ : BufTy).Contents (Elt F) → (⟨S2048x64x1, .f32⟩ : BufTy).Contents (Elt F)),
    reshape main_v6 main_v7 rfl shapeCasts_S2048x64x1_S2048x64,
    unary main_arg4 main_v8 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v8 main_v9 rfl shapeCasts_S1x64x64_S64x64,
    unary main_v9 main_v10 ((transpose S64x64 [1, 0] · transposes_S64x64_S64x64_1_0) : (⟨S64x64, .f32⟩ : BufTy).Contents (Elt F) → (⟨S64x64, .f32⟩ : BufTy).Contents (Elt F)),
    binary main_v7 main_v10 main_v11 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v12 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v12 main_v13 rfl shapeCasts_S1x64x64_S64x64,
    unary main_v13 main_v14 ((transpose S64x64 [1, 0] · transposes_S64x64_S64x64_1_0) : (⟨S64x64, .f32⟩ : BufTy).Contents (Elt F) → (⟨S64x64, .f32⟩ : BufTy).Contents (Elt F)),
    binary main_v4 main_v14 main_v15 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v11 main_v15 main_v16 (addf : (⟨S2048x64, .f32⟩ : BufTy).Contents (Elt F) → (⟨S2048x64, .f32⟩ : BufTy).Contents (Elt F) → (⟨S2048x64, .f32⟩ : BufTy).Contents (Elt F)),
    unary main_arg6 main_v17 ((extractStridedSlice S1x64 ![0, 0] · slices_S10x64_S1x64_0_0) : (⟨S10x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S2048x64 ![0, 1] bcast_S1x64_S2048x64_0_1 : (⟨S1x64, .f32⟩ : BufTy).Contents (Elt F) → (⟨S2048x64, .f32⟩ : BufTy).Contents (Elt F)),
    binary main_v16 main_v20 main_v21 (addf : (⟨S2048x64, .f32⟩ : BufTy).Contents (Elt F) → (⟨S2048x64, .f32⟩ : BufTy).Contents (Elt F) → (⟨S2048x64, .f32⟩ : BufTy).Contents (Elt F)),
    unary main_arg7 main_v22 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v22 main_v23 rfl shapeCasts_S1x64x64_S64x64,
    unary main_v23 main_v24 ((transpose S64x64 [1, 0] · transposes_S64x64_S64x64_1_0) : (⟨S64x64, .f32⟩ : BufTy).Contents (Elt F) → (⟨S64x64, .f32⟩ : BufTy).Contents (Elt F)),
    binary main_v7 main_v24 main_v25 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v26 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v26 main_v27 rfl shapeCasts_S1x64x64_S64x64,
    unary main_v27 main_v28 ((transpose S64x64 [1, 0] · transposes_S64x64_S64x64_1_0) : (⟨S64x64, .f32⟩ : BufTy).Contents (Elt F) → (⟨S64x64, .f32⟩ : BufTy).Contents (Elt F)),
    binary main_v4 main_v28 main_v29 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v25 main_v29 main_v30 (addf : (⟨S2048x64, .f32⟩ : BufTy).Contents (Elt F) → (⟨S2048x64, .f32⟩ : BufTy).Contents (Elt F) → (⟨S2048x64, .f32⟩ : BufTy).Contents (Elt F)),
    unary main_arg9 main_v31 ((extractStridedSlice S1x64 ![0, 0] · slices_S10x64_S1x64_0_0) : (⟨S10x64, .f32⟩ : BufTy).Contents (Elt F) → (⟨S1x64, .f32⟩ : BufTy).Contents (Elt F)),
    reshape main_v31 main_v32 rfl shapeCasts_S1x64_S64,
    unary main_v32 main_v33 (broadcastInDim S1x64 ![1] bcast_S64_S1x64_1 : (⟨S64, .f32⟩ : BufTy).Contents (Elt F) → (⟨S1x64, .f32⟩ : BufTy).Contents (Elt F)),
    unary main_v33 main_v34 (broadcastInDim S2048x64 ![0, 1] bcast_S1x64_S2048x64_0_1 : (⟨S1x64, .f32⟩ : BufTy).Contents (Elt F) → (⟨S2048x64, .f32⟩ : BufTy).Contents (Elt F)),
    binary main_v30 main_v34 main_v35 (addf : (⟨S2048x64, .f32⟩ : BufTy).Contents (Elt F) → (⟨S2048x64, .f32⟩ : BufTy).Contents (Elt F) → (⟨S2048x64, .f32⟩ : BufTy).Contents (Elt F)),
    unary main_v21 main_v36 (Host.tanh : (⟨S2048x64, .f32⟩ : BufTy).Contents (Elt F) → (⟨S2048x64, .f32⟩ : BufTy).Contents (Elt F)),
    unary main_v35 main_v37 (Host.negf : (⟨S2048x64, .f32⟩ : BufTy).Contents (Elt F) → (⟨S2048x64, .f32⟩ : BufTy).Contents (Elt F)),
    unary main_v37 main_v38 (Host.exp : (⟨S2048x64, .f32⟩ : BufTy).Contents (Elt F) → (⟨S2048x64, .f32⟩ : BufTy).Contents (Elt F)),
    nullary main_cst_0 (constant S_ .f32 0x3F800000#32),
    unary main_cst_0 main_v39 (broadcastInDim S2048x64 ![] bcast_S_S2048x64 : (⟨S_, .f32⟩ : BufTy).Contents (Elt F) → (⟨S2048x64, .f32⟩ : BufTy).Contents (Elt F)),
    binary main_v39 main_v38 main_v40 (addf : (⟨S2048x64, .f32⟩ : BufTy).Contents (Elt F) → (⟨S2048x64, .f32⟩ : BufTy).Contents (Elt F) → (⟨S2048x64, .f32⟩ : BufTy).Contents (Elt F)),
    nullary main_cst_1 (constant S_ .f32 0x3F800000#32),
    unary main_cst_1 main_v41 (broadcastInDim S2048x64 ![] bcast_S_S2048x64 : (⟨S_, .f32⟩ : BufTy).Contents (Elt F) → (⟨S2048x64, .f32⟩ : BufTy).Contents (Elt F)),
    binary main_v41 main_v40 main_v42 (Host.divf : (⟨S2048x64, .f32⟩ : BufTy).Contents (Elt F) → (⟨S2048x64, .f32⟩ : BufTy).Contents (Elt F) → (⟨S2048x64, .f32⟩ : BufTy).Contents (Elt F)),
    binary main_v36 main_v42 main_v43 (mulf : (⟨S2048x64, .f32⟩ : BufTy).Contents (Elt F) → (⟨S2048x64, .f32⟩ : BufTy).Contents (Elt F) → (⟨S2048x64, .f32⟩ : BufTy).Contents (Elt F)),
    unary main_arg12 main_v44 ((extractStridedSlice S1x96x64 ![0, 0, 0] · slices_S10x96x64_S1x96x64_0_0_0) : (⟨S10x96x64, .f32⟩ : BufTy).Contents (Elt F) → (⟨S1x96x64, .f32⟩ : BufTy).Contents (Elt F)),
    reshape main_v44 main_v45 rfl shapeCasts_S1x96x64_S96x64,
    unary main_v45 main_v46 ((transpose S64x96 [1, 0] · transposes_S96x64_S64x96_1_0) : (⟨S96x64, .f32⟩ : BufTy).Contents (Elt F) → (⟨S64x96, .f32⟩ : BufTy).Contents (Elt F)),
    binary main_v43 main_v46 main_v47 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v5 main_v47 main_v48 (addf : (⟨S2048x96, .f32⟩ : BufTy).Contents (Elt F) → (⟨S2048x96, .f32⟩ : BufTy).Contents (Elt F) → (⟨S2048x96, .f32⟩ : BufTy).Contents (Elt F)),
    unary main_arg13 main_v49 ((extractStridedSlice S1x96 ![0, 0] · slices_S10x96_S1x96_0_0) : (⟨S10x96, .f32⟩ : BufTy).Contents (Elt F) → (⟨S1x96, .f32⟩ : BufTy).Contents (Elt F)),
    reshape main_v49 main_v50 rfl shapeCasts_S1x96_S96,
    unary main_v50 main_v51 (broadcastInDim S1x96 ![1] bcast_S96_S1x96_1 : (⟨S96, .f32⟩ : BufTy).Contents (Elt F) → (⟨S1x96, .f32⟩ : BufTy).Contents (Elt F)),
    unary main_v51 main_v52 (broadcastInDim S2048x96 ![0, 1] bcast_S1x96_S2048x96_0_1 : (⟨S1x96, .f32⟩ : BufTy).Contents (Elt F) → (⟨S2048x96, .f32⟩ : BufTy).Contents (Elt F)),
    binary main_v48 main_v52 main_v53 (addf : (⟨S2048x96, .f32⟩ : BufTy).Contents (Elt F) → (⟨S2048x96, .f32⟩ : BufTy).Contents (Elt F) → (⟨S2048x96, .f32⟩ : BufTy).Contents (Elt F)),
    unary main_arg10 main_v54 ((extractStridedSlice S1x64x64 ![0, 0, 0] · slices_S10x64x64_S1x64x64_0_0_0) : (⟨S10x64x64, .f32⟩ : BufTy).Contents (Elt F) → (⟨S1x64x64, .f32⟩ : BufTy).Contents (Elt F)),
    reshape main_v54 main_v55 rfl shapeCasts_S1x64x64_S64x64,
    unary main_v55 main_v56 ((transpose S64x64 [1, 0] · transposes_S64x64_S64x64_1_0) : (⟨S64x64, .f32⟩ : BufTy).Contents (Elt F) → (⟨S64x64, .f32⟩ : BufTy).Contents (Elt F)),
    binary main_v43 main_v56 main_v57 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v58 ((extractStridedSlice S1x64 ![0, 0] · slices_S10x64_S1x64_0_0) : (⟨S10x64, .f32⟩ : BufTy).Contents (Elt F) → (⟨S1x64, .f32⟩ : BufTy).Contents (Elt F)),
    reshape main_v58 main_v59 rfl shapeCasts_S1x64_S64,
    unary main_v59 main_v60 (broadcastInDim S1x64 ![1] bcast_S64_S1x64_1 : (⟨S64, .f32⟩ : BufTy).Contents (Elt F) → (⟨S1x64, .f32⟩ : BufTy).Contents (Elt F)),
    unary main_v60 main_v61 (broadcastInDim S2048x64 ![0, 1] bcast_S1x64_S2048x64_0_1 : (⟨S1x64, .f32⟩ : BufTy).Contents (Elt F) → (⟨S2048x64, .f32⟩ : BufTy).Contents (Elt F)),
    binary main_v57 main_v61 main_v62 (addf : (⟨S2048x64, .f32⟩ : BufTy).Contents (Elt F) → (⟨S2048x64, .f32⟩ : BufTy).Contents (Elt F) → (⟨S2048x64, .f32⟩ : BufTy).Contents (Elt F)),
    unary main_v4 main_v63 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_2 (constant S_ .f32 0x3E99999A#32),
    unary main_cst_2 main_v64 (broadcastInDim S2048x64 ![] bcast_S_S2048x64 : (⟨S_, .f32⟩ : BufTy).Contents (Elt F) → (⟨S2048x64, .f32⟩ : BufTy).Contents (Elt F)),
    binary main_v64 main_v62 main_v65 (mulf : (⟨S2048x64, .f32⟩ : BufTy).Contents (Elt F) → (⟨S2048x64, .f32⟩ : BufTy).Contents (Elt F) → (⟨S2048x64, .f32⟩ : BufTy).Contents (Elt F)),
    binary main_v4 main_v65 main_v66 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr0 : List (Ref sig .tc) := [main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_cst_0, main_v39, main_v40, main_cst_1, main_v41, main_v42, main_v43, main_v44, main_v45, main_v46, main_v47, main_v48, main_v49, main_v50, main_v51, main_v52, main_v53, main_v54, main_v55, main_v56, main_v57, main_v58, main_v59, main_v60, main_v61, main_v62, main_v63, main_cst_2, main_v64, main_v65, main_v66]

theorem win0_writes : (win0 (F := F)).Forall fun op => op.writes ⊆ ((wr0).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win0_keep (V : Valuation τ sig (Elt F)) (r : Ref sig .tc) (hr : r ∉ wr0) :
    after (win0 (F := F)) V (Proc.devRef .tc r) = V (Proc.devRef .tc r) :=
  after_of_writes_sub win0 V win0_writes hr

set_option maxHeartbeats 4000000 in
/-- The activation after the layer. -/
theorem win0_cur (V : Valuation τ sig (Elt F)) :
    after (win0 (F := F)) V (Proc.devRef .tc main_v66)
      = Hand.curNext (rWV V 0) (V (Proc.devRef .tc main_v4)) := by
  unfold win0
  after_results_simp <;> rfl

set_option maxHeartbeats 4000000 in
/-- The skip sum after the layer. -/
theorem win0_skip (V : Valuation τ sig (Elt F)) :
    after (win0 (F := F)) V (Proc.devRef .tc main_v53)
      = Hand.skipNext (rWV V 0) (V (Proc.devRef .tc main_v4)) (V (Proc.devRef .tc main_v5)) := by
  unfold win0
  after_results_simp <;> rfl

/-- The activation the layer found, laid out `[2048, 64, 1]` for the new ring buffer. -/
theorem win0_snap (V : Valuation τ sig (Elt F)) :
    after (win0 (F := F)) V (Proc.devRef .tc main_v63)
      = broadcastInDim S2048x64x1 ![0, 1] bcast_S2048x64_S2048x64x1_0_1 (V (Proc.devRef .tc main_v4)) := by
  unfold win0
  after_results_simp <;> rfl

end Cert.ReferenceIdeal.RefRun

end
-- ==== Proof.RefWin1.lean ====
/-
  Layer 1 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 1's operations, in program order. -/
def win1 : List (HloOp τ sig (Elt F)) :=
  [
    unary main_arg1 main_v67 ((extractStridedSlice S2048x64x1 ![0, 0, 1] · slices_S2048x64x1023_S2048x64x1_0_0_1) : (⟨S2048x64x1023, .f32⟩ : BufTy).Contents (Elt F) → (⟨S2048x64x1, .f32⟩ : BufTy).Contents (Elt F)),
    reshape main_v67 main_v68 rfl shapeCasts_S2048x64x1_S2048x64,
    unary main_arg4 main_v69 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v69 main_v70 rfl shapeCasts_S1x64x64_S64x64,
    unary main_v70 main_v71 ((transpose S64x64 [1, 0] · transposes_S64x64_S64x64_1_0) : (⟨S64x64, .f32⟩ : BufTy).Contents (Elt F) → (⟨S64x64, .f32⟩ : BufTy).Contents (Elt F)),
    binary main_v68 main_v71 main_v72 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v73 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v73 main_v74 rfl shapeCasts_S1x64x64_S64x64,
    unary main_v74 main_v75 ((transpose S64x64 [1, 0] · transposes_S64x64_S64x64_1_0) : (⟨S64x64, .f32⟩ : BufTy).Contents (Elt F) → (⟨S64x64, .f32⟩ : BufTy).Contents (Elt F)),
    binary main_v66 main_v75 main_v76 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v72 main_v76 main_v77 (addf : (⟨S2048x64, .f32⟩ : BufTy).Contents (Elt F) → (⟨S2048x64, .f32⟩ : BufTy).Contents (Elt F) → (⟨S2048x64, .f32⟩ : BufTy).Contents (Elt F)),
    unary main_arg6 main_v78 ((extractStridedSlice S1x64 ![1, 0] · slices_S10x64_S1x64_1_0) : (⟨S10x64, .f32⟩ : BufTy).Contents (Elt F) → (⟨S1x64, .f32⟩ : BufTy).Contents (Elt F)),
    reshape main_v78 main_v79 rfl shapeCasts_S1x64_S64,
    unary main_v79 main_v80 (broadcastInDim S1x64 ![1] bcast_S64_S1x64_1 : (⟨S64, .f32⟩ : BufTy).Contents (Elt F) → (⟨S1x64, .f32⟩ : BufTy).Contents (Elt F)),
    unary main_v80 main_v81 (broadcastInDim S2048x64 ![0, 1] bcast_S1x64_S2048x64_0_1 : (⟨S1x64, .f32⟩ : BufTy).Contents (Elt F) → (⟨S2048x64, .f32⟩ : BufTy).Contents (Elt F)),
    binary main_v77 main_v81 main_v82 (addf : (⟨S2048x64, .f32⟩ : BufTy).Contents (Elt F) → (⟨S2048x64, .f32⟩ : BufTy).Contents (Elt F) → (⟨S2048x64, .f32⟩ : BufTy).Contents (Elt F)),
    unary main_arg7 main_v83 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v83 main_v84 rfl shapeCasts_S1x64x64_S64x64,
    unary main_v84 main_v85 ((transpose S64x64 [1, 0] · transposes_S64x64_S64x64_1_0) : (⟨S64x64, .f32⟩ : BufTy).Contents (Elt F) → (⟨S64x64, .f32⟩ : BufTy).Contents (Elt F)),
    binary main_v68 main_v85 main_v86 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v87 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v87 main_v88 rfl shapeCasts_S1x64x64_S64x64,
    unary main_v88 main_v89 ((transpose S64x64 [1, 0] · transposes_S64x64_S64x64_1_0) : (⟨S64x64, .f32⟩ : BufTy).Contents (Elt F) → (⟨S64x64, .f32⟩ : BufTy).Contents (Elt F)),
    binary main_v66 main_v89 main_v90 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v86 main_v90 main_v91 (addf : (⟨S2048x64, .f32⟩ : BufTy).Contents (Elt F) → (⟨S2048x64, .f32⟩ : BufTy).Contents (Elt F) → (⟨S2048x64, .f32⟩ : BufTy).Contents (Elt F)),
    unary main_arg9 main_v92 ((extractStridedSlice S1x64 ![1, 0] · slices_S10x64_S1x64_1_0) : (⟨S10x64, .f32⟩ : BufTy).Contents (Elt F) → (⟨S1x64, .f32⟩ : BufTy).Contents (Elt F)),
    reshape main_v92 main_v93 rfl shapeCasts_S1x64_S64,
    unary main_v93 main_v94 (broadcastInDim S1x64 ![1] bcast_S64_S1x64_1 : (⟨S64, .f32⟩ : BufTy).Contents (Elt F) → (⟨S1x64, .f32⟩ : BufTy).Contents (Elt F)),
    unary main_v94 main_v95 (broadcastInDim S2048x64 ![0, 1] bcast_S1x64_S2048x64_0_1 : (⟨S1x64, .f32⟩ : BufTy).Contents (Elt F) → (⟨S2048x64, .f32⟩ : BufTy).Contents (Elt F)),
    binary main_v91 main_v95 main_v96 (addf : (⟨S2048x64, .f32⟩ : BufTy).Contents (Elt F) → (⟨S2048x64, .f32⟩ : BufTy).Contents (Elt F) → (⟨S2048x64, .f32⟩ : BufTy).Contents (Elt F)),
    unary main_v82 main_v97 (Host.tanh : (⟨S2048x64, .f32⟩ : BufTy).Contents (Elt F) → (⟨S2048x64, .f32⟩ : BufTy).Contents (Elt F)),
    unary main_v96 main_v98 (Host.negf : (⟨S2048x64, .f32⟩ : BufTy).Contents (Elt F) → (⟨S2048x64, .f32⟩ : BufTy).Contents (Elt F)),
    unary main_v98 main_v99 (Host.exp : (⟨S2048x64, .f32⟩ : BufTy).Contents (Elt F) → (⟨S2048x64, .f32⟩ : BufTy).Contents (Elt F)),
    nullary main_cst_3 (constant S_ .f32 0x3F800000#32),
    unary main_cst_3 main_v100 (broadcastInDim S2048x64 ![] bcast_S_S2048x64 : (⟨S_, .f32⟩ : BufTy).Contents (Elt F) → (⟨S2048x64, .f32⟩ : BufTy).Contents (Elt F)),
    binary main_v100 main_v99 main_v101 (addf : (⟨S2048x64, .f32⟩ : BufTy).Contents (Elt F) → (⟨S2048x64, .f32⟩ : BufTy).Contents (Elt F) → (⟨S2048x64, .f32⟩ : BufTy).Contents (Elt F)),
    nullary main_cst_4 (constant S_ .f32 0x3F800000#32),
    unary main_cst_4 main_v102 (broadcastInDim S2048x64 ![] bcast_S_S2048x64 : (⟨S_, .f32⟩ : BufTy).Contents (Elt F) → (⟨S2048x64, .f32⟩ : BufTy).Contents (Elt F)),
    binary main_v102 main_v101 main_v103 (Host.divf : (⟨S2048x64, .f32⟩ : BufTy).Contents (Elt F) → (⟨S2048x64, .f32⟩ : BufTy).Contents (Elt F) → (⟨S2048x64, .f32⟩ : BufTy).Contents (Elt F)),
    binary main_v97 main_v103 main_v104 (mulf : (⟨S2048x64, .f32⟩ : BufTy).Contents (Elt F) → (⟨S2048x64, .f32⟩ : BufTy).Contents (Elt F) → (⟨S2048x64, .f32⟩ : BufTy).Contents (Elt F)),
    unary main_arg12 main_v105 ((extractStridedSlice S1x96x64 ![1, 0, 0] · slices_S10x96x64_S1x96x64_1_0_0) : (⟨S10x96x64, .f32⟩ : BufTy).Contents (Elt F) → (⟨S1x96x64, .f32⟩ : BufTy).Contents (Elt F)),
    reshape main_v105 main_v106 rfl shapeCasts_S1x96x64_S96x64,
    unary main_v106 main_v107 ((transpose S64x96 [1, 0] · transposes_S96x64_S64x96_1_0) : (⟨S96x64, .f32⟩ : BufTy).Contents (Elt F) → (⟨S64x96, .f32⟩ : BufTy).Contents (Elt F)),
    binary main_v104 main_v107 main_v108 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v53 main_v108 main_v109 (addf : (⟨S2048x96, .f32⟩ : BufTy).Contents (Elt F) → (⟨S2048x96, .f32⟩ : BufTy).Contents (Elt F) → (⟨S2048x96, .f32⟩ : BufTy).Contents (Elt F)),
    unary main_arg13 main_v110 ((extractStridedSlice S1x96 ![1, 0] · slices_S10x96_S1x96_1_0) : (⟨S10x96, .f32⟩ : BufTy).Contents (Elt F) → (⟨S1x96, .f32⟩ : BufTy).Contents (Elt F)),
    reshape main_v110 main_v111 rfl shapeCasts_S1x96_S96,
    unary main_v111 main_v112 (broadcastInDim S1x96 ![1] bcast_S96_S1x96_1 : (⟨S96, .f32⟩ : BufTy).Contents (Elt F) → (⟨S1x96, .f32⟩ : BufTy).Contents (Elt F)),
    unary main_v112 main_v113 (broadcastInDim S2048x96 ![0, 1] bcast_S1x96_S2048x96_0_1 : (⟨S1x96, .f32⟩ : BufTy).Contents (Elt F) → (⟨S2048x96, .f32⟩ : BufTy).Contents (Elt F)),
    binary main_v109 main_v113 main_v114 (addf : (⟨S2048x96, .f32⟩ : BufTy).Contents (Elt F) → (⟨S2048x96, .f32⟩ : BufTy).Contents (Elt F) → (⟨S2048x96, .f32⟩ : BufTy).Contents (Elt F)),
    unary main_arg10 main_v115 ((extractStridedSlice S1x64x64 ![1, 0, 0] · slices_S10x64x64_S1x64x64_1_0_0) : (⟨S10x64x64, .f32⟩ : BufTy).Contents (Elt F) → (⟨S1x64x64, .f32⟩ : BufTy).Contents (Elt F)),
    reshape main_v115 main_v116 rfl shapeCasts_S1x64x64_S64x64,
    unary main_v116 main_v117 ((transpose S64x64 [1, 0] · transposes_S64x64_S64x64_1_0) : (⟨S64x64, .f32⟩ : BufTy).Contents (Elt F) → (⟨S64x64, .f32⟩ : BufTy).Contents (Elt F)),
    binary main_v104 main_v117 main_v118 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v119 ((extractStridedSlice S1x64 ![1, 0] · slices_S10x64_S1x64_1_0) : (⟨S10x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S2048x64 ![0, 1] bcast_S1x64_S2048x64_0_1 : (⟨S1x64, .f32⟩ : BufTy).Contents (Elt F) → (⟨S2048x64, .f32⟩ : BufTy).Contents (Elt F)),
    binary main_v118 main_v122 main_v123 (addf : (⟨S2048x64, .f32⟩ : BufTy).Contents (Elt F) → (⟨S2048x64, .f32⟩ : BufTy).Contents (Elt F) → (⟨S2048x64, .f32⟩ : BufTy).Contents (Elt F)),
    unary main_arg1 main_v124 ((extractStridedSlice S2048x64x1 ![0, 0, 2] · slices_S2048x64x1023_S2048x64x1_0_0_2) : (⟨S2048x64x1023, .f32⟩ : BufTy).Contents (Elt F) → (⟨S2048x64x1, .f32⟩ : BufTy).Contents (Elt F)),
    unary main_v66 main_v125 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_5 (constant S_ .f32 0x3E99999A#32),
    unary main_cst_5 main_v126 (broadcastInDim S2048x64 ![] bcast_S_S2048x64 : (⟨S_, .f32⟩ : BufTy).Contents (Elt F) → (⟨S2048x64, .f32⟩ : BufTy).Contents (Elt F)),
    binary main_v126 main_v123 main_v127 (mulf : (⟨S2048x64, .f32⟩ : BufTy).Contents (Elt F) → (⟨S2048x64, .f32⟩ : BufTy).Contents (Elt F) → (⟨S2048x64, .f32⟩ : BufTy).Contents (Elt F)),
    binary main_v66 main_v127 main_v128 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr1 : List (Ref sig .tc) := [main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_cst_3, main_v100, main_v101, main_cst_4, main_v102, main_v103, main_v104, main_v105, main_v106, main_v107, main_v108, main_v109, main_v110, main_v111, main_v112, main_v113, main_v114, main_v115, main_v116, main_v117, main_v118, main_v119, main_v120, main_v121, main_v122, main_v123, main_v124, main_v125, main_cst_5, main_v126, main_v127, main_v128]

theorem win1_writes : (win1 (F := F)).Forall fun op => op.writes ⊆ ((wr1).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win1_keep (V : Valuation τ sig (Elt F)) (r : Ref sig .tc) (hr : r ∉ wr1) :
    after (win1 (F := F)) V (Proc.devRef .tc r) = V (Proc.devRef .tc r) :=
  after_of_writes_sub win1 V win1_writes hr

set_option maxHeartbeats 4000000 in
/-- The activation after the layer. -/
theorem win1_cur (V : Valuation τ sig (Elt F)) :
    after (win1 (F := F)) V (Proc.devRef .tc main_v128)
      = Hand.curNext (rWV V 1) (V (Proc.devRef .tc main_v66)) := by
  unfold win1
  after_results_simp <;> rfl

set_option maxHeartbeats 4000000 in
/-- The skip sum after the layer. -/
theorem win1_skip (V : Valuation τ sig (Elt F)) :
    after (win1 (F := F)) V (Proc.devRef .tc main_v114)
      = Hand.skipNext (rWV V 1) (V (Proc.devRef .tc main_v66)) (V (Proc.devRef .tc main_v53)) := by
  unfold win1
  after_results_simp <;> rfl

/-- The activation the layer found, laid out `[2048, 64, 1]` for the new ring buffer. -/
theorem win1_snap (V : Valuation τ sig (Elt F)) :
    after (win1 (F := F)) V (Proc.devRef .tc main_v125)
      = broadcastInDim S2048x64x1 ![0, 1] bcast_S2048x64_S2048x64x1_0_1 (V (Proc.devRef .tc main_v66)) := by
  unfold win1
  after_results_simp <;> rfl

/-- The ring-buffer lanes the layer passes on unchanged: lanes `2 … 2` of the input ring buffer. -/
theorem win1_piece (V : Valuation τ sig (Elt F)) :
    after (win1 (F := F)) V (Proc.devRef .tc main_v124)
      = extractStridedSlice S2048x64x1 ![0, 0, 2] (V (Proc.devRef .tc main_arg1)) slices_S2048x64x1023_S2048x64x1_0_0_2 := by
  unfold win1
  after_results_simp <;> rfl

end Cert.ReferenceIdeal.RefRun

end
-- ==== Proof.RefWin2.lean ====
/-
  Layer 2 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 2's operations, in program order. -/
def win2 : List (HloOp τ sig (Elt F)) :=
  [
    unary main_arg1 main_v129 ((extractStridedSlice S2048x64x1 ![0, 0, 3] · slices_S2048x64x1023_S2048x64x1_0_0_3) : (⟨S2048x64x1023, .f32⟩ : BufTy).Contents (Elt F) → (⟨S2048x64x1, .f32⟩ : BufTy).Contents (Elt F)),
    reshape main_v129 main_v130 rfl shapeCasts_S2048x64x1_S2048x64,
    unary main_arg4 main_v131 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v131 main_v132 rfl shapeCasts_S1x64x64_S64x64,
    unary main_v132 main_v133 ((transpose S64x64 [1, 0] · transposes_S64x64_S64x64_1_0) : (⟨S64x64, .f32⟩ : BufTy).Contents (Elt F) → (⟨S64x64, .f32⟩ : BufTy).Contents (Elt F)),
    binary main_v130 main_v133 main_v134 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v135 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v135 main_v136 rfl shapeCasts_S1x64x64_S64x64,
    unary main_v136 main_v137 ((transpose S64x64 [1, 0] · transposes_S64x64_S64x64_1_0) : (⟨S64x64, .f32⟩ : BufTy).Contents (Elt F) → (⟨S64x64, .f32⟩ : BufTy).Contents (Elt F)),
    binary main_v128 main_v137 main_v138 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v134 main_v138 main_v139 (addf : (⟨S2048x64, .f32⟩ : BufTy).Contents (Elt F) → (⟨S2048x64, .f32⟩ : BufTy).Contents (Elt F) → (⟨S2048x64, .f32⟩ : BufTy).Contents (Elt F)),
    unary main_arg6 main_v140 ((extractStridedSlice S1x64 ![2, 0] · slices_S10x64_S1x64_2_0) : (⟨S10x64, .f32⟩ : BufTy).Contents (Elt F) → (⟨S1x64, .f32⟩ : BufTy).Contents (Elt F)),
    reshape main_v140 main_v141 rfl shapeCasts_S1x64_S64,
    unary main_v141 main_v142 (broadcastInDim S1x64 ![1] bcast_S64_S1x64_1 : (⟨S64, .f32⟩ : BufTy).Contents (Elt F) → (⟨S1x64, .f32⟩ : BufTy).Contents (Elt F)),
    unary main_v142 main_v143 (broadcastInDim S2048x64 ![0, 1] bcast_S1x64_S2048x64_0_1 : (⟨S1x64, .f32⟩ : BufTy).Contents (Elt F) → (⟨S2048x64, .f32⟩ : BufTy).Contents (Elt F)),
    binary main_v139 main_v143 main_v144 (addf : (⟨S2048x64, .f32⟩ : BufTy).Contents (Elt F) → (⟨S2048x64, .f32⟩ : BufTy).Contents (Elt F) → (⟨S2048x64, .f32⟩ : BufTy).Contents (Elt F)),
    unary main_arg7 main_v145 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v145 main_v146 rfl shapeCasts_S1x64x64_S64x64,
    unary main_v146 main_v147 ((transpose S64x64 [1, 0] · transposes_S64x64_S64x64_1_0) : (⟨S64x64, .f32⟩ : BufTy).Contents (Elt F) → (⟨S64x64, .f32⟩ : BufTy).Contents (Elt F)),
    binary main_v130 main_v147 main_v148 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v149 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v149 main_v150 rfl shapeCasts_S1x64x64_S64x64,
    unary main_v150 main_v151 ((transpose S64x64 [1, 0] · transposes_S64x64_S64x64_1_0) : (⟨S64x64, .f32⟩ : BufTy).Contents (Elt F) → (⟨S64x64, .f32⟩ : BufTy).Contents (Elt F)),
    binary main_v128 main_v151 main_v152 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v148 main_v152 main_v153 (addf : (⟨S2048x64, .f32⟩ : BufTy).Contents (Elt F) → (⟨S2048x64, .f32⟩ : BufTy).Contents (Elt F) → (⟨S2048x64, .f32⟩ : BufTy).Contents (Elt F)),
    unary main_arg9 main_v154 ((extractStridedSlice S1x64 ![2, 0] · slices_S10x64_S1x64_2_0) : (⟨S10x64, .f32⟩ : BufTy).Contents (Elt F) → (⟨S1x64, .f32⟩ : BufTy).Contents (Elt F)),
    reshape main_v154 main_v155 rfl shapeCasts_S1x64_S64,
    unary main_v155 main_v156 (broadcastInDim S1x64 ![1] bcast_S64_S1x64_1 : (⟨S64, .f32⟩ : BufTy).Contents (Elt F) → (⟨S1x64, .f32⟩ : BufTy).Contents (Elt F)),
    unary main_v156 main_v157 (broadcastInDim S2048x64 ![0, 1] bcast_S1x64_S2048x64_0_1 : (⟨S1x64, .f32⟩ : BufTy).Contents (Elt F) → (⟨S2048x64, .f32⟩ : BufTy).Contents (Elt F)),
    binary main_v153 main_v157 main_v158 (addf : (⟨S2048x64, .f32⟩ : BufTy).Contents (Elt F) → (⟨S2048x64, .f32⟩ : BufTy).Contents (Elt F) → (⟨S2048x64, .f32⟩ : BufTy).Contents (Elt F)),
    unary main_v144 main_v159 (Host.tanh : (⟨S2048x64, .f32⟩ : BufTy).Contents (Elt F) → (⟨S2048x64, .f32⟩ : BufTy).Contents (Elt F)),
    unary main_v158 main_v160 (Host.negf : (⟨S2048x64, .f32⟩ : BufTy).Contents (Elt F) → (⟨S2048x64, .f32⟩ : BufTy).Contents (Elt F)),
    unary main_v160 main_v161 (Host.exp : (⟨S2048x64, .f32⟩ : BufTy).Contents (Elt F) → (⟨S2048x64, .f32⟩ : BufTy).Contents (Elt F)),
    nullary main_cst_6 (constant S_ .f32 0x3F800000#32),
    unary main_cst_6 main_v162 (broadcastInDim S2048x64 ![] bcast_S_S2048x64 : (⟨S_, .f32⟩ : BufTy).Contents (Elt F) → (⟨S2048x64, .f32⟩ : BufTy).Contents (Elt F)),
    binary main_v162 main_v161 main_v163 (addf : (⟨S2048x64, .f32⟩ : BufTy).Contents (Elt F) → (⟨S2048x64, .f32⟩ : BufTy).Contents (Elt F) → (⟨S2048x64, .f32⟩ : BufTy).Contents (Elt F)),
    nullary main_cst_7 (constant S_ .f32 0x3F800000#32),
    unary main_cst_7 main_v164 (broadcastInDim S2048x64 ![] bcast_S_S2048x64 : (⟨S_, .f32⟩ : BufTy).Contents (Elt F) → (⟨S2048x64, .f32⟩ : BufTy).Contents (Elt F)),
    binary main_v164 main_v163 main_v165 (Host.divf : (⟨S2048x64, .f32⟩ : BufTy).Contents (Elt F) → (⟨S2048x64, .f32⟩ : BufTy).Contents (Elt F) → (⟨S2048x64, .f32⟩ : BufTy).Contents (Elt F)),
    binary main_v159 main_v165 main_v166 (mulf : (⟨S2048x64, .f32⟩ : BufTy).Contents (Elt F) → (⟨S2048x64, .f32⟩ : BufTy).Contents (Elt F) → (⟨S2048x64, .f32⟩ : BufTy).Contents (Elt F)),
    unary main_arg12 main_v167 ((extractStridedSlice S1x96x64 ![2, 0, 0] · slices_S10x96x64_S1x96x64_2_0_0) : (⟨S10x96x64, .f32⟩ : BufTy).Contents (Elt F) → (⟨S1x96x64, .f32⟩ : BufTy).Contents (Elt F)),
    reshape main_v167 main_v168 rfl shapeCasts_S1x96x64_S96x64,
    unary main_v168 main_v169 ((transpose S64x96 [1, 0] · transposes_S96x64_S64x96_1_0) : (⟨S96x64, .f32⟩ : BufTy).Contents (Elt F) → (⟨S64x96, .f32⟩ : BufTy).Contents (Elt F)),
    binary main_v166 main_v169 main_v170 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v114 main_v170 main_v171 (addf : (⟨S2048x96, .f32⟩ : BufTy).Contents (Elt F) → (⟨S2048x96, .f32⟩ : BufTy).Contents (Elt F) → (⟨S2048x96, .f32⟩ : BufTy).Contents (Elt F)),
    unary main_arg13 main_v172 ((extractStridedSlice S1x96 ![2, 0] · slices_S10x96_S1x96_2_0) : (⟨S10x96, .f32⟩ : BufTy).Contents (Elt F) → (⟨S1x96, .f32⟩ : BufTy).Contents (Elt F)),
    reshape main_v172 main_v173 rfl shapeCasts_S1x96_S96,
    unary main_v173 main_v174 (broadcastInDim S1x96 ![1] bcast_S96_S1x96_1 : (⟨S96, .f32⟩ : BufTy).Contents (Elt F) → (⟨S1x96, .f32⟩ : BufTy).Contents (Elt F)),
    unary main_v174 main_v175 (broadcastInDim S2048x96 ![0, 1] bcast_S1x96_S2048x96_0_1 : (⟨S1x96, .f32⟩ : BufTy).Contents (Elt F) → (⟨S2048x96, .f32⟩ : BufTy).Contents (Elt F)),
    binary main_v171 main_v175 main_v176 (addf : (⟨S2048x96, .f32⟩ : BufTy).Contents (Elt F) → (⟨S2048x96, .f32⟩ : BufTy).Contents (Elt F) → (⟨S2048x96, .f32⟩ : BufTy).Contents (Elt F)),
    unary main_arg10 main_v177 ((extractStridedSlice S1x64x64 ![2, 0, 0] · slices_S10x64x64_S1x64x64_2_0_0) : (⟨S10x64x64, .f32⟩ : BufTy).Contents (Elt F) → (⟨S1x64x64, .f32⟩ : BufTy).Contents (Elt F)),
    reshape main_v177 main_v178 rfl shapeCasts_S1x64x64_S64x64,
    unary main_v178 main_v179 ((transpose S64x64 [1, 0] · transposes_S64x64_S64x64_1_0) : (⟨S64x64, .f32⟩ : BufTy).Contents (Elt F) → (⟨S64x64, .f32⟩ : BufTy).Contents (Elt F)),
    binary main_v166 main_v179 main_v180 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v181 ((extractStridedSlice S1x64 ![2, 0] · slices_S10x64_S1x64_2_0) : (⟨S10x64, .f32⟩ : BufTy).Contents (Elt F) → (⟨S1x64, .f32⟩ : BufTy).Contents (Elt F)),
    reshape main_v181 main_v182 rfl shapeCasts_S1x64_S64,
    unary main_v182 main_v183 (broadcastInDim S1x64 ![1] bcast_S64_S1x64_1 : (⟨S64, .f32⟩ : BufTy).Contents (Elt F) → (⟨S1x64, .f32⟩ : BufTy).Contents (Elt F)),
    unary main_v183 main_v184 (broadcastInDim S2048x64 ![0, 1] bcast_S1x64_S2048x64_0_1 : (⟨S1x64, .f32⟩ : BufTy).Contents (Elt F) → (⟨S2048x64, .f32⟩ : BufTy).Contents (Elt F)),
    binary main_v180 main_v184 main_v185 (addf : (⟨S2048x64, .f32⟩ : BufTy).Contents (Elt F) → (⟨S2048x64, .f32⟩ : BufTy).Contents (Elt F) → (⟨S2048x64, .f32⟩ : BufTy).Contents (Elt F)),
    unary main_arg1 main_v186 ((extractStridedSlice S2048x64x3 ![0, 0, 4] · slices_S2048x64x1023_S2048x64x3_0_0_4) : (⟨S2048x64x1023, .f32⟩ : BufTy).Contents (Elt F) → (⟨S2048x64x3, .f32⟩ : BufTy).Contents (Elt F)),
    unary main_v128 main_v187 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_8 (constant S_ .f32 0x3E99999A#32),
    unary main_cst_8 main_v188 (broadcastInDim S2048x64 ![] bcast_S_S2048x64 : (⟨S_, .f32⟩ : BufTy).Contents (Elt F) → (⟨S2048x64, .f32⟩ : BufTy).Contents (Elt F)),
    binary main_v188 main_v185 main_v189 (mulf : (⟨S2048x64, .f32⟩ : BufTy).Contents (Elt F) → (⟨S2048x64, .f32⟩ : BufTy).Contents (Elt F) → (⟨S2048x64, .f32⟩ : BufTy).Contents (Elt F)),
    binary main_v128 main_v189 main_v190 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr2 : List (Ref sig .tc) := [main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_cst_6, main_v162, main_v163, main_cst_7, main_v164, main_v165, main_v166, main_v167, main_v168, main_v169, main_v170, main_v171, main_v172, main_v173, main_v174, main_v175, main_v176, main_v177, main_v178, main_v179, main_v180, main_v181, main_v182, main_v183, main_v184, main_v185, main_v186, main_v187, main_cst_8, main_v188, main_v189, main_v190]

theorem win2_writes : (win2 (F := F)).Forall fun op => op.writes ⊆ ((wr2).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win2_keep (V : Valuation τ sig (Elt F)) (r : Ref sig .tc) (hr : r ∉ wr2) :
    after (win2 (F := F)) V (Proc.devRef .tc r) = V (Proc.devRef .tc r) :=
  after_of_writes_sub win2 V win2_writes hr

set_option maxHeartbeats 4000000 in
/-- The activation after the layer. -/
theorem win2_cur (V : Valuation τ sig (Elt F)) :
    after (win2 (F := F)) V (Proc.devRef .tc main_v190)
      = Hand.curNext (rWV V 2) (V (Proc.devRef .tc main_v128)) := by
  unfold win2
  after_results_simp <;> rfl

set_option maxHeartbeats 4000000 in
/-- The skip sum after the layer. -/
theorem win2_skip (V : Valuation τ sig (Elt F)) :
    after (win2 (F := F)) V (Proc.devRef .tc main_v176)
      = Hand.skipNext (rWV V 2) (V (Proc.devRef .tc main_v128)) (V (Proc.devRef .tc main_v114)) := by
  unfold win2
  after_results_simp <;> rfl

/-- The activation the layer found, laid out `[2048, 64, 1]` for the new ring buffer. -/
theorem win2_snap (V : Valuation τ sig (Elt F)) :
    after (win2 (F := F)) V (Proc.devRef .tc main_v187)
      = broadcastInDim S2048x64x1 ![0, 1] bcast_S2048x64_S2048x64x1_0_1 (V (Proc.devRef .tc main_v128)) := by
  unfold win2
  after_results_simp <;> rfl

/-- The ring-buffer lanes the layer passes on unchanged: lanes `4 … 6` of the input ring buffer. -/
theorem win2_piece (V : Valuation τ sig (Elt F)) :
    after (win2 (F := F)) V (Proc.devRef .tc main_v186)
      = extractStridedSlice S2048x64x3 ![0, 0, 4] (V (Proc.devRef .tc main_arg1)) slices_S2048x64x1023_S2048x64x3_0_0_4 := by
  unfold win2
  after_results_simp <;> rfl

end Cert.ReferenceIdeal.RefRun

end
-- ==== Proof.RefWin3.lean ====
/-
  Layer 3 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 3's operations, in program order. -/
def win3 : List (HloOp τ sig (Elt F)) :=
  [
    unary main_arg1 main_v191 ((extractStridedSlice S2048x64x1 ![0, 0, 7] · slices_S2048x64x1023_S2048x64x1_0_0_7) : (⟨S2048x64x1023, .f32⟩ : BufTy).Contents (Elt F) → (⟨S2048x64x1, .f32⟩ : BufTy).Contents (Elt F)),
    reshape main_v191 main_v192 rfl shapeCasts_S2048x64x1_S2048x64,
    unary main_arg4 main_v193 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v193 main_v194 rfl shapeCasts_S1x64x64_S64x64,
    unary main_v194 main_v195 ((transpose S64x64 [1, 0] · transposes_S64x64_S64x64_1_0) : (⟨S64x64, .f32⟩ : BufTy).Contents (Elt F) → (⟨S64x64, .f32⟩ : BufTy).Contents (Elt F)),
    binary main_v192 main_v195 main_v196 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v197 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v197 main_v198 rfl shapeCasts_S1x64x64_S64x64,
    unary main_v198 main_v199 ((transpose S64x64 [1, 0] · transposes_S64x64_S64x64_1_0) : (⟨S64x64, .f32⟩ : BufTy).Contents (Elt F) → (⟨S64x64, .f32⟩ : BufTy).Contents (Elt F)),
    binary main_v190 main_v199 main_v200 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v196 main_v200 main_v201 (addf : (⟨S2048x64, .f32⟩ : BufTy).Contents (Elt F) → (⟨S2048x64, .f32⟩ : BufTy).Contents (Elt F) → (⟨S2048x64, .f32⟩ : BufTy).Contents (Elt F)),
    unary main_arg6 main_v202 ((extractStridedSlice S1x64 ![3, 0] · slices_S10x64_S1x64_3_0) : (⟨S10x64, .f32⟩ : BufTy).Contents (Elt F) → (⟨S1x64, .f32⟩ : BufTy).Contents (Elt F)),
    reshape main_v202 main_v203 rfl shapeCasts_S1x64_S64,
    unary main_v203 main_v204 (broadcastInDim S1x64 ![1] bcast_S64_S1x64_1 : (⟨S64, .f32⟩ : BufTy).Contents (Elt F) → (⟨S1x64, .f32⟩ : BufTy).Contents (Elt F)),
    unary main_v204 main_v205 (broadcastInDim S2048x64 ![0, 1] bcast_S1x64_S2048x64_0_1 : (⟨S1x64, .f32⟩ : BufTy).Contents (Elt F) → (⟨S2048x64, .f32⟩ : BufTy).Contents (Elt F)),
    binary main_v201 main_v205 main_v206 (addf : (⟨S2048x64, .f32⟩ : BufTy).Contents (Elt F) → (⟨S2048x64, .f32⟩ : BufTy).Contents (Elt F) → (⟨S2048x64, .f32⟩ : BufTy).Contents (Elt F)),
    unary main_arg7 main_v207 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v207 main_v208 rfl shapeCasts_S1x64x64_S64x64,
    unary main_v208 main_v209 ((transpose S64x64 [1, 0] · transposes_S64x64_S64x64_1_0) : (⟨S64x64, .f32⟩ : BufTy).Contents (Elt F) → (⟨S64x64, .f32⟩ : BufTy).Contents (Elt F)),
    binary main_v192 main_v209 main_v210 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v211 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v211 main_v212 rfl shapeCasts_S1x64x64_S64x64,
    unary main_v212 main_v213 ((transpose S64x64 [1, 0] · transposes_S64x64_S64x64_1_0) : (⟨S64x64, .f32⟩ : BufTy).Contents (Elt F) → (⟨S64x64, .f32⟩ : BufTy).Contents (Elt F)),
    binary main_v190 main_v213 main_v214 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v210 main_v214 main_v215 (addf : (⟨S2048x64, .f32⟩ : BufTy).Contents (Elt F) → (⟨S2048x64, .f32⟩ : BufTy).Contents (Elt F) → (⟨S2048x64, .f32⟩ : BufTy).Contents (Elt F)),
    unary main_arg9 main_v216 ((extractStridedSlice S1x64 ![3, 0] · slices_S10x64_S1x64_3_0) : (⟨S10x64, .f32⟩ : BufTy).Contents (Elt F) → (⟨S1x64, .f32⟩ : BufTy).Contents (Elt F)),
    reshape main_v216 main_v217 rfl shapeCasts_S1x64_S64,
    unary main_v217 main_v218 (broadcastInDim S1x64 ![1] bcast_S64_S1x64_1 : (⟨S64, .f32⟩ : BufTy).Contents (Elt F) → (⟨S1x64, .f32⟩ : BufTy).Contents (Elt F)),
    unary main_v218 main_v219 (broadcastInDim S2048x64 ![0, 1] bcast_S1x64_S2048x64_0_1 : (⟨S1x64, .f32⟩ : BufTy).Contents (Elt F) → (⟨S2048x64, .f32⟩ : BufTy).Contents (Elt F)),
    binary main_v215 main_v219 main_v220 (addf : (⟨S2048x64, .f32⟩ : BufTy).Contents (Elt F) → (⟨S2048x64, .f32⟩ : BufTy).Contents (Elt F) → (⟨S2048x64, .f32⟩ : BufTy).Contents (Elt F)),
    unary main_v206 main_v221 (Host.tanh : (⟨S2048x64, .f32⟩ : BufTy).Contents (Elt F) → (⟨S2048x64, .f32⟩ : BufTy).Contents (Elt F)),
    unary main_v220 main_v222 (Host.negf : (⟨S2048x64, .f32⟩ : BufTy).Contents (Elt F) → (⟨S2048x64, .f32⟩ : BufTy).Contents (Elt F)),
    unary main_v222 main_v223 (Host.exp : (⟨S2048x64, .f32⟩ : BufTy).Contents (Elt F) → (⟨S2048x64, .f32⟩ : BufTy).Contents (Elt F)),
    nullary main_cst_9 (constant S_ .f32 0x3F800000#32),
    unary main_cst_9 main_v224 (broadcastInDim S2048x64 ![] bcast_S_S2048x64 : (⟨S_, .f32⟩ : BufTy).Contents (Elt F) → (⟨S2048x64, .f32⟩ : BufTy).Contents (Elt F)),
    binary main_v224 main_v223 main_v225 (addf : (⟨S2048x64, .f32⟩ : BufTy).Contents (Elt F) → (⟨S2048x64, .f32⟩ : BufTy).Contents (Elt F) → (⟨S2048x64, .f32⟩ : BufTy).Contents (Elt F)),
    nullary main_cst_10 (constant S_ .f32 0x3F800000#32),
    unary main_cst_10 main_v226 (broadcastInDim S2048x64 ![] bcast_S_S2048x64 : (⟨S_, .f32⟩ : BufTy).Contents (Elt F) → (⟨S2048x64, .f32⟩ : BufTy).Contents (Elt F)),
    binary main_v226 main_v225 main_v227 (Host.divf : (⟨S2048x64, .f32⟩ : BufTy).Contents (Elt F) → (⟨S2048x64, .f32⟩ : BufTy).Contents (Elt F) → (⟨S2048x64, .f32⟩ : BufTy).Contents (Elt F)),
    binary main_v221 main_v227 main_v228 (mulf : (⟨S2048x64, .f32⟩ : BufTy).Contents (Elt F) → (⟨S2048x64, .f32⟩ : BufTy).Contents (Elt F) → (⟨S2048x64, .f32⟩ : BufTy).Contents (Elt F)),
    unary main_arg12 main_v229 ((extractStridedSlice S1x96x64 ![3, 0, 0] · slices_S10x96x64_S1x96x64_3_0_0) : (⟨S10x96x64, .f32⟩ : BufTy).Contents (Elt F) → (⟨S1x96x64, .f32⟩ : BufTy).Contents (Elt F)),
    reshape main_v229 main_v230 rfl shapeCasts_S1x96x64_S96x64,
    unary main_v230 main_v231 ((transpose S64x96 [1, 0] · transposes_S96x64_S64x96_1_0) : (⟨S96x64, .f32⟩ : BufTy).Contents (Elt F) → (⟨S64x96, .f32⟩ : BufTy).Contents (Elt F)),
    binary main_v228 main_v231 main_v232 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v176 main_v232 main_v233 (addf : (⟨S2048x96, .f32⟩ : BufTy).Contents (Elt F) → (⟨S2048x96, .f32⟩ : BufTy).Contents (Elt F) → (⟨S2048x96, .f32⟩ : BufTy).Contents (Elt F)),
    unary main_arg13 main_v234 ((extractStridedSlice S1x96 ![3, 0] · slices_S10x96_S1x96_3_0) : (⟨S10x96, .f32⟩ : BufTy).Contents (Elt F) → (⟨S1x96, .f32⟩ : BufTy).Contents (Elt F)),
    reshape main_v234 main_v235 rfl shapeCasts_S1x96_S96,
    unary main_v235 main_v236 (broadcastInDim S1x96 ![1] bcast_S96_S1x96_1 : (⟨S96, .f32⟩ : BufTy).Contents (Elt F) → (⟨S1x96, .f32⟩ : BufTy).Contents (Elt F)),
    unary main_v236 main_v237 (broadcastInDim S2048x96 ![0, 1] bcast_S1x96_S2048x96_0_1 : (⟨S1x96, .f32⟩ : BufTy).Contents (Elt F) → (⟨S2048x96, .f32⟩ : BufTy).Contents (Elt F)),
    binary main_v233 main_v237 main_v238 (addf : (⟨S2048x96, .f32⟩ : BufTy).Contents (Elt F) → (⟨S2048x96, .f32⟩ : BufTy).Contents (Elt F) → (⟨S2048x96, .f32⟩ : BufTy).Contents (Elt F)),
    unary main_arg10 main_v239 ((extractStridedSlice S1x64x64 ![3, 0, 0] · slices_S10x64x64_S1x64x64_3_0_0) : (⟨S10x64x64, .f32⟩ : BufTy).Contents (Elt F) → (⟨S1x64x64, .f32⟩ : BufTy).Contents (Elt F)),
    reshape main_v239 main_v240 rfl shapeCasts_S1x64x64_S64x64,
    unary main_v240 main_v241 ((transpose S64x64 [1, 0] · transposes_S64x64_S64x64_1_0) : (⟨S64x64, .f32⟩ : BufTy).Contents (Elt F) → (⟨S64x64, .f32⟩ : BufTy).Contents (Elt F)),
    binary main_v228 main_v241 main_v242 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v243 ((extractStridedSlice S1x64 ![3, 0] · slices_S10x64_S1x64_3_0) : (⟨S10x64, .f32⟩ : BufTy).Contents (Elt F) → (⟨S1x64, .f32⟩ : BufTy).Contents (Elt F)),
    reshape main_v243 main_v244 rfl shapeCasts_S1x64_S64,
    unary main_v244 main_v245 (broadcastInDim S1x64 ![1] bcast_S64_S1x64_1 : (⟨S64, .f32⟩ : BufTy).Contents (Elt F) → (⟨S1x64, .f32⟩ : BufTy).Contents (Elt F)),
    unary main_v245 main_v246 (broadcastInDim S2048x64 ![0, 1] bcast_S1x64_S2048x64_0_1 : (⟨S1x64, .f32⟩ : BufTy).Contents (Elt F) → (⟨S2048x64, .f32⟩ : BufTy).Contents (Elt F)),
    binary main_v242 main_v246 main_v247 (addf : (⟨S2048x64, .f32⟩ : BufTy).Contents (Elt F) → (⟨S2048x64, .f32⟩ : BufTy).Contents (Elt F) → (⟨S2048x64, .f32⟩ : BufTy).Contents (Elt F)),
    unary main_arg1 main_v248 ((extractStridedSlice S2048x64x7 ![0, 0, 8] · slices_S2048x64x1023_S2048x64x7_0_0_8) : (⟨S2048x64x1023, .f32⟩ : BufTy).Contents (Elt F) → (⟨S2048x64x7, .f32⟩ : BufTy).Contents (Elt F)),
    unary main_v190 main_v249 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_11 (constant S_ .f32 0x3E99999A#32),
    unary main_cst_11 main_v250 (broadcastInDim S2048x64 ![] bcast_S_S2048x64 : (⟨S_, .f32⟩ : BufTy).Contents (Elt F) → (⟨S2048x64, .f32⟩ : BufTy).Contents (Elt F)),
    binary main_v250 main_v247 main_v251 (mulf : (⟨S2048x64, .f32⟩ : BufTy).Contents (Elt F) → (⟨S2048x64, .f32⟩ : BufTy).Contents (Elt F) → (⟨S2048x64, .f32⟩ : BufTy).Contents (Elt F)),
    binary main_v190 main_v251 main_v252 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr3 : List (Ref sig .tc) := [main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_cst_9, main_v224, main_v225, main_cst_10, main_v226, main_v227, main_v228, main_v229, main_v230, main_v231, main_v232, main_v233, main_v234, main_v235, main_v236, main_v237, main_v238, main_v239, main_v240, main_v241, main_v242, main_v243, main_v244, main_v245, main_v246, main_v247, main_v248, main_v249, main_cst_11, main_v250, main_v251, main_v252]

theorem win3_writes : (win3 (F := F)).Forall fun op => op.writes ⊆ ((wr3).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win3_keep (V : Valuation τ sig (Elt F)) (r : Ref sig .tc) (hr : r ∉ wr3) :
    after (win3 (F := F)) V (Proc.devRef .tc r) = V (Proc.devRef .tc r) :=
  after_of_writes_sub win3 V win3_writes hr

set_option maxHeartbeats 4000000 in
/-- The activation after the layer. -/
theorem win3_cur (V : Valuation τ sig (Elt F)) :
    after (win3 (F := F)) V (Proc.devRef .tc main_v252)
      = Hand.curNext (rWV V 3) (V (Proc.devRef .tc main_v190)) := by
  unfold win3
  after_results_simp <;> rfl

set_option maxHeartbeats 4000000 in
/-- The skip sum after the layer. -/
theorem win3_skip (V : Valuation τ sig (Elt F)) :
    after (win3 (F := F)) V (Proc.devRef .tc main_v238)
      = Hand.skipNext (rWV V 3) (V (Proc.devRef .tc main_v190)) (V (Proc.devRef .tc main_v176)) := by
  unfold win3
  after_results_simp <;> rfl

/-- The activation the layer found, laid out `[2048, 64, 1]` for the new ring buffer. -/
theorem win3_snap (V : Valuation τ sig (Elt F)) :
    after (win3 (F := F)) V (Proc.devRef .tc main_v249)
      = broadcastInDim S2048x64x1 ![0, 1] bcast_S2048x64_S2048x64x1_0_1 (V (Proc.devRef .tc main_v190)) := by
  unfold win3
  after_results_simp <;> rfl

/-- The ring-buffer lanes the layer passes on unchanged: lanes `8 … 14` of the input ring buffer. -/
theorem win3_piece (V : Valuation τ sig (Elt F)) :
    after (win3 (F := F)) V (Proc.devRef .tc main_v248)
      = extractStridedSlice S2048x64x7 ![0, 0, 8] (V (Proc.devRef .tc main_arg1)) slices_S2048x64x1023_S2048x64x7_0_0_8 := by
  unfold win3
  after_results_simp <;> rfl

end Cert.ReferenceIdeal.RefRun

end
-- ==== Proof.RefWin4.lean ====
/-
  Layer 4 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 4's operations, in program order. -/
def win4 : List (HloOp τ sig (Elt F)) :=
  [
    unary main_arg1 main_v253 ((extractStridedSlice S2048x64x1 ![0, 0, 15] · slices_S2048x64x1023_S2048x64x1_0_0_15) : (⟨S2048x64x1023, .f32⟩ : BufTy).Contents (Elt F) → (⟨S2048x64x1, .f32⟩ : BufTy).Contents (Elt F)),
    reshape main_v253 main_v254 rfl shapeCasts_S2048x64x1_S2048x64,
    unary main_arg4 main_v255 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v255 main_v256 rfl shapeCasts_S1x64x64_S64x64,
    unary main_v256 main_v257 ((transpose S64x64 [1, 0] · transposes_S64x64_S64x64_1_0) : (⟨S64x64, .f32⟩ : BufTy).Contents (Elt F) → (⟨S64x64, .f32⟩ : BufTy).Contents (Elt F)),
    binary main_v254 main_v257 main_v258 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v259 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v259 main_v260 rfl shapeCasts_S1x64x64_S64x64,
    unary main_v260 main_v261 ((transpose S64x64 [1, 0] · transposes_S64x64_S64x64_1_0) : (⟨S64x64, .f32⟩ : BufTy).Contents (Elt F) → (⟨S64x64, .f32⟩ : BufTy).Contents (Elt F)),
    binary main_v252 main_v261 main_v262 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v258 main_v262 main_v263 (addf : (⟨S2048x64, .f32⟩ : BufTy).Contents (Elt F) → (⟨S2048x64, .f32⟩ : BufTy).Contents (Elt F) → (⟨S2048x64, .f32⟩ : BufTy).Contents (Elt F)),
    unary main_arg6 main_v264 ((extractStridedSlice S1x64 ![4, 0] · slices_S10x64_S1x64_4_0) : (⟨S10x64, .f32⟩ : BufTy).Contents (Elt F) → (⟨S1x64, .f32⟩ : BufTy).Contents (Elt F)),
    reshape main_v264 main_v265 rfl shapeCasts_S1x64_S64,
    unary main_v265 main_v266 (broadcastInDim S1x64 ![1] bcast_S64_S1x64_1 : (⟨S64, .f32⟩ : BufTy).Contents (Elt F) → (⟨S1x64, .f32⟩ : BufTy).Contents (Elt F)),
    unary main_v266 main_v267 (broadcastInDim S2048x64 ![0, 1] bcast_S1x64_S2048x64_0_1 : (⟨S1x64, .f32⟩ : BufTy).Contents (Elt F) → (⟨S2048x64, .f32⟩ : BufTy).Contents (Elt F)),
    binary main_v263 main_v267 main_v268 (addf : (⟨S2048x64, .f32⟩ : BufTy).Contents (Elt F) → (⟨S2048x64, .f32⟩ : BufTy).Contents (Elt F) → (⟨S2048x64, .f32⟩ : BufTy).Contents (Elt F)),
    unary main_arg7 main_v269 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v269 main_v270 rfl shapeCasts_S1x64x64_S64x64,
    unary main_v270 main_v271 ((transpose S64x64 [1, 0] · transposes_S64x64_S64x64_1_0) : (⟨S64x64, .f32⟩ : BufTy).Contents (Elt F) → (⟨S64x64, .f32⟩ : BufTy).Contents (Elt F)),
    binary main_v254 main_v271 main_v272 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v273 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v273 main_v274 rfl shapeCasts_S1x64x64_S64x64,
    unary main_v274 main_v275 ((transpose S64x64 [1, 0] · transposes_S64x64_S64x64_1_0) : (⟨S64x64, .f32⟩ : BufTy).Contents (Elt F) → (⟨S64x64, .f32⟩ : BufTy).Contents (Elt F)),
    binary main_v252 main_v275 main_v276 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v272 main_v276 main_v277 (addf : (⟨S2048x64, .f32⟩ : BufTy).Contents (Elt F) → (⟨S2048x64, .f32⟩ : BufTy).Contents (Elt F) → (⟨S2048x64, .f32⟩ : BufTy).Contents (Elt F)),
    unary main_arg9 main_v278 ((extractStridedSlice S1x64 ![4, 0] · slices_S10x64_S1x64_4_0) : (⟨S10x64, .f32⟩ : BufTy).Contents (Elt F) → (⟨S1x64, .f32⟩ : BufTy).Contents (Elt F)),
    reshape main_v278 main_v279 rfl shapeCasts_S1x64_S64,
    unary main_v279 main_v280 (broadcastInDim S1x64 ![1] bcast_S64_S1x64_1 : (⟨S64, .f32⟩ : BufTy).Contents (Elt F) → (⟨S1x64, .f32⟩ : BufTy).Contents (Elt F)),
    unary main_v280 main_v281 (broadcastInDim S2048x64 ![0, 1] bcast_S1x64_S2048x64_0_1 : (⟨S1x64, .f32⟩ : BufTy).Contents (Elt F) → (⟨S2048x64, .f32⟩ : BufTy).Contents (Elt F)),
    binary main_v277 main_v281 main_v282 (addf : (⟨S2048x64, .f32⟩ : BufTy).Contents (Elt F) → (⟨S2048x64, .f32⟩ : BufTy).Contents (Elt F) → (⟨S2048x64, .f32⟩ : BufTy).Contents (Elt F)),
    unary main_v268 main_v283 (Host.tanh : (⟨S2048x64, .f32⟩ : BufTy).Contents (Elt F) → (⟨S2048x64, .f32⟩ : BufTy).Contents (Elt F)),
    unary main_v282 main_v284 (Host.negf : (⟨S2048x64, .f32⟩ : BufTy).Contents (Elt F) → (⟨S2048x64, .f32⟩ : BufTy).Contents (Elt F)),
    unary main_v284 main_v285 (Host.exp : (⟨S2048x64, .f32⟩ : BufTy).Contents (Elt F) → (⟨S2048x64, .f32⟩ : BufTy).Contents (Elt F)),
    nullary main_cst_12 (constant S_ .f32 0x3F800000#32),
    unary main_cst_12 main_v286 (broadcastInDim S2048x64 ![] bcast_S_S2048x64 : (⟨S_, .f32⟩ : BufTy).Contents (Elt F) → (⟨S2048x64, .f32⟩ : BufTy).Contents (Elt F)),
    binary main_v286 main_v285 main_v287 (addf : (⟨S2048x64, .f32⟩ : BufTy).Contents (Elt F) → (⟨S2048x64, .f32⟩ : BufTy).Contents (Elt F) → (⟨S2048x64, .f32⟩ : BufTy).Contents (Elt F)),
    nullary main_cst_13 (constant S_ .f32 0x3F800000#32),
    unary main_cst_13 main_v288 (broadcastInDim S2048x64 ![] bcast_S_S2048x64 : (⟨S_, .f32⟩ : BufTy).Contents (Elt F) → (⟨S2048x64, .f32⟩ : BufTy).Contents (Elt F)),
    binary main_v288 main_v287 main_v289 (Host.divf : (⟨S2048x64, .f32⟩ : BufTy).Contents (Elt F) → (⟨S2048x64, .f32⟩ : BufTy).Contents (Elt F) → (⟨S2048x64, .f32⟩ : BufTy).Contents (Elt F)),
    binary main_v283 main_v289 main_v290 (mulf : (⟨S2048x64, .f32⟩ : BufTy).Contents (Elt F) → (⟨S2048x64, .f32⟩ : BufTy).Contents (Elt F) → (⟨S2048x64, .f32⟩ : BufTy).Contents (Elt F)),
    unary main_arg12 main_v291 ((extractStridedSlice S1x96x64 ![4, 0, 0] · slices_S10x96x64_S1x96x64_4_0_0) : (⟨S10x96x64, .f32⟩ : BufTy).Contents (Elt F) → (⟨S1x96x64, .f32⟩ : BufTy).Contents (Elt F)),
    reshape main_v291 main_v292 rfl shapeCasts_S1x96x64_S96x64,
    unary main_v292 main_v293 ((transpose S64x96 [1, 0] · transposes_S96x64_S64x96_1_0) : (⟨S96x64, .f32⟩ : BufTy).Contents (Elt F) → (⟨S64x96, .f32⟩ : BufTy).Contents (Elt F)),
    binary main_v290 main_v293 main_v294 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v238 main_v294 main_v295 (addf : (⟨S2048x96, .f32⟩ : BufTy).Contents (Elt F) → (⟨S2048x96, .f32⟩ : BufTy).Contents (Elt F) → (⟨S2048x96, .f32⟩ : BufTy).Contents (Elt F)),
    unary main_arg13 main_v296 ((extractStridedSlice S1x96 ![4, 0] · slices_S10x96_S1x96_4_0) : (⟨S10x96, .f32⟩ : BufTy).Contents (Elt F) → (⟨S1x96, .f32⟩ : BufTy).Contents (Elt F)),
    reshape main_v296 main_v297 rfl shapeCasts_S1x96_S96,
    unary main_v297 main_v298 (broadcastInDim S1x96 ![1] bcast_S96_S1x96_1 : (⟨S96, .f32⟩ : BufTy).Contents (Elt F) → (⟨S1x96, .f32⟩ : BufTy).Contents (Elt F)),
    unary main_v298 main_v299 (broadcastInDim S2048x96 ![0, 1] bcast_S1x96_S2048x96_0_1 : (⟨S1x96, .f32⟩ : BufTy).Contents (Elt F) → (⟨S2048x96, .f32⟩ : BufTy).Contents (Elt F)),
    binary main_v295 main_v299 main_v300 (addf : (⟨S2048x96, .f32⟩ : BufTy).Contents (Elt F) → (⟨S2048x96, .f32⟩ : BufTy).Contents (Elt F) → (⟨S2048x96, .f32⟩ : BufTy).Contents (Elt F)),
    unary main_arg10 main_v301 ((extractStridedSlice S1x64x64 ![4, 0, 0] · slices_S10x64x64_S1x64x64_4_0_0) : (⟨S10x64x64, .f32⟩ : BufTy).Contents (Elt F) → (⟨S1x64x64, .f32⟩ : BufTy).Contents (Elt F)),
    reshape main_v301 main_v302 rfl shapeCasts_S1x64x64_S64x64,
    unary main_v302 main_v303 ((transpose S64x64 [1, 0] · transposes_S64x64_S64x64_1_0) : (⟨S64x64, .f32⟩ : BufTy).Contents (Elt F) → (⟨S64x64, .f32⟩ : BufTy).Contents (Elt F)),
    binary main_v290 main_v303 main_v304 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v305 ((extractStridedSlice S1x64 ![4, 0] · slices_S10x64_S1x64_4_0) : (⟨S10x64, .f32⟩ : BufTy).Contents (Elt F) → (⟨S1x64, .f32⟩ : BufTy).Contents (Elt F)),
    reshape main_v305 main_v306 rfl shapeCasts_S1x64_S64,
    unary main_v306 main_v307 (broadcastInDim S1x64 ![1] bcast_S64_S1x64_1 : (⟨S64, .f32⟩ : BufTy).Contents (Elt F) → (⟨S1x64, .f32⟩ : BufTy).Contents (Elt F)),
    unary main_v307 main_v308 (broadcastInDim S2048x64 ![0, 1] bcast_S1x64_S2048x64_0_1 : (⟨S1x64, .f32⟩ : BufTy).Contents (Elt F) → (⟨S2048x64, .f32⟩ : BufTy).Contents (Elt F)),
    binary main_v304 main_v308 main_v309 (addf : (⟨S2048x64, .f32⟩ : BufTy).Contents (Elt F) → (⟨S2048x64, .f32⟩ : BufTy).Contents (Elt F) → (⟨S2048x64, .f32⟩ : BufTy).Contents (Elt F)),
    unary main_arg1 main_v310 ((extractStridedSlice S2048x64x15 ![0, 0, 16] · slices_S2048x64x1023_S2048x64x15_0_0_16) : (⟨S2048x64x1023, .f32⟩ : BufTy).Contents (Elt F) → (⟨S2048x64x15, .f32⟩ : BufTy).Contents (Elt F)),
    unary main_v252 main_v311 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_14 (constant S_ .f32 0x3E99999A#32),
    unary main_cst_14 main_v312 (broadcastInDim S2048x64 ![] bcast_S_S2048x64 : (⟨S_, .f32⟩ : BufTy).Contents (Elt F) → (⟨S2048x64, .f32⟩ : BufTy).Contents (Elt F)),
    binary main_v312 main_v309 main_v313 (mulf : (⟨S2048x64, .f32⟩ : BufTy).Contents (Elt F) → (⟨S2048x64, .f32⟩ : BufTy).Contents (Elt F) → (⟨S2048x64, .f32⟩ : BufTy).Contents (Elt F)),
    binary main_v252 main_v313 main_v314 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr4 : List (Ref sig .tc) := [main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_cst_12, main_v286, main_v287, main_cst_13, main_v288, main_v289, main_v290, main_v291, main_v292, main_v293, main_v294, main_v295, main_v296, main_v297, main_v298, main_v299, main_v300, main_v301, main_v302, main_v303, main_v304, main_v305, main_v306, main_v307, main_v308, main_v309, main_v310, main_v311, main_cst_14, main_v312, main_v313, main_v314]

theorem win4_writes : (win4 (F := F)).Forall fun op => op.writes ⊆ ((wr4).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win4_keep (V : Valuation τ sig (Elt F)) (r : Ref sig .tc) (hr : r ∉ wr4) :
    after (win4 (F := F)) V (Proc.devRef .tc r) = V (Proc.devRef .tc r) :=
  after_of_writes_sub win4 V win4_writes hr

set_option maxHeartbeats 4000000 in
/-- The activation after the layer. -/
theorem win4_cur (V : Valuation τ sig (Elt F)) :
    after (win4 (F := F)) V (Proc.devRef .tc main_v314)
      = Hand.curNext (rWV V 4) (V (Proc.devRef .tc main_v252)) := by
  unfold win4
  after_results_simp <;> rfl

set_option maxHeartbeats 4000000 in
/-- The skip sum after the layer. -/
theorem win4_skip (V : Valuation τ sig (Elt F)) :
    after (win4 (F := F)) V (Proc.devRef .tc main_v300)
      = Hand.skipNext (rWV V 4) (V (Proc.devRef .tc main_v252)) (V (Proc.devRef .tc main_v238)) := by
  unfold win4
  after_results_simp <;> rfl

/-- The activation the layer found, laid out `[2048, 64, 1]` for the new ring buffer. -/
theorem win4_snap (V : Valuation τ sig (Elt F)) :
    after (win4 (F := F)) V (Proc.devRef .tc main_v311)
      = broadcastInDim S2048x64x1 ![0, 1] bcast_S2048x64_S2048x64x1_0_1 (V (Proc.devRef .tc main_v252)) := by
  unfold win4
  after_results_simp <;> rfl

/-- The ring-buffer lanes the layer passes on unchanged: lanes `16 … 30` of the input ring buffer. -/
theorem win4_piece (V : Valuation τ sig (Elt F)) :
    after (win4 (F := F)) V (Proc.devRef .tc main_v310)
      = extractStridedSlice S2048x64x15 ![0, 0, 16] (V (Proc.devRef .tc main_arg1)) slices_S2048x64x1023_S2048x64x15_0_0_16 := by
  unfold win4
  after_results_simp <;> rfl

end Cert.ReferenceIdeal.RefRun

end
-- ==== Proof.RefWin5.lean ====
/-
  Layer 5 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 5's operations, in program order. -/
def win5 : List (HloOp τ sig (Elt F)) :=
  [
    unary main_arg1 main_v315 ((extractStridedSlice S2048x64x1 ![0, 0, 31] · slices_S2048x64x1023_S2048x64x1_0_0_31) : (⟨S2048x64x1023, .f32⟩ : BufTy).Contents (Elt F) → (⟨S2048x64x1, .f32⟩ : BufTy).Contents (Elt F)),
    reshape main_v315 main_v316 rfl shapeCasts_S2048x64x1_S2048x64,
    unary main_arg4 main_v317 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v317 main_v318 rfl shapeCasts_S1x64x64_S64x64,
    unary main_v318 main_v319 ((transpose S64x64 [1, 0] · transposes_S64x64_S64x64_1_0) : (⟨S64x64, .f32⟩ : BufTy).Contents (Elt F) → (⟨S64x64, .f32⟩ : BufTy).Contents (Elt F)),
    binary main_v316 main_v319 main_v320 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v321 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v321 main_v322 rfl shapeCasts_S1x64x64_S64x64,
    unary main_v322 main_v323 ((transpose S64x64 [1, 0] · transposes_S64x64_S64x64_1_0) : (⟨S64x64, .f32⟩ : BufTy).Contents (Elt F) → (⟨S64x64, .f32⟩ : BufTy).Contents (Elt F)),
    binary main_v314 main_v323 main_v324 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v320 main_v324 main_v325 (addf : (⟨S2048x64, .f32⟩ : BufTy).Contents (Elt F) → (⟨S2048x64, .f32⟩ : BufTy).Contents (Elt F) → (⟨S2048x64, .f32⟩ : BufTy).Contents (Elt F)),
    unary main_arg6 main_v326 ((extractStridedSlice S1x64 ![5, 0] · slices_S10x64_S1x64_5_0) : (⟨S10x64, .f32⟩ : BufTy).Contents (Elt F) → (⟨S1x64, .f32⟩ : BufTy).Contents (Elt F)),
    reshape main_v326 main_v327 rfl shapeCasts_S1x64_S64,
    unary main_v327 main_v328 (broadcastInDim S1x64 ![1] bcast_S64_S1x64_1 : (⟨S64, .f32⟩ : BufTy).Contents (Elt F) → (⟨S1x64, .f32⟩ : BufTy).Contents (Elt F)),
    unary main_v328 main_v329 (broadcastInDim S2048x64 ![0, 1] bcast_S1x64_S2048x64_0_1 : (⟨S1x64, .f32⟩ : BufTy).Contents (Elt F) → (⟨S2048x64, .f32⟩ : BufTy).Contents (Elt F)),
    binary main_v325 main_v329 main_v330 (addf : (⟨S2048x64, .f32⟩ : BufTy).Contents (Elt F) → (⟨S2048x64, .f32⟩ : BufTy).Contents (Elt F) → (⟨S2048x64, .f32⟩ : BufTy).Contents (Elt F)),
    unary main_arg7 main_v331 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v331 main_v332 rfl shapeCasts_S1x64x64_S64x64,
    unary main_v332 main_v333 ((transpose S64x64 [1, 0] · transposes_S64x64_S64x64_1_0) : (⟨S64x64, .f32⟩ : BufTy).Contents (Elt F) → (⟨S64x64, .f32⟩ : BufTy).Contents (Elt F)),
    binary main_v316 main_v333 main_v334 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v335 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v335 main_v336 rfl shapeCasts_S1x64x64_S64x64,
    unary main_v336 main_v337 ((transpose S64x64 [1, 0] · transposes_S64x64_S64x64_1_0) : (⟨S64x64, .f32⟩ : BufTy).Contents (Elt F) → (⟨S64x64, .f32⟩ : BufTy).Contents (Elt F)),
    binary main_v314 main_v337 main_v338 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v334 main_v338 main_v339 (addf : (⟨S2048x64, .f32⟩ : BufTy).Contents (Elt F) → (⟨S2048x64, .f32⟩ : BufTy).Contents (Elt F) → (⟨S2048x64, .f32⟩ : BufTy).Contents (Elt F)),
    unary main_arg9 main_v340 ((extractStridedSlice S1x64 ![5, 0] · slices_S10x64_S1x64_5_0) : (⟨S10x64, .f32⟩ : BufTy).Contents (Elt F) → (⟨S1x64, .f32⟩ : BufTy).Contents (Elt F)),
    reshape main_v340 main_v341 rfl shapeCasts_S1x64_S64,
    unary main_v341 main_v342 (broadcastInDim S1x64 ![1] bcast_S64_S1x64_1 : (⟨S64, .f32⟩ : BufTy).Contents (Elt F) → (⟨S1x64, .f32⟩ : BufTy).Contents (Elt F)),
    unary main_v342 main_v343 (broadcastInDim S2048x64 ![0, 1] bcast_S1x64_S2048x64_0_1 : (⟨S1x64, .f32⟩ : BufTy).Contents (Elt F) → (⟨S2048x64, .f32⟩ : BufTy).Contents (Elt F)),
    binary main_v339 main_v343 main_v344 (addf : (⟨S2048x64, .f32⟩ : BufTy).Contents (Elt F) → (⟨S2048x64, .f32⟩ : BufTy).Contents (Elt F) → (⟨S2048x64, .f32⟩ : BufTy).Contents (Elt F)),
    unary main_v330 main_v345 (Host.tanh : (⟨S2048x64, .f32⟩ : BufTy).Contents (Elt F) → (⟨S2048x64, .f32⟩ : BufTy).Contents (Elt F)),
    unary main_v344 main_v346 (Host.negf : (⟨S2048x64, .f32⟩ : BufTy).Contents (Elt F) → (⟨S2048x64, .f32⟩ : BufTy).Contents (Elt F)),
    unary main_v346 main_v347 (Host.exp : (⟨S2048x64, .f32⟩ : BufTy).Contents (Elt F) → (⟨S2048x64, .f32⟩ : BufTy).Contents (Elt F)),
    nullary main_cst_15 (constant S_ .f32 0x3F800000#32),
    unary main_cst_15 main_v348 (broadcastInDim S2048x64 ![] bcast_S_S2048x64 : (⟨S_, .f32⟩ : BufTy).Contents (Elt F) → (⟨S2048x64, .f32⟩ : BufTy).Contents (Elt F)),
    binary main_v348 main_v347 main_v349 (addf : (⟨S2048x64, .f32⟩ : BufTy).Contents (Elt F) → (⟨S2048x64, .f32⟩ : BufTy).Contents (Elt F) → (⟨S2048x64, .f32⟩ : BufTy).Contents (Elt F)),
    nullary main_cst_16 (constant S_ .f32 0x3F800000#32),
    unary main_cst_16 main_v350 (broadcastInDim S2048x64 ![] bcast_S_S2048x64 : (⟨S_, .f32⟩ : BufTy).Contents (Elt F) → (⟨S2048x64, .f32⟩ : BufTy).Contents (Elt F)),
    binary main_v350 main_v349 main_v351 (Host.divf : (⟨S2048x64, .f32⟩ : BufTy).Contents (Elt F) → (⟨S2048x64, .f32⟩ : BufTy).Contents (Elt F) → (⟨S2048x64, .f32⟩ : BufTy).Contents (Elt F)),
    binary main_v345 main_v351 main_v352 (mulf : (⟨S2048x64, .f32⟩ : BufTy).Contents (Elt F) → (⟨S2048x64, .f32⟩ : BufTy).Contents (Elt F) → (⟨S2048x64, .f32⟩ : BufTy).Contents (Elt F)),
    unary main_arg12 main_v353 ((extractStridedSlice S1x96x64 ![5, 0, 0] · slices_S10x96x64_S1x96x64_5_0_0) : (⟨S10x96x64, .f32⟩ : BufTy).Contents (Elt F) → (⟨S1x96x64, .f32⟩ : BufTy).Contents (Elt F)),
    reshape main_v353 main_v354 rfl shapeCasts_S1x96x64_S96x64,
    unary main_v354 main_v355 ((transpose S64x96 [1, 0] · transposes_S96x64_S64x96_1_0) : (⟨S96x64, .f32⟩ : BufTy).Contents (Elt F) → (⟨S64x96, .f32⟩ : BufTy).Contents (Elt F)),
    binary main_v352 main_v355 main_v356 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v300 main_v356 main_v357 (addf : (⟨S2048x96, .f32⟩ : BufTy).Contents (Elt F) → (⟨S2048x96, .f32⟩ : BufTy).Contents (Elt F) → (⟨S2048x96, .f32⟩ : BufTy).Contents (Elt F)),
    unary main_arg13 main_v358 ((extractStridedSlice S1x96 ![5, 0] · slices_S10x96_S1x96_5_0) : (⟨S10x96, .f32⟩ : BufTy).Contents (Elt F) → (⟨S1x96, .f32⟩ : BufTy).Contents (Elt F)),
    reshape main_v358 main_v359 rfl shapeCasts_S1x96_S96,
    unary main_v359 main_v360 (broadcastInDim S1x96 ![1] bcast_S96_S1x96_1 : (⟨S96, .f32⟩ : BufTy).Contents (Elt F) → (⟨S1x96, .f32⟩ : BufTy).Contents (Elt F)),
    unary main_v360 main_v361 (broadcastInDim S2048x96 ![0, 1] bcast_S1x96_S2048x96_0_1 : (⟨S1x96, .f32⟩ : BufTy).Contents (Elt F) → (⟨S2048x96, .f32⟩ : BufTy).Contents (Elt F)),
    binary main_v357 main_v361 main_v362 (addf : (⟨S2048x96, .f32⟩ : BufTy).Contents (Elt F) → (⟨S2048x96, .f32⟩ : BufTy).Contents (Elt F) → (⟨S2048x96, .f32⟩ : BufTy).Contents (Elt F)),
    unary main_arg10 main_v363 ((extractStridedSlice S1x64x64 ![5, 0, 0] · slices_S10x64x64_S1x64x64_5_0_0) : (⟨S10x64x64, .f32⟩ : BufTy).Contents (Elt F) → (⟨S1x64x64, .f32⟩ : BufTy).Contents (Elt F)),
    reshape main_v363 main_v364 rfl shapeCasts_S1x64x64_S64x64,
    unary main_v364 main_v365 ((transpose S64x64 [1, 0] · transposes_S64x64_S64x64_1_0) : (⟨S64x64, .f32⟩ : BufTy).Contents (Elt F) → (⟨S64x64, .f32⟩ : BufTy).Contents (Elt F)),
    binary main_v352 main_v365 main_v366 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v367 ((extractStridedSlice S1x64 ![5, 0] · slices_S10x64_S1x64_5_0) : (⟨S10x64, .f32⟩ : BufTy).Contents (Elt F) → (⟨S1x64, .f32⟩ : BufTy).Contents (Elt F)),
    reshape main_v367 main_v368 rfl shapeCasts_S1x64_S64,
    unary main_v368 main_v369 (broadcastInDim S1x64 ![1] bcast_S64_S1x64_1 : (⟨S64, .f32⟩ : BufTy).Contents (Elt F) → (⟨S1x64, .f32⟩ : BufTy).Contents (Elt F)),
    unary main_v369 main_v370 (broadcastInDim S2048x64 ![0, 1] bcast_S1x64_S2048x64_0_1 : (⟨S1x64, .f32⟩ : BufTy).Contents (Elt F) → (⟨S2048x64, .f32⟩ : BufTy).Contents (Elt F)),
    binary main_v366 main_v370 main_v371 (addf : (⟨S2048x64, .f32⟩ : BufTy).Contents (Elt F) → (⟨S2048x64, .f32⟩ : BufTy).Contents (Elt F) → (⟨S2048x64, .f32⟩ : BufTy).Contents (Elt F)),
    unary main_arg1 main_v372 ((extractStridedSlice S2048x64x31 ![0, 0, 32] · slices_S2048x64x1023_S2048x64x31_0_0_32) : (⟨S2048x64x1023, .f32⟩ : BufTy).Contents (Elt F) → (⟨S2048x64x31, .f32⟩ : BufTy).Contents (Elt F)),
    unary main_v314 main_v373 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_17 (constant S_ .f32 0x3E99999A#32),
    unary main_cst_17 main_v374 (broadcastInDim S2048x64 ![] bcast_S_S2048x64 : (⟨S_, .f32⟩ : BufTy).Contents (Elt F) → (⟨S2048x64, .f32⟩ : BufTy).Contents (Elt F)),
    binary main_v374 main_v371 main_v375 (mulf : (⟨S2048x64, .f32⟩ : BufTy).Contents (Elt F) → (⟨S2048x64, .f32⟩ : BufTy).Contents (Elt F) → (⟨S2048x64, .f32⟩ : BufTy).Contents (Elt F)),
    binary main_v314 main_v375 main_v376 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr5 : List (Ref sig .tc) := [main_v315, main_v316, main_v317, main_v318, main_v319, main_v320, main_v321, main_v322, main_v323, main_v324, main_v325, main_v326, main_v327, main_v328, main_v329, main_v330, main_v331, main_v332, main_v333, main_v334, main_v335, main_v336, main_v337, main_v338, main_v339, main_v340, main_v341, main_v342, main_v343, main_v344, main_v345, main_v346, main_v347, main_cst_15, main_v348, main_v349, main_cst_16, main_v350, main_v351, main_v352, main_v353, main_v354, main_v355, main_v356, main_v357, main_v358, main_v359, main_v360, main_v361, main_v362, main_v363, main_v364, main_v365, main_v366, main_v367, main_v368, main_v369, main_v370, main_v371, main_v372, main_v373, main_cst_17, main_v374, main_v375, main_v376]

theorem win5_writes : (win5 (F := F)).Forall fun op => op.writes ⊆ ((wr5).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win5_keep (V : Valuation τ sig (Elt F)) (r : Ref sig .tc) (hr : r ∉ wr5) :
    after (win5 (F := F)) V (Proc.devRef .tc r) = V (Proc.devRef .tc r) :=
  after_of_writes_sub win5 V win5_writes hr

set_option maxHeartbeats 4000000 in
/-- The activation after the layer. -/
theorem win5_cur (V : Valuation τ sig (Elt F)) :
    after (win5 (F := F)) V (Proc.devRef .tc main_v376)
      = Hand.curNext (rWV V 5) (V (Proc.devRef .tc main_v314)) := by
  unfold win5
  after_results_simp <;> rfl

set_option maxHeartbeats 4000000 in
/-- The skip sum after the layer. -/
theorem win5_skip (V : Valuation τ sig (Elt F)) :
    after (win5 (F := F)) V (Proc.devRef .tc main_v362)
      = Hand.skipNext (rWV V 5) (V (Proc.devRef .tc main_v314)) (V (Proc.devRef .tc main_v300)) := by
  unfold win5
  after_results_simp <;> rfl

/-- The activation the layer found, laid out `[2048, 64, 1]` for the new ring buffer. -/
theorem win5_snap (V : Valuation τ sig (Elt F)) :
    after (win5 (F := F)) V (Proc.devRef .tc main_v373)
      = broadcastInDim S2048x64x1 ![0, 1] bcast_S2048x64_S2048x64x1_0_1 (V (Proc.devRef .tc main_v314)) := by
  unfold win5
  after_results_simp <;> rfl

/-- The ring-buffer lanes the layer passes on unchanged: lanes `32 … 62` of the input ring buffer. -/
theorem win5_piece (V : Valuation τ sig (Elt F)) :
    after (win5 (F := F)) V (Proc.devRef .tc main_v372)
      = extractStridedSlice S2048x64x31 ![0, 0, 32] (V (Proc.devRef .tc main_arg1)) slices_S2048x64x1023_S2048x64x31_0_0_32 := by
  unfold win5
  after_results_simp <;> rfl

end Cert.ReferenceIdeal.RefRun

end
-- ==== Proof.RefWin6.lean ====
/-
  Layer 6 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 6's operations, in program order. -/
def win6 : List (HloOp τ sig (Elt F)) :=
  [
    unary main_arg1 main_v377 ((extractStridedSlice S2048x64x1 ![0, 0, 63] · slices_S2048x64x1023_S2048x64x1_0_0_63) : (⟨S2048x64x1023, .f32⟩ : BufTy).Contents (Elt F) → (⟨S2048x64x1, .f32⟩ : BufTy).Contents (Elt F)),
    reshape main_v377 main_v378 rfl shapeCasts_S2048x64x1_S2048x64,
    unary main_arg4 main_v379 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v379 main_v380 rfl shapeCasts_S1x64x64_S64x64,
    unary main_v380 main_v381 ((transpose S64x64 [1, 0] · transposes_S64x64_S64x64_1_0) : (⟨S64x64, .f32⟩ : BufTy).Contents (Elt F) → (⟨S64x64, .f32⟩ : BufTy).Contents (Elt F)),
    binary main_v378 main_v381 main_v382 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v383 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v383 main_v384 rfl shapeCasts_S1x64x64_S64x64,
    unary main_v384 main_v385 ((transpose S64x64 [1, 0] · transposes_S64x64_S64x64_1_0) : (⟨S64x64, .f32⟩ : BufTy).Contents (Elt F) → (⟨S64x64, .f32⟩ : BufTy).Contents (Elt F)),
    binary main_v376 main_v385 main_v386 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v382 main_v386 main_v387 (addf : (⟨S2048x64, .f32⟩ : BufTy).Contents (Elt F) → (⟨S2048x64, .f32⟩ : BufTy).Contents (Elt F) → (⟨S2048x64, .f32⟩ : BufTy).Contents (Elt F)),
    unary main_arg6 main_v388 ((extractStridedSlice S1x64 ![6, 0] · slices_S10x64_S1x64_6_0) : (⟨S10x64, .f32⟩ : BufTy).Contents (Elt F) → (⟨S1x64, .f32⟩ : BufTy).Contents (Elt F)),
    reshape main_v388 main_v389 rfl shapeCasts_S1x64_S64,
    unary main_v389 main_v390 (broadcastInDim S1x64 ![1] bcast_S64_S1x64_1 : (⟨S64, .f32⟩ : BufTy).Contents (Elt F) → (⟨S1x64, .f32⟩ : BufTy).Contents (Elt F)),
    unary main_v390 main_v391 (broadcastInDim S2048x64 ![0, 1] bcast_S1x64_S2048x64_0_1 : (⟨S1x64, .f32⟩ : BufTy).Contents (Elt F) → (⟨S2048x64, .f32⟩ : BufTy).Contents (Elt F)),
    binary main_v387 main_v391 main_v392 (addf : (⟨S2048x64, .f32⟩ : BufTy).Contents (Elt F) → (⟨S2048x64, .f32⟩ : BufTy).Contents (Elt F) → (⟨S2048x64, .f32⟩ : BufTy).Contents (Elt F)),
    unary main_arg7 main_v393 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v393 main_v394 rfl shapeCasts_S1x64x64_S64x64,
    unary main_v394 main_v395 ((transpose S64x64 [1, 0] · transposes_S64x64_S64x64_1_0) : (⟨S64x64, .f32⟩ : BufTy).Contents (Elt F) → (⟨S64x64, .f32⟩ : BufTy).Contents (Elt F)),
    binary main_v378 main_v395 main_v396 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v397 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v397 main_v398 rfl shapeCasts_S1x64x64_S64x64,
    unary main_v398 main_v399 ((transpose S64x64 [1, 0] · transposes_S64x64_S64x64_1_0) : (⟨S64x64, .f32⟩ : BufTy).Contents (Elt F) → (⟨S64x64, .f32⟩ : BufTy).Contents (Elt F)),
    binary main_v376 main_v399 main_v400 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v396 main_v400 main_v401 (addf : (⟨S2048x64, .f32⟩ : BufTy).Contents (Elt F) → (⟨S2048x64, .f32⟩ : BufTy).Contents (Elt F) → (⟨S2048x64, .f32⟩ : BufTy).Contents (Elt F)),
    unary main_arg9 main_v402 ((extractStridedSlice S1x64 ![6, 0] · slices_S10x64_S1x64_6_0) : (⟨S10x64, .f32⟩ : BufTy).Contents (Elt F) → (⟨S1x64, .f32⟩ : BufTy).Contents (Elt F)),
    reshape main_v402 main_v403 rfl shapeCasts_S1x64_S64,
    unary main_v403 main_v404 (broadcastInDim S1x64 ![1] bcast_S64_S1x64_1 : (⟨S64, .f32⟩ : BufTy).Contents (Elt F) → (⟨S1x64, .f32⟩ : BufTy).Contents (Elt F)),
    unary main_v404 main_v405 (broadcastInDim S2048x64 ![0, 1] bcast_S1x64_S2048x64_0_1 : (⟨S1x64, .f32⟩ : BufTy).Contents (Elt F) → (⟨S2048x64, .f32⟩ : BufTy).Contents (Elt F)),
    binary main_v401 main_v405 main_v406 (addf : (⟨S2048x64, .f32⟩ : BufTy).Contents (Elt F) → (⟨S2048x64, .f32⟩ : BufTy).Contents (Elt F) → (⟨S2048x64, .f32⟩ : BufTy).Contents (Elt F)),
    unary main_v392 main_v407 (Host.tanh : (⟨S2048x64, .f32⟩ : BufTy).Contents (Elt F) → (⟨S2048x64, .f32⟩ : BufTy).Contents (Elt F)),
    unary main_v406 main_v408 (Host.negf : (⟨S2048x64, .f32⟩ : BufTy).Contents (Elt F) → (⟨S2048x64, .f32⟩ : BufTy).Contents (Elt F)),
    unary main_v408 main_v409 (Host.exp : (⟨S2048x64, .f32⟩ : BufTy).Contents (Elt F) → (⟨S2048x64, .f32⟩ : BufTy).Contents (Elt F)),
    nullary main_cst_18 (constant S_ .f32 0x3F800000#32),
    unary main_cst_18 main_v410 (broadcastInDim S2048x64 ![] bcast_S_S2048x64 : (⟨S_, .f32⟩ : BufTy).Contents (Elt F) → (⟨S2048x64, .f32⟩ : BufTy).Contents (Elt F)),
    binary main_v410 main_v409 main_v411 (addf : (⟨S2048x64, .f32⟩ : BufTy).Contents (Elt F) → (⟨S2048x64, .f32⟩ : BufTy).Contents (Elt F) → (⟨S2048x64, .f32⟩ : BufTy).Contents (Elt F)),
    nullary main_cst_19 (constant S_ .f32 0x3F800000#32),
    unary main_cst_19 main_v412 (broadcastInDim S2048x64 ![] bcast_S_S2048x64 : (⟨S_, .f32⟩ : BufTy).Contents (Elt F) → (⟨S2048x64, .f32⟩ : BufTy).Contents (Elt F)),
    binary main_v412 main_v411 main_v413 (Host.divf : (⟨S2048x64, .f32⟩ : BufTy).Contents (Elt F) → (⟨S2048x64, .f32⟩ : BufTy).Contents (Elt F) → (⟨S2048x64, .f32⟩ : BufTy).Contents (Elt F)),
    binary main_v407 main_v413 main_v414 (mulf : (⟨S2048x64, .f32⟩ : BufTy).Contents (Elt F) → (⟨S2048x64, .f32⟩ : BufTy).Contents (Elt F) → (⟨S2048x64, .f32⟩ : BufTy).Contents (Elt F)),
    unary main_arg12 main_v415 ((extractStridedSlice S1x96x64 ![6, 0, 0] · slices_S10x96x64_S1x96x64_6_0_0) : (⟨S10x96x64, .f32⟩ : BufTy).Contents (Elt F) → (⟨S1x96x64, .f32⟩ : BufTy).Contents (Elt F)),
    reshape main_v415 main_v416 rfl shapeCasts_S1x96x64_S96x64,
    unary main_v416 main_v417 ((transpose S64x96 [1, 0] · transposes_S96x64_S64x96_1_0) : (⟨S96x64, .f32⟩ : BufTy).Contents (Elt F) → (⟨S64x96, .f32⟩ : BufTy).Contents (Elt F)),
    binary main_v414 main_v417 main_v418 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v362 main_v418 main_v419 (addf : (⟨S2048x96, .f32⟩ : BufTy).Contents (Elt F) → (⟨S2048x96, .f32⟩ : BufTy).Contents (Elt F) → (⟨S2048x96, .f32⟩ : BufTy).Contents (Elt F)),
    unary main_arg13 main_v420 ((extractStridedSlice S1x96 ![6, 0] · slices_S10x96_S1x96_6_0) : (⟨S10x96, .f32⟩ : BufTy).Contents (Elt F) → (⟨S1x96, .f32⟩ : BufTy).Contents (Elt F)),
    reshape main_v420 main_v421 rfl shapeCasts_S1x96_S96,
    unary main_v421 main_v422 (broadcastInDim S1x96 ![1] bcast_S96_S1x96_1 : (⟨S96, .f32⟩ : BufTy).Contents (Elt F) → (⟨S1x96, .f32⟩ : BufTy).Contents (Elt F)),
    unary main_v422 main_v423 (broadcastInDim S2048x96 ![0, 1] bcast_S1x96_S2048x96_0_1 : (⟨S1x96, .f32⟩ : BufTy).Contents (Elt F) → (⟨S2048x96, .f32⟩ : BufTy).Contents (Elt F)),
    binary main_v419 main_v423 main_v424 (addf : (⟨S2048x96, .f32⟩ : BufTy).Contents (Elt F) → (⟨S2048x96, .f32⟩ : BufTy).Contents (Elt F) → (⟨S2048x96, .f32⟩ : BufTy).Contents (Elt F)),
    unary main_arg10 main_v425 ((extractStridedSlice S1x64x64 ![6, 0, 0] · slices_S10x64x64_S1x64x64_6_0_0) : (⟨S10x64x64, .f32⟩ : BufTy).Contents (Elt F) → (⟨S1x64x64, .f32⟩ : BufTy).Contents (Elt F)),
    reshape main_v425 main_v426 rfl shapeCasts_S1x64x64_S64x64,
    unary main_v426 main_v427 ((transpose S64x64 [1, 0] · transposes_S64x64_S64x64_1_0) : (⟨S64x64, .f32⟩ : BufTy).Contents (Elt F) → (⟨S64x64, .f32⟩ : BufTy).Contents (Elt F)),
    binary main_v414 main_v427 main_v428 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v429 ((extractStridedSlice S1x64 ![6, 0] · slices_S10x64_S1x64_6_0) : (⟨S10x64, .f32⟩ : BufTy).Contents (Elt F) → (⟨S1x64, .f32⟩ : BufTy).Contents (Elt F)),
    reshape main_v429 main_v430 rfl shapeCasts_S1x64_S64,
    unary main_v430 main_v431 (broadcastInDim S1x64 ![1] bcast_S64_S1x64_1 : (⟨S64, .f32⟩ : BufTy).Contents (Elt F) → (⟨S1x64, .f32⟩ : BufTy).Contents (Elt F)),
    unary main_v431 main_v432 (broadcastInDim S2048x64 ![0, 1] bcast_S1x64_S2048x64_0_1 : (⟨S1x64, .f32⟩ : BufTy).Contents (Elt F) → (⟨S2048x64, .f32⟩ : BufTy).Contents (Elt F)),
    binary main_v428 main_v432 main_v433 (addf : (⟨S2048x64, .f32⟩ : BufTy).Contents (Elt F) → (⟨S2048x64, .f32⟩ : BufTy).Contents (Elt F) → (⟨S2048x64, .f32⟩ : BufTy).Contents (Elt F)),
    unary main_arg1 main_v434 ((extractStridedSlice S2048x64x63 ![0, 0, 64] · slices_S2048x64x1023_S2048x64x63_0_0_64) : (⟨S2048x64x1023, .f32⟩ : BufTy).Contents (Elt F) → (⟨S2048x64x63, .f32⟩ : BufTy).Contents (Elt F)),
    unary main_v376 main_v435 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_20 (constant S_ .f32 0x3E99999A#32),
    unary main_cst_20 main_v436 (broadcastInDim S2048x64 ![] bcast_S_S2048x64 : (⟨S_, .f32⟩ : BufTy).Contents (Elt F) → (⟨S2048x64, .f32⟩ : BufTy).Contents (Elt F)),
    binary main_v436 main_v433 main_v437 (mulf : (⟨S2048x64, .f32⟩ : BufTy).Contents (Elt F) → (⟨S2048x64, .f32⟩ : BufTy).Contents (Elt F) → (⟨S2048x64, .f32⟩ : BufTy).Contents (Elt F)),
    binary main_v376 main_v437 main_v438 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr6 : List (Ref sig .tc) := [main_v377, main_v378, main_v379, main_v380, main_v381, main_v382, main_v383, main_v384, main_v385, main_v386, main_v387, main_v388, main_v389, main_v390, main_v391, main_v392, main_v393, main_v394, main_v395, main_v396, main_v397, main_v398, main_v399, main_v400, main_v401, main_v402, main_v403, main_v404, main_v405, main_v406, main_v407, main_v408, main_v409, main_cst_18, main_v410, main_v411, main_cst_19, main_v412, main_v413, main_v414, main_v415, main_v416, main_v417, main_v418, main_v419, main_v420, main_v421, main_v422, main_v423, main_v424, main_v425, main_v426, main_v427, main_v428, main_v429, main_v430, main_v431, main_v432, main_v433, main_v434, main_v435, main_cst_20, main_v436, main_v437, main_v438]

theorem win6_writes : (win6 (F := F)).Forall fun op => op.writes ⊆ ((wr6).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win6_keep (V : Valuation τ sig (Elt F)) (r : Ref sig .tc) (hr : r ∉ wr6) :
    after (win6 (F := F)) V (Proc.devRef .tc r) = V (Proc.devRef .tc r) :=
  after_of_writes_sub win6 V win6_writes hr

set_option maxHeartbeats 4000000 in
/-- The activation after the layer. -/
theorem win6_cur (V : Valuation τ sig (Elt F)) :
    after (win6 (F := F)) V (Proc.devRef .tc main_v438)
      = Hand.curNext (rWV V 6) (V (Proc.devRef .tc main_v376)) := by
  unfold win6
  after_results_simp <;> rfl

set_option maxHeartbeats 4000000 in
/-- The skip sum after the layer. -/
theorem win6_skip (V : Valuation τ sig (Elt F)) :
    after (win6 (F := F)) V (Proc.devRef .tc main_v424)
      = Hand.skipNext (rWV V 6) (V (Proc.devRef .tc main_v376)) (V (Proc.devRef .tc main_v362)) := by
  unfold win6
  after_results_simp <;> rfl

/-- The activation the layer found, laid out `[2048, 64, 1]` for the new ring buffer. -/
theorem win6_snap (V : Valuation τ sig (Elt F)) :
    after (win6 (F := F)) V (Proc.devRef .tc main_v435)
      = broadcastInDim S2048x64x1 ![0, 1] bcast_S2048x64_S2048x64x1_0_1 (V (Proc.devRef .tc main_v376)) := by
  unfold win6
  after_results_simp <;> rfl

/-- The ring-buffer lanes the layer passes on unchanged: lanes `64 … 126` of the input ring buffer. -/
theorem win6_piece (V : Valuation τ sig (Elt F)) :
    after (win6 (F := F)) V (Proc.devRef .tc main_v434)
      = extractStridedSlice S2048x64x63 ![0, 0, 64] (V (Proc.devRef .tc main_arg1)) slices_S2048x64x1023_S2048x64x63_0_0_64 := by
  unfold win6
  after_results_simp <;> rfl

end Cert.ReferenceIdeal.RefRun

end
-- ==== Proof.RefWin7.lean ====
/-
  Layer 7 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 7's operations, in program order. -/
def win7 : List (HloOp τ sig (Elt F)) :=
  [
    unary main_arg1 main_v439 ((extractStridedSlice S2048x64x1 ![0, 0, 127] · slices_S2048x64x1023_S2048x64x1_0_0_127) : (⟨S2048x64x1023, .f32⟩ : BufTy).Contents (Elt F) → (⟨S2048x64x1, .f32⟩ : BufTy).Contents (Elt F)),
    reshape main_v439 main_v440 rfl shapeCasts_S2048x64x1_S2048x64,
    unary main_arg4 main_v441 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v441 main_v442 rfl shapeCasts_S1x64x64_S64x64,
    unary main_v442 main_v443 ((transpose S64x64 [1, 0] · transposes_S64x64_S64x64_1_0) : (⟨S64x64, .f32⟩ : BufTy).Contents (Elt F) → (⟨S64x64, .f32⟩ : BufTy).Contents (Elt F)),
    binary main_v440 main_v443 main_v444 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v445 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v445 main_v446 rfl shapeCasts_S1x64x64_S64x64,
    unary main_v446 main_v447 ((transpose S64x64 [1, 0] · transposes_S64x64_S64x64_1_0) : (⟨S64x64, .f32⟩ : BufTy).Contents (Elt F) → (⟨S64x64, .f32⟩ : BufTy).Contents (Elt F)),
    binary main_v438 main_v447 main_v448 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v444 main_v448 main_v449 (addf : (⟨S2048x64, .f32⟩ : BufTy).Contents (Elt F) → (⟨S2048x64, .f32⟩ : BufTy).Contents (Elt F) → (⟨S2048x64, .f32⟩ : BufTy).Contents (Elt F)),
    unary main_arg6 main_v450 ((extractStridedSlice S1x64 ![7, 0] · slices_S10x64_S1x64_7_0) : (⟨S10x64, .f32⟩ : BufTy).Contents (Elt F) → (⟨S1x64, .f32⟩ : BufTy).Contents (Elt F)),
    reshape main_v450 main_v451 rfl shapeCasts_S1x64_S64,
    unary main_v451 main_v452 (broadcastInDim S1x64 ![1] bcast_S64_S1x64_1 : (⟨S64, .f32⟩ : BufTy).Contents (Elt F) → (⟨S1x64, .f32⟩ : BufTy).Contents (Elt F)),
    unary main_v452 main_v453 (broadcastInDim S2048x64 ![0, 1] bcast_S1x64_S2048x64_0_1 : (⟨S1x64, .f32⟩ : BufTy).Contents (Elt F) → (⟨S2048x64, .f32⟩ : BufTy).Contents (Elt F)),
    binary main_v449 main_v453 main_v454 (addf : (⟨S2048x64, .f32⟩ : BufTy).Contents (Elt F) → (⟨S2048x64, .f32⟩ : BufTy).Contents (Elt F) → (⟨S2048x64, .f32⟩ : BufTy).Contents (Elt F)),
    unary main_arg7 main_v455 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v455 main_v456 rfl shapeCasts_S1x64x64_S64x64,
    unary main_v456 main_v457 ((transpose S64x64 [1, 0] · transposes_S64x64_S64x64_1_0) : (⟨S64x64, .f32⟩ : BufTy).Contents (Elt F) → (⟨S64x64, .f32⟩ : BufTy).Contents (Elt F)),
    binary main_v440 main_v457 main_v458 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v459 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v459 main_v460 rfl shapeCasts_S1x64x64_S64x64,
    unary main_v460 main_v461 ((transpose S64x64 [1, 0] · transposes_S64x64_S64x64_1_0) : (⟨S64x64, .f32⟩ : BufTy).Contents (Elt F) → (⟨S64x64, .f32⟩ : BufTy).Contents (Elt F)),
    binary main_v438 main_v461 main_v462 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v458 main_v462 main_v463 (addf : (⟨S2048x64, .f32⟩ : BufTy).Contents (Elt F) → (⟨S2048x64, .f32⟩ : BufTy).Contents (Elt F) → (⟨S2048x64, .f32⟩ : BufTy).Contents (Elt F)),
    unary main_arg9 main_v464 ((extractStridedSlice S1x64 ![7, 0] · slices_S10x64_S1x64_7_0) : (⟨S10x64, .f32⟩ : BufTy).Contents (Elt F) → (⟨S1x64, .f32⟩ : BufTy).Contents (Elt F)),
    reshape main_v464 main_v465 rfl shapeCasts_S1x64_S64,
    unary main_v465 main_v466 (broadcastInDim S1x64 ![1] bcast_S64_S1x64_1 : (⟨S64, .f32⟩ : BufTy).Contents (Elt F) → (⟨S1x64, .f32⟩ : BufTy).Contents (Elt F)),
    unary main_v466 main_v467 (broadcastInDim S2048x64 ![0, 1] bcast_S1x64_S2048x64_0_1 : (⟨S1x64, .f32⟩ : BufTy).Contents (Elt F) → (⟨S2048x64, .f32⟩ : BufTy).Contents (Elt F)),
    binary main_v463 main_v467 main_v468 (addf : (⟨S2048x64, .f32⟩ : BufTy).Contents (Elt F) → (⟨S2048x64, .f32⟩ : BufTy).Contents (Elt F) → (⟨S2048x64, .f32⟩ : BufTy).Contents (Elt F)),
    unary main_v454 main_v469 (Host.tanh : (⟨S2048x64, .f32⟩ : BufTy).Contents (Elt F) → (⟨S2048x64, .f32⟩ : BufTy).Contents (Elt F)),
    unary main_v468 main_v470 (Host.negf : (⟨S2048x64, .f32⟩ : BufTy).Contents (Elt F) → (⟨S2048x64, .f32⟩ : BufTy).Contents (Elt F)),
    unary main_v470 main_v471 (Host.exp : (⟨S2048x64, .f32⟩ : BufTy).Contents (Elt F) → (⟨S2048x64, .f32⟩ : BufTy).Contents (Elt F)),
    nullary main_cst_21 (constant S_ .f32 0x3F800000#32),
    unary main_cst_21 main_v472 (broadcastInDim S2048x64 ![] bcast_S_S2048x64 : (⟨S_, .f32⟩ : BufTy).Contents (Elt F) → (⟨S2048x64, .f32⟩ : BufTy).Contents (Elt F)),
    binary main_v472 main_v471 main_v473 (addf : (⟨S2048x64, .f32⟩ : BufTy).Contents (Elt F) → (⟨S2048x64, .f32⟩ : BufTy).Contents (Elt F) → (⟨S2048x64, .f32⟩ : BufTy).Contents (Elt F)),
    nullary main_cst_22 (constant S_ .f32 0x3F800000#32),
    unary main_cst_22 main_v474 (broadcastInDim S2048x64 ![] bcast_S_S2048x64 : (⟨S_, .f32⟩ : BufTy).Contents (Elt F) → (⟨S2048x64, .f32⟩ : BufTy).Contents (Elt F)),
    binary main_v474 main_v473 main_v475 (Host.divf : (⟨S2048x64, .f32⟩ : BufTy).Contents (Elt F) → (⟨S2048x64, .f32⟩ : BufTy).Contents (Elt F) → (⟨S2048x64, .f32⟩ : BufTy).Contents (Elt F)),
    binary main_v469 main_v475 main_v476 (mulf : (⟨S2048x64, .f32⟩ : BufTy).Contents (Elt F) → (⟨S2048x64, .f32⟩ : BufTy).Contents (Elt F) → (⟨S2048x64, .f32⟩ : BufTy).Contents (Elt F)),
    unary main_arg12 main_v477 ((extractStridedSlice S1x96x64 ![7, 0, 0] · slices_S10x96x64_S1x96x64_7_0_0) : (⟨S10x96x64, .f32⟩ : BufTy).Contents (Elt F) → (⟨S1x96x64, .f32⟩ : BufTy).Contents (Elt F)),
    reshape main_v477 main_v478 rfl shapeCasts_S1x96x64_S96x64,
    unary main_v478 main_v479 ((transpose S64x96 [1, 0] · transposes_S96x64_S64x96_1_0) : (⟨S96x64, .f32⟩ : BufTy).Contents (Elt F) → (⟨S64x96, .f32⟩ : BufTy).Contents (Elt F)),
    binary main_v476 main_v479 main_v480 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v424 main_v480 main_v481 (addf : (⟨S2048x96, .f32⟩ : BufTy).Contents (Elt F) → (⟨S2048x96, .f32⟩ : BufTy).Contents (Elt F) → (⟨S2048x96, .f32⟩ : BufTy).Contents (Elt F)),
    unary main_arg13 main_v482 ((extractStridedSlice S1x96 ![7, 0] · slices_S10x96_S1x96_7_0) : (⟨S10x96, .f32⟩ : BufTy).Contents (Elt F) → (⟨S1x96, .f32⟩ : BufTy).Contents (Elt F)),
    reshape main_v482 main_v483 rfl shapeCasts_S1x96_S96,
    unary main_v483 main_v484 (broadcastInDim S1x96 ![1] bcast_S96_S1x96_1 : (⟨S96, .f32⟩ : BufTy).Contents (Elt F) → (⟨S1x96, .f32⟩ : BufTy).Contents (Elt F)),
    unary main_v484 main_v485 (broadcastInDim S2048x96 ![0, 1] bcast_S1x96_S2048x96_0_1 : (⟨S1x96, .f32⟩ : BufTy).Contents (Elt F) → (⟨S2048x96, .f32⟩ : BufTy).Contents (Elt F)),
    binary main_v481 main_v485 main_v486 (addf : (⟨S2048x96, .f32⟩ : BufTy).Contents (Elt F) → (⟨S2048x96, .f32⟩ : BufTy).Contents (Elt F) → (⟨S2048x96, .f32⟩ : BufTy).Contents (Elt F)),
    unary main_arg10 main_v487 ((extractStridedSlice S1x64x64 ![7, 0, 0] · slices_S10x64x64_S1x64x64_7_0_0) : (⟨S10x64x64, .f32⟩ : BufTy).Contents (Elt F) → (⟨S1x64x64, .f32⟩ : BufTy).Contents (Elt F)),
    reshape main_v487 main_v488 rfl shapeCasts_S1x64x64_S64x64,
    unary main_v488 main_v489 ((transpose S64x64 [1, 0] · transposes_S64x64_S64x64_1_0) : (⟨S64x64, .f32⟩ : BufTy).Contents (Elt F) → (⟨S64x64, .f32⟩ : BufTy).Contents (Elt F)),
    binary main_v476 main_v489 main_v490 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v491 ((extractStridedSlice S1x64 ![7, 0] · slices_S10x64_S1x64_7_0) : (⟨S10x64, .f32⟩ : BufTy).Contents (Elt F) → (⟨S1x64, .f32⟩ : BufTy).Contents (Elt F)),
    reshape main_v491 main_v492 rfl shapeCasts_S1x64_S64,
    unary main_v492 main_v493 (broadcastInDim S1x64 ![1] bcast_S64_S1x64_1 : (⟨S64, .f32⟩ : BufTy).Contents (Elt F) → (⟨S1x64, .f32⟩ : BufTy).Contents (Elt F)),
    unary main_v493 main_v494 (broadcastInDim S2048x64 ![0, 1] bcast_S1x64_S2048x64_0_1 : (⟨S1x64, .f32⟩ : BufTy).Contents (Elt F) → (⟨S2048x64, .f32⟩ : BufTy).Contents (Elt F)),
    binary main_v490 main_v494 main_v495 (addf : (⟨S2048x64, .f32⟩ : BufTy).Contents (Elt F) → (⟨S2048x64, .f32⟩ : BufTy).Contents (Elt F) → (⟨S2048x64, .f32⟩ : BufTy).Contents (Elt F)),
    unary main_arg1 main_v496 ((extractStridedSlice S2048x64x127 ![0, 0, 128] · slices_S2048x64x1023_S2048x64x127_0_0_128) : (⟨S2048x64x1023, .f32⟩ : BufTy).Contents (Elt F) → (⟨S2048x64x127, .f32⟩ : BufTy).Contents (Elt F)),
    unary main_v438 main_v497 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_23 (constant S_ .f32 0x3E99999A#32),
    unary main_cst_23 main_v498 (broadcastInDim S2048x64 ![] bcast_S_S2048x64 : (⟨S_, .f32⟩ : BufTy).Contents (Elt F) → (⟨S2048x64, .f32⟩ : BufTy).Contents (Elt F)),
    binary main_v498 main_v495 main_v499 (mulf : (⟨S2048x64, .f32⟩ : BufTy).Contents (Elt F) → (⟨S2048x64, .f32⟩ : BufTy).Contents (Elt F) → (⟨S2048x64, .f32⟩ : BufTy).Contents (Elt F)),
    binary main_v438 main_v499 main_v500 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr7 : List (Ref sig .tc) := [main_v439, main_v440, main_v441, main_v442, main_v443, main_v444, main_v445, main_v446, main_v447, main_v448, main_v449, main_v450, main_v451, main_v452, main_v453, main_v454, main_v455, main_v456, main_v457, main_v458, main_v459, main_v460, main_v461, main_v462, main_v463, main_v464, main_v465, main_v466, main_v467, main_v468, main_v469, main_v470, main_v471, main_cst_21, main_v472, main_v473, main_cst_22, main_v474, main_v475, main_v476, main_v477, main_v478, main_v479, main_v480, main_v481, main_v482, main_v483, main_v484, main_v485, main_v486, main_v487, main_v488, main_v489, main_v490, main_v491, main_v492, main_v493, main_v494, main_v495, main_v496, main_v497, main_cst_23, main_v498, main_v499, main_v500]

theorem win7_writes : (win7 (F := F)).Forall fun op => op.writes ⊆ ((wr7).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win7_keep (V : Valuation τ sig (Elt F)) (r : Ref sig .tc) (hr : r ∉ wr7) :
    after (win7 (F := F)) V (Proc.devRef .tc r) = V (Proc.devRef .tc r) :=
  after_of_writes_sub win7 V win7_writes hr

set_option maxHeartbeats 4000000 in
/-- The activation after the layer. -/
theorem win7_cur (V : Valuation τ sig (Elt F)) :
    after (win7 (F := F)) V (Proc.devRef .tc main_v500)
      = Hand.curNext (rWV V 7) (V (Proc.devRef .tc main_v438)) := by
  unfold win7
  after_results_simp <;> rfl

set_option maxHeartbeats 4000000 in
/-- The skip sum after the layer. -/
theorem win7_skip (V : Valuation τ sig (Elt F)) :
    after (win7 (F := F)) V (Proc.devRef .tc main_v486)
      = Hand.skipNext (rWV V 7) (V (Proc.devRef .tc main_v438)) (V (Proc.devRef .tc main_v424)) := by
  unfold win7
  after_results_simp <;> rfl

/-- The activation the layer found, laid out `[2048, 64, 1]` for the new ring buffer. -/
theorem win7_snap (V : Valuation τ sig (Elt F)) :
    after (win7 (F := F)) V (Proc.devRef .tc main_v497)
      = broadcastInDim S2048x64x1 ![0, 1] bcast_S2048x64_S2048x64x1_0_1 (V (Proc.devRef .tc main_v438)) := by
  unfold win7
  after_results_simp <;> rfl

/-- The ring-buffer lanes the layer passes on unchanged: lanes `128 … 254` of the input ring buffer. -/
theorem win7_piece (V : Valuation τ sig (Elt F)) :
    after (win7 (F := F)) V (Proc.devRef .tc main_v496)
      = extractStridedSlice S2048x64x127 ![0, 0, 128] (V (Proc.devRef .tc main_arg1)) slices_S2048x64x1023_S2048x64x127_0_0_128 := by
  unfold win7
  after_results_simp <;> rfl

end Cert.ReferenceIdeal.RefRun

end
-- ==== Proof.RefWin8.lean ====
/-
  Layer 8 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 8's operations, in program order. -/
def win8 : List (HloOp τ sig (Elt F)) :=
  [
    unary main_arg1 main_v501 ((extractStridedSlice S2048x64x1 ![0, 0, 255] · slices_S2048x64x1023_S2048x64x1_0_0_255) : (⟨S2048x64x1023, .f32⟩ : BufTy).Contents (Elt F) → (⟨S2048x64x1, .f32⟩ : BufTy).Contents (Elt F)),
    reshape main_v501 main_v502 rfl shapeCasts_S2048x64x1_S2048x64,
    unary main_arg4 main_v503 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v503 main_v504 rfl shapeCasts_S1x64x64_S64x64,
    unary main_v504 main_v505 ((transpose S64x64 [1, 0] · transposes_S64x64_S64x64_1_0) : (⟨S64x64, .f32⟩ : BufTy).Contents (Elt F) → (⟨S64x64, .f32⟩ : BufTy).Contents (Elt F)),
    binary main_v502 main_v505 main_v506 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v507 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v507 main_v508 rfl shapeCasts_S1x64x64_S64x64,
    unary main_v508 main_v509 ((transpose S64x64 [1, 0] · transposes_S64x64_S64x64_1_0) : (⟨S64x64, .f32⟩ : BufTy).Contents (Elt F) → (⟨S64x64, .f32⟩ : BufTy).Contents (Elt F)),
    binary main_v500 main_v509 main_v510 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v506 main_v510 main_v511 (addf : (⟨S2048x64, .f32⟩ : BufTy).Contents (Elt F) → (⟨S2048x64, .f32⟩ : BufTy).Contents (Elt F) → (⟨S2048x64, .f32⟩ : BufTy).Contents (Elt F)),
    unary main_arg6 main_v512 ((extractStridedSlice S1x64 ![8, 0] · slices_S10x64_S1x64_8_0) : (⟨S10x64, .f32⟩ : BufTy).Contents (Elt F) → (⟨S1x64, .f32⟩ : BufTy).Contents (Elt F)),
    reshape main_v512 main_v513 rfl shapeCasts_S1x64_S64,
    unary main_v513 main_v514 (broadcastInDim S1x64 ![1] bcast_S64_S1x64_1 : (⟨S64, .f32⟩ : BufTy).Contents (Elt F) → (⟨S1x64, .f32⟩ : BufTy).Contents (Elt F)),
    unary main_v514 main_v515 (broadcastInDim S2048x64 ![0, 1] bcast_S1x64_S2048x64_0_1 : (⟨S1x64, .f32⟩ : BufTy).Contents (Elt F) → (⟨S2048x64, .f32⟩ : BufTy).Contents (Elt F)),
    binary main_v511 main_v515 main_v516 (addf : (⟨S2048x64, .f32⟩ : BufTy).Contents (Elt F) → (⟨S2048x64, .f32⟩ : BufTy).Contents (Elt F) → (⟨S2048x64, .f32⟩ : BufTy).Contents (Elt F)),
    unary main_arg7 main_v517 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v517 main_v518 rfl shapeCasts_S1x64x64_S64x64,
    unary main_v518 main_v519 ((transpose S64x64 [1, 0] · transposes_S64x64_S64x64_1_0) : (⟨S64x64, .f32⟩ : BufTy).Contents (Elt F) → (⟨S64x64, .f32⟩ : BufTy).Contents (Elt F)),
    binary main_v502 main_v519 main_v520 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v521 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v521 main_v522 rfl shapeCasts_S1x64x64_S64x64,
    unary main_v522 main_v523 ((transpose S64x64 [1, 0] · transposes_S64x64_S64x64_1_0) : (⟨S64x64, .f32⟩ : BufTy).Contents (Elt F) → (⟨S64x64, .f32⟩ : BufTy).Contents (Elt F)),
    binary main_v500 main_v523 main_v524 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v520 main_v524 main_v525 (addf : (⟨S2048x64, .f32⟩ : BufTy).Contents (Elt F) → (⟨S2048x64, .f32⟩ : BufTy).Contents (Elt F) → (⟨S2048x64, .f32⟩ : BufTy).Contents (Elt F)),
    unary main_arg9 main_v526 ((extractStridedSlice S1x64 ![8, 0] · slices_S10x64_S1x64_8_0) : (⟨S10x64, .f32⟩ : BufTy).Contents (Elt F) → (⟨S1x64, .f32⟩ : BufTy).Contents (Elt F)),
    reshape main_v526 main_v527 rfl shapeCasts_S1x64_S64,
    unary main_v527 main_v528 (broadcastInDim S1x64 ![1] bcast_S64_S1x64_1 : (⟨S64, .f32⟩ : BufTy).Contents (Elt F) → (⟨S1x64, .f32⟩ : BufTy).Contents (Elt F)),
    unary main_v528 main_v529 (broadcastInDim S2048x64 ![0, 1] bcast_S1x64_S2048x64_0_1 : (⟨S1x64, .f32⟩ : BufTy).Contents (Elt F) → (⟨S2048x64, .f32⟩ : BufTy).Contents (Elt F)),
    binary main_v525 main_v529 main_v530 (addf : (⟨S2048x64, .f32⟩ : BufTy).Contents (Elt F) → (⟨S2048x64, .f32⟩ : BufTy).Contents (Elt F) → (⟨S2048x64, .f32⟩ : BufTy).Contents (Elt F)),
    unary main_v516 main_v531 (Host.tanh : (⟨S2048x64, .f32⟩ : BufTy).Contents (Elt F) → (⟨S2048x64, .f32⟩ : BufTy).Contents (Elt F)),
    unary main_v530 main_v532 (Host.negf : (⟨S2048x64, .f32⟩ : BufTy).Contents (Elt F) → (⟨S2048x64, .f32⟩ : BufTy).Contents (Elt F)),
    unary main_v532 main_v533 (Host.exp : (⟨S2048x64, .f32⟩ : BufTy).Contents (Elt F) → (⟨S2048x64, .f32⟩ : BufTy).Contents (Elt F)),
    nullary main_cst_24 (constant S_ .f32 0x3F800000#32),
    unary main_cst_24 main_v534 (broadcastInDim S2048x64 ![] bcast_S_S2048x64 : (⟨S_, .f32⟩ : BufTy).Contents (Elt F) → (⟨S2048x64, .f32⟩ : BufTy).Contents (Elt F)),
    binary main_v534 main_v533 main_v535 (addf : (⟨S2048x64, .f32⟩ : BufTy).Contents (Elt F) → (⟨S2048x64, .f32⟩ : BufTy).Contents (Elt F) → (⟨S2048x64, .f32⟩ : BufTy).Contents (Elt F)),
    nullary main_cst_25 (constant S_ .f32 0x3F800000#32),
    unary main_cst_25 main_v536 (broadcastInDim S2048x64 ![] bcast_S_S2048x64 : (⟨S_, .f32⟩ : BufTy).Contents (Elt F) → (⟨S2048x64, .f32⟩ : BufTy).Contents (Elt F)),
    binary main_v536 main_v535 main_v537 (Host.divf : (⟨S2048x64, .f32⟩ : BufTy).Contents (Elt F) → (⟨S2048x64, .f32⟩ : BufTy).Contents (Elt F) → (⟨S2048x64, .f32⟩ : BufTy).Contents (Elt F)),
    binary main_v531 main_v537 main_v538 (mulf : (⟨S2048x64, .f32⟩ : BufTy).Contents (Elt F) → (⟨S2048x64, .f32⟩ : BufTy).Contents (Elt F) → (⟨S2048x64, .f32⟩ : BufTy).Contents (Elt F)),
    unary main_arg12 main_v539 ((extractStridedSlice S1x96x64 ![8, 0, 0] · slices_S10x96x64_S1x96x64_8_0_0) : (⟨S10x96x64, .f32⟩ : BufTy).Contents (Elt F) → (⟨S1x96x64, .f32⟩ : BufTy).Contents (Elt F)),
    reshape main_v539 main_v540 rfl shapeCasts_S1x96x64_S96x64,
    unary main_v540 main_v541 ((transpose S64x96 [1, 0] · transposes_S96x64_S64x96_1_0) : (⟨S96x64, .f32⟩ : BufTy).Contents (Elt F) → (⟨S64x96, .f32⟩ : BufTy).Contents (Elt F)),
    binary main_v538 main_v541 main_v542 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v486 main_v542 main_v543 (addf : (⟨S2048x96, .f32⟩ : BufTy).Contents (Elt F) → (⟨S2048x96, .f32⟩ : BufTy).Contents (Elt F) → (⟨S2048x96, .f32⟩ : BufTy).Contents (Elt F)),
    unary main_arg13 main_v544 ((extractStridedSlice S1x96 ![8, 0] · slices_S10x96_S1x96_8_0) : (⟨S10x96, .f32⟩ : BufTy).Contents (Elt F) → (⟨S1x96, .f32⟩ : BufTy).Contents (Elt F)),
    reshape main_v544 main_v545 rfl shapeCasts_S1x96_S96,
    unary main_v545 main_v546 (broadcastInDim S1x96 ![1] bcast_S96_S1x96_1 : (⟨S96, .f32⟩ : BufTy).Contents (Elt F) → (⟨S1x96, .f32⟩ : BufTy).Contents (Elt F)),
    unary main_v546 main_v547 (broadcastInDim S2048x96 ![0, 1] bcast_S1x96_S2048x96_0_1 : (⟨S1x96, .f32⟩ : BufTy).Contents (Elt F) → (⟨S2048x96, .f32⟩ : BufTy).Contents (Elt F)),
    binary main_v543 main_v547 main_v548 (addf : (⟨S2048x96, .f32⟩ : BufTy).Contents (Elt F) → (⟨S2048x96, .f32⟩ : BufTy).Contents (Elt F) → (⟨S2048x96, .f32⟩ : BufTy).Contents (Elt F)),
    unary main_arg10 main_v549 ((extractStridedSlice S1x64x64 ![8, 0, 0] · slices_S10x64x64_S1x64x64_8_0_0) : (⟨S10x64x64, .f32⟩ : BufTy).Contents (Elt F) → (⟨S1x64x64, .f32⟩ : BufTy).Contents (Elt F)),
    reshape main_v549 main_v550 rfl shapeCasts_S1x64x64_S64x64,
    unary main_v550 main_v551 ((transpose S64x64 [1, 0] · transposes_S64x64_S64x64_1_0) : (⟨S64x64, .f32⟩ : BufTy).Contents (Elt F) → (⟨S64x64, .f32⟩ : BufTy).Contents (Elt F)),
    binary main_v538 main_v551 main_v552 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v553 ((extractStridedSlice S1x64 ![8, 0] · slices_S10x64_S1x64_8_0) : (⟨S10x64, .f32⟩ : BufTy).Contents (Elt F) → (⟨S1x64, .f32⟩ : BufTy).Contents (Elt F)),
    reshape main_v553 main_v554 rfl shapeCasts_S1x64_S64,
    unary main_v554 main_v555 (broadcastInDim S1x64 ![1] bcast_S64_S1x64_1 : (⟨S64, .f32⟩ : BufTy).Contents (Elt F) → (⟨S1x64, .f32⟩ : BufTy).Contents (Elt F)),
    unary main_v555 main_v556 (broadcastInDim S2048x64 ![0, 1] bcast_S1x64_S2048x64_0_1 : (⟨S1x64, .f32⟩ : BufTy).Contents (Elt F) → (⟨S2048x64, .f32⟩ : BufTy).Contents (Elt F)),
    binary main_v552 main_v556 main_v557 (addf : (⟨S2048x64, .f32⟩ : BufTy).Contents (Elt F) → (⟨S2048x64, .f32⟩ : BufTy).Contents (Elt F) → (⟨S2048x64, .f32⟩ : BufTy).Contents (Elt F)),
    unary main_arg1 main_v558 ((extractStridedSlice S2048x64x255 ![0, 0, 256] · slices_S2048x64x1023_S2048x64x255_0_0_256) : (⟨S2048x64x1023, .f32⟩ : BufTy).Contents (Elt F) → (⟨S2048x64x255, .f32⟩ : BufTy).Contents (Elt F)),
    unary main_v500 main_v559 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_26 (constant S_ .f32 0x3E99999A#32),
    unary main_cst_26 main_v560 (broadcastInDim S2048x64 ![] bcast_S_S2048x64 : (⟨S_, .f32⟩ : BufTy).Contents (Elt F) → (⟨S2048x64, .f32⟩ : BufTy).Contents (Elt F)),
    binary main_v560 main_v557 main_v561 (mulf : (⟨S2048x64, .f32⟩ : BufTy).Contents (Elt F) → (⟨S2048x64, .f32⟩ : BufTy).Contents (Elt F) → (⟨S2048x64, .f32⟩ : BufTy).Contents (Elt F)),
    binary main_v500 main_v561 main_v562 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr8 : List (Ref sig .tc) := [main_v501, main_v502, main_v503, main_v504, main_v505, main_v506, main_v507, main_v508, main_v509, main_v510, main_v511, main_v512, main_v513, main_v514, main_v515, main_v516, main_v517, main_v518, main_v519, main_v520, main_v521, main_v522, main_v523, main_v524, main_v525, main_v526, main_v527, main_v528, main_v529, main_v530, main_v531, main_v532, main_v533, main_cst_24, main_v534, main_v535, main_cst_25, main_v536, main_v537, main_v538, main_v539, main_v540, main_v541, main_v542, main_v543, main_v544, main_v545, main_v546, main_v547, main_v548, main_v549, main_v550, main_v551, main_v552, main_v553, main_v554, main_v555, main_v556, main_v557, main_v558, main_v559, main_cst_26, main_v560, main_v561, main_v562]

theorem win8_writes : (win8 (F := F)).Forall fun op => op.writes ⊆ ((wr8).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win8_keep (V : Valuation τ sig (Elt F)) (r : Ref sig .tc) (hr : r ∉ wr8) :
    after (win8 (F := F)) V (Proc.devRef .tc r) = V (Proc.devRef .tc r) :=
  after_of_writes_sub win8 V win8_writes hr

set_option maxHeartbeats 4000000 in
/-- The activation after the layer. -/
theorem win8_cur (V : Valuation τ sig (Elt F)) :
    after (win8 (F := F)) V (Proc.devRef .tc main_v562)
      = Hand.curNext (rWV V 8) (V (Proc.devRef .tc main_v500)) := by
  unfold win8
  after_results_simp <;> rfl

set_option maxHeartbeats 4000000 in
/-- The skip sum after the layer. -/
theorem win8_skip (V : Valuation τ sig (Elt F)) :
    after (win8 (F := F)) V (Proc.devRef .tc main_v548)
      = Hand.skipNext (rWV V 8) (V (Proc.devRef .tc main_v500)) (V (Proc.devRef .tc main_v486)) := by
  unfold win8
  after_results_simp <;> rfl

/-- The activation the layer found, laid out `[2048, 64, 1]` for the new ring buffer. -/
theorem win8_snap (V : Valuation τ sig (Elt F)) :
    after (win8 (F := F)) V (Proc.devRef .tc main_v559)
      = broadcastInDim S2048x64x1 ![0, 1] bcast_S2048x64_S2048x64x1_0_1 (V (Proc.devRef .tc main_v500)) := by
  unfold win8
  after_results_simp <;> rfl

/-- The ring-buffer lanes the layer passes on unchanged: lanes `256 … 510` of the input ring buffer. -/
theorem win8_piece (V : Valuation τ sig (Elt F)) :
    after (win8 (F := F)) V (Proc.devRef .tc main_v558)
      = extractStridedSlice S2048x64x255 ![0, 0, 256] (V (Proc.devRef .tc main_arg1)) slices_S2048x64x1023_S2048x64x255_0_0_256 := by
  unfold win8
  after_results_simp <;> rfl

end Cert.ReferenceIdeal.RefRun

end
-- ==== Proof.RefWin9.lean ====
/-
  Layer 9 of the reference, as a line of host operations: from any contents of the buffers, the line leaves the next
  activation and skip sum at the layer's step of the ones it found, a copy of the activation it found laid out
  `[2048, 64, 1]`, the ring-buffer lanes it passes on, and every buffer it does not write as it was.
-/
import proofs.«172806_j69252052680869_2_alg».proof.Proof.RefBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 9's operations, in program order. -/
def win9 : List (HloOp τ sig (Elt F)) :=
  [
    unary main_arg1 main_v563 ((extractStridedSlice S2048x64x1 ![0, 0, 511] · slices_S2048x64x1023_S2048x64x1_0_0_511) : (⟨S2048x64x1023, .f32⟩ : BufTy).Contents (Elt F) → (⟨S2048x64x1, .f32⟩ : BufTy).Contents (Elt F)),
    reshape main_v563 main_v564 rfl shapeCasts_S2048x64x1_S2048x64,
    unary main_arg4 main_v565 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v565 main_v566 rfl shapeCasts_S1x64x64_S64x64,
    unary main_v566 main_v567 ((transpose S64x64 [1, 0] · transposes_S64x64_S64x64_1_0) : (⟨S64x64, .f32⟩ : BufTy).Contents (Elt F) → (⟨S64x64, .f32⟩ : BufTy).Contents (Elt F)),
    binary main_v564 main_v567 main_v568 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg5 main_v569 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v569 main_v570 rfl shapeCasts_S1x64x64_S64x64,
    unary main_v570 main_v571 ((transpose S64x64 [1, 0] · transposes_S64x64_S64x64_1_0) : (⟨S64x64, .f32⟩ : BufTy).Contents (Elt F) → (⟨S64x64, .f32⟩ : BufTy).Contents (Elt F)),
    binary main_v562 main_v571 main_v572 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v568 main_v572 main_v573 (addf : (⟨S2048x64, .f32⟩ : BufTy).Contents (Elt F) → (⟨S2048x64, .f32⟩ : BufTy).Contents (Elt F) → (⟨S2048x64, .f32⟩ : BufTy).Contents (Elt F)),
    unary main_arg6 main_v574 ((extractStridedSlice S1x64 ![9, 0] · slices_S10x64_S1x64_9_0) : (⟨S10x64, .f32⟩ : BufTy).Contents (Elt F) → (⟨S1x64, .f32⟩ : BufTy).Contents (Elt F)),
    reshape main_v574 main_v575 rfl shapeCasts_S1x64_S64,
    unary main_v575 main_v576 (broadcastInDim S1x64 ![1] bcast_S64_S1x64_1 : (⟨S64, .f32⟩ : BufTy).Contents (Elt F) → (⟨S1x64, .f32⟩ : BufTy).Contents (Elt F)),
    unary main_v576 main_v577 (broadcastInDim S2048x64 ![0, 1] bcast_S1x64_S2048x64_0_1 : (⟨S1x64, .f32⟩ : BufTy).Contents (Elt F) → (⟨S2048x64, .f32⟩ : BufTy).Contents (Elt F)),
    binary main_v573 main_v577 main_v578 (addf : (⟨S2048x64, .f32⟩ : BufTy).Contents (Elt F) → (⟨S2048x64, .f32⟩ : BufTy).Contents (Elt F) → (⟨S2048x64, .f32⟩ : BufTy).Contents (Elt F)),
    unary main_arg7 main_v579 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v579 main_v580 rfl shapeCasts_S1x64x64_S64x64,
    unary main_v580 main_v581 ((transpose S64x64 [1, 0] · transposes_S64x64_S64x64_1_0) : (⟨S64x64, .f32⟩ : BufTy).Contents (Elt F) → (⟨S64x64, .f32⟩ : BufTy).Contents (Elt F)),
    binary main_v564 main_v581 main_v582 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg8 main_v583 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v583 main_v584 rfl shapeCasts_S1x64x64_S64x64,
    unary main_v584 main_v585 ((transpose S64x64 [1, 0] · transposes_S64x64_S64x64_1_0) : (⟨S64x64, .f32⟩ : BufTy).Contents (Elt F) → (⟨S64x64, .f32⟩ : BufTy).Contents (Elt F)),
    binary main_v562 main_v585 main_v586 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    binary main_v582 main_v586 main_v587 (addf : (⟨S2048x64, .f32⟩ : BufTy).Contents (Elt F) → (⟨S2048x64, .f32⟩ : BufTy).Contents (Elt F) → (⟨S2048x64, .f32⟩ : BufTy).Contents (Elt F)),
    unary main_arg9 main_v588 ((extractStridedSlice S1x64 ![9, 0] · slices_S10x64_S1x64_9_0) : (⟨S10x64, .f32⟩ : BufTy).Contents (Elt F) → (⟨S1x64, .f32⟩ : BufTy).Contents (Elt F)),
    reshape main_v588 main_v589 rfl shapeCasts_S1x64_S64,
    unary main_v589 main_v590 (broadcastInDim S1x64 ![1] bcast_S64_S1x64_1 : (⟨S64, .f32⟩ : BufTy).Contents (Elt F) → (⟨S1x64, .f32⟩ : BufTy).Contents (Elt F)),
    unary main_v590 main_v591 (broadcastInDim S2048x64 ![0, 1] bcast_S1x64_S2048x64_0_1 : (⟨S1x64, .f32⟩ : BufTy).Contents (Elt F) → (⟨S2048x64, .f32⟩ : BufTy).Contents (Elt F)),
    binary main_v587 main_v591 main_v592 (addf : (⟨S2048x64, .f32⟩ : BufTy).Contents (Elt F) → (⟨S2048x64, .f32⟩ : BufTy).Contents (Elt F) → (⟨S2048x64, .f32⟩ : BufTy).Contents (Elt F)),
    unary main_v578 main_v593 (Host.tanh : (⟨S2048x64, .f32⟩ : BufTy).Contents (Elt F) → (⟨S2048x64, .f32⟩ : BufTy).Contents (Elt F)),
    unary main_v592 main_v594 (Host.negf : (⟨S2048x64, .f32⟩ : BufTy).Contents (Elt F) → (⟨S2048x64, .f32⟩ : BufTy).Contents (Elt F)),
    unary main_v594 main_v595 (Host.exp : (⟨S2048x64, .f32⟩ : BufTy).Contents (Elt F) → (⟨S2048x64, .f32⟩ : BufTy).Contents (Elt F)),
    nullary main_cst_27 (constant S_ .f32 0x3F800000#32),
    unary main_cst_27 main_v596 (broadcastInDim S2048x64 ![] bcast_S_S2048x64 : (⟨S_, .f32⟩ : BufTy).Contents (Elt F) → (⟨S2048x64, .f32⟩ : BufTy).Contents (Elt F)),
    binary main_v596 main_v595 main_v597 (addf : (⟨S2048x64, .f32⟩ : BufTy).Contents (Elt F) → (⟨S2048x64, .f32⟩ : BufTy).Contents (Elt F) → (⟨S2048x64, .f32⟩ : BufTy).Contents (Elt F)),
    nullary main_cst_28 (constant S_ .f32 0x3F800000#32),
    unary main_cst_28 main_v598 (broadcastInDim S2048x64 ![] bcast_S_S2048x64 : (⟨S_, .f32⟩ : BufTy).Contents (Elt F) → (⟨S2048x64, .f32⟩ : BufTy).Contents (Elt F)),
    binary main_v598 main_v597 main_v599 (Host.divf : (⟨S2048x64, .f32⟩ : BufTy).Contents (Elt F) → (⟨S2048x64, .f32⟩ : BufTy).Contents (Elt F) → (⟨S2048x64, .f32⟩ : BufTy).Contents (Elt F)),
    binary main_v593 main_v599 main_v600 (mulf : (⟨S2048x64, .f32⟩ : BufTy).Contents (Elt F) → (⟨S2048x64, .f32⟩ : BufTy).Contents (Elt F) → (⟨S2048x64, .f32⟩ : BufTy).Contents (Elt F)),
    unary main_arg12 main_v601 ((extractStridedSlice S1x96x64 ![9, 0, 0] · slices_S10x96x64_S1x96x64_9_0_0) : (⟨S10x96x64, .f32⟩ : BufTy).Contents (Elt F) → (⟨S1x96x64, .f32⟩ : BufTy).Contents (Elt F)),
    reshape main_v601 main_v602 rfl shapeCasts_S1x96x64_S96x64,
    unary main_v602 main_v603 ((transpose S64x96 [1, 0] · transposes_S96x64_S64x96_1_0) : (⟨S96x64, .f32⟩ : BufTy).Contents (Elt F) → (⟨S64x96, .f32⟩ : BufTy).Contents (Elt F)),
    binary main_v600 main_v603 main_v604 ((fun l r => Host.dotGeneral dot_S2048x64_S64x96_S2048x96_1_0_0_1_n_n none l r) : (⟨S2048x64, .f32⟩ : BufTy).Contents (Elt F) → (⟨S64x96, .f32⟩ : BufTy).Contents (Elt F) → (⟨S2048x96, .f32⟩ : BufTy).Contents (Elt F)),
    binary main_v548 main_v604 main_v605 (addf : (⟨S2048x96, .f32⟩ : BufTy).Contents (Elt F) → (⟨S2048x96, .f32⟩ : BufTy).Contents (Elt F) → (⟨S2048x96, .f32⟩ : BufTy).Contents (Elt F)),
    unary main_arg13 main_v606 ((extractStridedSlice S1x96 ![9, 0] · slices_S10x96_S1x96_9_0) : (⟨S10x96, .f32⟩ : BufTy).Contents (Elt F) → (⟨S1x96, .f32⟩ : BufTy).Contents (Elt F)),
    reshape main_v606 main_v607 rfl shapeCasts_S1x96_S96,
    unary main_v607 main_v608 (broadcastInDim S1x96 ![1] bcast_S96_S1x96_1 : (⟨S96, .f32⟩ : BufTy).Contents (Elt F) → (⟨S1x96, .f32⟩ : BufTy).Contents (Elt F)),
    unary main_v608 main_v609 (broadcastInDim S2048x96 ![0, 1] bcast_S1x96_S2048x96_0_1 : (⟨S1x96, .f32⟩ : BufTy).Contents (Elt F) → (⟨S2048x96, .f32⟩ : BufTy).Contents (Elt F)),
    binary main_v605 main_v609 main_v610 (addf : (⟨S2048x96, .f32⟩ : BufTy).Contents (Elt F) → (⟨S2048x96, .f32⟩ : BufTy).Contents (Elt F) → (⟨S2048x96, .f32⟩ : BufTy).Contents (Elt F)),
    unary main_arg10 main_v611 ((extractStridedSlice S1x64x64 ![9, 0, 0] · slices_S10x64x64_S1x64x64_9_0_0) : (⟨S10x64x64, .f32⟩ : BufTy).Contents (Elt F) → (⟨S1x64x64, .f32⟩ : BufTy).Contents (Elt F)),
    reshape main_v611 main_v612 rfl shapeCasts_S1x64x64_S64x64,
    unary main_v612 main_v613 ((transpose S64x64 [1, 0] · transposes_S64x64_S64x64_1_0) : (⟨S64x64, .f32⟩ : BufTy).Contents (Elt F) → (⟨S64x64, .f32⟩ : BufTy).Contents (Elt F)),
    binary main_v600 main_v613 main_v614 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)),
    unary main_arg11 main_v615 ((extractStridedSlice S1x64 ![9, 0] · slices_S10x64_S1x64_9_0) : (⟨S10x64, .f32⟩ : BufTy).Contents (Elt F) → (⟨S1x64, .f32⟩ : BufTy).Contents (Elt F)),
    reshape main_v615 main_v616 rfl shapeCasts_S1x64_S64,
    unary main_v616 main_v617 (broadcastInDim S1x64 ![1] bcast_S64_S1x64_1 : (⟨S64, .f32⟩ : BufTy).Contents (Elt F) → (⟨S1x64, .f32⟩ : BufTy).Contents (Elt F)),
    unary main_v617 main_v618 (broadcastInDim S2048x64 ![0, 1] bcast_S1x64_S2048x64_0_1 : (⟨S1x64, .f32⟩ : BufTy).Contents (Elt F) → (⟨S2048x64, .f32⟩ : BufTy).Contents (Elt F)),
    binary main_v614 main_v618 main_v619 (addf : (⟨S2048x64, .f32⟩ : BufTy).Contents (Elt F) → (⟨S2048x64, .f32⟩ : BufTy).Contents (Elt F) → (⟨S2048x64, .f32⟩ : BufTy).Contents (Elt F)),
    unary main_arg1 main_v620 ((extractStridedSlice S2048x64x511 ![0, 0, 512] · slices_S2048x64x1023_S2048x64x511_0_0_512) : (⟨S2048x64x1023, .f32⟩ : BufTy).Contents (Elt F) → (⟨S2048x64x511, .f32⟩ : BufTy).Contents (Elt F)),
    unary main_v562 main_v621 (broadcastInDim S2048x64x1 ![0, 1] bcast_S2048x64_S2048x64x1_0_1 : (⟨S2048x64, .f32⟩ : BufTy).Contents (Elt F) → (⟨S2048x64x1, .f32⟩ : BufTy).Contents (Elt F)),
    nullary main_cst_29 (constant S_ .f32 0x3E99999A#32),
    unary main_cst_29 main_v622 (broadcastInDim S2048x64 ![] bcast_S_S2048x64 : (⟨S_, .f32⟩ : BufTy).Contents (Elt F) → (⟨S2048x64, .f32⟩ : BufTy).Contents (Elt F)),
    binary main_v622 main_v619 main_v623 (mulf : (⟨S2048x64, .f32⟩ : BufTy).Contents (Elt F) → (⟨S2048x64, .f32⟩ : BufTy).Contents (Elt F) → (⟨S2048x64, .f32⟩ : BufTy).Contents (Elt F)),
    binary main_v562 main_v623 main_v624 (addf : (⟨S2048x64, .f32⟩ : BufTy).Contents (Elt F) → (⟨S2048x64, .f32⟩ : BufTy).Contents (Elt F) → (⟨S2048x64, .f32⟩ : BufTy).Contents (Elt F)) ]

/-- The buffers the line writes. -/
def wr9 : List (Ref sig .tc) := [main_v563, main_v564, main_v565, main_v566, main_v567, main_v568, main_v569, main_v570, main_v571, main_v572, main_v573, main_v574, main_v575, main_v576, main_v577, main_v578, main_v579, main_v580, main_v581, main_v582, main_v583, main_v584, main_v585, main_v586, main_v587, main_v588, main_v589, main_v590, main_v591, main_v592, main_v593, main_v594, main_v595, main_cst_27, main_v596, main_v597, main_cst_28, main_v598, main_v599, main_v600, main_v601, main_v602, main_v603, main_v604, main_v605, main_v606, main_v607, main_v608, main_v609, main_v610, main_v611, main_v612, main_v613, main_v614, main_v615, main_v616, main_v617, main_v618, main_v619, main_v620, main_v621, main_cst_29, main_v622, main_v623, main_v624]

theorem win9_writes : (win9 (F := F)).Forall fun op => op.writes ⊆ ((wr9).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

/-- A buffer the line does not write keeps its contents. -/
theorem win9_keep (V : Valuation τ sig (Elt F)) (r : Ref sig .tc) (hr : r ∉ wr9) :
    after (win9 (F := F)) V (Proc.devRef .tc r) = V (Proc.devRef .tc r) :=
  after_of_writes_sub win9 V win9_writes hr

set_option maxHeartbeats 4000000 in
/-- The activation after the layer. -/
theorem win9_cur (V : Valuation τ sig (Elt F)) :
    after (win9 (F := F)) V (Proc.devRef .tc main_v624)
      = Hand.curNext (rWV V 9) (V (Proc.devRef .tc main_v562)) := by
  unfold win9
  after_results_simp <;> rfl

set_option maxHeartbeats 4000000 in
/-- The skip sum after the layer. -/
theorem win9_skip (V : Valuation τ sig (Elt F)) :
    after (win9 (F := F)) V (Proc.devRef .tc main_v610)
      = Hand.skipNext (rWV V 9) (V (Proc.devRef .tc main_v562)) (V (Proc.devRef .tc main_v548)) := by
  unfold win9
  after_results_simp <;> rfl

/-- The activation the layer found, laid out `[2048, 64, 1]` for the new ring buffer. -/
theorem win9_snap (V : Valuation τ sig (Elt F)) :
    after (win9 (F := F)) V (Proc.devRef .tc main_v621)
      = broadcastInDim S2048x64x1 ![0, 1] bcast_S2048x64_S2048x64x1_0_1 (V (Proc.devRef .tc main_v562)) := by
  unfold win9
  after_results_simp <;> rfl

/-- The ring-buffer lanes the layer passes on unchanged: lanes `512 … 1022` of the input ring buffer. -/
theorem win9_piece (V : Valuation τ sig (Elt F)) :
    after (win9 (F := F)) V (Proc.devRef .tc main_v620)
      = extractStridedSlice S2048x64x511 ![0, 0, 512] (V (Proc.devRef .tc main_arg1)) slices_S2048x64x1023_S2048x64x511_0_0_512 := by
  unfold win9
  after_results_simp <;> rfl

end Cert.ReferenceIdeal.RefRun

end
-- ==== Proof.RefWinT.lean ====
/-
  The reference's last operations: the new ring buffer laid end to end from its nineteen pieces — per layer the lanes
  passed on from the input ring buffer, then the layer's incoming activation as one lane — and the two-layer head on
  the final skip sum.
-/
import proofs.«172806_j69252052680869_2_alg».proof.Proof.RefBase

set_option maxRecDepth 16384

noncomputable section

namespace Cert.ReferenceIdeal.Hand

open Idealize.ShloMosaic Cert.ReferenceIdeal Cert.ReferenceIdeal.Gen

variable {F : FTy → Type} [FloatOps F]

/-- The new ring buffer from its pieces: `s i` is the activation before layer `i` as one lane, `p i` the lanes layer `i`
    passes on (layer 0, of dilation one, passes none). -/
def newbuf (s0 : FVec F S2048x64x1 .f32) (s1 : FVec F S2048x64x1 .f32) (s2 : FVec F S2048x64x1 .f32) (s3 : FVec F S2048x64x1 .f32) (s4 : FVec F S2048x64x1 .f32) (s5 : FVec F S2048x64x1 .f32) (s6 : FVec F S2048x64x1 .f32) (s7 : FVec F S2048x64x1 .f32) (s8 : FVec F S2048x64x1 .f32) (s9 : FVec F S2048x64x1 .f32) (p1 : FVec F S2048x64x1 .f32) (p2 : FVec F S2048x64x3 .f32) (p3 : FVec F S2048x64x7 .f32) (p4 : FVec F S2048x64x15 .f32) (p5 : FVec F S2048x64x31 .f32) (p6 : FVec F S2048x64x63 .f32) (p7 : FVec F S2048x64x127 .f32) (p8 : FVec F S2048x64x255 .f32) (p9 : FVec F S2048x64x511 .f32) : FVec F S2048x64x1023 .f32 :=
  concatenate S2048x64x1023 2
    [⟨S2048x64x510, concatenate S2048x64x510 2 [⟨S2048x64x1, s0⟩, ⟨S2048x64x1, p1⟩, ⟨S2048x64x1, s1⟩, ⟨S2048x64x3, p2⟩, ⟨S2048x64x1, s2⟩, ⟨S2048x64x7, p3⟩, ⟨S2048x64x1, s3⟩, ⟨S2048x64x15, p4⟩, ⟨S2048x64x1, s4⟩, ⟨S2048x64x31, p5⟩, ⟨S2048x64x1, s5⟩, ⟨S2048x64x63, p6⟩, ⟨S2048x64x1, s6⟩, ⟨S2048x64x127, p7⟩, ⟨S2048x64x1, s7⟩, ⟨S2048x64x255, p8⟩] concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2⟩,
     ⟨S2048x64x513, concatenate S2048x64x513 2 [⟨S2048x64x1, s8⟩, ⟨S2048x64x511, p9⟩, ⟨S2048x64x1, s9⟩] concatenates_S2048x64x1_S2048x64x511_S2048x64x1_S2048x64x513_d2⟩]
    concatenates_S2048x64x510_S2048x64x513_S2048x64x1023_d2

end Cert.ReferenceIdeal.Hand

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The three operations that lay the new ring buffer out. -/
def winC : List (HloOp τ sig (Elt F)) :=
  [
    nary ![main_v63, main_v124, main_v125, main_v186, main_v187, main_v248, main_v249, main_v310, main_v311, main_v372, main_v373, main_v434, main_v435, main_v496, main_v497, main_v558] main_v625 (fun u => concatenate S2048x64x510 2 [⟨S2048x64x1, u 0⟩, ⟨S2048x64x1, u 1⟩, ⟨S2048x64x1, u 2⟩, ⟨S2048x64x3, u 3⟩, ⟨S2048x64x1, u 4⟩, ⟨S2048x64x7, u 5⟩, ⟨S2048x64x1, u 6⟩, ⟨S2048x64x15, u 7⟩, ⟨S2048x64x1, u 8⟩, ⟨S2048x64x31, u 9⟩, ⟨S2048x64x1, u 10⟩, ⟨S2048x64x63, u 11⟩, ⟨S2048x64x1, u 12⟩, ⟨S2048x64x127, u 13⟩, ⟨S2048x64x1, u 14⟩, ⟨S2048x64x255, u 15⟩] concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2),
    nary ![main_v559, main_v620, main_v621] main_v626 (fun u => concatenate S2048x64x513 2 [⟨S2048x64x1, u 0⟩, ⟨S2048x64x511, u 1⟩, ⟨S2048x64x1, u 2⟩] concatenates_S2048x64x1_S2048x64x511_S2048x64x1_S2048x64x513_d2),
    binary main_v625 main_v626 main_v627 ((fun a b => concatenate S2048x64x1023 2 [⟨S2048x64x510, a⟩, ⟨S2048x64x513, b⟩] concatenates_S2048x64x510_S2048x64x513_S2048x64x1023_d2) : (⟨S2048x64x510, .f32⟩ : BufTy).Contents (Elt F) → (⟨S2048x64x513, .f32⟩ : BufTy).Contents (Elt F) → (⟨S2048x64x1023, .f32⟩ : BufTy).Contents (Elt F)) ]

/-- The head's operations. -/
def winH : List (HloOp τ sig (Elt F)) :=
  [
    TRef.nullary (TRef.of (T := ⟨S_, .f32⟩) main_call0_cst) (constant S_ .f32 0x00000000#32),
    TRef.unary (TRef.of (T := ⟨S_, .f32⟩) main_call0_cst) (TRef.of (T := ⟨S2048x96, .f32⟩) main_call0_v0) (broadcastInDim S2048x96 ![] bcast_S_S2048x96),
    TRef.binary (TRef.of (T := ⟨S2048x96, .f32⟩) main_v610) (TRef.of (T := ⟨S2048x96, .f32⟩) main_call0_v0) (TRef.of (T := ⟨S2048x96, .f32⟩) main_v628) maximumf,
    unary main_arg14 main_v629 ((transpose S96x96 [1, 0] · transposes_S96x96_S96x96_1_0) : (⟨S96x96, .f32⟩ : BufTy).Contents (Elt F) → (⟨S96x96, .f32⟩ : BufTy).Contents (Elt F)),
    binary main_v628 main_v629 main_v630 ((fun l r => Host.dotGeneral dot_S2048x96_S96x96_S2048x96_1_0_0_1_n_n none l r) : (⟨S2048x96, .f32⟩ : BufTy).Contents (Elt F) → (⟨S96x96, .f32⟩ : BufTy).Contents (Elt F) → (⟨S2048x96, .f32⟩ : BufTy).Contents (Elt F)),
    unary main_arg15 main_v631 (broadcastInDim S1x96 ![1] bcast_S96_S1x96_1 : (⟨S96, .f32⟩ : BufTy).Contents (Elt F) → (⟨S1x96, .f32⟩ : BufTy).Contents (Elt F)),
    unary main_v631 main_v632 (broadcastInDim S2048x96 ![0, 1] bcast_S1x96_S2048x96_0_1 : (⟨S1x96, .f32⟩ : BufTy).Contents (Elt F) → (⟨S2048x96, .f32⟩ : BufTy).Contents (Elt F)),
    binary main_v630 main_v632 main_v633 (addf : (⟨S2048x96, .f32⟩ : BufTy).Contents (Elt F) → (⟨S2048x96, .f32⟩ : BufTy).Contents (Elt F) → (⟨S2048x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2048x96, .f32⟩) main_call1_v0) (broadcastInDim S2048x96 ![] bcast_S_S2048x96),
    TRef.binary (TRef.of (T := ⟨S2048x96, .f32⟩) main_v633) (TRef.of (T := ⟨S2048x96, .f32⟩) main_call1_v0) (TRef.of (T := ⟨S2048x96, .f32⟩) main_v634) maximumf,
    unary main_arg16 main_v635 ((transpose S96x2 [1, 0] · transposes_S2x96_S96x2_1_0) : (⟨S2x96, .f32⟩ : BufTy).Contents (Elt F) → (⟨S96x2, .f32⟩ : BufTy).Contents (Elt F)),
    binary main_v634 main_v635 main_v636 ((fun l r => Host.dotGeneral dot_S2048x96_S96x2_S2048x2_1_0_0_1_n_n none l r) : (⟨S2048x96, .f32⟩ : BufTy).Contents (Elt F) → (⟨S96x2, .f32⟩ : BufTy).Contents (Elt F) → (⟨S2048x2, .f32⟩ : BufTy).Contents (Elt F)),
    unary main_arg17 main_v637 (broadcastInDim S1x2 ![1] bcast_S2_S1x2_1 : (⟨S2, .f32⟩ : BufTy).Contents (Elt F) → (⟨S1x2, .f32⟩ : BufTy).Contents (Elt F)),
    unary main_v637 main_v638 (broadcastInDim S2048x2 ![0, 1] bcast_S1x2_S2048x2_0_1 : (⟨S1x2, .f32⟩ : BufTy).Contents (Elt F) → (⟨S2048x2, .f32⟩ : BufTy).Contents (Elt F)),
    binary main_v636 main_v638 main_v639 (addf : (⟨S2048x2, .f32⟩ : BufTy).Contents (Elt F) → (⟨S2048x2, .f32⟩ : BufTy).Contents (Elt F) → (⟨S2048x2, .f32⟩ : BufTy).Contents (Elt F)) ]

def wrC : List (Ref sig .tc) := [main_v625, main_v626, main_v627]
def wrH : List (Ref sig .tc) := [main_call0_cst, main_call0_v0, main_v628, main_v629, main_v630, main_v631, main_v632, main_v633, main_call1_cst, main_call1_v0, main_v634, main_v635, main_v636, main_v637, main_v638, main_v639]

theorem winC_writes : (winC (F := F)).Forall fun op => op.writes ⊆ ((wrC).map (Proc.devRef (τ := τ) .tc)).toFinset :=
  ⟨singleton_sub_of_mem (by decide), singleton_sub_of_mem (by decide), singleton_sub_of_mem (by decide)⟩
theorem winH_writes : (winH (F := F)).Forall fun op => op.writes ⊆ ((wrH).map (Proc.devRef (τ := τ) .tc)).toFinset :=
  ⟨singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide), singleton_sub_of_mem (by decide)⟩

theorem winC_keep (V : Valuation τ sig (Elt F)) (r : Ref sig .tc) (hr : r ∉ wrC) :
    after (winC (F := F)) V (Proc.devRef .tc r) = V (Proc.devRef .tc r) :=
  after_of_writes_sub winC V winC_writes hr
theorem winH_keep (V : Valuation τ sig (Elt F)) (r : Ref sig .tc) (hr : r ∉ wrH) :
    after (winH (F := F)) V (Proc.devRef .tc r) = V (Proc.devRef .tc r) :=
  after_of_writes_sub winH V winH_writes hr

set_option maxHeartbeats 4000000 in
/-- The output: the head of the final skip sum. -/
theorem winH_out (V : Valuation τ sig (Elt F)) :
    after (winH (F := F)) V (Proc.devRef .tc main_v639)
      = Hand.head (V (Proc.devRef .tc main_v610)) (V (Proc.devRef .tc main_arg14)) (V (Proc.devRef .tc main_arg15))
          (V (Proc.devRef .tc main_arg16)) (V (Proc.devRef .tc main_arg17)) := by
  unfold winH
  after_results_simp <;> rfl

set_option maxHeartbeats 4000000 in
/-- The new ring buffer, from the buffers holding its pieces. -/
theorem winC_newbuf (V : Valuation τ sig (Elt F)) :
    after (winC (F := F)) V (Proc.devRef .tc main_v627)
      = Hand.newbuf (V (Proc.devRef .tc main_v63)) (V (Proc.devRef .tc main_v125)) (V (Proc.devRef .tc main_v187)) (V (Proc.devRef .tc main_v249)) (V (Proc.devRef .tc main_v311)) (V (Proc.devRef .tc main_v373)) (V (Proc.devRef .tc main_v435)) (V (Proc.devRef .tc main_v497)) (V (Proc.devRef .tc main_v559)) (V (Proc.devRef .tc main_v621)) (V (Proc.devRef .tc main_v124)) (V (Proc.devRef .tc main_v186)) (V (Proc.devRef .tc main_v248)) (V (Proc.devRef .tc main_v310)) (V (Proc.devRef .tc main_v372)) (V (Proc.devRef .tc main_v434)) (V (Proc.devRef .tc main_v496)) (V (Proc.devRef .tc main_v558)) (V (Proc.devRef .tc main_v620)) := by
  unfold winC
  after_results_simp <;> rfl

end Cert.ReferenceIdeal.RefRun

end
-- ==== Proof.RefRunA.lean ====
/-
  The reference program as one line of host operations, cut two ways: sixty statements at a time, as the program is
  printed (each cut is the program's text, so running the cuts in order is the program), and at the layers' boundaries
  (the cuts whose values are read). Both cuts list the same operations in the same order. With the side conditions of the
  run theorem for straight lines: nothing is scoped, every operation touches TensorCore buffers and allocates nothing.
-/
import proofs.«172806_j69252052680869_2_alg».proof.Proof.RefWinI
import proofs.«172806_j69252052680869_2_alg».proof.Proof.RefPart0
import proofs.«172806_j69252052680869_2_alg».proof.Proof.RefPart1
import proofs.«172806_j69252052680869_2_alg».proof.Proof.RefPart2
import proofs.«172806_j69252052680869_2_alg».proof.Proof.RefPart3
import proofs.«172806_j69252052680869_2_alg».proof.Proof.RefPart4
import proofs.«172806_j69252052680869_2_alg».proof.Proof.RefPart5
import proofs.«172806_j69252052680869_2_alg».proof.Proof.RefPart6
import proofs.«172806_j69252052680869_2_alg».proof.Proof.RefPart7
import proofs.«172806_j69252052680869_2_alg».proof.Proof.RefPart8
import proofs.«172806_j69252052680869_2_alg».proof.Proof.RefPart9
import proofs.«172806_j69252052680869_2_alg».proof.Proof.RefPart10
import proofs.«172806_j69252052680869_2_alg».proof.Proof.RefPart11
import proofs.«172806_j69252052680869_2_alg».proof.Proof.RefWin0
import proofs.«172806_j69252052680869_2_alg».proof.Proof.RefWin1
import proofs.«172806_j69252052680869_2_alg».proof.Proof.RefWin2
import proofs.«172806_j69252052680869_2_alg».proof.Proof.RefWin3
import proofs.«172806_j69252052680869_2_alg».proof.Proof.RefWin4
import proofs.«172806_j69252052680869_2_alg».proof.Proof.RefWin5
import proofs.«172806_j69252052680869_2_alg».proof.Proof.RefWin6
import proofs.«172806_j69252052680869_2_alg».proof.Proof.RefWin7
import proofs.«172806_j69252052680869_2_alg».proof.Proof.RefWin8
import proofs.«172806_j69252052680869_2_alg».proof.Proof.RefWin9
import proofs.«172806_j69252052680869_2_alg».proof.Proof.RefWinT

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
def ops : List (HloOp τ sig (Elt F)) := winI ++ win0 ++ win1 ++ win2 ++ win3 ++ win4 ++ win5 ++ win6 ++ win7 ++ win8 ++ win9 ++ winC ++ winH

/-- The program's statements, sixty at a time as the program is printed. -/
def parts : List (HloOp τ sig (Elt F)) := part0 ++ (part1 ++ (part2 ++ (part3 ++ (part4 ++ (part5 ++ (part6 ++ (part7 ++ (part8 ++ (part9 ++ (part10 ++ (part11)))))))))))

/-- Running the statements in order is the program. -/
theorem main_parts (c : Dev nD) : main (F := F) c = seq parts := by
  unfold parts
  simp only [seq_append, ← part0_eq c, ← part1_eq c, ← part2_eq c, ← part3_eq c, ← part4_eq c, ← part5_eq c, ← part6_eq c, ← part7_eq c, ← part8_eq c, ← part9_eq c, ← part10_eq c, ← part11_eq c]
  rfl

set_option maxHeartbeats 16000000 in
/-- The two ways of cutting the program list the same operations. -/
theorem parts_eq_ops : (parts (F := F)) = ops := by
  unfold parts ops part0 part1 part2 part3 part4 part5 part6 part7 part8 part9 part10 part11 winI win0 win1 win2 win3 win4 win5 win6 win7 win8 win9 winC winH
  simp only [List.cons_append, List.nil_append, List.append_assoc]

/-- Running the list is the program. -/
theorem main_eq (c : Dev nD) : main (F := F) c = seq ops := (main_parts c).trans (congrArg seq parts_eq_ops)

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op hop => (List.mem_append.mp hop).elim (h₁ op) (h₂ op)

theorem winI_sub : (winI (F := F)).Forall fun op => op.bufs ⊆ tcRefs τ sig :=
  ⟨unary_bufs_sub .., binary_bufs_sub .., unary_bufs_sub .., unary_bufs_sub .., binary_bufs_sub .., nullary_bufs_sub .., unary_bufs_sub ..⟩
theorem winI_fresh : ∀ op ∈ (winI (F := F)), op.fresh = ∅ := by
  unfold winI
  intro _ h; (repeat (cases h with | head => rfl | tail _ h => ?_)); exact nomatch h
theorem win0_sub : (win0 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., nullary_bufs_sub .., unary_bufs_sub .., binary_bufs_sub .., binary_bufs_sub ..⟩
theorem win0_fresh : ∀ op ∈ (win0 (F := F)), op.fresh = ∅ := by
  unfold win0
  intro _ h; (repeat (cases h with | head => rfl | tail _ h => ?_)); exact nomatch h
theorem win1_sub : (win1 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win1_fresh : ∀ op ∈ (win1 (F := F)), op.fresh = ∅ := by
  unfold win1
  intro _ h; (repeat (cases h with | head => rfl | tail _ h => ?_)); exact nomatch h
theorem win2_sub : (win2 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win2_fresh : ∀ op ∈ (win2 (F := F)), op.fresh = ∅ := by
  unfold win2
  intro _ h; (repeat (cases h with | head => rfl | tail _ h => ?_)); exact nomatch h
theorem win3_sub : (win3 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win3_fresh : ∀ op ∈ (win3 (F := F)), op.fresh = ∅ := by
  unfold win3
  intro _ h; (repeat (cases h with | head => rfl | tail _ h => ?_)); exact nomatch h
theorem win4_sub : (win4 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win4_fresh : ∀ op ∈ (win4 (F := F)), op.fresh = ∅ := by
  unfold win4
  intro _ h; (repeat (cases h with | head => rfl | tail _ h => ?_)); exact nomatch h
theorem win5_sub : (win5 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win5_fresh : ∀ op ∈ (win5 (F := F)), op.fresh = ∅ := by
  unfold win5
  intro _ h; (repeat (cases h with | head => rfl | tail _ h => ?_)); exact nomatch h
theorem win6_sub : (win6 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win6_fresh : ∀ op ∈ (win6 (F := F)), op.fresh = ∅ := by
  unfold win6
  intro _ h; (repeat (cases h with | head => rfl | tail _ h => ?_)); exact nomatch h
theorem win7_sub : (win7 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win7_fresh : ∀ op ∈ (win7 (F := F)), op.fresh = ∅ := by
  unfold win7
  intro _ h; (repeat (cases h with | head => rfl | tail _ h => ?_)); exact nomatch h
theorem win8_sub : (win8 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win8_fresh : ∀ op ∈ (win8 (F := F)), op.fresh = ∅ := by
  unfold win8
  intro _ h; (repeat (cases h with | head => rfl | tail _ h => ?_)); exact nomatch h
theorem win9_sub : (win9 (F := F)).Forall fun op => op.bufs ⊆ tcRefs τ sig :=
  ⟨unary_bufs_sub .., reshape_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., unary_bufs_sub .., binary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., binary_bufs_sub ..⟩
theorem win9_fresh : ∀ op ∈ (win9 (F := F)), op.fresh = ∅ := by
  unfold win9
  intro _ h; (repeat (cases h with | head => rfl | tail _ h => ?_)); exact nomatch h
theorem winC_sub : (winC (F := F)).Forall fun op => op.bufs ⊆ tcRefs τ sig :=
  ⟨nary_bufs_sub .., nary_bufs_sub .., binary_bufs_sub ..⟩
theorem winC_fresh : ∀ op ∈ (winC (F := F)), op.fresh = ∅ := by
  unfold winC
  intro _ h; (repeat (cases h with | head => rfl | tail _ h => ?_)); exact nomatch h
theorem winH_sub : (winH (F := F)).Forall fun op => op.bufs ⊆ tcRefs τ sig :=
  ⟨nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub ..⟩
theorem winH_fresh : ∀ op ∈ (winH (F := F)), op.fresh = ∅ := by
  unfold winH
  intro _ h; (repeat (cases h with | head => rfl | tail _ h => ?_)); exact nomatch h

theorem ops_sub : (ops (F := F)).Forall fun op => op.bufs ⊆ tcRefs τ sig :=
  (forall_append (forall_append (forall_append (forall_append (forall_append (forall_append (forall_append (forall_append (forall_append (forall_append (forall_append (forall_append winI_sub win0_sub) win1_sub) win2_sub) win3_sub) win4_sub) win5_sub) win6_sub) win7_sub) win8_sub) win9_sub) winC_sub) winH_sub)

theorem ops_fresh : ∀ op ∈ (ops (F := F)), op.fresh = ∅ :=
  (fresh_append (fresh_append (fresh_append (fresh_append (fresh_append (fresh_append (fresh_append (fresh_append (fresh_append (fresh_append (fresh_append (fresh_append winI_fresh win0_fresh) win1_fresh) win2_fresh) win3_fresh) win4_fresh) win5_fresh) win6_fresh) win7_fresh) win8_fresh) win9_fresh) winC_fresh) winH_fresh)

end Cert.ReferenceIdeal.RefRun

end
-- ==== Proof.RNewBuf.lean ====
/-
  The reference lays the new ring buffer end to end from nineteen pieces: per layer the lanes it passes on from the
  input ring buffer (a slice one lane up), then the activation it received as one lane. Read at a lane, the piece whose
  span holds the lane answers: lane `2^(i+1) - 2` is the activation before layer `i`, any other lane `l` is lane `l + 1`
  of the input ring buffer — the lane-by-lane form of the new ring buffer.
-/
import proofs.«172806_j69252052680869_2_alg».proof.Proof.RefWinT
import proofs.«172806_j69252052680869_2_alg».proof.Proof.NewBufSpec
import Idealize.ShloMosaic.Lib.Pipeline.Value

set_option maxRecDepth 16384

noncomputable section

namespace Cert.ReferenceIdeal.Hand

open Idealize.ShloMosaic Idealize.ShloMosaic.ValueIdx Cert.ReferenceIdeal Cert.ReferenceIdeal.Gen

variable {F : FTy → Type} [FloatOps F]

/-- A concatenation along the last axis of rank-three arrays, read at `(p, c, l)`: piece `k`, whose span starts at `pre`,
    at `(p, c, l - pre)`. -/
theorem cat3_apply {α : Type} {n0 n1 W : Nat} (xs : List ((s : Shape) × (s.Idx → α)))
    (h : Shape.Concatenates (xs.map (·.1)) ⟨3, ![n0, n1, W]⟩ 2) (p : Fin n0) (c : Fin n1) (l : Fin W)
    (k : Nat) (hk : k < xs.length) (w : Nat) (x₁ : (⟨3, ![n0, n1, w]⟩ : Shape).Idx → α)
    (hxk : xs[k] = ⟨⟨3, ![n0, n1, w]⟩, x₁⟩) (pre : Nat)
    (hpre : (((xs.take k).map (·.1)).map fun s => if h : s.rank = (⟨3, ![n0, n1, W]⟩ : Shape).rank then s.size ((2 : Fin 3).cast h.symm) else 0).sum = pre)
    (l' : Fin w) (hl : pre + l'.val = l.val) :
    concatenate ⟨3, ![n0, n1, W]⟩ 2 xs h (ix3 p c l) = x₁ (ix3 p c l') :=
  concatenate_apply_piece 2 xs h (ix3 p c l) k hk _ x₁ hxk rfl pre hpre (ix3 p c l')
    (fun b hb => by
      match b with
      | ⟨0, _⟩ => rfl
      | ⟨1, _⟩ => rfl
      | ⟨2, _⟩ => exact absurd rfl hb) hl

/-- An activation laid out as one lane. -/
def snapR (v : FVec F S2048x64 .f32) : FVec F S2048x64x1 .f32 :=
  broadcastInDim S2048x64x1 ![0, 1] bcast_S2048x64_S2048x64x1_0_1 v

theorem snapR_apply (v : FVec F S2048x64 .f32) (p : Fin 2048) (c : Fin 64) (u : Fin 1) :
    snapR v (ix3 p c u) = v (ix2 p c) :=
  broadcastInDim_apply _ _ v (ix3 p c u) (ix2 p c) (fun a => by
    match a with
    | ⟨0, _⟩ => rfl
    | ⟨1, _⟩ => rfl)

/-- The lanes layer 1 passes on. -/
def pieceR1 (A1 : FVec F S2048x64x1023 .f32) : FVec F S2048x64x1 .f32 :=
  extractStridedSlice S2048x64x1 ![0, 0, 2] A1 slices_S2048x64x1023_S2048x64x1_0_0_2

theorem pieceR1_apply (A1 : FVec F S2048x64x1023 .f32) (p : Fin 2048) (c : Fin 64) (l' : Fin 1) (l : Fin 1023)
    (hl : l.val = 2 + l'.val) : pieceR1 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 2 passes on. -/
def pieceR2 (A1 : FVec F S2048x64x1023 .f32) : FVec F S2048x64x3 .f32 :=
  extractStridedSlice S2048x64x3 ![0, 0, 4] A1 slices_S2048x64x1023_S2048x64x3_0_0_4

theorem pieceR2_apply (A1 : FVec F S2048x64x1023 .f32) (p : Fin 2048) (c : Fin 64) (l' : Fin 3) (l : Fin 1023)
    (hl : l.val = 4 + l'.val) : pieceR2 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 3 passes on. -/
def pieceR3 (A1 : FVec F S2048x64x1023 .f32) : FVec F S2048x64x7 .f32 :=
  extractStridedSlice S2048x64x7 ![0, 0, 8] A1 slices_S2048x64x1023_S2048x64x7_0_0_8

theorem pieceR3_apply (A1 : FVec F S2048x64x1023 .f32) (p : Fin 2048) (c : Fin 64) (l' : Fin 7) (l : Fin 1023)
    (hl : l.val = 8 + l'.val) : pieceR3 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 4 passes on. -/
def pieceR4 (A1 : FVec F S2048x64x1023 .f32) : FVec F S2048x64x15 .f32 :=
  extractStridedSlice S2048x64x15 ![0, 0, 16] A1 slices_S2048x64x1023_S2048x64x15_0_0_16

theorem pieceR4_apply (A1 : FVec F S2048x64x1023 .f32) (p : Fin 2048) (c : Fin 64) (l' : Fin 15) (l : Fin 1023)
    (hl : l.val = 16 + l'.val) : pieceR4 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 5 passes on. -/
def pieceR5 (A1 : FVec F S2048x64x1023 .f32) : FVec F S2048x64x31 .f32 :=
  extractStridedSlice S2048x64x31 ![0, 0, 32] A1 slices_S2048x64x1023_S2048x64x31_0_0_32

theorem pieceR5_apply (A1 : FVec F S2048x64x1023 .f32) (p : Fin 2048) (c : Fin 64) (l' : Fin 31) (l : Fin 1023)
    (hl : l.val = 32 + l'.val) : pieceR5 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 6 passes on. -/
def pieceR6 (A1 : FVec F S2048x64x1023 .f32) : FVec F S2048x64x63 .f32 :=
  extractStridedSlice S2048x64x63 ![0, 0, 64] A1 slices_S2048x64x1023_S2048x64x63_0_0_64

theorem pieceR6_apply (A1 : FVec F S2048x64x1023 .f32) (p : Fin 2048) (c : Fin 64) (l' : Fin 63) (l : Fin 1023)
    (hl : l.val = 64 + l'.val) : pieceR6 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 7 passes on. -/
def pieceR7 (A1 : FVec F S2048x64x1023 .f32) : FVec F S2048x64x127 .f32 :=
  extractStridedSlice S2048x64x127 ![0, 0, 128] A1 slices_S2048x64x1023_S2048x64x127_0_0_128

theorem pieceR7_apply (A1 : FVec F S2048x64x1023 .f32) (p : Fin 2048) (c : Fin 64) (l' : Fin 127) (l : Fin 1023)
    (hl : l.val = 128 + l'.val) : pieceR7 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 8 passes on. -/
def pieceR8 (A1 : FVec F S2048x64x1023 .f32) : FVec F S2048x64x255 .f32 :=
  extractStridedSlice S2048x64x255 ![0, 0, 256] A1 slices_S2048x64x1023_S2048x64x255_0_0_256

theorem pieceR8_apply (A1 : FVec F S2048x64x1023 .f32) (p : Fin 2048) (c : Fin 64) (l' : Fin 255) (l : Fin 1023)
    (hl : l.val = 256 + l'.val) : pieceR8 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The lanes layer 9 passes on. -/
def pieceR9 (A1 : FVec F S2048x64x1023 .f32) : FVec F S2048x64x511 .f32 :=
  extractStridedSlice S2048x64x511 ![0, 0, 512] A1 slices_S2048x64x1023_S2048x64x511_0_0_512

theorem pieceR9_apply (A1 : FVec F S2048x64x1023 .f32) (p : Fin 2048) (c : Fin 64) (l' : Fin 511) (l : Fin 1023)
    (hl : l.val = 512 + l'.val) : pieceR9 A1 (ix3 p c l') = A1 (ix3 p c l) :=
  extractStridedSlice_apply _ _ _ (ix3 p c l') (ix3 p c l) (fun a => by
    match a with
    | ⟨0, _⟩ => show p.val = 0 + p.val; omega
    | ⟨1, _⟩ => show c.val = 0 + c.val; omega
    | ⟨2, _⟩ => exact hl)

/-- The first sixteen pieces, the last three, and the two halves. -/
def in16 (s0 : FVec F S2048x64x1 .f32) (s1 : FVec F S2048x64x1 .f32) (s2 : FVec F S2048x64x1 .f32) (s3 : FVec F S2048x64x1 .f32) (s4 : FVec F S2048x64x1 .f32) (s5 : FVec F S2048x64x1 .f32) (s6 : FVec F S2048x64x1 .f32) (s7 : FVec F S2048x64x1 .f32) (s8 : FVec F S2048x64x1 .f32) (s9 : FVec F S2048x64x1 .f32) (p1 : FVec F S2048x64x1 .f32) (p2 : FVec F S2048x64x3 .f32) (p3 : FVec F S2048x64x7 .f32) (p4 : FVec F S2048x64x15 .f32) (p5 : FVec F S2048x64x31 .f32) (p6 : FVec F S2048x64x63 .f32) (p7 : FVec F S2048x64x127 .f32) (p8 : FVec F S2048x64x255 .f32) (p9 : FVec F S2048x64x511 .f32) : List ((s : Shape) × (s.Idx → F .f32)) := [⟨S2048x64x1, s0⟩, ⟨S2048x64x1, p1⟩, ⟨S2048x64x1, s1⟩, ⟨S2048x64x3, p2⟩, ⟨S2048x64x1, s2⟩, ⟨S2048x64x7, p3⟩, ⟨S2048x64x1, s3⟩, ⟨S2048x64x15, p4⟩, ⟨S2048x64x1, s4⟩, ⟨S2048x64x31, p5⟩, ⟨S2048x64x1, s5⟩, ⟨S2048x64x63, p6⟩, ⟨S2048x64x1, s6⟩, ⟨S2048x64x127, p7⟩, ⟨S2048x64x1, s7⟩, ⟨S2048x64x255, p8⟩]
def in3 (s0 : FVec F S2048x64x1 .f32) (s1 : FVec F S2048x64x1 .f32) (s2 : FVec F S2048x64x1 .f32) (s3 : FVec F S2048x64x1 .f32) (s4 : FVec F S2048x64x1 .f32) (s5 : FVec F S2048x64x1 .f32) (s6 : FVec F S2048x64x1 .f32) (s7 : FVec F S2048x64x1 .f32) (s8 : FVec F S2048x64x1 .f32) (s9 : FVec F S2048x64x1 .f32) (p1 : FVec F S2048x64x1 .f32) (p2 : FVec F S2048x64x3 .f32) (p3 : FVec F S2048x64x7 .f32) (p4 : FVec F S2048x64x15 .f32) (p5 : FVec F S2048x64x31 .f32) (p6 : FVec F S2048x64x63 .f32) (p7 : FVec F S2048x64x127 .f32) (p8 : FVec F S2048x64x255 .f32) (p9 : FVec F S2048x64x511 .f32) : List ((s : Shape) × (s.Idx → F .f32)) := [⟨S2048x64x1, s8⟩, ⟨S2048x64x511, p9⟩, ⟨S2048x64x1, s9⟩]
def outerL (s0 : FVec F S2048x64x1 .f32) (s1 : FVec F S2048x64x1 .f32) (s2 : FVec F S2048x64x1 .f32) (s3 : FVec F S2048x64x1 .f32) (s4 : FVec F S2048x64x1 .f32) (s5 : FVec F S2048x64x1 .f32) (s6 : FVec F S2048x64x1 .f32) (s7 : FVec F S2048x64x1 .f32) (s8 : FVec F S2048x64x1 .f32) (s9 : FVec F S2048x64x1 .f32) (p1 : FVec F S2048x64x1 .f32) (p2 : FVec F S2048x64x3 .f32) (p3 : FVec F S2048x64x7 .f32) (p4 : FVec F S2048x64x15 .f32) (p5 : FVec F S2048x64x31 .f32) (p6 : FVec F S2048x64x63 .f32) (p7 : FVec F S2048x64x127 .f32) (p8 : FVec F S2048x64x255 .f32) (p9 : FVec F S2048x64x511 .f32) : List ((s : Shape) × (s.Idx → F .f32)) :=
  [⟨S2048x64x510, concatenate S2048x64x510 2 (in16 s0 s1 s2 s3 s4 s5 s6 s7 s8 s9 p1 p2 p3 p4 p5 p6 p7 p8 p9) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2⟩,
   ⟨S2048x64x513, concatenate S2048x64x513 2 (in3 s0 s1 s2 s3 s4 s5 s6 s7 s8 s9 p1 p2 p3 p4 p5 p6 p7 p8 p9) concatenates_S2048x64x1_S2048x64x511_S2048x64x1_S2048x64x513_d2⟩]

set_option maxHeartbeats 4000000 in
/-- The laid-out ring buffer is the lane-by-lane one. -/
theorem newbuf_eq (cur : Fin 10 → FVec F S2048x64 .f32) (A1 : FVec F S2048x64x1023 .f32) :
    newbuf (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1) = Cert.NewBuf.newbuf cur A1 := by
  funext y
  obtain ⟨p, c, l, rfl⟩ : ∃ (p : Fin 2048) (c : Fin 64) (l : Fin 1023), y = ix3 p c l := ⟨y 0, y 1, y 2, eq_ix3 y⟩
  show concatenate S2048x64x1023 2 (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 (ix3 p c l) = _
  have hlt := l.isLt
  have hcases : l.val = 0 ∨ (1 ≤ l.val ∧ l.val ≤ 1) ∨ l.val = 2 ∨ (3 ≤ l.val ∧ l.val ≤ 5) ∨ l.val = 6 ∨ (7 ≤ l.val ∧ l.val ≤ 13) ∨ l.val = 14 ∨ (15 ≤ l.val ∧ l.val ≤ 29) ∨ l.val = 30 ∨ (31 ≤ l.val ∧ l.val ≤ 61) ∨ l.val = 62 ∨ (63 ≤ l.val ∧ l.val ≤ 125) ∨ l.val = 126 ∨ (127 ≤ l.val ∧ l.val ≤ 253) ∨ l.val = 254 ∨ (255 ≤ l.val ∧ l.val ≤ 509) ∨ l.val = 510 ∨ (511 ≤ l.val ∧ l.val ≤ 1021) ∨ l.val = 1022 := by omega
  rcases hcases with hl | ⟨hlo, hhi⟩ | hl | ⟨hlo, hhi⟩ | hl | ⟨hlo, hhi⟩ | hl | ⟨hlo, hhi⟩ | hl | ⟨hlo, hhi⟩ | hl | ⟨hlo, hhi⟩ | hl | ⟨hlo, hhi⟩ | hl | ⟨hlo, hhi⟩ | hl | ⟨hlo, hhi⟩ | hl
  · -- lane 0: the activation before layer 0
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 0 (by simp [in16, in3]) 1 _ rfl 0 (by rfl) (⟨l.val - 0 - 0, by omega⟩ : Fin 1) (by show 0 + (l.val - 0 - 0) = l.val - 0; omega)
    refine (e1.trans e2).trans ?_
    rw [snapR_apply, Cert.NewBuf.newbuf_hit _ _ _ _ _ (0 : Fin 10) (by rw [hl]; rfl)]
  · -- lanes 1 … 1: passed on by layer 1
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 1 (by simp [in16, in3]) 1 _ rfl 1 (by rfl) (⟨l.val - 0 - 1, by omega⟩ : Fin 1) (by show 1 + (l.val - 0 - 1) = l.val - 0; omega)
    refine (e1.trans e2).trans ?_
    rw [pieceR1_apply _ _ _ _ (⟨l.val + 1, by omega⟩ : Fin 1023) (by show l.val + 1 = 2 + (l.val - 0 - 1); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 2: the activation before layer 1
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 2 (by simp [in16, in3]) 1 _ rfl 2 (by rfl) (⟨l.val - 0 - 2, by omega⟩ : Fin 1) (by show 2 + (l.val - 0 - 2) = l.val - 0; omega)
    refine (e1.trans e2).trans ?_
    rw [snapR_apply, Cert.NewBuf.newbuf_hit _ _ _ _ _ (1 : Fin 10) (by rw [hl]; rfl)]
  · -- lanes 3 … 5: passed on by layer 2
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 3 (by simp [in16, in3]) 3 _ rfl 3 (by rfl) (⟨l.val - 0 - 3, by omega⟩ : Fin 3) (by show 3 + (l.val - 0 - 3) = l.val - 0; omega)
    refine (e1.trans e2).trans ?_
    rw [pieceR2_apply _ _ _ _ (⟨l.val + 1, by omega⟩ : Fin 1023) (by show l.val + 1 = 4 + (l.val - 0 - 3); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 6: the activation before layer 2
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 4 (by simp [in16, in3]) 1 _ rfl 6 (by rfl) (⟨l.val - 0 - 6, by omega⟩ : Fin 1) (by show 6 + (l.val - 0 - 6) = l.val - 0; omega)
    refine (e1.trans e2).trans ?_
    rw [snapR_apply, Cert.NewBuf.newbuf_hit _ _ _ _ _ (2 : Fin 10) (by rw [hl]; rfl)]
  · -- lanes 7 … 13: passed on by layer 3
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 5 (by simp [in16, in3]) 7 _ rfl 7 (by rfl) (⟨l.val - 0 - 7, by omega⟩ : Fin 7) (by show 7 + (l.val - 0 - 7) = l.val - 0; omega)
    refine (e1.trans e2).trans ?_
    rw [pieceR3_apply _ _ _ _ (⟨l.val + 1, by omega⟩ : Fin 1023) (by show l.val + 1 = 8 + (l.val - 0 - 7); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 14: the activation before layer 3
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 6 (by simp [in16, in3]) 1 _ rfl 14 (by rfl) (⟨l.val - 0 - 14, by omega⟩ : Fin 1) (by show 14 + (l.val - 0 - 14) = l.val - 0; omega)
    refine (e1.trans e2).trans ?_
    rw [snapR_apply, Cert.NewBuf.newbuf_hit _ _ _ _ _ (3 : Fin 10) (by rw [hl]; rfl)]
  · -- lanes 15 … 29: passed on by layer 4
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 7 (by simp [in16, in3]) 15 _ rfl 15 (by rfl) (⟨l.val - 0 - 15, by omega⟩ : Fin 15) (by show 15 + (l.val - 0 - 15) = l.val - 0; omega)
    refine (e1.trans e2).trans ?_
    rw [pieceR4_apply _ _ _ _ (⟨l.val + 1, by omega⟩ : Fin 1023) (by show l.val + 1 = 16 + (l.val - 0 - 15); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 30: the activation before layer 4
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 8 (by simp [in16, in3]) 1 _ rfl 30 (by rfl) (⟨l.val - 0 - 30, by omega⟩ : Fin 1) (by show 30 + (l.val - 0 - 30) = l.val - 0; omega)
    refine (e1.trans e2).trans ?_
    rw [snapR_apply, Cert.NewBuf.newbuf_hit _ _ _ _ _ (4 : Fin 10) (by rw [hl]; rfl)]
  · -- lanes 31 … 61: passed on by layer 5
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 9 (by simp [in16, in3]) 31 _ rfl 31 (by rfl) (⟨l.val - 0 - 31, by omega⟩ : Fin 31) (by show 31 + (l.val - 0 - 31) = l.val - 0; omega)
    refine (e1.trans e2).trans ?_
    rw [pieceR5_apply _ _ _ _ (⟨l.val + 1, by omega⟩ : Fin 1023) (by show l.val + 1 = 32 + (l.val - 0 - 31); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 62: the activation before layer 5
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 10 (by simp [in16, in3]) 1 _ rfl 62 (by rfl) (⟨l.val - 0 - 62, by omega⟩ : Fin 1) (by show 62 + (l.val - 0 - 62) = l.val - 0; omega)
    refine (e1.trans e2).trans ?_
    rw [snapR_apply, Cert.NewBuf.newbuf_hit _ _ _ _ _ (5 : Fin 10) (by rw [hl]; rfl)]
  · -- lanes 63 … 125: passed on by layer 6
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 11 (by simp [in16, in3]) 63 _ rfl 63 (by rfl) (⟨l.val - 0 - 63, by omega⟩ : Fin 63) (by show 63 + (l.val - 0 - 63) = l.val - 0; omega)
    refine (e1.trans e2).trans ?_
    rw [pieceR6_apply _ _ _ _ (⟨l.val + 1, by omega⟩ : Fin 1023) (by show l.val + 1 = 64 + (l.val - 0 - 63); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 126: the activation before layer 6
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 12 (by simp [in16, in3]) 1 _ rfl 126 (by rfl) (⟨l.val - 0 - 126, by omega⟩ : Fin 1) (by show 126 + (l.val - 0 - 126) = l.val - 0; omega)
    refine (e1.trans e2).trans ?_
    rw [snapR_apply, Cert.NewBuf.newbuf_hit _ _ _ _ _ (6 : Fin 10) (by rw [hl]; rfl)]
  · -- lanes 127 … 253: passed on by layer 7
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 13 (by simp [in16, in3]) 127 _ rfl 127 (by rfl) (⟨l.val - 0 - 127, by omega⟩ : Fin 127) (by show 127 + (l.val - 0 - 127) = l.val - 0; omega)
    refine (e1.trans e2).trans ?_
    rw [pieceR7_apply _ _ _ _ (⟨l.val + 1, by omega⟩ : Fin 1023) (by show l.val + 1 = 128 + (l.val - 0 - 127); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 254: the activation before layer 7
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 14 (by simp [in16, in3]) 1 _ rfl 254 (by rfl) (⟨l.val - 0 - 254, by omega⟩ : Fin 1) (by show 254 + (l.val - 0 - 254) = l.val - 0; omega)
    refine (e1.trans e2).trans ?_
    rw [snapR_apply, Cert.NewBuf.newbuf_hit _ _ _ _ _ (7 : Fin 10) (by rw [hl]; rfl)]
  · -- lanes 255 … 509: passed on by layer 8
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 0 (by simp [outerL]) 510 _ rfl 0 (by rfl) (⟨l.val - 0, by omega⟩ : Fin 510) (by show 0 + (l.val - 0) = l.val; omega)
    have e2 := cat3_apply (in16 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x1_S2048x64x1_S2048x64x3_S2048x64x1_S2048x64x7_S2048x64x1_S2048x64x15_S2048x64x1_S2048x64x31_S2048x64x1_S2048x64x63_S2048x64x1_S2048x64x127_S2048x64x1_S2048x64x255_S2048x64x510_d2 p c (⟨l.val - 0, by omega⟩ : Fin 510) 15 (by simp [in16, in3]) 255 _ rfl 255 (by rfl) (⟨l.val - 0 - 255, by omega⟩ : Fin 255) (by show 255 + (l.val - 0 - 255) = l.val - 0; omega)
    refine (e1.trans e2).trans ?_
    rw [pieceR8_apply _ _ _ _ (⟨l.val + 1, by omega⟩ : Fin 1023) (by show l.val + 1 = 256 + (l.val - 0 - 255); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 510: the activation before layer 8
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 1 (by simp [outerL]) 513 _ rfl 510 (by rfl) (⟨l.val - 510, by omega⟩ : Fin 513) (by show 510 + (l.val - 510) = l.val; omega)
    have e2 := cat3_apply (in3 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x511_S2048x64x1_S2048x64x513_d2 p c (⟨l.val - 510, by omega⟩ : Fin 513) 0 (by simp [in16, in3]) 1 _ rfl 0 (by rfl) (⟨l.val - 510 - 0, by omega⟩ : Fin 1) (by show 0 + (l.val - 510 - 0) = l.val - 510; omega)
    refine (e1.trans e2).trans ?_
    rw [snapR_apply, Cert.NewBuf.newbuf_hit _ _ _ _ _ (8 : Fin 10) (by rw [hl]; rfl)]
  · -- lanes 511 … 1021: passed on by layer 9
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 1 (by simp [outerL]) 513 _ rfl 510 (by rfl) (⟨l.val - 510, by omega⟩ : Fin 513) (by show 510 + (l.val - 510) = l.val; omega)
    have e2 := cat3_apply (in3 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x511_S2048x64x1_S2048x64x513_d2 p c (⟨l.val - 510, by omega⟩ : Fin 513) 1 (by simp [in16, in3]) 511 _ rfl 1 (by rfl) (⟨l.val - 510 - 1, by omega⟩ : Fin 511) (by show 1 + (l.val - 510 - 1) = l.val - 510; omega)
    refine (e1.trans e2).trans ?_
    rw [pieceR9_apply _ _ _ _ (⟨l.val + 1, by omega⟩ : Fin 1023) (by show l.val + 1 = 512 + (l.val - 510 - 1); omega),
      Cert.NewBuf.newbuf_miss _ _ _ _ _ (⟨l.val + 1, by omega⟩ : Fin 1023) (Cert.NewBuf.slot_none (by omega) (by omega) (by omega) (by omega) (by omega) (by omega) (by omega) (by omega) (by omega) (by omega)) rfl]
  · -- lane 1022: the activation before layer 9
    have e1 := cat3_apply (outerL (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x510_S2048x64x513_S2048x64x1023_d2 p c l 1 (by simp [outerL]) 513 _ rfl 510 (by rfl) (⟨l.val - 510, by omega⟩ : Fin 513) (by show 510 + (l.val - 510) = l.val; omega)
    have e2 := cat3_apply (in3 (snapR (cur 0)) (snapR (cur 1)) (snapR (cur 2)) (snapR (cur 3)) (snapR (cur 4)) (snapR (cur 5)) (snapR (cur 6)) (snapR (cur 7)) (snapR (cur 8)) (snapR (cur 9)) (pieceR1 A1) (pieceR2 A1) (pieceR3 A1) (pieceR4 A1) (pieceR5 A1) (pieceR6 A1) (pieceR7 A1) (pieceR8 A1) (pieceR9 A1)) concatenates_S2048x64x1_S2048x64x511_S2048x64x1_S2048x64x513_d2 p c (⟨l.val - 510, by omega⟩ : Fin 513) 2 (by simp [in16, in3]) 1 _ rfl 512 (by rfl) (⟨l.val - 510 - 512, by omega⟩ : Fin 1) (by show 512 + (l.val - 510 - 512) = l.val - 510; omega)
    refine (e1.trans e2).trans ?_
    rw [snapR_apply, Cert.NewBuf.newbuf_hit _ _ _ _ _ (9 : Fin 10) (by rw [hl]; rfl)]

end Cert.ReferenceIdeal.Hand

end
-- ==== Proof.RefRun.lean ====
/-
  The reference's run, read. Run in order from the launch contents, its lines leave, layer after layer, the activation
  and skip sum at the iterates of the layer step, each layer's incoming activation and passed-on lanes in the buffers the
  layout reads, and the argument buffers untouched. So the two results are the head of the tenth skip sum and the
  lane-by-lane new ring buffer of the argument arrays.
-/
import proofs.«172806_j69252052680869_2_alg».proof.Proof.RefRunA
import proofs.«172806_j69252052680869_2_alg».proof.Proof.RNewBuf

set_option maxRecDepth 16384
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The contents after each line -/

def X0 (V0 : Valuation τ sig (Elt F)) : Valuation τ sig (Elt F) := after winI V0
def X1 (V0 : Valuation τ sig (Elt F)) : Valuation τ sig (Elt F) := after win0 (X0 V0)
def X2 (V0 : Valuation τ sig (Elt F)) : Valuation τ sig (Elt F) := after win1 (X1 V0)
def X3 (V0 : Valuation τ sig (Elt F)) : Valuation τ sig (Elt F) := after win2 (X2 V0)
def X4 (V0 : Valuation τ sig (Elt F)) : Valuation τ sig (Elt F) := after win3 (X3 V0)
def X5 (V0 : Valuation τ sig (Elt F)) : Valuation τ sig (Elt F) := after win4 (X4 V0)
def X6 (V0 : Valuation τ sig (Elt F)) : Valuation τ sig (Elt F) := after win5 (X5 V0)
def X7 (V0 : Valuation τ sig (Elt F)) : Valuation τ sig (Elt F) := after win6 (X6 V0)
def X8 (V0 : Valuation τ sig (Elt F)) : Valuation τ sig (Elt F) := after win7 (X7 V0)
def X9 (V0 : Valuation τ sig (Elt F)) : Valuation τ sig (Elt F) := after win8 (X8 V0)
def X10 (V0 : Valuation τ sig (Elt F)) : Valuation τ sig (Elt F) := after win9 (X9 V0)
def XC (V0 : Valuation τ sig (Elt F)) : Valuation τ sig (Elt F) := after winC (X10 V0)
def XH (V0 : Valuation τ sig (Elt F)) : Valuation τ sig (Elt F) := after winH (XC V0)

theorem after_ops (V0 : Valuation τ sig (Elt F)) : after ops V0 = XH V0 := by
  unfold ops
  simp only [after_append]
  rfl

/-- The iterates of the layer step over the launch contents of the argument buffers. -/
def rst (V0 : Valuation τ sig (Elt F)) (n : Nat) : FVec F S2048x64 .f32 × FVec F S2048x96 .f32 :=
  Hand.state (rWV V0) (Hand.cur0 (V0 (Proc.devRef .tc main_arg0)) (V0 (Proc.devRef .tc main_arg2)) (V0 (Proc.devRef .tc main_arg3))) n

theorem args0 (V0 : Valuation τ sig (Elt F)) : ArgsEq (X0 V0) V0 := (ArgsEq.refl V0).after winI wrI winI_writes (by decide)
theorem args1 (V0 : Valuation τ sig (Elt F)) : ArgsEq (X1 V0) V0 := (args0 V0).after win0 wr0 win0_writes (by decide)
theorem args2 (V0 : Valuation τ sig (Elt F)) : ArgsEq (X2 V0) V0 := (args1 V0).after win1 wr1 win1_writes (by decide)
theorem args3 (V0 : Valuation τ sig (Elt F)) : ArgsEq (X3 V0) V0 := (args2 V0).after win2 wr2 win2_writes (by decide)
theorem args4 (V0 : Valuation τ sig (Elt F)) : ArgsEq (X4 V0) V0 := (args3 V0).after win3 wr3 win3_writes (by decide)
theorem args5 (V0 : Valuation τ sig (Elt F)) : ArgsEq (X5 V0) V0 := (args4 V0).after win4 wr4 win4_writes (by decide)
theorem args6 (V0 : Valuation τ sig (Elt F)) : ArgsEq (X6 V0) V0 := (args5 V0).after win5 wr5 win5_writes (by decide)
theorem args7 (V0 : Valuation τ sig (Elt F)) : ArgsEq (X7 V0) V0 := (args6 V0).after win6 wr6 win6_writes (by decide)
theorem args8 (V0 : Valuation τ sig (Elt F)) : ArgsEq (X8 V0) V0 := (args7 V0).after win7 wr7 win7_writes (by decide)
theorem args9 (V0 : Valuation τ sig (Elt F)) : ArgsEq (X9 V0) V0 := (args8 V0).after win8 wr8 win8_writes (by decide)
theorem args10 (V0 : Valuation τ sig (Elt F)) : ArgsEq (X10 V0) V0 := (args9 V0).after win9 wr9 win9_writes (by decide)
theorem argsC (V0 : Valuation τ sig (Elt F)) : ArgsEq (XC V0) V0 := (args10 V0).after winC wrC winC_writes (by decide)

theorem cur_0 (V0 : Valuation τ sig (Elt F)) : X0 V0 (Proc.devRef .tc main_v4) = (rst V0 0).1 := winI_cur V0
theorem skip_0 (V0 : Valuation τ sig (Elt F)) : X0 V0 (Proc.devRef .tc main_v5) = (rst V0 0).2 := winI_skip V0
theorem cur_1 (V0 : Valuation τ sig (Elt F)) : X1 V0 (Proc.devRef .tc main_v66) = (rst V0 1).1 := by
  show after win0 (X0 V0) (Proc.devRef .tc main_v66) = Hand.curNext (rWV V0 0) (rst V0 0).1
  rw [win0_cur, rWV_congr (args0 V0), cur_0]
theorem skip_1 (V0 : Valuation τ sig (Elt F)) : X1 V0 (Proc.devRef .tc main_v53) = (rst V0 1).2 := by
  show after win0 (X0 V0) (Proc.devRef .tc main_v53) = Hand.skipNext (rWV V0 0) (rst V0 0).1 (rst V0 0).2
  rw [win0_skip, rWV_congr (args0 V0), cur_0, skip_0]
theorem cur_2 (V0 : Valuation τ sig (Elt F)) : X2 V0 (Proc.devRef .tc main_v128) = (rst V0 2).1 := by
  show after win1 (X1 V0) (Proc.devRef .tc main_v128) = Hand.curNext (rWV V0 1) (rst V0 1).1
  rw [win1_cur, rWV_congr (args1 V0), cur_1]
theorem skip_2 (V0 : Valuation τ sig (Elt F)) : X2 V0 (Proc.devRef .tc main_v114) = (rst V0 2).2 := by
  show after win1 (X1 V0) (Proc.devRef .tc main_v114) = Hand.skipNext (rWV V0 1) (rst V0 1).1 (rst V0 1).2
  rw [win1_skip, rWV_congr (args1 V0), cur_1, skip_1]
theorem cur_3 (V0 : Valuation τ sig (Elt F)) : X3 V0 (Proc.devRef .tc main_v190) = (rst V0 3).1 := by
  show after win2 (X2 V0) (Proc.devRef .tc main_v190) = Hand.curNext (rWV V0 2) (rst V0 2).1
  rw [win2_cur, rWV_congr (args2 V0), cur_2]
theorem skip_3 (V0 : Valuation τ sig (Elt F)) : X3 V0 (Proc.devRef .tc main_v176) = (rst V0 3).2 := by
  show after win2 (X2 V0) (Proc.devRef .tc main_v176) = Hand.skipNext (rWV V0 2) (rst V0 2).1 (rst V0 2).2
  rw [win2_skip, rWV_congr (args2 V0), cur_2, skip_2]
theorem cur_4 (V0 : Valuation τ sig (Elt F)) : X4 V0 (Proc.devRef .tc main_v252) = (rst V0 4).1 := by
  show after win3 (X3 V0) (Proc.devRef .tc main_v252) = Hand.curNext (rWV V0 3) (rst V0 3).1
  rw [win3_cur, rWV_congr (args3 V0), cur_3]
theorem skip_4 (V0 : Valuation τ sig (Elt F)) : X4 V0 (Proc.devRef .tc main_v238) = (rst V0 4).2 := by
  show after win3 (X3 V0) (Proc.devRef .tc main_v238) = Hand.skipNext (rWV V0 3) (rst V0 3).1 (rst V0 3).2
  rw [win3_skip, rWV_congr (args3 V0), cur_3, skip_3]
theorem cur_5 (V0 : Valuation τ sig (Elt F)) : X5 V0 (Proc.devRef .tc main_v314) = (rst V0 5).1 := by
  show after win4 (X4 V0) (Proc.devRef .tc main_v314) = Hand.curNext (rWV V0 4) (rst V0 4).1
  rw [win4_cur, rWV_congr (args4 V0), cur_4]
theorem skip_5 (V0 : Valuation τ sig (Elt F)) : X5 V0 (Proc.devRef .tc main_v300) = (rst V0 5).2 := by
  show after win4 (X4 V0) (Proc.devRef .tc main_v300) = Hand.skipNext (rWV V0 4) (rst V0 4).1 (rst V0 4).2
  rw [win4_skip, rWV_congr (args4 V0), cur_4, skip_4]
theorem cur_6 (V0 : Valuation τ sig (Elt F)) : X6 V0 (Proc.devRef .tc main_v376) = (rst V0 6).1 := by
  show after win5 (X5 V0) (Proc.devRef .tc main_v376) = Hand.curNext (rWV V0 5) (rst V0 5).1
  rw [win5_cur, rWV_congr (args5 V0), cur_5]
theorem skip_6 (V0 : Valuation τ sig (Elt F)) : X6 V0 (Proc.devRef .tc main_v362) = (rst V0 6).2 := by
  show after win5 (X5 V0) (Proc.devRef .tc main_v362) = Hand.skipNext (rWV V0 5) (rst V0 5).1 (rst V0 5).2
  rw [win5_skip, rWV_congr (args5 V0), cur_5, skip_5]
theorem cur_7 (V0 : Valuation τ sig (Elt F)) : X7 V0 (Proc.devRef .tc main_v438) = (rst V0 7).1 := by
  show after win6 (X6 V0) (Proc.devRef .tc main_v438) = Hand.curNext (rWV V0 6) (rst V0 6).1
  rw [win6_cur, rWV_congr (args6 V0), cur_6]
theorem skip_7 (V0 : Valuation τ sig (Elt F)) : X7 V0 (Proc.devRef .tc main_v424) = (rst V0 7).2 := by
  show after win6 (X6 V0) (Proc.devRef .tc main_v424) = Hand.skipNext (rWV V0 6) (rst V0 6).1 (rst V0 6).2
  rw [win6_skip, rWV_congr (args6 V0), cur_6, skip_6]
theorem cur_8 (V0 : Valuation τ sig (Elt F)) : X8 V0 (Proc.devRef .tc main_v500) = (rst V0 8).1 := by
  show after win7 (X7 V0) (Proc.devRef .tc main_v500) = Hand.curNext (rWV V0 7) (rst V0 7).1
  rw [win7_cur, rWV_congr (args7 V0), cur_7]
theorem skip_8 (V0 : Valuation τ sig (Elt F)) : X8 V0 (Proc.devRef .tc main_v486) = (rst V0 8).2 := by
  show after win7 (X7 V0) (Proc.devRef .tc main_v486) = Hand.skipNext (rWV V0 7) (rst V0 7).1 (rst V0 7).2
  rw [win7_skip, rWV_congr (args7 V0), cur_7, skip_7]
theorem cur_9 (V0 : Valuation τ sig (Elt F)) : X9 V0 (Proc.devRef .tc main_v562) = (rst V0 9).1 := by
  show after win8 (X8 V0) (Proc.devRef .tc main_v562) = Hand.curNext (rWV V0 8) (rst V0 8).1
  rw [win8_cur, rWV_congr (args8 V0), cur_8]
theorem skip_9 (V0 : Valuation τ sig (Elt F)) : X9 V0 (Proc.devRef .tc main_v548) = (rst V0 9).2 := by
  show after win8 (X8 V0) (Proc.devRef .tc main_v548) = Hand.skipNext (rWV V0 8) (rst V0 8).1 (rst V0 8).2
  rw [win8_skip, rWV_congr (args8 V0), cur_8, skip_8]
theorem cur_10 (V0 : Valuation τ sig (Elt F)) : X10 V0 (Proc.devRef .tc main_v624) = (rst V0 10).1 := by
  show after win9 (X9 V0) (Proc.devRef .tc main_v624) = Hand.curNext (rWV V0 9) (rst V0 9).1
  rw [win9_cur, rWV_congr (args9 V0), cur_9]
theorem skip_10 (V0 : Valuation τ sig (Elt F)) : X10 V0 (Proc.devRef .tc main_v610) = (rst V0 10).2 := by
  show after win9 (X9 V0) (Proc.devRef .tc main_v610) = Hand.skipNext (rWV V0 9) (rst V0 9).1 (rst V0 9).2
  rw [win9_skip, rWV_congr (args9 V0), cur_9, skip_9]

theorem snap_0 (V0 : Valuation τ sig (Elt F)) : X10 V0 (Proc.devRef .tc main_v63) = Hand.snapR (rst V0 0).1 := by
  unfold X10 X9 X8 X7 X6 X5 X4 X3 X2
  rw [win9_keep _ _ (by decide), win8_keep _ _ (by decide), win7_keep _ _ (by decide), win6_keep _ _ (by decide), win5_keep _ _ (by decide), win4_keep _ _ (by decide), win3_keep _ _ (by decide), win2_keep _ _ (by decide), win1_keep _ _ (by decide)]
  show after win0 (X0 V0) _ = _
  rw [win0_snap, cur_0]
  rfl
theorem snap_1 (V0 : Valuation τ sig (Elt F)) : X10 V0 (Proc.devRef .tc main_v125) = Hand.snapR (rst V0 1).1 := by
  unfold X10 X9 X8 X7 X6 X5 X4 X3
  rw [win9_keep _ _ (by decide), win8_keep _ _ (by decide), win7_keep _ _ (by decide), win6_keep _ _ (by decide), win5_keep _ _ (by decide), win4_keep _ _ (by decide), win3_keep _ _ (by decide), win2_keep _ _ (by decide)]
  show after win1 (X1 V0) _ = _
  rw [win1_snap, cur_1]
  rfl
theorem piece_1 (V0 : Valuation τ sig (Elt F)) : X10 V0 (Proc.devRef .tc main_v124) = Hand.pieceR1 (V0 (Proc.devRef .tc main_arg1)) := by
  unfold X10 X9 X8 X7 X6 X5 X4 X3
  rw [win9_keep _ _ (by decide), win8_keep _ _ (by decide), win7_keep _ _ (by decide), win6_keep _ _ (by decide), win5_keep _ _ (by decide), win4_keep _ _ (by decide), win3_keep _ _ (by decide), win2_keep _ _ (by decide)]
  show after win1 (X1 V0) _ = _
  rw [win1_piece, args1 V0 main_arg1 (by decide)]
  rfl
theorem snap_2 (V0 : Valuation τ sig (Elt F)) : X10 V0 (Proc.devRef .tc main_v187) = Hand.snapR (rst V0 2).1 := by
  unfold X10 X9 X8 X7 X6 X5 X4
  rw [win9_keep _ _ (by decide), win8_keep _ _ (by decide), win7_keep _ _ (by decide), win6_keep _ _ (by decide), win5_keep _ _ (by decide), win4_keep _ _ (by decide), win3_keep _ _ (by decide)]
  show after win2 (X2 V0) _ = _
  rw [win2_snap, cur_2]
  rfl
theorem piece_2 (V0 : Valuation τ sig (Elt F)) : X10 V0 (Proc.devRef .tc main_v186) = Hand.pieceR2 (V0 (Proc.devRef .tc main_arg1)) := by
  unfold X10 X9 X8 X7 X6 X5 X4
  rw [win9_keep _ _ (by decide), win8_keep _ _ (by decide), win7_keep _ _ (by decide), win6_keep _ _ (by decide), win5_keep _ _ (by decide), win4_keep _ _ (by decide), win3_keep _ _ (by decide)]
  show after win2 (X2 V0) _ = _
  rw [win2_piece, args2 V0 main_arg1 (by decide)]
  rfl
theorem snap_3 (V0 : Valuation τ sig (Elt F)) : X10 V0 (Proc.devRef .tc main_v249) = Hand.snapR (rst V0 3).1 := by
  unfold X10 X9 X8 X7 X6 X5
  rw [win9_keep _ _ (by decide), win8_keep _ _ (by decide), win7_keep _ _ (by decide), win6_keep _ _ (by decide), win5_keep _ _ (by decide), win4_keep _ _ (by decide)]
  show after win3 (X3 V0) _ = _
  rw [win3_snap, cur_3]
  rfl
theorem piece_3 (V0 : Valuation τ sig (Elt F)) : X10 V0 (Proc.devRef .tc main_v248) = Hand.pieceR3 (V0 (Proc.devRef .tc main_arg1)) := by
  unfold X10 X9 X8 X7 X6 X5
  rw [win9_keep _ _ (by decide), win8_keep _ _ (by decide), win7_keep _ _ (by decide), win6_keep _ _ (by decide), win5_keep _ _ (by decide), win4_keep _ _ (by decide)]
  show after win3 (X3 V0) _ = _
  rw [win3_piece, args3 V0 main_arg1 (by decide)]
  rfl
theorem snap_4 (V0 : Valuation τ sig (Elt F)) : X10 V0 (Proc.devRef .tc main_v311) = Hand.snapR (rst V0 4).1 := by
  unfold X10 X9 X8 X7 X6
  rw [win9_keep _ _ (by decide), win8_keep _ _ (by decide), win7_keep _ _ (by decide), win6_keep _ _ (by decide), win5_keep _ _ (by decide)]
  show after win4 (X4 V0) _ = _
  rw [win4_snap, cur_4]
  rfl
theorem piece_4 (V0 : Valuation τ sig (Elt F)) : X10 V0 (Proc.devRef .tc main_v310) = Hand.pieceR4 (V0 (Proc.devRef .tc main_arg1)) := by
  unfold X10 X9 X8 X7 X6
  rw [win9_keep _ _ (by decide), win8_keep _ _ (by decide), win7_keep _ _ (by decide), win6_keep _ _ (by decide), win5_keep _ _ (by decide)]
  show after win4 (X4 V0) _ = _
  rw [win4_piece, args4 V0 main_arg1 (by decide)]
  rfl
theorem snap_5 (V0 : Valuation τ sig (Elt F)) : X10 V0 (Proc.devRef .tc main_v373) = Hand.snapR (rst V0 5).1 := by
  unfold X10 X9 X8 X7
  rw [win9_keep _ _ (by decide), win8_keep _ _ (by decide), win7_keep _ _ (by decide), win6_keep _ _ (by decide)]
  show after win5 (X5 V0) _ = _
  rw [win5_snap, cur_5]
  rfl
theorem piece_5 (V0 : Valuation τ sig (Elt F)) : X10 V0 (Proc.devRef .tc main_v372) = Hand.pieceR5 (V0 (Proc.devRef .tc main_arg1)) := by
  unfold X10 X9 X8 X7
  rw [win9_keep _ _ (by decide), win8_keep _ _ (by decide), win7_keep _ _ (by decide), win6_keep _ _ (by decide)]
  show after win5 (X5 V0) _ = _
  rw [win5_piece, args5 V0 main_arg1 (by decide)]
  rfl
theorem snap_6 (V0 : Valuation τ sig (Elt F)) : X10 V0 (Proc.devRef .tc main_v435) = Hand.snapR (rst V0 6).1 := by
  unfold X10 X9 X8
  rw [win9_keep _ _ (by decide), win8_keep _ _ (by decide), win7_keep _ _ (by decide)]
  show after win6 (X6 V0) _ = _
  rw [win6_snap, cur_6]
  rfl
theorem piece_6 (V0 : Valuation τ sig (Elt F)) : X10 V0 (Proc.devRef .tc main_v434) = Hand.pieceR6 (V0 (Proc.devRef .tc main_arg1)) := by
  unfold X10 X9 X8
  rw [win9_keep _ _ (by decide), win8_keep _ _ (by decide), win7_keep _ _ (by decide)]
  show after win6 (X6 V0) _ = _
  rw [win6_piece, args6 V0 main_arg1 (by decide)]
  rfl
theorem snap_7 (V0 : Valuation τ sig (Elt F)) : X10 V0 (Proc.devRef .tc main_v497) = Hand.snapR (rst V0 7).1 := by
  unfold X10 X9
  rw [win9_keep _ _ (by decide), win8_keep _ _ (by decide)]
  show after win7 (X7 V0) _ = _
  rw [win7_snap, cur_7]
  rfl
theorem piece_7 (V0 : Valuation τ sig (Elt F)) : X10 V0 (Proc.devRef .tc main_v496) = Hand.pieceR7 (V0 (Proc.devRef .tc main_arg1)) := by
  unfold X10 X9
  rw [win9_keep _ _ (by decide), win8_keep _ _ (by decide)]
  show after win7 (X7 V0) _ = _
  rw [win7_piece, args7 V0 main_arg1 (by decide)]
  rfl
theorem snap_8 (V0 : Valuation τ sig (Elt F)) : X10 V0 (Proc.devRef .tc main_v559) = Hand.snapR (rst V0 8).1 := by
  unfold X10
  rw [win9_keep _ _ (by decide)]
  show after win8 (X8 V0) _ = _
  rw [win8_snap, cur_8]
  rfl
theorem piece_8 (V0 : Valuation τ sig (Elt F)) : X10 V0 (Proc.devRef .tc main_v558) = Hand.pieceR8 (V0 (Proc.devRef .tc main_arg1)) := by
  unfold X10
  rw [win9_keep _ _ (by decide)]
  show after win8 (X8 V0) _ = _
  rw [win8_piece, args8 V0 main_arg1 (by decide)]
  rfl
theorem snap_9 (V0 : Valuation τ sig (Elt F)) : X10 V0 (Proc.devRef .tc main_v621) = Hand.snapR (rst V0 9).1 := by
  show after win9 (X9 V0) _ = _
  rw [win9_snap, cur_9]
  rfl
theorem piece_9 (V0 : Valuation τ sig (Elt F)) : X10 V0 (Proc.devRef .tc main_v620) = Hand.pieceR9 (V0 (Proc.devRef .tc main_arg1)) := by
  show after win9 (X9 V0) _ = _
  rw [win9_piece, args9 V0 main_arg1 (by decide)]
  rfl

/-- The first result: the head of the skip sum after ten layers. -/
theorem out_eq (V0 : Valuation τ sig (Elt F)) :
    after ops V0 (Proc.devRef .tc main_v639)
      = Hand.rout (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) := by
  rw [after_ops]
  show after winH (XC V0) _ = _
  rw [winH_out, argsC V0 main_arg14 (by decide), argsC V0 main_arg15 (by decide), argsC V0 main_arg16 (by decide),
    argsC V0 main_arg17 (by decide)]
  show Hand.head (after winC (X10 V0) (Proc.devRef .tc main_v610)) _ _ _ _ = _
  rw [winC_keep _ _ (by decide), skip_10]
  rfl

/-- The second result: the lane-by-lane new ring buffer. -/
theorem newbuf_eq (V0 : Valuation τ sig (Elt F)) :
    after ops V0 (Proc.devRef .tc main_v627)
      = Cert.NewBuf.newbuf (fun n : Fin 10 => (rst V0 n.val).1) (V0 (Proc.devRef .tc main_arg1)) := by
  rw [after_ops]
  show after winH (after winC (X10 V0)) _ = _
  rw [winH_keep _ _ (by decide), winC_newbuf, snap_0, snap_1, snap_2, snap_3, snap_4, snap_5, snap_6, snap_7, snap_8, snap_9, piece_1, piece_2, piece_3, piece_4, piece_5, piece_6, piece_7, piece_8, piece_9]
  exact Hand.newbuf_eq (fun n : Fin 10 => (rst V0 n.val).1) _

/-- An argument buffer ends as it was launched. -/
theorem arg_kept (V0 : Valuation τ sig (Elt F)) (a : Ref sig .tc) (ha : a ∈ argRefs) :
    after ops V0 (Proc.devRef .tc a) = V0 (Proc.devRef .tc a) := by
  rw [after_ops]
  show after winH (XC V0) _ = _
  have hd : ∀ a ∈ argRefs, a ∉ wrH := by decide
  rw [winH_keep _ _ (hd a ha)]
  exact argsC V0 a ha

/-- The run: every weakly fair execution of the reference terminates with each buffer at the fold of its operations
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.RefRun

end
-- ==== Proof.lean ====
/-
  One step of a WaveNet-style network over a batch of 2048 rows: an input projection, ten gated layers (each reading a
  delayed activation from a packed ring buffer, adding to a skip sum and updating the activation by a residual of scale
  0.3), a two-layer head on the skip sum, and the ring buffer advanced by one step. The kernel processes the batch in 64
  blocks of 32 rows, keeping each block's ring buffer resident; the reference computes on the whole batch.

  Why the two agree over the extended reals: every operation acts on each batch row by itself, so a layer's step on a row
  block is the row block of the step on the batch (Commute: the matrix products are the same sums of the same products in
  the same order; the kernel's one-operation sigmoid is `1 / (1 + exp (-g))`, at the infinities too); by induction over the
  ten layers the block's activations and skip sums are the row blocks of the batch's, and so is the head's output. The new
  ring buffer is, lane by lane, either the activation before one of the layers or the next lane of the old ring buffer, on
  both sides (the kernel by a shifted copy and ten single-lane stores, the reference by laying nineteen pieces end to
  end). No finiteness of the inputs is used. The 64 row blocks tile both result arrays.
-/
import proofs.«172806_j69252052680869_2_alg».proof.Defs
import proofs.«172806_j69252052680869_2_alg».proof.Proof.Gen.Kernel
import proofs.«172806_j69252052680869_2_alg».proof.Proof.Gen.Kernel.Skeleton
import proofs.«172806_j69252052680869_2_alg».proof.Proof.Gen.Kernel.Launch
import proofs.«172806_j69252052680869_2_alg».proof.Proof.Gen.Kernel.Points
import proofs.«172806_j69252052680869_2_alg».proof.Proof.Gen.Kernel.Frame
import proofs.«172806_j69252052680869_2_alg».proof.Proof.Gen.KernelIdeal
import proofs.«172806_j69252052680869_2_alg».proof.Proof.Gen.KernelIdeal.Skeleton
import proofs.«172806_j69252052680869_2_alg».proof.Proof.Gen.KernelIdeal.Launch
import proofs.«172806_j69252052680869_2_alg».proof.Proof.Gen.KernelIdeal.Points
import proofs.«172806_j69252052680869_2_alg».proof.Proof.Gen.KernelIdeal.Frame
import proofs.«172806_j69252052680869_2_alg».proof.Proof.Gen.ReferenceIdeal
import proofs.«172806_j69252052680869_2_alg».proof.Proof.Gen.Pre_finite_inputs
import proofs.«172806_j69252052680869_2_alg».proof.Proof.Gen.KernelIdeal.Value
import proofs.«172806_j69252052680869_2_alg».proof.Proof.KFinal
import proofs.«172806_j69252052680869_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations, none of which writes an argument buffer. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg_kept _ _ (by decide)),
     (h c Cert.ReferenceIdeal.main_arg1).trans (Cert.ReferenceIdeal.RefRun.arg_kept _ _ (by decide)),
     (h c Cert.ReferenceIdeal.main_arg2).trans (Cert.ReferenceIdeal.RefRun.arg_kept _ _ (by decide)),
     (h c Cert.ReferenceIdeal.main_arg3).trans (Cert.ReferenceIdeal.RefRun.arg_kept _ _ (by decide)),
     (h c Cert.ReferenceIdeal.main_arg4).trans (Cert.ReferenceIdeal.RefRun.arg_kept _ _ (by decide)),
     (h c Cert.ReferenceIdeal.main_arg5).trans (Cert.ReferenceIdeal.RefRun.arg_kept _ _ (by decide)),
     (h c Cert.ReferenceIdeal.main_arg6).trans (Cert.ReferenceIdeal.RefRun.arg_kept _ _ (by decide)),
     (h c Cert.ReferenceIdeal.main_arg7).trans (Cert.ReferenceIdeal.RefRun.arg_kept _ _ (by decide)),
     (h c Cert.ReferenceIdeal.main_arg8).trans (Cert.ReferenceIdeal.RefRun.arg_kept _ _ (by decide)),
     (h c Cert.ReferenceIdeal.main_arg9).trans (Cert.ReferenceIdeal.RefRun.arg_kept _ _ (by decide)),
     (h c Cert.ReferenceIdeal.main_arg10).trans (Cert.ReferenceIdeal.RefRun.arg_kept _ _ (by decide)),
     (h c Cert.ReferenceIdeal.main_arg11).trans (Cert.ReferenceIdeal.RefRun.arg_kept _ _ (by decide)),
     (h c Cert.ReferenceIdeal.main_arg12).trans (Cert.ReferenceIdeal.RefRun.arg_kept _ _ (by decide)),
     (h c Cert.ReferenceIdeal.main_arg13).trans (Cert.ReferenceIdeal.RefRun.arg_kept _ _ (by decide)),
     (h c Cert.ReferenceIdeal.main_arg14).trans (Cert.ReferenceIdeal.RefRun.arg_kept _ _ (by decide)),
     (h c Cert.ReferenceIdeal.main_arg15).trans (Cert.ReferenceIdeal.RefRun.arg_kept _ _ (by decide)),
     (h c Cert.ReferenceIdeal.main_arg16).trans (Cert.ReferenceIdeal.RefRun.arg_kept _ _ (by decide)),
     (h c Cert.ReferenceIdeal.main_arg17).trans (Cert.ReferenceIdeal.RefRun.arg_kept _ _ (by decide))⟩)
    (Cert.ReferenceIdeal.RefRun.run (F := Ideal) m ρ)

/-- The ideal pass rewrote nothing. -/
theorem preserves : Cert.preserves_Kernel_KernelIdeal := trivial

/-- Both idealized programs end with the head's output and the lane-by-lane new ring buffer of the same argument arrays. -/
theorem algebraic : Cert.algebraic_KernelIdeal_ReferenceIdeal := by
  intro m ρ m' ρ' _ hagree
  refine ⟨_, _, Cert.KernelIdeal.HandValue.run m ρ, ?_⟩
  refine (θ_run Cert.ReferenceIdeal.defs _ _).mono (fun r h c => ?_) (Cert.ReferenceIdeal.RefRun.run (F := Ideal) m' ρ')
  have ha := hagree c
  refine ⟨(h c Cert.ReferenceIdeal.main_v639).trans ?_, (h c Cert.ReferenceIdeal.main_v627).trans ?_,
    (h c Cert.ReferenceIdeal.main_arg0).trans (Cert.ReferenceIdeal.RefRun.arg_kept _ _ (by decide)),
    (h c Cert.ReferenceIdeal.main_arg1).trans (Cert.ReferenceIdeal.RefRun.arg_kept _ _ (by decide)),
    (h c Cert.ReferenceIdeal.main_arg2).trans (Cert.ReferenceIdeal.RefRun.arg_kept _ _ (by decide)),
    (h c Cert.ReferenceIdeal.main_arg3).trans (Cert.ReferenceIdeal.RefRun.arg_kept _ _ (by decide)),
    (h c Cert.ReferenceIdeal.main_arg4).trans (Cert.ReferenceIdeal.RefRun.arg_kept _ _ (by decide)),
    (h c Cert.ReferenceIdeal.main_arg5).trans (Cert.ReferenceIdeal.RefRun.arg_kept _ _ (by decide)),
    (h c Cert.ReferenceIdeal.main_arg6).trans (Cert.ReferenceIdeal.RefRun.arg_kept _ _ (by decide)),
    (h c Cert.ReferenceIdeal.main_arg7).trans (Cert.ReferenceIdeal.RefRun.arg_kept _ _ (by decide)),
    (h c Cert.ReferenceIdeal.main_arg8).trans (Cert.ReferenceIdeal.RefRun.arg_kept _ _ (by decide)),
    (h c Cert.ReferenceIdeal.main_arg9).trans (Cert.ReferenceIdeal.RefRun.arg_kept _ _ (by decide)),
    (h c Cert.ReferenceIdeal.main_arg10).trans (Cert.ReferenceIdeal.RefRun.arg_kept _ _ (by decide)),
    (h c Cert.ReferenceIdeal.main_arg11).trans (Cert.ReferenceIdeal.RefRun.arg_kept _ _ (by decide)),
    (h c Cert.ReferenceIdeal.main_arg12).trans (Cert.ReferenceIdeal.RefRun.arg_kept _ _ (by decide)),
    (h c Cert.ReferenceIdeal.main_arg13).trans (Cert.ReferenceIdeal.RefRun.arg_kept _ _ (by decide)),
    (h c Cert.ReferenceIdeal.main_arg14).trans (Cert.ReferenceIdeal.RefRun.arg_kept _ _ (by decide)),
    (h c Cert.ReferenceIdeal.main_arg15).trans (Cert.ReferenceIdeal.RefRun.arg_kept _ _ (by decide)),
    (h c Cert.ReferenceIdeal.main_arg16).trans (Cert.ReferenceIdeal.RefRun.arg_kept _ _ (by decide)),
    (h c Cert.ReferenceIdeal.main_arg17).trans (Cert.ReferenceIdeal.RefRun.arg_kept _ _ (by decide))⟩
  · rw [Cert.ReferenceIdeal.RefRun.out_eq]
    show Cert.ReferenceIdeal.Hand.rout (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = Cert.KernelIdeal.HandValue.Rout m c
    rw [ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2.1, ha.2.2.2.2.2.2.2.2.2.2.2.2.2.2.2.1, ha.2.2.2.2.2.2.2.2.2.2.2.2.2.2.2.2.1, ha.2.2.2.2.2.2.2.2.2.2.2.2.2.2.2.2.2]
    rfl
  · rw [Cert.ReferenceIdeal.RefRun.newbuf_eq]
    show Cert.NewBuf.newbuf (fun n : Fin 10 => (Cert.ReferenceIdeal.Hand.rstate (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) n.val).1) (m' ((c.tc : Thread Cert.ReferenceIdeal.nD Cert.ReferenceIdeal.τ).loc Cert.ReferenceIdeal.main_arg1))
      = Cert.KernelIdeal.HandValue.Rnew m c
    rw [ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2.1, ha.2.2.2.2.2.2.2.2.2.2.2.2.2.2.2.1, ha.2.2.2.2.2.2.2.2.2.2.2.2.2.2.2.2.1, ha.2.2.2.2.2.2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
